-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x56x56 : Shape := ⟨4, ![128, 64, 56, 56]⟩
abbrev S64 : Shape := ⟨1, ![64]⟩
abbrev S_ : Shape := ⟨0, ![]⟩

class Facts : Prop where
  bcast_S_S128x64x56x56 : S_.BroadcastsInDim S128x64x56x56 (![] : Fin 0 → Fin S128x64x56x56.rank)
  reducesTo_S128x64x56x56_S_d0_1_2_3 : S128x64x56x56.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S128x64x56x56 .f32) (main_arg1 : FVec F S64 .f32) : IVec S_ 1 :=
  let main_v0 : FVec F S128x64x56x56 .f32 := Host.absf main_arg0
  let main_cst : FVec F S_ .f32 := constant S_ .f32 0x7F800000#32
  let main_v1 : FVec F S128x64x56x56 .f32 := broadcastInDim S128x64x56x56 ![] bcast_S_S128x64x56x56 main_cst
  let main_v2 : IVec S128x64x56x56 1 := cmpf .olt main_v0 main_v1
  let main_c : IVec S_ 1 := constantI S_ 1 1#1
  let main_v3 : IVec S_ 1 := (fun x v => Host.reduce IntOp.andi x v reducesTo_S128x64x56x56_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S128x64x56x56 : Shape := ⟨4, ![128, 64, 56, 56]⟩
abbrev S64 : Shape := ⟨1, ![64]⟩
abbrev S128x64x3136 : Shape := ⟨3, ![128, 64, 3136]⟩
abbrev S64x1 : Shape := ⟨2, ![64, 1]⟩
abbrev S64x64 : Shape := ⟨2, ![64, 64]⟩
abbrev S8x64x3136 : Shape := ⟨3, ![8, 64, 3136]⟩
abbrev S1x64x3136 : Shape := ⟨3, ![1, 64, 3136]⟩
abbrev S64x3136 : Shape := ⟨2, ![64, 3136]⟩
abbrev S_ : Shape := ⟨0, ![]⟩
abbrev S1x64 : Shape := ⟨2, ![1, 64]⟩
abbrev S4x64x3136 : Shape := ⟨3, ![4, 64, 3136]⟩

abbrev nBuf : Space → Nat
  | .hbm => 153
  | .vmem => 13
  | .smem => 0
  | _ => 0

abbrev hbmTy0_0 (i : Nat) : BufTy := match i % 128 with
  | 0 => ⟨S128x64x56x56, .f32⟩
  | 1 => ⟨S64, .f32⟩
  | 2 => ⟨S128x64x3136, .f32⟩
  | 3 => ⟨S64x1, .f32⟩
  | 4 => ⟨S64x64, .f32⟩
  | 5 => ⟨S_, .f32⟩
  | 6 => ⟨S64x1, .f32⟩
  | 7 => ⟨S64x1, .f32⟩
  | 8 => ⟨S64x64, .i32⟩
  | 9 => ⟨S64x64, .i32⟩
  | 10 => ⟨S_, .i32⟩
  | 11 => ⟨S64x64, .i32⟩
  | 12 => ⟨S64x64, .i32⟩
  | 13 => ⟨S64x64, .i1⟩
  | 14 => ⟨S64x64, .f32⟩
  | 15 => ⟨S1x64, .f32⟩
  | 16 => ⟨S64x64, .f32⟩
  | 17 => ⟨S_, .f32⟩
  | 18 => ⟨S64x64, .f32⟩
  | 19 => ⟨S64x64, .f32⟩
  | 20 => ⟨S_, .f32⟩
  | 21 => ⟨S64x64, .f32⟩
  | 22 => ⟨S64x64, .f32⟩
  | 23 => ⟨S64x64, .f32⟩
  | 24 => ⟨S64x64, .f32⟩
  | 25 => ⟨S_, .f32⟩
  | 26 => ⟨S64x64, .f32⟩
  | 27 => ⟨S64x64, .f32⟩
  | 28 => ⟨S_, .f32⟩
  | 29 => ⟨S64x64, .f32⟩
  | 30 => ⟨S64x64, .f32⟩
  | 31 => ⟨S64x64, .f32⟩
  | 32 => ⟨S64x64, .i32⟩
  | 33 => ⟨S64x64, .i32⟩
  | 34 => ⟨S_, .i32⟩
  | 35 => ⟨S64x64, .i32⟩
  | 36 => ⟨S64x64, .i32⟩
  | 37 => ⟨S64x64, .i1⟩
  | 38 => ⟨S_, .f32⟩
  | 39 => ⟨S64x64, .f32⟩
  | 40 => ⟨S64x64, .f32⟩
  | 41 => ⟨S_, .f32⟩
  | 42 => ⟨S_, .f32⟩
  | 43 => ⟨S_, .f32⟩
  | 44 => ⟨S_, .f32⟩
  | 45 => ⟨S64x64, .f32⟩
  | 46 => ⟨S64x64, .f32⟩
  | 47 => ⟨S_, .f32⟩
  | 48 => ⟨S64x64, .f32⟩
  | 49 => ⟨S64x64, .f32⟩
  | 50 => ⟨S64x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S64x64, .f32⟩
  | 57 => ⟨S_, .f32⟩
  | 58 => ⟨S64x64, .f32⟩
  | 59 => ⟨S64x64, .f32⟩
  | 60 => ⟨S64x64, .f32⟩
  | 61 => ⟨S64x64, .f32⟩
  | 62 => ⟨S64x64, .f32⟩
  | 63 => ⟨S_, .f32⟩
  | 64 => ⟨S64x64, .f32⟩
  | 65 => ⟨S64x64, .f32⟩
  | 66 => ⟨S64x64, .f32⟩
  | 67 => ⟨S_, .f32⟩
  | 68 => ⟨S64x64, .f32⟩
  | 69 => ⟨S64x64, .f32⟩
  | 70 => ⟨S64x64, .f32⟩
  | 71 => ⟨S64x64, .f32⟩
  | 72 => ⟨S64x64, .f32⟩
  | 73 => ⟨S_, .f32⟩
  | 74 => ⟨S64x64, .f32⟩
  | 75 => ⟨S64x64, .f32⟩
  | 76 => ⟨S64x64, .f32⟩
  | 77 => ⟨S_, .f32⟩
  | 78 => ⟨S64x64, .f32⟩
  | 79 => ⟨S64x64, .f32⟩
  | 80 => ⟨S64x64, .f32⟩
  | 81 => ⟨S64x64, .f32⟩
  | 82 => ⟨S64x64, .f32⟩
  | 83 => ⟨S_, .f32⟩
  | 84 => ⟨S64x64, .f32⟩
  | 85 => ⟨S64x64, .f32⟩
  | 86 => ⟨S64x64, .f32⟩
  | 87 => ⟨S_, .f32⟩
  | 88 => ⟨S64x64, .f32⟩
  | 89 => ⟨S64x64, .f32⟩
  | 90 => ⟨S64x64, .f32⟩
  | 91 => ⟨S64x64, .f32⟩
  | 92 => ⟨S64x64, .f32⟩
  | 93 => ⟨S_, .f32⟩
  | 94 => ⟨S64x64, .f32⟩
  | 95 => ⟨S64x64, .f32⟩
  | 96 => ⟨S64x64, .f32⟩
  | 97 => ⟨S_, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S_, .f32⟩
  | 104 => ⟨S64x64, .f32⟩
  | 105 => ⟨S64x64, .f32⟩
  | 106 => ⟨S64x64, .f32⟩
  | 107 => ⟨S_, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S_, .f32⟩
  | 114 => ⟨S64x64, .f32⟩
  | 115 => ⟨S64x64, .f32⟩
  | 116 => ⟨S64x64, .f32⟩
  | 117 => ⟨S_, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S_, .f32⟩
  | 124 => ⟨S64x64, .f32⟩
  | 125 => ⟨S64x64, .f32⟩
  | 126 => ⟨S64x64, .f32⟩
  | 127 => ⟨S_, .f32⟩
  | _ => ⟨S128x64x56x56, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S_, .f32⟩
  | 6 => ⟨S64x64, .f32⟩
  | 7 => ⟨S64x64, .f32⟩
  | 8 => ⟨S64x64, .f32⟩
  | 9 => ⟨S_, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S_, .f32⟩
  | 16 => ⟨S64x64, .f32⟩
  | 17 => ⟨S64x64, .f32⟩
  | 18 => ⟨S64x64, .f32⟩
  | 19 => ⟨S_, .f32⟩
  | 20 => ⟨S64x64, .f32⟩
  | 21 => ⟨S64x64, .f32⟩
  | 22 => ⟨S64x1, .f32⟩
  | 23 => ⟨S128x64x3136, .f32⟩
  | 24 => ⟨S128x64x56x56, .f32⟩
  | _ => ⟨S128x64x56x56, .f32⟩

abbrev hbmTy (i : Nat) : BufTy := match i / 128 with
  | 0 => hbmTy0_0 i
  | 1 => hbmTy0_1 i
  | _ => ⟨S128x64x56x56, .f32⟩

abbrev bufTy : (tb : Table) → Fin (tcTables nBuf tb) → BufTy
  | .hbm, ⟨i, _⟩ => hbmTy i
  | .local _ .vmem, ⟨0, _⟩ => ⟨S8x64x3136, .f32⟩
  | .local _ .vmem, ⟨1, _⟩ => ⟨S8x64x3136, .f32⟩
  | .local _ .vmem, ⟨2, _⟩ => ⟨S64x1, .f32⟩
  | .local _ .vmem, ⟨3, _⟩ => ⟨S64x64, .f32⟩
  | .local _ .vmem, ⟨4, _⟩ => ⟨S64x1, .f32⟩
  | .local _ .vmem, ⟨5, _⟩ => ⟨S64x64, .f32⟩
  | .local _ .vmem, ⟨6, _⟩ => ⟨S4x64x3136, .f32⟩
  | .local _ .vmem, ⟨7, _⟩ => ⟨S4x64x3136, .f32⟩
  | .local _ .vmem, ⟨8, _⟩ => ⟨S64x1, .f32⟩
  | .local _ .vmem, ⟨9, _⟩ => ⟨S64x64, .f32⟩
  | .local _ .vmem, ⟨10, _⟩ => ⟨S64x1, .f32⟩
  | .local _ .vmem, ⟨11, _⟩ => ⟨S4x64x3136, .f32⟩
  | .local _ .vmem, ⟨12, _⟩ => ⟨S4x64x3136, .f32⟩
  | _, _ => ⟨S128x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_c : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_cst : Ref sig .tc := ⟨.hbm, 38, rfl⟩
abbrev main_call0_v5 : Ref sig .tc := ⟨.hbm, 39, rfl⟩
abbrev main_call0_v6 : Ref sig .tc := ⟨.hbm, 40, rfl⟩
abbrev main_call0_cst_0 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_17 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_19 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_20 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_21 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_22 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_23 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_24 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v123 : BitVec 1 := Scalar.cmpi .eq arg0 c15_i32
  let v124 : BitVec 32 := Scalar.extui v123
  let c0_i32_96 : BitVec 32 := 0#32
  let v125 : BitVec 1 := Scalar.cmpi .ne v124 c0_i32_96
  v125

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x64x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x64x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4x64x3136 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128x64x56x56_S128x64x3136 : S128x64x56x56.ShapeCasts S128x64x3136
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S8x64x3136_S1x64x3136_0_0_0 : ∀ a, (![0, 0, 0] : Fin 3 → Nat) a + S1x64x3136.size a ≤ S8x64x3136.size a
  h_S1x64x3136 : 0 < S1x64x3136.numel
  shapeCasts_S1x64x3136_S64x3136 : S1x64x3136.ShapeCasts S64x3136
  reduces_S64x3136_S64 : S64x3136.Reduces [1] S64
  shapeCasts_S64_S64x1 : S64.ShapeCasts S64x1
  inb_S8x64x3136_S1x64x3136_1_0_0 : ∀ a, (![1, 0, 0] : Fin 3 → Nat) a + S1x64x3136.size a ≤ S8x64x3136.size a
  inb_S8x64x3136_S1x64x3136_2_0_0 : ∀ a, (![2, 0, 0] : Fin 3 → Nat) a + S1x64x3136.size a ≤ S8x64x3136.size a
  inb_S8x64x3136_S1x64x3136_3_0_0 : ∀ a, (![3, 0, 0] : Fin 3 → Nat) a + S1x64x3136.size a ≤ S8x64x3136.size a
  inb_S8x64x3136_S1x64x3136_4_0_0 : ∀ a, (![4, 0, 0] : Fin 3 → Nat) a + S1x64x3136.size a ≤ S8x64x3136.size a
  inb_S8x64x3136_S1x64x3136_5_0_0 : ∀ a, (![5, 0, 0] : Fin 3 → Nat) a + S1x64x3136.size a ≤ S8x64x3136.size a
  inb_S8x64x3136_S1x64x3136_6_0_0 : ∀ a, (![6, 0, 0] : Fin 3 → Nat) a + S1x64x3136.size a ≤ S8x64x3136.size a
  inb_S8x64x3136_S1x64x3136_7_0_0 : ∀ a, (![7, 0, 0] : Fin 3 → Nat) a + S1x64x3136.size a ≤ S8x64x3136.size a
  bcast_S_S64x1 : S_.BroadcastsInDim S64x1 (![] : Fin 0 → Fin S64x1.rank)
  bcast_S_S64x64 : S_.BroadcastsInDim S64x64 (![] : Fin 0 → Fin S64x64.rank)
  transposes_S64x1_S1x64_1_0 : S64x1.Transposes [1, 0] S1x64
  reducesTo_S64x64_S_d0_1 : S64x64.ReducesTo [0, 1] S_
  h_S_ : 0 < S_.numel
  bitsLt_bf16_f32 : FTy.bits .bf16 < FTy.bits .f32
  inb_S4x64x3136_S1x64x3136_0_0_0 : ∀ a, (![0, 0, 0] : Fin 3 → Nat) a + S1x64x3136.size a ≤ S4x64x3136.size a
  broadcasts_S64x1_S64x3136 : S64x1.Broadcasts S64x3136
  shapeCasts_S64x3136_S1x64x3136 : S64x3136.ShapeCasts S1x64x3136
  inb_S4x64x3136_S1x64x3136_1_0_0 : ∀ a, (![1, 0, 0] : Fin 3 → Nat) a + S1x64x3136.size a ≤ S4x64x3136.size a
  inb_S4x64x3136_S1x64x3136_2_0_0 : ∀ a, (![2, 0, 0] : Fin 3 → Nat) a + S1x64x3136.size a ≤ S4x64x3136.size a
  inb_S4x64x3136_S1x64x3136_3_0_0 : ∀ a, (![3, 0, 0] : Fin 3 → Nat) a + S1x64x3136.size a ≤ S4x64x3136.size a
  shapeCasts_S128x64x3136_S128x64x56x56 : S128x64x3136.ShapeCasts S128x64x56x56
  dot_S64x3136_S64x3136_S64x64_1_1_0_0_n_n_wf : DotDims.WF S64x3136 S64x3136 S64x64 [1] [1] [0] [0] [] []
  dot_S64x1_S1x64_S64x64_1_0_0_1_n_n_wf : DotDims.WF S64x1 S1x64 S64x64 [1] [0] [0] [1] [] []
  dot_S64x64_S64x64_S64x64_1_0_0_1_n_n_wf : DotDims.WF S64x64 S64x64 S64x64 [1] [0] [0] [1] [] []
  dot_S64x64_S64x3136_S64x3136_1_0_0_1_n_n_wf : DotDims.WF S64x64 S64x3136 S64x3136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x3136.size a ≤ S128x64x3136.size a
  hwx0_0 : ∀ i : grid0.Coords, EltTy.bits .f32 = 32 ∨ (Rect.block (s := S128x64x3136) S8x64x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x64x3136.size a ≤ S128x64x3136.size a
  hwx1_0 : ∀ i : grid1.Coords, EltTy.bits .f32 = 32 ∨ (Rect.block (s := S128x64x3136) S4x64x3136.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x64x3136.size a ≤ S128x64x3136.size a
  hwx1_4 : ∀ i : grid1.Coords, EltTy.bits .f32 = 32 ∨ (Rect.block (s := S128x64x3136) S4x64x3136.size (cc1_transform_4 i) (hinb1_4 i)).WholeWords (EltTy.packing .f32)

variable [Facts₀]

def dot_S64x3136_S64x3136_S64x64_1_1_0_0_n_n : DotDims S64x3136 S64x3136 S64x64 where
  lhsContracting := [1]
  rhsContracting := [1]
  lhsNonContracting := [0]
  rhsNonContracting := [0]
  lhsBatch := []
  rhsBatch := []
  wf := dot_S64x3136_S64x3136_S64x64_1_1_0_0_n_n_wf
def dot_S64x1_S1x64_S64x64_1_0_0_1_n_n : DotDims S64x1 S1x64 S64x64 where
  lhsContracting := [1]
  rhsContracting := [0]
  lhsNonContracting := [0]
  rhsNonContracting := [1]
  lhsBatch := []
  rhsBatch := []
  wf := dot_S64x1_S1x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x3136_S64x3136_1_0_0_1_n_n : DotDims S64x64 S64x3136 S64x3136 where
  lhsContracting := [1]
  rhsContracting := [0]
  lhsNonContracting := [0]
  rhsNonContracting := [1]
  lhsBatch := []
  rhsBatch := []
  wf := dot_S64x64_S64x3136_S64x3136_1_0_0_1_n_n_wf

abbrev win0_0 : Pipeline.Window sig grid0 :=
  Pipeline.Window.ofSpec (Memref.whole main_v0) S8x64x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S64x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S64x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S4x64x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v109) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v110) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v111) S4x64x3136.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S128x64x56x56 : Shape := ⟨4, ![128, 64, 56, 56]⟩
abbrev S64 : Shape := ⟨1, ![64]⟩
abbrev S64x128x56x56 : Shape := ⟨4, ![64, 128, 56, 56]⟩
abbrev S64x401408 : Shape := ⟨2, ![64, 401408]⟩
abbrev S_ : Shape := ⟨0, ![]⟩
abbrev S64x1 : Shape := ⟨2, ![64, 1]⟩
abbrev S64x64 : Shape := ⟨2, ![64, 64]⟩
abbrev S401408x64 : Shape := ⟨2, ![401408, 64]⟩
abbrev S1x64x1x1 : Shape := ⟨4, ![1, 64, 1, 1]⟩

abbrev nBuf : Space → Nat
  | .hbm => 159
  | .vmem => 0
  | .smem => 0
  | _ => 0

abbrev hbmTy0_0 (i : Nat) : BufTy := match i % 128 with
  | 0 => ⟨S128x64x56x56, .f32⟩
  | 1 => ⟨S64, .f32⟩
  | 2 => ⟨S64x128x56x56, .f32⟩
  | 3 => ⟨S64x401408, .f32⟩
  | 4 => ⟨S_, .f32⟩
  | 5 => ⟨S64, .f32⟩
  | 6 => ⟨S64x1, .f32⟩
  | 7 => ⟨S_, .f32⟩
  | 8 => ⟨S64x1, .f32⟩
  | 9 => ⟨S64x1, .f32⟩
  | 10 => ⟨S64x401408, .f32⟩
  | 11 => ⟨S64x401408, .f32⟩
  | 12 => ⟨S64x64, .i32⟩
  | 13 => ⟨S64x64, .i32⟩
  | 14 => ⟨S_, .i32⟩
  | 15 => ⟨S64x64, .i32⟩
  | 16 => ⟨S64x64, .i32⟩
  | 17 => ⟨S64x64, .i1⟩
  | 18 => ⟨S64x64, .f32⟩
  | 19 => ⟨S_, .f32⟩
  | 20 => ⟨S64x64, .f32⟩
  | 21 => ⟨S64x64, .f32⟩
  | 22 => ⟨S401408x64, .f32⟩
  | 23 => ⟨S64x64, .f32⟩
  | 24 => ⟨S_, .f32⟩
  | 25 => ⟨S64x64, .f32⟩
  | 26 => ⟨S64x64, .f32⟩
  | 27 => ⟨S64x64, .f32⟩
  | 28 => ⟨S_, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S64x64, .f32⟩
  | 35 => ⟨S64x64, .i32⟩
  | 36 => ⟨S64x64, .i32⟩
  | 37 => ⟨S_, .i32⟩
  | 38 => ⟨S64x64, .i32⟩
  | 39 => ⟨S64x64, .i32⟩
  | 40 => ⟨S64x64, .i1⟩
  | 41 => ⟨S_, .f32⟩
  | 42 => ⟨S64x64, .f32⟩
  | 43 => ⟨S64x64, .f32⟩
  | 44 => ⟨S_, .f32⟩
  | 45 => ⟨S_, .f32⟩
  | 46 => ⟨S_, .f32⟩
  | 47 => ⟨S_, .f32⟩
  | 48 => ⟨S64x64, .f32⟩
  | 49 => ⟨S64x64, .f32⟩
  | 50 => ⟨S_, .f32⟩
  | 51 => ⟨S64x64, .f32⟩
  | 52 => ⟨S64x64, .f32⟩
  | 53 => ⟨S64x64, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x64, .f32⟩
  | 60 => ⟨S_, .f32⟩
  | 61 => ⟨S64x64, .f32⟩
  | 62 => ⟨S64x64, .f32⟩
  | 63 => ⟨S64x64, .f32⟩
  | 64 => ⟨S64x64, .f32⟩
  | 65 => ⟨S64x64, .f32⟩
  | 66 => ⟨S_, .f32⟩
  | 67 => ⟨S64x64, .f32⟩
  | 68 => ⟨S64x64, .f32⟩
  | 69 => ⟨S64x64, .f32⟩
  | 70 => ⟨S_, .f32⟩
  | 71 => ⟨S64x64, .f32⟩
  | 72 => ⟨S64x64, .f32⟩
  | 73 => ⟨S64x64, .f32⟩
  | 74 => ⟨S64x64, .f32⟩
  | 75 => ⟨S64x64, .f32⟩
  | 76 => ⟨S_, .f32⟩
  | 77 => ⟨S64x64, .f32⟩
  | 78 => ⟨S64x64, .f32⟩
  | 79 => ⟨S64x64, .f32⟩
  | 80 => ⟨S_, .f32⟩
  | 81 => ⟨S64x64, .f32⟩
  | 82 => ⟨S64x64, .f32⟩
  | 83 => ⟨S64x64, .f32⟩
  | 84 => ⟨S64x64, .f32⟩
  | 85 => ⟨S64x64, .f32⟩
  | 86 => ⟨S_, .f32⟩
  | 87 => ⟨S64x64, .f32⟩
  | 88 => ⟨S64x64, .f32⟩
  | 89 => ⟨S64x64, .f32⟩
  | 90 => ⟨S_, .f32⟩
  | 91 => ⟨S64x64, .f32⟩
  | 92 => ⟨S64x64, .f32⟩
  | 93 => ⟨S64x64, .f32⟩
  | 94 => ⟨S64x64, .f32⟩
  | 95 => ⟨S64x64, .f32⟩
  | 96 => ⟨S_, .f32⟩
  | 97 => ⟨S64x64, .f32⟩
  | 98 => ⟨S64x64, .f32⟩
  | 99 => ⟨S64x64, .f32⟩
  | 100 => ⟨S_, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S_, .f32⟩
  | 107 => ⟨S64x64, .f32⟩
  | 108 => ⟨S64x64, .f32⟩
  | 109 => ⟨S64x64, .f32⟩
  | 110 => ⟨S_, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S_, .f32⟩
  | 117 => ⟨S64x64, .f32⟩
  | 118 => ⟨S64x64, .f32⟩
  | 119 => ⟨S64x64, .f32⟩
  | 120 => ⟨S_, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S_, .f32⟩
  | 127 => ⟨S64x64, .f32⟩
  | _ => ⟨S128x64x56x56, .f32⟩

abbrev hbmTy0_1 (i : Nat) : BufTy := match i % 128 with
  | 0 => ⟨S64x64, .f32⟩
  | 1 => ⟨S64x64, .f32⟩
  | 2 => ⟨S_, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S_, .f32⟩
  | 9 => ⟨S64x64, .f32⟩
  | 10 => ⟨S64x64, .f32⟩
  | 11 => ⟨S64x64, .f32⟩
  | 12 => ⟨S_, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S_, .f32⟩
  | 19 => ⟨S64x64, .f32⟩
  | 20 => ⟨S64x64, .f32⟩
  | 21 => ⟨S64x64, .f32⟩
  | 22 => ⟨S_, .f32⟩
  | 23 => ⟨S64x64, .f32⟩
  | 24 => ⟨S64x64, .f32⟩
  | 25 => ⟨S64x401408, .f32⟩
  | 26 => ⟨S64x128x56x56, .f32⟩
  | 27 => ⟨S128x64x56x56, .f32⟩
  | 28 => ⟨S1x64x1x1, .f32⟩
  | 29 => ⟨S128x64x56x56, .f32⟩
  | 30 => ⟨S128x64x56x56, .f32⟩
  | _ => ⟨S128x64x56x56, .f32⟩

abbrev hbmTy (i : Nat) : BufTy := match i / 128 with
  | 0 => hbmTy0_0 i
  | 1 => hbmTy0_1 i
  | _ => ⟨S128x64x56x56, .f32⟩

abbrev bufTy : (tb : Table) → Fin (tcTables nBuf tb) → BufTy
  | .hbm, ⟨i, _⟩ => hbmTy i
  | _, _ => ⟨S128x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_c : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_cst : Ref sig .tc := ⟨.hbm, 41, rfl⟩
abbrev main_call0_v5 : Ref sig .tc := ⟨.hbm, 42, rfl⟩
abbrev main_call0_v6 : Ref sig .tc := ⟨.hbm, 43, rfl⟩
abbrev main_call0_cst_0 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_17 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_19 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_20 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_22 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_23 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_24 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_25 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩

abbrev nD : Nat := 1
abbrev τ : Topo := Topo.v7x

variable {F : FTy → Type} [FloatOps F]

class Facts₀ : Prop where
  transposes_S128x64x56x56_S64x128x56x56_1_0_2_3 : S128x64x56x56.Transposes [1, 0, 2, 3] S64x128x56x56
  shapeCasts_S64x128x56x56_S64x401408 : S64x128x56x56.ShapeCasts S64x401408
  reducesTo_S64x401408_S64_d1 : S64x401408.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x401408_0_1 : S64x1.BroadcastsInDim S64x401408 (![0, 1] : Fin 2 → Fin S64x401408.rank)
  bcast_S_S64x64 : S_.BroadcastsInDim S64x64 (![] : Fin 0 → Fin S64x64.rank)
  transposes_S64x401408_S401408x64_1_0 : S64x401408.Transposes [1, 0] S401408x64
  reducesTo_S64x64_S_d0_1 : S64x64.ReducesTo [0, 1] S_
  shapeCasts_S64x401408_S64x128x56x56 : S64x401408.ShapeCasts S64x128x56x56
  transposes_S64x128x56x56_S128x64x56x56_1_0_2_3 : S64x128x56x56.Transposes [1, 0, 2, 3] S128x64x56x56
  shapeCasts_S64_S1x64x1x1 : S64.ShapeCasts S1x64x1x1
  bcast_S1x64x1x1_S128x64x56x56_0_1_2_3 : S1x64x1x1.BroadcastsInDim S128x64x56x56 (![0, 1, 2, 3] : Fin 4 → Fin S128x64x56x56.rank)
  dot_S64x401408_S401408x64_S64x64_1_0_0_1_n_n_wf : DotDims.WF S64x401408 S401408x64 S64x64 [1] [0] [0] [1] [] []
  dot_S64x64_S64x64_S64x64_1_0_0_1_n_n_wf : DotDims.WF S64x64 S64x64 S64x64 [1] [0] [0] [1] [] []
  dot_S64x64_S64x401408_S64x401408_1_0_0_1_n_n_wf : DotDims.WF S64x64 S64x401408 S64x401408 [1] [0] [0] [1] [] []

variable [Facts₀]

def dot_S64x401408_S401408x64_S64x64_1_0_0_1_n_n : DotDims S64x401408 S401408x64 S64x64 where
  lhsContracting := [1]
  rhsContracting := [0]
  lhsNonContracting := [0]
  rhsNonContracting := [1]
  lhsBatch := []
  rhsBatch := []
  wf := dot_S64x401408_S401408x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x401408_S64x401408_1_0_0_1_n_n : DotDims S64x64 S64x401408 S64x401408 where
  lhsContracting := [1]
  rhsContracting := [0]
  lhsNonContracting := [0]
  rhsNonContracting := [1]
  lhsBatch := []
  rhsBatch := []
  wf := dot_S64x64_S64x401408_S64x401408_1_0_0_1_n_n_wf

class Facts : Prop extends Facts₀ where

variable [Facts]
-- ==== Proof.K.R0Shared.lean ====
/-
  The accumulation kernel (pipeline 0) as a region entered from contents `V`: what its runs are stated over.
  The grid has 16 points; each point stages one block of 8 batch rows of the input (64 channels by 3136 positions
  each), adds the 8 rows' channel sums into the first scratch buffer and the 8 rows' Gram matrices into the second,
  after zeroing both at the first point, and copies both scratch buffers into the two output windows at the last
  point. The two branch conditions are decided over the grid in closed form; the output windows are idle except at
  the last point.
-/
import proofs.«141837_j49177375539587_2_alg».proof.Proof.Gen.Kernel.Launch
import proofs.«141837_j49177375539587_2_alg».proof.Proof.Gen.Kernel.Skeleton
import proofs.«141837_j49177375539587_2_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The input window's blocks -/

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is `V`'s
    and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- "This is the first point": the reset of the two accumulators is taken. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last point": the accumulators are copied into the output windows. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_1 : View sig .tc .vmem S64x1 .f32 := (Memref.whole cc0_stg1_0 : Memref sig .tc .vmem S64x1 .f32).view
abbrev VO0_2 : View sig .tc .vmem S64x64 .f32 := (Memref.whole cc0_stg2_0 : Memref sig .tc .vmem S64x64 .f32).view
abbrev ms0_0 (t : Fin cfg0.N) : Memref sig .tc .vmem S8x64x3136 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
/-- The two accumulators: whole scoped buffers of the kernel's own, carried from point to point. -/
abbrev scM0_0 : Memref sig .tc .vmem S64x1 .f32 := Memref.whole cc0_scratch0
abbrev scM0_1 : Memref sig .tc .vmem S64x64 .f32 := Memref.whole cc0_scratch1
abbrev VS0_0 : View sig .tc .vmem S64x1 .f32 := scM0_0.view
abbrev VS0_1 : View sig .tc .vmem S64x64 .f32 := scM0_1.view

/-- The core's other scoped buffers (the second pipeline's staging buffers), each at some contents: they ride
    through this region untouched. -/
def rest0 (c : Dev nD) : sProp 𝕄 :=
  iprop((∃ f, ((c : Thread nD τ).loc cc1_stg0_0) ↦{fullShare} f) ∗ (∃ f, ((c : Thread nD τ).loc cc1_stg0_1) ↦{fullShare} f)
    ∗ (∃ f, ((c : Thread nD τ).loc cc1_stg1_0) ↦{fullShare} f) ∗ (∃ f, ((c : Thread nD τ).loc cc1_stg2_0) ↦{fullShare} f)
    ∗ (∃ f, ((c : Thread nD τ).loc cc1_stg3_0) ↦{fullShare} f) ∗ (∃ f, ((c : Thread nD τ).loc cc1_stg4_0) ↦{fullShare} f)
    ∗ (∃ f, ((c : Thread nD τ).loc cc1_stg4_1) ↦{fullShare} f))

/-- The class invariant with the two accumulators as memrefs owned at some contents, the other scoped buffers beside. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.Kernel.Hand

end
-- ==== Proof.K.R0RunA.lean ====
/-
  The accumulation kernel's body at the FIRST grid point: both accumulators are zeroed, then the eight batch rows of
  the staged block are added in (row sums into the first, Gram matrices into the second). The output windows are not
  touched. The pieces the accumulators end with are found by running the body.
-/
import proofs.«141837_j49177375539587_2_alg».proof.Proof.K.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple at the first point: from the input block at `x0`, the output buffers at anything handed back
    untouched, the accumulators at anything, it runs to the accumulators with their pieces written. -/
noncomputable def kernelRun0_A (c : Dev nD) (i : grid0.Coords) (arg1 : Memref sig .tc .vmem S8x64x3136 .f32) (harg1 : arg1.IsWhole) (arg2 : Memref sig .tc .vmem S64x1 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S64x64 .f32) (harg5 : arg5.IsWhole) (hc0 : cond0_0 i) (hc1 : ¬cond0_1 i)
    (x0 : Vec F S8x64x3136 .f32) :
    Σ' (LS0 : List (View.Piece (Elt F) S64x1 .f32)), { LS1 : List (View.Piece (Elt F) S64x64 .f32) //
      ∀ (xi1 : Vec F S64x1 .f32) (xi2 : Vec F S64x64 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__reduce_kernel i arg1 harg1 arg2 harg2 arg3 harg3 arg4 harg4 arg5 harg5) K } := by
  refine ⟨?_, ?_, fun xi1 xi2 E K => ?run⟩
  case run =>
    simp only [cc0__reduce_kernel_eq_skeleton]; unfold cc0__reduce_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.K.R0RunB.lean ====
/-
  The accumulation kernel's body at a MIDDLE grid point (neither first nor last): the eight batch rows of the staged
  block are added into the accumulators, which hold what the point before left. The output windows are not touched.
-/
import proofs.«141837_j49177375539587_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple at a middle point: from the input block at `x0` and the accumulators at `xs0`, `xs1`, it runs
    to the accumulators with their pieces written; the output buffers are handed back untouched. -/
noncomputable def kernelRun0_B (c : Dev nD) (i : grid0.Coords) (arg1 : Memref sig .tc .vmem S8x64x3136 .f32) (harg1 : arg1.IsWhole) (arg2 : Memref sig .tc .vmem S64x1 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S64x64 .f32) (harg5 : arg5.IsWhole) (hc0 : ¬cond0_0 i) (hc1 : ¬cond0_1 i)
    (x0 : Vec F S8x64x3136 .f32) (xs0 : Vec F S64x1 .f32) (xs1 : Vec F S64x64 .f32) :
    Σ' (LS0 : List (View.Piece (Elt F) S64x1 .f32)), { LS1 : List (View.Piece (Elt F) S64x64 .f32) //
      ∀ (xi1 : Vec F S64x1 .f32) (xi2 : Vec F S64x64 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__reduce_kernel i arg1 harg1 arg2 harg2 arg3 harg3 arg4 harg4 arg5 harg5) K } := by
  refine ⟨?_, ?_, fun xi1 xi2 E K => ?run⟩
  case run =>
    simp only [cc0__reduce_kernel_eq_skeleton]; unfold cc0__reduce_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.K.R0RunC.lean ====
/-
  The accumulation kernel's body at the LAST grid point: the eight batch rows of the staged block are added into the
  accumulators, which hold what the point before left, and both accumulators are then copied into the output windows.
-/
import proofs.«141837_j49177375539587_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple at the last point: from the input block at `x0` and the accumulators at `xs0`, `xs1`, the
    output buffers at anything, it runs to the accumulators and the output buffers with their pieces written. -/
noncomputable def kernelRun0_C (c : Dev nD) (i : grid0.Coords) (arg1 : Memref sig .tc .vmem S8x64x3136 .f32) (harg1 : arg1.IsWhole) (arg2 : Memref sig .tc .vmem S64x1 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S64x64 .f32) (harg5 : arg5.IsWhole) (hc0 : ¬cond0_0 i) (hc1 : cond0_1 i)
    (x0 : Vec F S8x64x3136 .f32) (xs0 : Vec F S64x1 .f32) (xs1 : Vec F S64x64 .f32) :
    Σ' (L1 : List (View.Piece (Elt F) S64x1 .f32)) (L2 : List (View.Piece (Elt F) S64x64 .f32)) (LS0 : List (View.Piece (Elt F) S64x1 .f32)), { LS1 : List (View.Piece (Elt F) S64x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__reduce_kernel i arg1 harg1 arg2 harg2 arg3 harg3 arg4 harg4 arg5 harg5) K } := by
  refine ⟨?_, ?_, ?_, ?_, fun E K => ?run⟩
  case run =>
    simp only [cc0__reduce_kernel_eq_skeleton]; unfold cc0__reduce_kernel_skel
    simp only [k0_part1_eq_skeleton, k0_part2_eq_skeleton, k0_part3_eq_skeleton, k0_part4_eq_skeleton]
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.K.Region0.lean ====
/-
  The accumulation kernel (pipeline 0) as a region entered from contents `V`: what the two accumulators hold after
  each grid point (by recursion on the point: zeroed and filled at the first, added to at every later one), what the
  two output windows hold after the last point (copies of the accumulators), the region's invariant (the accumulators
  at those contents between points), the pipeline's proof data and the body obligation at every point.
-/
import proofs.«141837_j49177375539587_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The point's case, from its number -/

theorem N0' : cfg0.N = 16 := N_0
theorem c0_of_zero (t : Fin cfg0.N) (h : t.val = 0) : cond0_0 (grid0.coords t) := (hcond0_0 t).mpr (by rw [h])
theorem nc0_of_pos (t : Fin cfg0.N) (h : t.val ≠ 0) : ¬cond0_0 (grid0.coords t) := fun hc => by
  have h1 := (hcond0_0 t).mp hc; have h2 : t.val < 16 := lt_of_lt_of_eq t.isLt N0'; omega
theorem c1_of_last (t : Fin cfg0.N) (h : t.val = 15) : cond0_1 (grid0.coords t) := (hcond0_1 t).mpr (by rw [h])
theorem nc1_of_ne (t : Fin cfg0.N) (h : t.val ≠ 15) : ¬cond0_1 (grid0.coords t) := fun hc => by
  have h1 := (hcond0_1 t).mp hc; have h2 : t.val < 16 := lt_of_lt_of_eq t.isLt N0'; omega

/-! ## The body's runs at a point's own memrefs and input block -/

/-- The first point's run. -/
noncomputable def runA (c : Dev nD) (t : Fin cfg0.N) (h0 : t.val = 0) :=
  kernelRun0_A (F := F) c (grid0.coords t) (ms0_0 t) (hs0_0 t) (ms0_1 t) (hs0_1 t) (ms0_2 t) (hs0_2 t) scM0_0 (Memref.isWhole_whole _) scM0_1 (Memref.isWhole_whole _) (c0_of_zero t h0) (nc1_of_ne t (by omega)) (iblk0 V c 0 t)
/-- A middle point's run, the accumulators at `xs0`, `xs1`. -/
noncomputable def runB (c : Dev nD) (t : Fin cfg0.N) (h0 : t.val ≠ 0) (h1 : t.val ≠ 15) (xs0 : Vec F S64x1 .f32) (xs1 : Vec F S64x64 .f32) :=
  kernelRun0_B (F := F) c (grid0.coords t) (ms0_0 t) (hs0_0 t) (ms0_1 t) (hs0_1 t) (ms0_2 t) (hs0_2 t) scM0_0 (Memref.isWhole_whole _) scM0_1 (Memref.isWhole_whole _) (nc0_of_pos t h0) (nc1_of_ne t h1) (iblk0 V c 0 t) xs0 xs1
/-- The last point's run, the accumulators at `xs0`, `xs1`. -/
noncomputable def runC (c : Dev nD) (t : Fin cfg0.N) (h1 : t.val = 15) (xs0 : Vec F S64x1 .f32) (xs1 : Vec F S64x64 .f32) :=
  kernelRun0_C (F := F) c (grid0.coords t) (ms0_0 t) (hs0_0 t) (ms0_1 t) (hs0_1 t) (ms0_2 t) (hs0_2 t) scM0_0 (Memref.isWhole_whole _) scM0_1 (Memref.isWhole_whole _) (nc0_of_pos t (by omega)) (c1_of_last t h1) (iblk0 V c 0 t) xs0 xs1

/-- Pieces written into the first accumulator, read back. -/
def rd0 (L : List (View.Piece (Elt F) S64x1 .f32)) : Vec F S64x1 .f32 := VS0_0.read (Elt F) (VS0_0.writes (Elt F) VS0_0.junk L)
/-- Pieces written into the second accumulator, read back. -/
def rd1 (L : List (View.Piece (Elt F) S64x64 .f32)) : Vec F S64x64 .f32 := VS0_1.read (Elt F) (VS0_1.writes (Elt F) VS0_1.junk L)
/-- Pieces written into the first output window's buffer, read back. -/
def ro1 (L : List (View.Piece (Elt F) S64x1 .f32)) : Vec F S64x1 .f32 := VO0_1.read (Elt F) (VO0_1.writes (Elt F) VO0_1.junk L)
/-- Pieces written into the second output window's buffer, read back. -/
def ro2 (L : List (View.Piece (Elt F) S64x64 .f32)) : Vec F S64x64 .f32 := VO0_2.read (Elt F) (VO0_2.writes (Elt F) VO0_2.junk L)

/-! ## The runs' pieces tile their buffers -/

theorem scoverA_0 (c : Dev nD) (t : Fin cfg0.N) (h0 : t.val = 0) (y : S64x1.Idx) : ∃ pc ∈ (runA V c t h0).1, y ∈ pc.1.set :=
  View.cover_of_tiledL (runA V c t h0).1 S64x1.size (by sl_kernel_rfl) y
theorem scoverA_1 (c : Dev nD) (t : Fin cfg0.N) (h0 : t.val = 0) (y : S64x64.Idx) : ∃ pc ∈ (runA V c t h0).2.1, y ∈ pc.1.set :=
  View.cover_of_tiledL (runA V c t h0).2.1 S64x64.size (by sl_kernel_rfl) y
theorem scoverB_0 (c : Dev nD) (t : Fin cfg0.N) (h0 : t.val ≠ 0) (h1 : t.val ≠ 15) (xs0 xs1) (y : S64x1.Idx) : ∃ pc ∈ (runB V c t h0 h1 xs0 xs1).1, y ∈ pc.1.set :=
  View.cover_of_tiledL (runB V c t h0 h1 xs0 xs1).1 S64x1.size (by sl_kernel_rfl) y
theorem scoverB_1 (c : Dev nD) (t : Fin cfg0.N) (h0 : t.val ≠ 0) (h1 : t.val ≠ 15) (xs0 xs1) (y : S64x64.Idx) : ∃ pc ∈ (runB V c t h0 h1 xs0 xs1).2.1, y ∈ pc.1.set :=
  View.cover_of_tiledL (runB V c t h0 h1 xs0 xs1).2.1 S64x64.size (by sl_kernel_rfl) y
theorem coverC_1 (c : Dev nD) (t : Fin cfg0.N) (h1 : t.val = 15) (xs0 xs1) (y : S64x1.Idx) : ∃ pc ∈ (runC V c t h1 xs0 xs1).1, y ∈ pc.1.set :=
  View.cover_of_tiledL (runC V c t h1 xs0 xs1).1 S64x1.size (by sl_kernel_rfl) y
theorem coverC_2 (c : Dev nD) (t : Fin cfg0.N) (h1 : t.val = 15) (xs0 xs1) (y : S64x64.Idx) : ∃ pc ∈ (runC V c t h1 xs0 xs1).2.1, y ∈ pc.1.set :=
  View.cover_of_tiledL (runC V c t h1 xs0 xs1).2.1 S64x64.size (by sl_kernel_rfl) y
theorem scoverC_0 (c : Dev nD) (t : Fin cfg0.N) (h1 : t.val = 15) (xs0 xs1) (y : S64x1.Idx) : ∃ pc ∈ (runC V c t h1 xs0 xs1).2.2.1, y ∈ pc.1.set :=
  View.cover_of_tiledL (runC V c t h1 xs0 xs1).2.2.1 S64x1.size (by sl_kernel_rfl) y
theorem scoverC_1 (c : Dev nD) (t : Fin cfg0.N) (h1 : t.val = 15) (xs0 xs1) (y : S64x64.Idx) : ∃ pc ∈ (runC V c t h1 xs0 xs1).2.2.2.1, y ∈ pc.1.set :=
  View.cover_of_tiledL (runC V c t h1 xs0 xs1).2.2.2.1 S64x64.size (by sl_kernel_rfl) y

/-! ## What the accumulators hold after each point -/

/-- THE ACCUMULATION: the two accumulators after the body at point `n` — the first point's run from nothing, every
    later point's run from what the point before left. -/
def accAt (c : Dev nD) : (n : ℕ) → n < cfg0.N → Vec F S64x1 .f32 × Vec F S64x64 .f32
  | 0, hn => (rd0 (runA V c ⟨0, hn⟩ rfl).1, rd1 (runA V c ⟨0, hn⟩ rfl).2.1)
  | n + 1, hn =>
    if h1 : n + 1 = 15 then
      (rd0 (runC V c ⟨n + 1, hn⟩ h1 (accAt c n (Nat.lt_of_succ_lt hn)).1 (accAt c n (Nat.lt_of_succ_lt hn)).2).2.2.1,
       rd1 (runC V c ⟨n + 1, hn⟩ h1 (accAt c n (Nat.lt_of_succ_lt hn)).1 (accAt c n (Nat.lt_of_succ_lt hn)).2).2.2.2.1)
    else
      (rd0 (runB V c ⟨n + 1, hn⟩ (Nat.succ_ne_zero n) h1 (accAt c n (Nat.lt_of_succ_lt hn)).1 (accAt c n (Nat.lt_of_succ_lt hn)).2).1,
       rd1 (runB V c ⟨n + 1, hn⟩ (Nat.succ_ne_zero n) h1 (accAt c n (Nat.lt_of_succ_lt hn)).1 (accAt c n (Nat.lt_of_succ_lt hn)).2).2.1)

/-- What the point before `t` left in the accumulators (`t` not the first). -/
abbrev prevAcc (c : Dev nD) (t : Fin cfg0.N) : Vec F S64x1 .f32 × Vec F S64x64 .f32 :=
  accAt V c (t.val - 1) (Nat.lt_of_le_of_lt (Nat.sub_le _ _) t.isLt)

theorem accAt_A (c : Dev nD) (t : Fin cfg0.N) (h0 : t.val = 0) :
    accAt V c t.val t.isLt = (rd0 (runA V c t h0).1, rd1 (runA V c t h0).2.1) := by
  obtain ⟨n, hn⟩ := t
  cases n with
  | zero => rfl
  | succ n => exact absurd h0 (Nat.succ_ne_zero n)

theorem accAt_B (c : Dev nD) (t : Fin cfg0.N) (h0 : t.val ≠ 0) (h1 : t.val ≠ 15) :
    accAt V c t.val t.isLt = (rd0 (runB V c t h0 h1 (prevAcc V c t).1 (prevAcc V c t).2).1, rd1 (runB V c t h0 h1 (prevAcc V c t).1 (prevAcc V c t).2).2.1) := by
  obtain ⟨n, hn⟩ := t
  cases n with
  | zero => exact absurd rfl h0
  | succ n => exact (dif_neg h1).trans rfl

theorem accAt_C (c : Dev nD) (t : Fin cfg0.N) (h1 : t.val = 15) :
    accAt V c t.val t.isLt = (rd0 (runC V c t h1 (prevAcc V c t).1 (prevAcc V c t).2).2.2.1, rd1 (runC V c t h1 (prevAcc V c t).1 (prevAcc V c t).2).2.2.2.1) := by
  obtain ⟨n, hn⟩ := t
  cases n with
  | zero => exact absurd (show (0 : ℕ) = 15 from h1) (by decide)
  | succ n => exact (dif_pos h1).trans rfl

/-- What the two output windows' buffers hold after the body at point `t`: the accumulators' copies at the last
    point; at every other point the windows are idle and this is a placeholder nothing consults. -/
def outAt (c : Dev nD) (t : Fin cfg0.N) : Vec F S64x1 .f32 × Vec F S64x64 .f32 :=
  if h1 : t.val = 15 then
    (ro1 (runC V c t h1 (prevAcc V c t).1 (prevAcc V c t).2).1, ro2 (runC V c t h1 (prevAcc V c t).1 (prevAcc V c t).2).2.1)
  else (VO0_1.read (Elt F) VO0_1.junk, VO0_2.read (Elt F) VO0_2.junk)

theorem outAt_C (c : Dev nD) (t : Fin cfg0.N) (h1 : t.val = 15) :
    outAt V c t = (ro1 (runC V c t h1 (prevAcc V c t).1 (prevAcc V c t).2).1, ro2 (runC V c t h1 (prevAcc V c t).1 (prevAcc V c t).2).2.1) := dif_pos h1

/-! ## The region's invariant -/

/-- Before point `n`: at the first point the class invariant (the accumulators at anything); afterwards the
    accumulators at what the point before left, the core's other scoped buffers and the generator register beside. -/
def PhiS (c : Dev nD) : (n : ℕ) → n ≤ cfg0.N → sProp 𝕄
  | 0, _ => Pipeline.ΦA spec0 c
  | n + 1, hn => iprop(iprop(owns (c : Thread nD τ) scM0_0 fullShare (accAt V c n hn).1 ∗ owns (c : Thread nD τ) scM0_1 fullShare (accAt V c n hn).2 ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (accAt V c n hn).1 ∗ owns (c : Thread nD τ) scM0_1 fullShare (accAt V c n hn).2 ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare (accAt V c (n - 1) (by omega)).1 ∗ owns (c : Thread nD τ) scM0_1 fullShare (accAt V c (n - 1) (by omega)).2 ∗ rest0 c) ∗ (∃ r, prngReg c r)) := by
  cases n with
  | zero => exact absurd rfl hz
  | succ n => rfl

/-! ## The pipeline's proof data -/

/-- The arrays as the region finds them; after the body the input's buffer at its block, the outputs' at `outAt`;
    the invariant `PhiS`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => (outAt V c t).1
    | ⟨2, _⟩ => (outAt V c t).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outAt V c t).1 := by dsimp only [dat0]
theorem after0_2 (c : Dev nD) (t : Fin cfg0.N) : (dat0 V c).after 2 t = (outAt V c t).2 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input's buffer holds its block; the point's number says which case it is in; the
    invariant hands the body the accumulators at what the point before left (at anything at the first point) and takes
    them back at this point's contents; at the last point the output windows' buffers are filled. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  by_cases hz : t.val = 0
  · have hn1 : ¬cond0_1 (grid0.coords t) := nc1_of_ne t (by omega)
    rw [Dat.leavesExact_idle (dat0 V c) 1 t (idleAt0_1 t hn1) (noFlush0_1 t hn1)]
    rw [Dat.leavesExact_idle (dat0 V c) 2 t (idleAt0_2 t hn1) (noFlush0_2 t hn1)]
    rw [accAt_A V c t hz]
    unfold rd0 rd1; (try dsimp only)
    rw [PhiS_castSucc V c t, PhiS_zero V c _ _ hz, PhiA0_eq]
    iintro ⟨⟨⟨HS0, HS1, Hr⟩, Hg⟩, Ho, ⟨%d0, H0⟩, ⟨%d1, H1⟩, ⟨%d2, H2⟩⟩
    iapply ((runA V c t hz).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scoverA_0 V c t hz)
        isplitl [HS1]
        · unfold owns; iexists _; isplitr
          swap; · iexact HS1
          ipureintro; exact View.read_writes_of_cover _ _ _ _ _ (scoverA_1 V c t hz)
        iexact Hr
      iexact Hg
    isplitl [Ho]; · iexact Ho
    isplitl [H0]; · iexact H0
    isplitl [H1]; · iexists _; iexact H1
    iexists _; iexact H2
  · by_cases hl : t.val = 15
    · have hc1 : cond0_1 (grid0.coords t) := c1_of_last t hl
      rw [show (dat0 V c).leavesExact 1 t = owns (c : Thread nD τ) (ms0_1 t) fullShare ((dat0 V c).after 1 t) from by
        unfold Dat.leavesExact; rw [liveAt0_1 t hc1], after0_1]
      rw [show (dat0 V c).leavesExact 2 t = owns (c : Thread nD τ) (ms0_2 t) fullShare ((dat0 V c).after 2 t) from by
        unfold Dat.leavesExact; rw [liveAt0_2 t hc1], after0_2]
      rw [accAt_C V c t hl, outAt_C V c t hl]
      unfold rd0 rd1 ro1 ro2; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩⟩
      iapply ((runC V c t hl _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scoverC_0 V c t hl _ _)
          isplitl [HS1]
          · unfold owns; iexists _; isplitr
            swap; · iexact HS1
            ipureintro; exact View.read_writes_of_cover _ _ _ _ _ (scoverC_1 V c t hl _ _)
          iexact Hr
        iexact Hg
      isplitl [Ho]; · iexact Ho
      isplitl [H0]; · iexact H0
      isplitl [H1]
      · unfold owns; iexists _; isplitr
        swap; · iexact H1
        ipureintro; exact View.read_writes_of_cover _ _ _ _ _ (coverC_1 V c t hl _ _)
      unfold owns; iexists _; isplitr
      swap; · iexact H2
      ipureintro; exact View.read_writes_of_cover _ _ _ _ _ (coverC_2 V c t hl _ _)
    · have hn1 : ¬cond0_1 (grid0.coords t) := nc1_of_ne t hl
      rw [Dat.leavesExact_idle (dat0 V c) 1 t (idleAt0_1 t hn1) (noFlush0_1 t hn1)]
      rw [Dat.leavesExact_idle (dat0 V c) 2 t (idleAt0_2 t hn1) (noFlush0_2 t hn1)]
      rw [accAt_B V c t hz hl]
      unfold rd0 rd1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩⟩
      iapply ((runB V c t hz hl _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scoverB_0 V c t hz hl _ _)
          isplitl [HS1]
          · unfold owns; iexists _; isplitr
            swap; · iexact HS1
            ipureintro; exact View.read_writes_of_cover _ _ _ _ _ (scoverB_1 V c t hz hl _ _)
          iexact Hr
        iexact Hg
      isplitl [Ho]; · iexact Ho
      isplitl [H0]; · iexact H0
      isplitl [H1]; · iexists _; iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Cert.Kernel.Hand

end
-- ==== Proof.K.Region1.lean ====
/-
  Pipeline 1 (the apply kernel: 32 grid points, five windows) as a region of a several-region program, at the
  contents V the TensorCore's buffers hold when the region is entered. The body loads its four input windows'
  staging buffers, computes, and fills the output window's staging buffer by four row stores that tile it; it keeps
  nothing between points. Stated for any float instance.

  Contents: each window's block at a point (iblk1); what the body leaves in the output's staging buffer as a closed
  function of the input blocks (out1_4: the canonical contents of its four stores); the body's triple on whole
  staging memrefs (sound_kernel1); the pipeline's proof data (dat1) and its body obligation (body_obligation1).
-/
import proofs.«141837_j49177375539587_2_alg».proof.Proof.Gen.Kernel.Launch
import proofs.«141837_j49177375539587_2_alg».proof.Proof.Gen.Kernel.Skeleton
import proofs.«141837_j49177375539587_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is V's and whose body leaves the block in place (where a window is not fetched its block index
    has not moved, so the buffer still holds the block). Window 0's block moves with the point and is fetched at
    every point. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Windows 1, 2, 3 (the mean, the whitening matrix, the shift) are fetched at the first point only and are the
    same block at every point. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

-- the four rows of the [4, 64, 3136] blocks (input 0's and the output's)
abbrev r1_row0 : Rect S4x64x3136 := Rect.unit (s := S4x64x3136) ![0, 0, 0] S1x64x3136.size inb_S4x64x3136_S1x64x3136_0_0_0
abbrev r1_row1 : Rect S4x64x3136 := Rect.unit (s := S4x64x3136) ![1, 0, 0] S1x64x3136.size inb_S4x64x3136_S1x64x3136_1_0_0
abbrev r1_row2 : Rect S4x64x3136 := Rect.unit (s := S4x64x3136) ![2, 0, 0] S1x64x3136.size inb_S4x64x3136_S1x64x3136_2_0_0
abbrev r1_row3 : Rect S4x64x3136 := Rect.unit (s := S4x64x3136) ![3, 0, 0] S1x64x3136.size inb_S4x64x3136_S1x64x3136_3_0_0
-- the whole of a [64, 1] block (the mean's and the shift's) and of the [64, 64] block (the matrix's)
abbrev r1_col : Rect S64x1 := Rect.unit (s := S64x1) ![0, 0] S64x1.size inb_S64x1_S64x1_0_0
abbrev r1_mat : Rect S64x64 := Rect.unit (s := S64x64) ![0, 0] S64x64.size inb_S64x64_S64x64_0_0

/-! ## What the body leaves in the output window's buffer -/

/-- Window 4's staging buffer after the body, from the input windows' blocks: its four row stores as pieces, last
    first; each payload is the skeleton's, of the matrix, the row of input 0, the mean and the shift. -/
def out1_4 (x0 : Vec F S4x64x3136 .f32) (x1 : Vec F S64x1 .f32) (x2 : Vec F S64x64 .f32) (x3 : Vec F S64x1 .f32) : Vec F S4x64x3136 .f32 :=
  View.canon [⟨r1_row3, k1_pay2 (k1_pay3 (View.ld x2 r1_mat)) (View.ld x0 r1_row3) (View.ld x1 r1_col) (View.ld x3 r1_col)⟩,
    ⟨r1_row2, k1_pay1 (k1_pay3 (View.ld x2 r1_mat)) (View.ld x0 r1_row2) (View.ld x1 r1_col) (View.ld x3 r1_col)⟩,
    ⟨r1_row1, k1_pay5 (View.ld x2 r1_mat) (View.ld x0 r1_row1) (View.ld x1 r1_col) (View.ld x3 r1_col)⟩,
    ⟨r1_row0, k1_pay4 (View.ld x2 r1_mat) (View.ld x0 r1_row0) (View.ld x1 r1_col) (View.ld x3 r1_col)⟩]

/-- The four row stores tile the buffer (checked by evaluation), so they cover it. -/
theorem cover1_4 (p3 p2 p1 p0 : Vec F S1x64x3136 .f32) (y : S4x64x3136.Idx) :
    ∃ pc ∈ ([⟨r1_row3, p3⟩, ⟨r1_row2, p2⟩, ⟨r1_row1, p1⟩, ⟨r1_row0, p0⟩] : List (View.Piece (Elt F) S4x64x3136 .f32)), y ∈ pc.1.set :=
  View.cover_of_tiled [⟨r1_row3, p3⟩, ⟨r1_row2, p2⟩, ⟨r1_row1, p1⟩, ⟨r1_row0, p0⟩] S1x64x3136.size (by rfl) y

/-! ## The body's triple -/

set_option maxHeartbeats 1000000 in
/-- The kernel body on whole staging memrefs, the inputs' at read contents x0..x3 and the output's at anything, runs
    to the continuation holding the inputs' as they were and the output's at out1_4 of the inputs': the printed
    function and its part are their skeletons, which the symbolic executor runs. -/
theorem sound_kernel1 (c : Dev nD) (E : Set ℕ) (i : grid1.Coords)
    (arg1 : Memref sig .tc .vmem S4x64x3136 .f32) (harg1 : arg1.IsWhole) (arg2 : Memref sig .tc .vmem S64x1 .f32) (harg2 : arg2.IsWhole)
    (arg3 : Memref sig .tc .vmem S64x64 .f32) (harg3 : arg3.IsWhole) (arg4 : Memref sig .tc .vmem S64x1 .f32) (harg4 : arg4.IsWhole)
    (arg5 : Memref sig .tc .vmem S4x64x3136 .f32) (harg5 : arg5.IsWhole)
    (x0 : Vec F S4x64x3136 .f32) (x1 : Vec F S64x1 .f32) (x2 : Vec F S64x64 .f32) (x3 : Vec F S64x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__apply_kernel i arg1 harg1 arg2 harg2 arg3 harg3 arg4 harg4 arg5 harg5) K := by
  simp only [cc1__apply_kernel_eq_skeleton]; unfold cc1__apply_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _ _ _)

/-! ## The pipeline's proof data -/

/-- The proof data of pipeline 1 on core c: the arrays as the region finds them (V); after the body at point t each
    input's buffer at its block and the output's at out1_4 of the input blocks; the invariant the scoped rest and the
    generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Launch.lean ====
/-
  The run of the whole program: @main is a reshape of the input, the accumulation region, the host operations that
  turn the two accumulated statistics into the mean and the whitening matrix (three stretches: before, inside and
  after the trace), the apply region, and a final reshape. The buffers' contents at each boundary are a fold through
  @main; each region is entered from the contents the segment before it left and leaves its arrays at what the
  pipeline computes; every weakly fair execution terminates with every unscoped buffer at the last boundary's contents.
-/
import proofs.«141837_j49177375539587_2_alg».proof.Proof.K.Region0
import proofs.«141837_j49177375539587_2_alg».proof.Proof.K.Region1
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the input's reshape: the accumulation region's entry. -/
abbrev Wa : Dev nD → Valuation τ sig (Elt F) := fun c => StableHlo.after hostOps0 (W0 m ρ c)
abbrev Va : (c : Dev nD) → (b : Ref sig .tc) → Buf (Elt F) ((c : Thread nD τ).loc b) := fun c b => Wa m ρ c b
/-- At the accumulation region's exit: its arrays at what the pipeline leaves, every other buffer as entered. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Va' : (c : Dev nD) → (b : Ref sig .tc) → Buf (Elt F) ((c : Thread nD τ).loc b) := fun c b => Wb m ρ c b
theorem hFa (c : Dev nD) (w : Fin cfg0.W) : (dat0 (Va m ρ) c).arrAt w cfg0.N = Va' m ρ c (Pipeline.arrRef spec0 w) :=
  (Wb_arr m ρ c w).symm
theorem hresta (c : Dev nD) : ∀ b, b ∉ Finset.univ.image (Pipeline.arrRef spec0) → Va' m ρ c b = Va m ρ c b :=
  fun b hb => Wb_of_ne m ρ c b fun w e => hb (Finset.mem_image.mpr ⟨w, Finset.mem_univ _, e⟩)
/-- After the host operations up to the trace, inside it, and after it: the apply region's entry. -/
abbrev Wc : Dev nD → Valuation τ sig (Elt F) := fun c => StableHlo.after hostOps1 (Wb m ρ c)
abbrev Wd : Dev nD → Valuation τ sig (Elt F) := fun c => StableHlo.after hostOps1_1 (Wc m ρ c)
abbrev We : Dev nD → Valuation τ sig (Elt F) := fun c => StableHlo.after hostOps1_2 (Wd m ρ c)
abbrev Ve : (c : Dev nD) → (b : Ref sig .tc) → Buf (Elt F) ((c : Thread nD τ).loc b) := fun c b => We m ρ c b
/-- At the apply region's exit. -/
def Wf (c : Dev nD) : Valuation τ sig (Elt F) :=
  Pipeline.withArrays spec1 c (We m ρ c) fun w => (dat1 (Ve m ρ) c).arrAt w cfg1.N
theorem Wf_arr (c : Dev nD) (w : Fin cfg1.W) :
    Wf m ρ c (Proc.devRef .tc (Pipeline.arrRef spec1 w)) = (dat1 (Ve m ρ) c).arrAt w cfg1.N := by
  unfold Wf; exact Pipeline.withArrays_arr spec1 launch1.win.arr_inj c _ _ w
theorem Wf_of_ne (c : Dev nD) (b : Ref sig .tc) (hb : ∀ w, Pipeline.arrRef spec1 w ≠ b) :
    Wf m ρ c (Proc.devRef .tc b) = We m ρ c (Proc.devRef .tc b) := by
  unfold Wf; exact Pipeline.withArrays_of_ne spec1 c _ _ b hb
abbrev Ve' : (c : Dev nD) → (b : Ref sig .tc) → Buf (Elt F) ((c : Thread nD τ).loc b) := fun c b => Wf m ρ c b
theorem hFe (c : Dev nD) (w : Fin cfg1.W) : (dat1 (Ve m ρ) c).arrAt w cfg1.N = Ve' m ρ c (Pipeline.arrRef spec1 w) :=
  (Wf_arr m ρ c w).symm
theorem hreste (c : Dev nD) : ∀ b, b ∉ Finset.univ.image (Pipeline.arrRef spec1) → Ve' m ρ c b = Ve m ρ c b :=
  fun b hb => Wf_of_ne m ρ c b fun w e => hb (Finset.mem_image.mpr ⟨w, Finset.mem_univ _, e⟩)
/-- After the result's reshape: the end. -/
abbrev Wg : Dev nD → Valuation τ sig (Elt F) := fun c => StableHlo.after hostOps2 (Wf m ρ c)

/-! ### The arguments end as launched: no host operation and no region writes one -/

theorem Wg_main_arg0 (c : Dev nD) : Wg m ρ c (Proc.devRef .tc main_arg0) = m ((c : Thread nD τ).loc main_arg0) :=
  calc Wg m ρ c (Proc.devRef .tc main_arg0)
    _ = Wf m ρ c (Proc.devRef .tc main_arg0) := StableHlo.after_of_forall_not_mem (b := Proc.devRef .tc main_arg0) _ _ (List.forall_iff_forall_mem.mp (by
          simp only [hostOps2, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = We m ρ c (Proc.devRef .tc main_arg0) := Wf_of_ne m ρ c main_arg0 (by decide)
    _ = Wd m ρ c (Proc.devRef .tc main_arg0) := StableHlo.after_of_forall_not_mem (b := Proc.devRef .tc main_arg0) _ _ (List.forall_iff_forall_mem.mp (by
          simp only [hostOps1_2, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wc m ρ c (Proc.devRef .tc main_arg0) := StableHlo.after_of_forall_not_mem (b := Proc.devRef .tc main_arg0) _ _ (List.forall_iff_forall_mem.mp (by
          simp only [hostOps1_1, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb m ρ c (Proc.devRef .tc main_arg0) := StableHlo.after_of_forall_not_mem (b := Proc.devRef .tc main_arg0) _ _ (List.forall_iff_forall_mem.mp (by
          simp only [hostOps1, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wa m ρ c (Proc.devRef .tc main_arg0) := Wb_of_ne m ρ c main_arg0 (by decide)
    _ = W0 m ρ c (Proc.devRef .tc main_arg0) := StableHlo.after_of_forall_not_mem (b := Proc.devRef .tc main_arg0) _ _ (List.forall_iff_forall_mem.mp (by
          simp only [hostOps0, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem Wg_main_arg1 (c : Dev nD) : Wg m ρ c (Proc.devRef .tc main_arg1) = m ((c : Thread nD τ).loc main_arg1) :=
  calc Wg m ρ c (Proc.devRef .tc main_arg1)
    _ = Wf m ρ c (Proc.devRef .tc main_arg1) := StableHlo.after_of_forall_not_mem (b := Proc.devRef .tc main_arg1) _ _ (List.forall_iff_forall_mem.mp (by
          simp only [hostOps2, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = We m ρ c (Proc.devRef .tc main_arg1) := Wf_of_ne m ρ c main_arg1 (by decide)
    _ = Wd m ρ c (Proc.devRef .tc main_arg1) := StableHlo.after_of_forall_not_mem (b := Proc.devRef .tc main_arg1) _ _ (List.forall_iff_forall_mem.mp (by
          simp only [hostOps1_2, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wc m ρ c (Proc.devRef .tc main_arg1) := StableHlo.after_of_forall_not_mem (b := Proc.devRef .tc main_arg1) _ _ (List.forall_iff_forall_mem.mp (by
          simp only [hostOps1_1, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb m ρ c (Proc.devRef .tc main_arg1) := StableHlo.after_of_forall_not_mem (b := Proc.devRef .tc main_arg1) _ _ (List.forall_iff_forall_mem.mp (by
          simp only [hostOps1, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wa m ρ c (Proc.devRef .tc main_arg1) := Wb_of_ne m ρ c main_arg1 (by decide)
    _ = W0 m ρ c (Proc.devRef .tc main_arg1) := StableHlo.after_of_forall_not_mem (b := Proc.devRef .tc main_arg1) _ _ (List.forall_iff_forall_mem.mp (by
          simp only [hostOps0, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (Va m ρ) c
  | ⟨1, _⟩ => fun c => dat1 (Ve m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Wg m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Va m ρ) c)
    unfold Pipeline.ΦA
    iintro ⟨Hp, -, Hr⟩
    isplitl [Hr]; · iexact Hr
    iexact Hp
  hout c := by
    rw [Pipeline.ownSems0_none]
    refine BIBase.Entails.trans (hout0 (Va m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (Va m ρ c) (Va' m ρ c) ((pdats m ρ 0 c).arrAt · cfg0.N) (hFa m ρ c) (hresta m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve m ρ) c).loose
  hwaits := Pipeline.hwaits_of_owed_zero _ _ _ _ L lv 1 fun _ _ => rfl
  pre c := iprop(StableHlo.held (c : Thread nD τ) (Pipeline.ucRefs τ sig) (We m ρ c) ∗ R c)
  post c := iprop(StableHlo.held (c : Thread nD τ) (Pipeline.ucRefs τ sig) (Wf m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (Ve m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (Ve m ρ c) (Ve' m ρ c) ((pdats m ρ 1 c).arrAt · cfg1.N) (hFe m ρ c) (hreste m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (Wb m ρ)),
    .host (hseg hostOps1_1 hostOps1_1_sub hostOps1_1_fresh (Wc m ρ)),
    .host (hseg hostOps1_2 hostOps1_2_sub hostOps1_2_fresh (Wd m ρ)),
    .region (reg1 m ρ),
    .host (hseg hostOps2 hostOps2_sub hostOps2_fresh (Wf m ρ)) ]

theorem main_run (c : Dev nD) : main (F := F) c = Pipeline.Seg.run (segs m ρ) := (main_chain c).trans (by chain_rfl)

/-- What the run ends with: every unscoped buffer at the last boundary's contents. -/
def QW : PUnit × MemSt nD τ sig (Elt F) → Prop := fun r =>
  ∀ c : Dev nD, ∀ b ∈ Pipeline.ucRefs τ sig, r.2.mem (((c : Thread nD τ)).1, b) = Wg m ρ c b

set_option backward.isDefEq.respectTransparency.types false in
/-- THE RUN: from any memory with zero counters every weakly fair execution of @main on the TensorCores terminates,
    nothing faulting, with every unscoped buffer at the fold's last contents. -/
theorem run_main : θ_run defs (onTc (τ := τ) (main (F := F))) ⟨m, fun _ => 0, ρ⟩ (QW m ρ) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (Wg m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wg m ρ c b)
    (hfin := fun c s' => by
      iintro ⟨⟨Hh, -⟩, HSI⟩
      unfold StableHlo.held
      imodintro
      iapply (pointsTo_read_all (Pipeline.ucRefs τ sig) (fun b => (((c : Thread nD τ)).1, b)) (Wg m ρ c) s')
      isplitl [Hh] <;> iassumption)
    (hQ := fun s h c => h c)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Wg_main_arg0 m ρ c),
     (h c _ (mem_uc main_arg1 (by decide))).trans (Wg_main_arg1 m ρ c)⟩) (run_main m ρ)

end Cert.Kernel.Hand

end
-- ==== Proof.KI.R0Shared.lean ====
/-
  The accumulation kernel (pipeline 0) as a region entered from contents `V`: what its runs are stated over.
  The grid has 16 points; each point stages one block of 8 batch rows of the input (64 channels by 3136 positions
  each), adds the 8 rows' channel sums into the first scratch buffer and the 8 rows' Gram matrices into the second,
  after zeroing both at the first point, and copies both scratch buffers into the two output windows at the last
  point. The two branch conditions are decided over the grid in closed form; the output windows are idle except at
  the last point.
-/
import proofs.«141837_j49177375539587_2_alg».proof.Proof.Gen.KernelIdeal.Launch
import proofs.«141837_j49177375539587_2_alg».proof.Proof.Gen.KernelIdeal.Skeleton
import proofs.«141837_j49177375539587_2_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The input window's blocks -/

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is `V`'s
    and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- "This is the first point": the reset of the two accumulators is taken. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last point": the accumulators are copied into the output windows. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_1 : View sig .tc .vmem S64x1 .f32 := (Memref.whole cc0_stg1_0 : Memref sig .tc .vmem S64x1 .f32).view
abbrev VO0_2 : View sig .tc .vmem S64x64 .f32 := (Memref.whole cc0_stg2_0 : Memref sig .tc .vmem S64x64 .f32).view
abbrev ms0_0 (t : Fin cfg0.N) : Memref sig .tc .vmem S8x64x3136 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
/-- The two accumulators: whole scoped buffers of the kernel's own, carried from point to point. -/
abbrev scM0_0 : Memref sig .tc .vmem S64x1 .f32 := Memref.whole cc0_scratch0
abbrev scM0_1 : Memref sig .tc .vmem S64x64 .f32 := Memref.whole cc0_scratch1
abbrev VS0_0 : View sig .tc .vmem S64x1 .f32 := scM0_0.view
abbrev VS0_1 : View sig .tc .vmem S64x64 .f32 := scM0_1.view

/-- The core's other scoped buffers (the second pipeline's staging buffers), each at some contents: they ride
    through this region untouched. -/
def rest0 (c : Dev nD) : sProp 𝕄 :=
  iprop((∃ f, ((c : Thread nD τ).loc cc1_stg0_0) ↦{fullShare} f) ∗ (∃ f, ((c : Thread nD τ).loc cc1_stg0_1) ↦{fullShare} f)
    ∗ (∃ f, ((c : Thread nD τ).loc cc1_stg1_0) ↦{fullShare} f) ∗ (∃ f, ((c : Thread nD τ).loc cc1_stg2_0) ↦{fullShare} f)
    ∗ (∃ f, ((c : Thread nD τ).loc cc1_stg3_0) ↦{fullShare} f) ∗ (∃ f, ((c : Thread nD τ).loc cc1_stg4_0) ↦{fullShare} f)
    ∗ (∃ f, ((c : Thread nD τ).loc cc1_stg4_1) ↦{fullShare} f))

/-- The class invariant with the two accumulators as memrefs owned at some contents, the other scoped buffers beside. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.KernelIdeal.Hand

end
-- ==== Proof.KI.R0RunA.lean ====
/-
  The accumulation kernel's body at the FIRST grid point: both accumulators are zeroed, then the eight batch rows of
  the staged block are added in (row sums into the first, Gram matrices into the second). The output windows are not
  touched. The pieces the accumulators end with are found by running the body.
-/
import proofs.«141837_j49177375539587_2_alg».proof.Proof.KI.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple at the first point: from the input block at `x0`, the output buffers at anything handed back
    untouched, the accumulators at anything, it runs to the accumulators with their pieces written. -/
noncomputable def kernelRun0_A (c : Dev nD) (i : grid0.Coords) (arg1 : Memref sig .tc .vmem S8x64x3136 .f32) (harg1 : arg1.IsWhole) (arg2 : Memref sig .tc .vmem S64x1 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S64x64 .f32) (harg5 : arg5.IsWhole) (hc0 : cond0_0 i) (hc1 : ¬cond0_1 i)
    (x0 : Vec F S8x64x3136 .f32) :
    Σ' (LS0 : List (View.Piece (Elt F) S64x1 .f32)), { LS1 : List (View.Piece (Elt F) S64x64 .f32) //
      ∀ (xi1 : Vec F S64x1 .f32) (xi2 : Vec F S64x64 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__reduce_kernel i arg1 harg1 arg2 harg2 arg3 harg3 arg4 harg4 arg5 harg5) K } := by
  refine ⟨?_, ?_, fun xi1 xi2 E K => ?run⟩
  case run =>
    simp only [cc0__reduce_kernel_eq_skeleton]; unfold cc0__reduce_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KI.R0RunB.lean ====
/-
  The accumulation kernel's body at a MIDDLE grid point (neither first nor last): the eight batch rows of the staged
  block are added into the accumulators, which hold what the point before left. The output windows are not touched.
-/
import proofs.«141837_j49177375539587_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple at a middle point: from the input block at `x0` and the accumulators at `xs0`, `xs1`, it runs
    to the accumulators with their pieces written; the output buffers are handed back untouched. -/
noncomputable def kernelRun0_B (c : Dev nD) (i : grid0.Coords) (arg1 : Memref sig .tc .vmem S8x64x3136 .f32) (harg1 : arg1.IsWhole) (arg2 : Memref sig .tc .vmem S64x1 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S64x64 .f32) (harg5 : arg5.IsWhole) (hc0 : ¬cond0_0 i) (hc1 : ¬cond0_1 i)
    (x0 : Vec F S8x64x3136 .f32) (xs0 : Vec F S64x1 .f32) (xs1 : Vec F S64x64 .f32) :
    Σ' (LS0 : List (View.Piece (Elt F) S64x1 .f32)), { LS1 : List (View.Piece (Elt F) S64x64 .f32) //
      ∀ (xi1 : Vec F S64x1 .f32) (xi2 : Vec F S64x64 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__reduce_kernel i arg1 harg1 arg2 harg2 arg3 harg3 arg4 harg4 arg5 harg5) K } := by
  refine ⟨?_, ?_, fun xi1 xi2 E K => ?run⟩
  case run =>
    simp only [cc0__reduce_kernel_eq_skeleton]; unfold cc0__reduce_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KI.R0RunC.lean ====
/-
  The accumulation kernel's body at the LAST grid point: the eight batch rows of the staged block are added into the
  accumulators, which hold what the point before left, and both accumulators are then copied into the output windows.
-/
import proofs.«141837_j49177375539587_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple at the last point: from the input block at `x0` and the accumulators at `xs0`, `xs1`, the
    output buffers at anything, it runs to the accumulators and the output buffers with their pieces written. -/
noncomputable def kernelRun0_C (c : Dev nD) (i : grid0.Coords) (arg1 : Memref sig .tc .vmem S8x64x3136 .f32) (harg1 : arg1.IsWhole) (arg2 : Memref sig .tc .vmem S64x1 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S64x64 .f32) (harg5 : arg5.IsWhole) (hc0 : ¬cond0_0 i) (hc1 : cond0_1 i)
    (x0 : Vec F S8x64x3136 .f32) (xs0 : Vec F S64x1 .f32) (xs1 : Vec F S64x64 .f32) :
    Σ' (L1 : List (View.Piece (Elt F) S64x1 .f32)) (L2 : List (View.Piece (Elt F) S64x64 .f32)) (LS0 : List (View.Piece (Elt F) S64x1 .f32)), { LS1 : List (View.Piece (Elt F) S64x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__reduce_kernel i arg1 harg1 arg2 harg2 arg3 harg3 arg4 harg4 arg5 harg5) K } := by
  refine ⟨?_, ?_, ?_, ?_, fun E K => ?run⟩
  case run =>
    simp only [cc0__reduce_kernel_eq_skeleton]; unfold cc0__reduce_kernel_skel
    simp only [k0_part1_eq_skeleton, k0_part2_eq_skeleton, k0_part3_eq_skeleton, k0_part4_eq_skeleton]
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.KI.Region0.lean ====
/-
  The accumulation kernel (pipeline 0) as a region entered from contents `V`: what the two accumulators hold after
  each grid point (by recursion on the point: zeroed and filled at the first, added to at every later one), what the
  two output windows hold after the last point (copies of the accumulators), the region's invariant (the accumulators
  at those contents between points), the pipeline's proof data and the body obligation at every point.
-/
import proofs.«141837_j49177375539587_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The point's case, from its number -/

theorem N0' : cfg0.N = 16 := N_0
theorem c0_of_zero (t : Fin cfg0.N) (h : t.val = 0) : cond0_0 (grid0.coords t) := (hcond0_0 t).mpr (by rw [h])
theorem nc0_of_pos (t : Fin cfg0.N) (h : t.val ≠ 0) : ¬cond0_0 (grid0.coords t) := fun hc => by
  have h1 := (hcond0_0 t).mp hc; have h2 : t.val < 16 := lt_of_lt_of_eq t.isLt N0'; omega
theorem c1_of_last (t : Fin cfg0.N) (h : t.val = 15) : cond0_1 (grid0.coords t) := (hcond0_1 t).mpr (by rw [h])
theorem nc1_of_ne (t : Fin cfg0.N) (h : t.val ≠ 15) : ¬cond0_1 (grid0.coords t) := fun hc => by
  have h1 := (hcond0_1 t).mp hc; have h2 : t.val < 16 := lt_of_lt_of_eq t.isLt N0'; omega

/-! ## The body's runs at a point's own memrefs and input block -/

/-- The first point's run. -/
noncomputable def runA (c : Dev nD) (t : Fin cfg0.N) (h0 : t.val = 0) :=
  kernelRun0_A (F := F) c (grid0.coords t) (ms0_0 t) (hs0_0 t) (ms0_1 t) (hs0_1 t) (ms0_2 t) (hs0_2 t) scM0_0 (Memref.isWhole_whole _) scM0_1 (Memref.isWhole_whole _) (c0_of_zero t h0) (nc1_of_ne t (by omega)) (iblk0 V c 0 t)
/-- A middle point's run, the accumulators at `xs0`, `xs1`. -/
noncomputable def runB (c : Dev nD) (t : Fin cfg0.N) (h0 : t.val ≠ 0) (h1 : t.val ≠ 15) (xs0 : Vec F S64x1 .f32) (xs1 : Vec F S64x64 .f32) :=
  kernelRun0_B (F := F) c (grid0.coords t) (ms0_0 t) (hs0_0 t) (ms0_1 t) (hs0_1 t) (ms0_2 t) (hs0_2 t) scM0_0 (Memref.isWhole_whole _) scM0_1 (Memref.isWhole_whole _) (nc0_of_pos t h0) (nc1_of_ne t h1) (iblk0 V c 0 t) xs0 xs1
/-- The last point's run, the accumulators at `xs0`, `xs1`. -/
noncomputable def runC (c : Dev nD) (t : Fin cfg0.N) (h1 : t.val = 15) (xs0 : Vec F S64x1 .f32) (xs1 : Vec F S64x64 .f32) :=
  kernelRun0_C (F := F) c (grid0.coords t) (ms0_0 t) (hs0_0 t) (ms0_1 t) (hs0_1 t) (ms0_2 t) (hs0_2 t) scM0_0 (Memref.isWhole_whole _) scM0_1 (Memref.isWhole_whole _) (nc0_of_pos t (by omega)) (c1_of_last t h1) (iblk0 V c 0 t) xs0 xs1

/-- Pieces written into the first accumulator, read back. -/
def rd0 (L : List (View.Piece (Elt F) S64x1 .f32)) : Vec F S64x1 .f32 := VS0_0.read (Elt F) (VS0_0.writes (Elt F) VS0_0.junk L)
/-- Pieces written into the second accumulator, read back. -/
def rd1 (L : List (View.Piece (Elt F) S64x64 .f32)) : Vec F S64x64 .f32 := VS0_1.read (Elt F) (VS0_1.writes (Elt F) VS0_1.junk L)
/-- Pieces written into the first output window's buffer, read back. -/
def ro1 (L : List (View.Piece (Elt F) S64x1 .f32)) : Vec F S64x1 .f32 := VO0_1.read (Elt F) (VO0_1.writes (Elt F) VO0_1.junk L)
/-- Pieces written into the second output window's buffer, read back. -/
def ro2 (L : List (View.Piece (Elt F) S64x64 .f32)) : Vec F S64x64 .f32 := VO0_2.read (Elt F) (VO0_2.writes (Elt F) VO0_2.junk L)

/-! ## The runs' pieces tile their buffers -/

theorem scoverA_0 (c : Dev nD) (t : Fin cfg0.N) (h0 : t.val = 0) (y : S64x1.Idx) : ∃ pc ∈ (runA V c t h0).1, y ∈ pc.1.set :=
  View.cover_of_tiledL (runA V c t h0).1 S64x1.size (by sl_kernel_rfl) y
theorem scoverA_1 (c : Dev nD) (t : Fin cfg0.N) (h0 : t.val = 0) (y : S64x64.Idx) : ∃ pc ∈ (runA V c t h0).2.1, y ∈ pc.1.set :=
  View.cover_of_tiledL (runA V c t h0).2.1 S64x64.size (by sl_kernel_rfl) y
theorem scoverB_0 (c : Dev nD) (t : Fin cfg0.N) (h0 : t.val ≠ 0) (h1 : t.val ≠ 15) (xs0 xs1) (y : S64x1.Idx) : ∃ pc ∈ (runB V c t h0 h1 xs0 xs1).1, y ∈ pc.1.set :=
  View.cover_of_tiledL (runB V c t h0 h1 xs0 xs1).1 S64x1.size (by sl_kernel_rfl) y
theorem scoverB_1 (c : Dev nD) (t : Fin cfg0.N) (h0 : t.val ≠ 0) (h1 : t.val ≠ 15) (xs0 xs1) (y : S64x64.Idx) : ∃ pc ∈ (runB V c t h0 h1 xs0 xs1).2.1, y ∈ pc.1.set :=
  View.cover_of_tiledL (runB V c t h0 h1 xs0 xs1).2.1 S64x64.size (by sl_kernel_rfl) y
theorem coverC_1 (c : Dev nD) (t : Fin cfg0.N) (h1 : t.val = 15) (xs0 xs1) (y : S64x1.Idx) : ∃ pc ∈ (runC V c t h1 xs0 xs1).1, y ∈ pc.1.set :=
  View.cover_of_tiledL (runC V c t h1 xs0 xs1).1 S64x1.size (by sl_kernel_rfl) y
theorem coverC_2 (c : Dev nD) (t : Fin cfg0.N) (h1 : t.val = 15) (xs0 xs1) (y : S64x64.Idx) : ∃ pc ∈ (runC V c t h1 xs0 xs1).2.1, y ∈ pc.1.set :=
  View.cover_of_tiledL (runC V c t h1 xs0 xs1).2.1 S64x64.size (by sl_kernel_rfl) y
theorem scoverC_0 (c : Dev nD) (t : Fin cfg0.N) (h1 : t.val = 15) (xs0 xs1) (y : S64x1.Idx) : ∃ pc ∈ (runC V c t h1 xs0 xs1).2.2.1, y ∈ pc.1.set :=
  View.cover_of_tiledL (runC V c t h1 xs0 xs1).2.2.1 S64x1.size (by sl_kernel_rfl) y
theorem scoverC_1 (c : Dev nD) (t : Fin cfg0.N) (h1 : t.val = 15) (xs0 xs1) (y : S64x64.Idx) : ∃ pc ∈ (runC V c t h1 xs0 xs1).2.2.2.1, y ∈ pc.1.set :=
  View.cover_of_tiledL (runC V c t h1 xs0 xs1).2.2.2.1 S64x64.size (by sl_kernel_rfl) y

/-! ## What the accumulators hold after each point -/

/-- THE ACCUMULATION: the two accumulators after the body at point `n` — the first point's run from nothing, every
    later point's run from what the point before left. -/
def accAt (c : Dev nD) : (n : ℕ) → n < cfg0.N → Vec F S64x1 .f32 × Vec F S64x64 .f32
  | 0, hn => (rd0 (runA V c ⟨0, hn⟩ rfl).1, rd1 (runA V c ⟨0, hn⟩ rfl).2.1)
  | n + 1, hn =>
    if h1 : n + 1 = 15 then
      (rd0 (runC V c ⟨n + 1, hn⟩ h1 (accAt c n (Nat.lt_of_succ_lt hn)).1 (accAt c n (Nat.lt_of_succ_lt hn)).2).2.2.1,
       rd1 (runC V c ⟨n + 1, hn⟩ h1 (accAt c n (Nat.lt_of_succ_lt hn)).1 (accAt c n (Nat.lt_of_succ_lt hn)).2).2.2.2.1)
    else
      (rd0 (runB V c ⟨n + 1, hn⟩ (Nat.succ_ne_zero n) h1 (accAt c n (Nat.lt_of_succ_lt hn)).1 (accAt c n (Nat.lt_of_succ_lt hn)).2).1,
       rd1 (runB V c ⟨n + 1, hn⟩ (Nat.succ_ne_zero n) h1 (accAt c n (Nat.lt_of_succ_lt hn)).1 (accAt c n (Nat.lt_of_succ_lt hn)).2).2.1)

/-- What the point before `t` left in the accumulators (`t` not the first). -/
abbrev prevAcc (c : Dev nD) (t : Fin cfg0.N) : Vec F S64x1 .f32 × Vec F S64x64 .f32 :=
  accAt V c (t.val - 1) (Nat.lt_of_le_of_lt (Nat.sub_le _ _) t.isLt)

theorem accAt_A (c : Dev nD) (t : Fin cfg0.N) (h0 : t.val = 0) :
    accAt V c t.val t.isLt = (rd0 (runA V c t h0).1, rd1 (runA V c t h0).2.1) := by
  obtain ⟨n, hn⟩ := t
  cases n with
  | zero => rfl
  | succ n => exact absurd h0 (Nat.succ_ne_zero n)

theorem accAt_B (c : Dev nD) (t : Fin cfg0.N) (h0 : t.val ≠ 0) (h1 : t.val ≠ 15) :
    accAt V c t.val t.isLt = (rd0 (runB V c t h0 h1 (prevAcc V c t).1 (prevAcc V c t).2).1, rd1 (runB V c t h0 h1 (prevAcc V c t).1 (prevAcc V c t).2).2.1) := by
  obtain ⟨n, hn⟩ := t
  cases n with
  | zero => exact absurd rfl h0
  | succ n => exact (dif_neg h1).trans rfl

theorem accAt_C (c : Dev nD) (t : Fin cfg0.N) (h1 : t.val = 15) :
    accAt V c t.val t.isLt = (rd0 (runC V c t h1 (prevAcc V c t).1 (prevAcc V c t).2).2.2.1, rd1 (runC V c t h1 (prevAcc V c t).1 (prevAcc V c t).2).2.2.2.1) := by
  obtain ⟨n, hn⟩ := t
  cases n with
  | zero => exact absurd (show (0 : ℕ) = 15 from h1) (by decide)
  | succ n => exact (dif_pos h1).trans rfl

/-- What the two output windows' buffers hold after the body at point `t`: the accumulators' copies at the last
    point; at every other point the windows are idle and this is a placeholder nothing consults. -/
def outAt (c : Dev nD) (t : Fin cfg0.N) : Vec F S64x1 .f32 × Vec F S64x64 .f32 :=
  if h1 : t.val = 15 then
    (ro1 (runC V c t h1 (prevAcc V c t).1 (prevAcc V c t).2).1, ro2 (runC V c t h1 (prevAcc V c t).1 (prevAcc V c t).2).2.1)
  else (VO0_1.read (Elt F) VO0_1.junk, VO0_2.read (Elt F) VO0_2.junk)

theorem outAt_C (c : Dev nD) (t : Fin cfg0.N) (h1 : t.val = 15) :
    outAt V c t = (ro1 (runC V c t h1 (prevAcc V c t).1 (prevAcc V c t).2).1, ro2 (runC V c t h1 (prevAcc V c t).1 (prevAcc V c t).2).2.1) := dif_pos h1

/-! ## The region's invariant -/

/-- Before point `n`: at the first point the class invariant (the accumulators at anything); afterwards the
    accumulators at what the point before left, the core's other scoped buffers and the generator register beside. -/
def PhiS (c : Dev nD) : (n : ℕ) → n ≤ cfg0.N → sProp 𝕄
  | 0, _ => Pipeline.ΦA spec0 c
  | n + 1, hn => iprop(iprop(owns (c : Thread nD τ) scM0_0 fullShare (accAt V c n hn).1 ∗ owns (c : Thread nD τ) scM0_1 fullShare (accAt V c n hn).2 ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (accAt V c n hn).1 ∗ owns (c : Thread nD τ) scM0_1 fullShare (accAt V c n hn).2 ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare (accAt V c (n - 1) (by omega)).1 ∗ owns (c : Thread nD τ) scM0_1 fullShare (accAt V c (n - 1) (by omega)).2 ∗ rest0 c) ∗ (∃ r, prngReg c r)) := by
  cases n with
  | zero => exact absurd rfl hz
  | succ n => rfl

/-! ## The pipeline's proof data -/

/-- The arrays as the region finds them; after the body the input's buffer at its block, the outputs' at `outAt`;
    the invariant `PhiS`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => (outAt V c t).1
    | ⟨2, _⟩ => (outAt V c t).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outAt V c t).1 := by dsimp only [dat0]
theorem after0_2 (c : Dev nD) (t : Fin cfg0.N) : (dat0 V c).after 2 t = (outAt V c t).2 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input's buffer holds its block; the point's number says which case it is in; the
    invariant hands the body the accumulators at what the point before left (at anything at the first point) and takes
    them back at this point's contents; at the last point the output windows' buffers are filled. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  by_cases hz : t.val = 0
  · have hn1 : ¬cond0_1 (grid0.coords t) := nc1_of_ne t (by omega)
    rw [Dat.leavesExact_idle (dat0 V c) 1 t (idleAt0_1 t hn1) (noFlush0_1 t hn1)]
    rw [Dat.leavesExact_idle (dat0 V c) 2 t (idleAt0_2 t hn1) (noFlush0_2 t hn1)]
    rw [accAt_A V c t hz]
    unfold rd0 rd1; (try dsimp only)
    rw [PhiS_castSucc V c t, PhiS_zero V c _ _ hz, PhiA0_eq]
    iintro ⟨⟨⟨HS0, HS1, Hr⟩, Hg⟩, Ho, ⟨%d0, H0⟩, ⟨%d1, H1⟩, ⟨%d2, H2⟩⟩
    iapply ((runA V c t hz).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scoverA_0 V c t hz)
        isplitl [HS1]
        · unfold owns; iexists _; isplitr
          swap; · iexact HS1
          ipureintro; exact View.read_writes_of_cover _ _ _ _ _ (scoverA_1 V c t hz)
        iexact Hr
      iexact Hg
    isplitl [Ho]; · iexact Ho
    isplitl [H0]; · iexact H0
    isplitl [H1]; · iexists _; iexact H1
    iexists _; iexact H2
  · by_cases hl : t.val = 15
    · have hc1 : cond0_1 (grid0.coords t) := c1_of_last t hl
      rw [show (dat0 V c).leavesExact 1 t = owns (c : Thread nD τ) (ms0_1 t) fullShare ((dat0 V c).after 1 t) from by
        unfold Dat.leavesExact; rw [liveAt0_1 t hc1], after0_1]
      rw [show (dat0 V c).leavesExact 2 t = owns (c : Thread nD τ) (ms0_2 t) fullShare ((dat0 V c).after 2 t) from by
        unfold Dat.leavesExact; rw [liveAt0_2 t hc1], after0_2]
      rw [accAt_C V c t hl, outAt_C V c t hl]
      unfold rd0 rd1 ro1 ro2; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩⟩
      iapply ((runC V c t hl _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scoverC_0 V c t hl _ _)
          isplitl [HS1]
          · unfold owns; iexists _; isplitr
            swap; · iexact HS1
            ipureintro; exact View.read_writes_of_cover _ _ _ _ _ (scoverC_1 V c t hl _ _)
          iexact Hr
        iexact Hg
      isplitl [Ho]; · iexact Ho
      isplitl [H0]; · iexact H0
      isplitl [H1]
      · unfold owns; iexists _; isplitr
        swap; · iexact H1
        ipureintro; exact View.read_writes_of_cover _ _ _ _ _ (coverC_1 V c t hl _ _)
      unfold owns; iexists _; isplitr
      swap; · iexact H2
      ipureintro; exact View.read_writes_of_cover _ _ _ _ _ (coverC_2 V c t hl _ _)
    · have hn1 : ¬cond0_1 (grid0.coords t) := nc1_of_ne t hl
      rw [Dat.leavesExact_idle (dat0 V c) 1 t (idleAt0_1 t hn1) (noFlush0_1 t hn1)]
      rw [Dat.leavesExact_idle (dat0 V c) 2 t (idleAt0_2 t hn1) (noFlush0_2 t hn1)]
      rw [accAt_B V c t hz hl]
      unfold rd0 rd1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩⟩
      iapply ((runB V c t hz hl _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scoverB_0 V c t hz hl _ _)
          isplitl [HS1]
          · unfold owns; iexists _; isplitr
            swap; · iexact HS1
            ipureintro; exact View.read_writes_of_cover _ _ _ _ _ (scoverB_1 V c t hz hl _ _)
          iexact Hr
        iexact Hg
      isplitl [Ho]; · iexact Ho
      isplitl [H0]; · iexact H0
      isplitl [H1]; · iexists _; iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Cert.KernelIdeal.Hand

end
-- ==== Proof.KI.Region1.lean ====
/-
  Pipeline 1 (the apply kernel: 32 grid points, five windows) as a region of a several-region program, at the
  contents V the TensorCore's buffers hold when the region is entered. The body loads its four input windows'
  staging buffers, computes, and fills the output window's staging buffer by four row stores that tile it; it keeps
  nothing between points. Stated for any float instance.

  Contents: each window's block at a point (iblk1); what the body leaves in the output's staging buffer as a closed
  function of the input blocks (out1_4: the canonical contents of its four stores); the body's triple on whole
  staging memrefs (sound_kernel1); the pipeline's proof data (dat1) and its body obligation (body_obligation1).
-/
import proofs.«141837_j49177375539587_2_alg».proof.Proof.Gen.KernelIdeal.Launch
import proofs.«141837_j49177375539587_2_alg».proof.Proof.Gen.KernelIdeal.Skeleton
import proofs.«141837_j49177375539587_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is V's and whose body leaves the block in place (where a window is not fetched its block index
    has not moved, so the buffer still holds the block). Window 0's block moves with the point and is fetched at
    every point. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Windows 1, 2, 3 (the mean, the whitening matrix, the shift) are fetched at the first point only and are the
    same block at every point. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

-- the four rows of the [4, 64, 3136] blocks (input 0's and the output's)
abbrev r1_row0 : Rect S4x64x3136 := Rect.unit (s := S4x64x3136) ![0, 0, 0] S1x64x3136.size inb_S4x64x3136_S1x64x3136_0_0_0
abbrev r1_row1 : Rect S4x64x3136 := Rect.unit (s := S4x64x3136) ![1, 0, 0] S1x64x3136.size inb_S4x64x3136_S1x64x3136_1_0_0
abbrev r1_row2 : Rect S4x64x3136 := Rect.unit (s := S4x64x3136) ![2, 0, 0] S1x64x3136.size inb_S4x64x3136_S1x64x3136_2_0_0
abbrev r1_row3 : Rect S4x64x3136 := Rect.unit (s := S4x64x3136) ![3, 0, 0] S1x64x3136.size inb_S4x64x3136_S1x64x3136_3_0_0
-- the whole of a [64, 1] block (the mean's and the shift's) and of the [64, 64] block (the matrix's)
abbrev r1_col : Rect S64x1 := Rect.unit (s := S64x1) ![0, 0] S64x1.size inb_S64x1_S64x1_0_0
abbrev r1_mat : Rect S64x64 := Rect.unit (s := S64x64) ![0, 0] S64x64.size inb_S64x64_S64x64_0_0

/-! ## What the body leaves in the output window's buffer -/

/-- Window 4's staging buffer after the body, from the input windows' blocks: its four row stores as pieces, last
    first; each payload is the skeleton's, of the matrix, the row of input 0, the mean and the shift. -/
def out1_4 (x0 : Vec F S4x64x3136 .f32) (x1 : Vec F S64x1 .f32) (x2 : Vec F S64x64 .f32) (x3 : Vec F S64x1 .f32) : Vec F S4x64x3136 .f32 :=
  View.canon [⟨r1_row3, k1_pay2 (k1_pay3 (View.ld x2 r1_mat)) (View.ld x0 r1_row3) (View.ld x1 r1_col) (View.ld x3 r1_col)⟩,
    ⟨r1_row2, k1_pay1 (k1_pay3 (View.ld x2 r1_mat)) (View.ld x0 r1_row2) (View.ld x1 r1_col) (View.ld x3 r1_col)⟩,
    ⟨r1_row1, k1_pay5 (View.ld x2 r1_mat) (View.ld x0 r1_row1) (View.ld x1 r1_col) (View.ld x3 r1_col)⟩,
    ⟨r1_row0, k1_pay4 (View.ld x2 r1_mat) (View.ld x0 r1_row0) (View.ld x1 r1_col) (View.ld x3 r1_col)⟩]

/-- The four row stores tile the buffer (checked by evaluation), so they cover it. -/
theorem cover1_4 (p3 p2 p1 p0 : Vec F S1x64x3136 .f32) (y : S4x64x3136.Idx) :
    ∃ pc ∈ ([⟨r1_row3, p3⟩, ⟨r1_row2, p2⟩, ⟨r1_row1, p1⟩, ⟨r1_row0, p0⟩] : List (View.Piece (Elt F) S4x64x3136 .f32)), y ∈ pc.1.set :=
  View.cover_of_tiled [⟨r1_row3, p3⟩, ⟨r1_row2, p2⟩, ⟨r1_row1, p1⟩, ⟨r1_row0, p0⟩] S1x64x3136.size (by rfl) y

/-! ## The body's triple -/

set_option maxHeartbeats 1000000 in
/-- The kernel body on whole staging memrefs, the inputs' at read contents x0..x3 and the output's at anything, runs
    to the continuation holding the inputs' as they were and the output's at out1_4 of the inputs': the printed
    function and its part are their skeletons, which the symbolic executor runs. -/
theorem sound_kernel1 (c : Dev nD) (E : Set ℕ) (i : grid1.Coords)
    (arg1 : Memref sig .tc .vmem S4x64x3136 .f32) (harg1 : arg1.IsWhole) (arg2 : Memref sig .tc .vmem S64x1 .f32) (harg2 : arg2.IsWhole)
    (arg3 : Memref sig .tc .vmem S64x64 .f32) (harg3 : arg3.IsWhole) (arg4 : Memref sig .tc .vmem S64x1 .f32) (harg4 : arg4.IsWhole)
    (arg5 : Memref sig .tc .vmem S4x64x3136 .f32) (harg5 : arg5.IsWhole)
    (x0 : Vec F S4x64x3136 .f32) (x1 : Vec F S64x1 .f32) (x2 : Vec F S64x64 .f32) (x3 : Vec F S64x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__apply_kernel i arg1 harg1 arg2 harg2 arg3 harg3 arg4 harg4 arg5 harg5) K := by
  simp only [cc1__apply_kernel_eq_skeleton]; unfold cc1__apply_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _ _ _)

/-! ## The pipeline's proof data -/

/-- The proof data of pipeline 1 on core c: the arrays as the region finds them (V); after the body at point t each
    input's buffer at its block and the output's at out1_4 of the input blocks; the invariant the scoped rest and the
    generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Launch.lean ====
/-
  The run of the whole program: @main is a reshape of the input, the accumulation region, the host operations that
  turn the two accumulated statistics into the mean and the whitening matrix (three stretches: before, inside and
  after the trace), the apply region, and a final reshape. The buffers' contents at each boundary are a fold through
  @main; each region is entered from the contents the segment before it left and leaves its arrays at what the
  pipeline computes; every weakly fair execution terminates with every unscoped buffer at the last boundary's contents.
-/
import proofs.«141837_j49177375539587_2_alg».proof.Proof.KI.Region0
import proofs.«141837_j49177375539587_2_alg».proof.Proof.KI.Region1
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the input's reshape: the accumulation region's entry. -/
abbrev Wa : Dev nD → Valuation τ sig (Elt F) := fun c => StableHlo.after hostOps0 (W0 m ρ c)
abbrev Va : (c : Dev nD) → (b : Ref sig .tc) → Buf (Elt F) ((c : Thread nD τ).loc b) := fun c b => Wa m ρ c b
/-- At the accumulation region's exit: its arrays at what the pipeline leaves, every other buffer as entered. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Va' : (c : Dev nD) → (b : Ref sig .tc) → Buf (Elt F) ((c : Thread nD τ).loc b) := fun c b => Wb m ρ c b
theorem hFa (c : Dev nD) (w : Fin cfg0.W) : (dat0 (Va m ρ) c).arrAt w cfg0.N = Va' m ρ c (Pipeline.arrRef spec0 w) :=
  (Wb_arr m ρ c w).symm
theorem hresta (c : Dev nD) : ∀ b, b ∉ Finset.univ.image (Pipeline.arrRef spec0) → Va' m ρ c b = Va m ρ c b :=
  fun b hb => Wb_of_ne m ρ c b fun w e => hb (Finset.mem_image.mpr ⟨w, Finset.mem_univ _, e⟩)
/-- After the host operations up to the trace, inside it, and after it: the apply region's entry. -/
abbrev Wc : Dev nD → Valuation τ sig (Elt F) := fun c => StableHlo.after hostOps1 (Wb m ρ c)
abbrev Wd : Dev nD → Valuation τ sig (Elt F) := fun c => StableHlo.after hostOps1_1 (Wc m ρ c)
abbrev We : Dev nD → Valuation τ sig (Elt F) := fun c => StableHlo.after hostOps1_2 (Wd m ρ c)
abbrev Ve : (c : Dev nD) → (b : Ref sig .tc) → Buf (Elt F) ((c : Thread nD τ).loc b) := fun c b => We m ρ c b
/-- At the apply region's exit. -/
def Wf (c : Dev nD) : Valuation τ sig (Elt F) :=
  Pipeline.withArrays spec1 c (We m ρ c) fun w => (dat1 (Ve m ρ) c).arrAt w cfg1.N
theorem Wf_arr (c : Dev nD) (w : Fin cfg1.W) :
    Wf m ρ c (Proc.devRef .tc (Pipeline.arrRef spec1 w)) = (dat1 (Ve m ρ) c).arrAt w cfg1.N := by
  unfold Wf; exact Pipeline.withArrays_arr spec1 launch1.win.arr_inj c _ _ w
theorem Wf_of_ne (c : Dev nD) (b : Ref sig .tc) (hb : ∀ w, Pipeline.arrRef spec1 w ≠ b) :
    Wf m ρ c (Proc.devRef .tc b) = We m ρ c (Proc.devRef .tc b) := by
  unfold Wf; exact Pipeline.withArrays_of_ne spec1 c _ _ b hb
abbrev Ve' : (c : Dev nD) → (b : Ref sig .tc) → Buf (Elt F) ((c : Thread nD τ).loc b) := fun c b => Wf m ρ c b
theorem hFe (c : Dev nD) (w : Fin cfg1.W) : (dat1 (Ve m ρ) c).arrAt w cfg1.N = Ve' m ρ c (Pipeline.arrRef spec1 w) :=
  (Wf_arr m ρ c w).symm
theorem hreste (c : Dev nD) : ∀ b, b ∉ Finset.univ.image (Pipeline.arrRef spec1) → Ve' m ρ c b = Ve m ρ c b :=
  fun b hb => Wf_of_ne m ρ c b fun w e => hb (Finset.mem_image.mpr ⟨w, Finset.mem_univ _, e⟩)
/-- After the result's reshape: the end. -/
abbrev Wg : Dev nD → Valuation τ sig (Elt F) := fun c => StableHlo.after hostOps2 (Wf m ρ c)

/-! ### The arguments end as launched: no host operation and no region writes one -/

theorem Wg_main_arg0 (c : Dev nD) : Wg m ρ c (Proc.devRef .tc main_arg0) = m ((c : Thread nD τ).loc main_arg0) :=
  calc Wg m ρ c (Proc.devRef .tc main_arg0)
    _ = Wf m ρ c (Proc.devRef .tc main_arg0) := StableHlo.after_of_forall_not_mem (b := Proc.devRef .tc main_arg0) _ _ (List.forall_iff_forall_mem.mp (by
          simp only [hostOps2, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = We m ρ c (Proc.devRef .tc main_arg0) := Wf_of_ne m ρ c main_arg0 (by decide)
    _ = Wd m ρ c (Proc.devRef .tc main_arg0) := StableHlo.after_of_forall_not_mem (b := Proc.devRef .tc main_arg0) _ _ (List.forall_iff_forall_mem.mp (by
          simp only [hostOps1_2, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wc m ρ c (Proc.devRef .tc main_arg0) := StableHlo.after_of_forall_not_mem (b := Proc.devRef .tc main_arg0) _ _ (List.forall_iff_forall_mem.mp (by
          simp only [hostOps1_1, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb m ρ c (Proc.devRef .tc main_arg0) := StableHlo.after_of_forall_not_mem (b := Proc.devRef .tc main_arg0) _ _ (List.forall_iff_forall_mem.mp (by
          simp only [hostOps1, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wa m ρ c (Proc.devRef .tc main_arg0) := Wb_of_ne m ρ c main_arg0 (by decide)
    _ = W0 m ρ c (Proc.devRef .tc main_arg0) := StableHlo.after_of_forall_not_mem (b := Proc.devRef .tc main_arg0) _ _ (List.forall_iff_forall_mem.mp (by
          simp only [hostOps0, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem Wg_main_arg1 (c : Dev nD) : Wg m ρ c (Proc.devRef .tc main_arg1) = m ((c : Thread nD τ).loc main_arg1) :=
  calc Wg m ρ c (Proc.devRef .tc main_arg1)
    _ = Wf m ρ c (Proc.devRef .tc main_arg1) := StableHlo.after_of_forall_not_mem (b := Proc.devRef .tc main_arg1) _ _ (List.forall_iff_forall_mem.mp (by
          simp only [hostOps2, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = We m ρ c (Proc.devRef .tc main_arg1) := Wf_of_ne m ρ c main_arg1 (by decide)
    _ = Wd m ρ c (Proc.devRef .tc main_arg1) := StableHlo.after_of_forall_not_mem (b := Proc.devRef .tc main_arg1) _ _ (List.forall_iff_forall_mem.mp (by
          simp only [hostOps1_2, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wc m ρ c (Proc.devRef .tc main_arg1) := StableHlo.after_of_forall_not_mem (b := Proc.devRef .tc main_arg1) _ _ (List.forall_iff_forall_mem.mp (by
          simp only [hostOps1_1, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb m ρ c (Proc.devRef .tc main_arg1) := StableHlo.after_of_forall_not_mem (b := Proc.devRef .tc main_arg1) _ _ (List.forall_iff_forall_mem.mp (by
          simp only [hostOps1, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wa m ρ c (Proc.devRef .tc main_arg1) := Wb_of_ne m ρ c main_arg1 (by decide)
    _ = W0 m ρ c (Proc.devRef .tc main_arg1) := StableHlo.after_of_forall_not_mem (b := Proc.devRef .tc main_arg1) _ _ (List.forall_iff_forall_mem.mp (by
          simp only [hostOps0, StableHlo.TRef.nullary, StableHlo.TRef.unary, StableHlo.TRef.binary, StableHlo.TRef.ternary, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (Va m ρ) c
  | ⟨1, _⟩ => fun c => dat1 (Ve m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Wg m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Va m ρ) c)
    unfold Pipeline.ΦA
    iintro ⟨Hp, -, Hr⟩
    isplitl [Hr]; · iexact Hr
    iexact Hp
  hout c := by
    rw [Pipeline.ownSems0_none]
    refine BIBase.Entails.trans (hout0 (Va m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (Va m ρ c) (Va' m ρ c) ((pdats m ρ 0 c).arrAt · cfg0.N) (hFa m ρ c) (hresta m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve m ρ) c).loose
  hwaits := Pipeline.hwaits_of_owed_zero _ _ _ _ L lv 1 fun _ _ => rfl
  pre c := iprop(StableHlo.held (c : Thread nD τ) (Pipeline.ucRefs τ sig) (We m ρ c) ∗ R c)
  post c := iprop(StableHlo.held (c : Thread nD τ) (Pipeline.ucRefs τ sig) (Wf m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (Ve m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (Ve m ρ c) (Ve' m ρ c) ((pdats m ρ 1 c).arrAt · cfg1.N) (hFe m ρ c) (hreste m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (Wb m ρ)),
    .host (hseg hostOps1_1 hostOps1_1_sub hostOps1_1_fresh (Wc m ρ)),
    .host (hseg hostOps1_2 hostOps1_2_sub hostOps1_2_fresh (Wd m ρ)),
    .region (reg1 m ρ),
    .host (hseg hostOps2 hostOps2_sub hostOps2_fresh (Wf m ρ)) ]

theorem main_run (c : Dev nD) : main (F := F) c = Pipeline.Seg.run (segs m ρ) := (main_chain c).trans (by chain_rfl)

/-- What the run ends with: every unscoped buffer at the last boundary's contents. -/
def QW : PUnit × MemSt nD τ sig (Elt F) → Prop := fun r =>
  ∀ c : Dev nD, ∀ b ∈ Pipeline.ucRefs τ sig, r.2.mem (((c : Thread nD τ)).1, b) = Wg m ρ c b

set_option backward.isDefEq.respectTransparency.types false in
/-- THE RUN: from any memory with zero counters every weakly fair execution of @main on the TensorCores terminates,
    nothing faulting, with every unscoped buffer at the fold's last contents. -/
theorem run_main : θ_run defs (onTc (τ := τ) (main (F := F))) ⟨m, fun _ => 0, ρ⟩ (QW m ρ) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (Wg m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wg m ρ c b)
    (hfin := fun c s' => by
      iintro ⟨⟨Hh, -⟩, HSI⟩
      unfold StableHlo.held
      imodintro
      iapply (pointsTo_read_all (Pipeline.ucRefs τ sig) (fun b => (((c : Thread nD τ)).1, b)) (Wg m ρ c) s')
      isplitl [Hh] <;> iassumption)
    (hQ := fun s h c => h c)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Wg_main_arg0 m ρ c),
     (h c _ (mem_uc main_arg1 (by decide))).trans (Wg_main_arg1 m ρ c)⟩) (run_main m ρ)

end Cert.KernelIdeal.Hand

end
-- ==== Proof.RefRun.lean ====
/- The reference program's @main as the list of its host operations, in order, the body of the outlined trace
   (with its masked select) written out at its call site over that call's buffers; and the run of that list read
   back: every weakly fair execution ends with the result buffer at `out` of the two arguments' launch contents,
   the arguments unchanged. `out` is built from named stages: the channel-major flattening `xT`, the channel
   mean `mean`, the centred data `xc`, the regularised covariance `sigma`, and `tail`, the map from a 64×64
   matrix to its whitening matrix (scaling to trace one, ten Newton–Schulz steps, rescaling by the square root). -/
import proofs.«141837_j49177375539587_2_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- A scalar spread over the 64×64 matrices. -/
abbrev bc (v : FVec F S_ .f32) : FVec F S64x64 .f32 := broadcastInDim S64x64 ![] bcast_S_S64x64 v

/-- The product of two 64×64 matrices. -/
abbrev mm (l r : FVec F S64x64 .f32) : FVec F S64x64 .f32 := Host.dotGeneral dot_S64x64_S64x64_S64x64_1_0_0_1_n_n none l r

/-- The input with the channel axis first and the other three flattened: `xT x (c, (n·56 + h)·56 + w) = x (n, c, h, w)`. -/
def xT (x : FVec F S128x64x56x56 .f32) : FVec F S64x401408 .f32 :=
  shapeCast S64x401408 (transpose S64x128x56x56 [1, 0, 2, 3] x transposes_S128x64x56x56_S64x128x56x56_1_0_2_3) shapeCasts_S64x128x56x56_S64x401408

/-- The channel means, as a column: the row sums of `xT x` over 401408. -/
def mean (x : FVec F S128x64x56x56 .f32) : FVec F S64x1 .f32 :=
  Host.divf (broadcastInDim S64x1 ![0] bcast_S64_S64x1_0 (Host.reduceAdd (xT x) (constant S_ .f32 0x00000000#32) reducesTo_S64x401408_S64_d1 h_S_))
    (broadcastInDim S64x1 ![] bcast_S_S64x1 (constant S_ .f32 0x48C40000#32))

/-- The centred data: each row of `xT x` minus its mean. -/
def xc (x : FVec F S128x64x56x56 .f32) : FVec F S64x401408 .f32 :=
  subf (xT x) (broadcastInDim S64x401408 ![0, 1] bcast_S64x1_S64x401408_0_1 (mean x))

/-- The diagonal as a mask: row index equal to column index. -/
def eyeMask : IVec S64x64 1 :=
  cmpi .eq (addi (iotaInDim S64x64 32 0) (broadcastInDim S64x64 ![] bcast_S_S64x64 (constantI S_ 32 0#32))) (iotaInDim S64x64 32 1)

/-- The 64×64 identity matrix. -/
def eye : FVec F S64x64 .f32 := uitofp .f32 eyeMask

/-- The regularised covariance: `ε·I + (xc · xcᵀ) / 401408`. -/
def sigma (x : FVec F S128x64x56x56 .f32) : FVec F S64x64 .f32 :=
  addf (mulf (bc (constant S_ .f32 0x3727C5AC#32)) eye)
    (Host.divf (Host.dotGeneral dot_S64x401408_S401408x64_S64x64_1_0_0_1_n_n none (xc x) (transpose S401408x64 [1, 0] (xc x) transposes_S64x401408_S401408x64_1_0))
      (bc (constant S_ .f32 0x48C40000#32)))

/-- The matrix with its off-diagonal damped: `S ∘ (0.9 + 0.1·I)`, entry by entry. -/
def fixS (S : FVec F S64x64 .f32) : FVec F S64x64 .f32 :=
  mulf S (addf (bc (constant S_ .f32 0x3F666666#32)) (mulf (bc (constant S_ .f32 0x3DCCCCCD#32)) eye))

/-- The trace: the sum of the entries the diagonal mask keeps. -/
def tr (M : FVec F S64x64 .f32) : FVec F S_ .f32 :=
  Host.reduceAdd (select eyeMask M (bc (constant S_ .f32 0x00000000#32))) (constant S_ .f32 0x00000000#32) reducesTo_S64x64_S_d0_1 h_S_

/-- One over the trace of the damped matrix. -/
def rT (S : FVec F S64x64 .f32) : FVec F S_ .f32 := Host.divf (constant S_ .f32 0x3F800000#32) (tr (fixS S))

/-- The damped matrix scaled to trace one. -/
def sN (S : FVec F S64x64 .f32) : FVec F S64x64 .f32 := mulf (fixS S) (bc (rT S))

/-- One Newton–Schulz step for the inverse square root of `N`: `P ↦ 1.5·P − 0.5·(P·P·P·N)`. -/
def nsStep (N P : FVec F S64x64 .f32) : FVec F S64x64 .f32 :=
  subf (mulf (bc (constant S_ .f32 0x3FC00000#32)) P) (mulf (bc (constant S_ .f32 0x3F000000#32)) (mm (mm (mm P P) P) N))

/-- `k` Newton–Schulz steps from the identity. -/
def ns (N : FVec F S64x64 .f32) : Nat → FVec F S64x64 .f32
  | 0 => eye
  | k + 1 => nsStep N (ns N k)

theorem ns_zero (N : FVec F S64x64 .f32) : ns N 0 = eye := rfl
theorem ns_succ (N : FVec F S64x64 .f32) (k : Nat) : ns N (k + 1) = nsStep N (ns N k) := rfl

/-- The whitening matrix of `S`: ten steps on the trace-one scaling of the damped `S`, times the square root of
    one over the trace. A function of `S` alone. -/
def tail (S : FVec F S64x64 .f32) : FVec F S64x64 .f32 := mulf (ns (sN S) 10) (bc (Host.sqrt (rT S)))

/-- The reference's result: the whitening matrix of the covariance applied to the centred data, laid back out as
    the input is, plus the bias along the channel axis. -/
def out (x : FVec F S128x64x56x56 .f32) (b : FVec F S64 .f32) : FVec F S128x64x56x56 .f32 :=
  addf
    (transpose S128x64x56x56 [1, 0, 2, 3]
      (shapeCast S64x128x56x56 (Host.dotGeneral dot_S64x64_S64x401408_S64x401408_1_0_0_1_n_n none (tail (sigma x)) (xc x)) shapeCasts_S64x401408_S64x128x56x56)
      transposes_S64x128x56x56_S128x64x56x56_1_0_2_3)
    (broadcastInDim S128x64x56x56 ![0, 1, 2, 3] bcast_S1x64x1x1_S128x64x56x56_0_1_2_3 (shapeCast S1x64x1x1 b shapeCasts_S64_S1x64x1x1))

/-! ## @main as a list of operations -/

/-- The operations of the first window of @main, the trace's eleven written out where it is called. -/
abbrev ops_part0 : List (HloOp τ sig (Elt F)) :=
  [ unary main_arg0 main_v0 ((transpose S64x128x56x56 [1, 0, 2, 3] · transposes_S128x64x56x56_S64x128x56x56_1_0_2_3) : (⟨S128x64x56x56, .f32⟩ : BufTy).Contents (Elt F) → (⟨S64x128x56x56, .f32⟩ : BufTy).Contents (Elt F)),
    reshape main_v0 main_v1 rfl shapeCasts_S64x128x56x56_S64x401408,
    nullary main_cst (constant S_ .f32 0x00000000#32),
    binary main_v1 main_cst main_v2 ((fun x v => Host.reduceAdd x v reducesTo_S64x401408_S64_d1 h_S_) : (⟨S64x401408, .f32⟩ : BufTy).Contents (Elt F) → (⟨S_, .f32⟩ : BufTy).Contents (Elt F) → (⟨S64, .f32⟩ : BufTy).Contents (Elt F)),
    unary main_v2 main_v3 (broadcastInDim S64x1 ![0] bcast_S64_S64x1_0 : (⟨S64, .f32⟩ : BufTy).Contents (Elt F) → (⟨S64x1, .f32⟩ : BufTy).Contents (Elt F)),
    nullary main_cst_0 (constant S_ .f32 0x48C40000#32),
    unary main_cst_0 main_v4 (broadcastInDim S64x1 ![] bcast_S_S64x1 : (⟨S_, .f32⟩ : BufTy).Contents (Elt F) → (⟨S64x1, .f32⟩ : BufTy).Contents (Elt F)),
    binary main_v3 main_v4 main_v5 (Host.divf : (⟨S64x1, .f32⟩ : BufTy).Contents (Elt F) → (⟨S64x1, .f32⟩ : BufTy).Contents (Elt F) → (⟨S64x1, .f32⟩ : BufTy).Contents (Elt F)),
    unary main_v5 main_v6 (broadcastInDim S64x401408 ![0, 1] bcast_S64x1_S64x401408_0_1 : (⟨S64x1, .f32⟩ : BufTy).Contents (Elt F) → (⟨S64x401408, .f32⟩ : BufTy).Contents (Elt F)),
    binary main_v1 main_v6 main_v7 (subf : (⟨S64x401408, .f32⟩ : BufTy).Contents (Elt F) → (⟨S64x401408, .f32⟩ : BufTy).Contents (Elt F) → (⟨S64x401408, .f32⟩ : BufTy).Contents (Elt F)),
    nullary main_v8 (iotaInDim S64x64 32 0),
    nullary main_v9 (iotaInDim S64x64 32 1),
    nullary main_c (constantI S_ 32 0#32),
    unary main_c main_v10 (broadcastInDim S64x64 ![] bcast_S_S64x64 : (⟨S_, .i32⟩ : BufTy).Contents (Elt F) → (⟨S64x64, .i32⟩ : BufTy).Contents (Elt F)),
    binary main_v8 main_v10 main_v11 (addi : (⟨S64x64, .i32⟩ : BufTy).Contents (Elt F) → (⟨S64x64, .i32⟩ : BufTy).Contents (Elt F) → (⟨S64x64, .i32⟩ : BufTy).Contents (Elt F)),
    binary main_v11 main_v9 main_v12 (cmpi .eq : (⟨S64x64, .i32⟩ : BufTy).Contents (Elt F) → (⟨S64x64, .i32⟩ : BufTy).Contents (Elt F) → (⟨S64x64, .i1⟩ : BufTy).Contents (Elt F)),
    unary main_v12 main_v13 (uitofp .f32 : (⟨S64x64, .i1⟩ : BufTy).Contents (Elt F) → (⟨S64x64, .f32⟩ : BufTy).Contents (Elt F)),
    nullary main_cst_1 (constant S_ .f32 0x3727C5AC#32),
    unary main_cst_1 main_v14 (broadcastInDim S64x64 ![] bcast_S_S64x64 : (⟨S_, .f32⟩ : BufTy).Contents (Elt F) → (⟨S64x64, .f32⟩ : BufTy).Contents (Elt F)),
    binary main_v14 main_v13 main_v15 (mulf : (⟨S64x64, .f32⟩ : BufTy).Contents (Elt F) → (⟨S64x64, .f32⟩ : BufTy).Contents (Elt F) → (⟨S64x64, .f32⟩ : BufTy).Contents (Elt F)),
    unary main_v7 main_v16 ((transpose S401408x64 [1, 0] · transposes_S64x401408_S401408x64_1_0) : (⟨S64x401408, .f32⟩ : BufTy).Contents (Elt F) → (⟨S401408x64, .f32⟩ : BufTy).Contents (Elt F)),
    binary main_v7 main_v16 main_v17 ((fun l r => Host.dotGeneral dot_S64x401408_S401408x64_S64x64_1_0_0_1_n_n none l r) : (⟨S64x401408, .f32⟩ : BufTy).Contents (Elt F) → (⟨S401408x64, .f32⟩ : BufTy).Contents (Elt F) → (⟨S64x64, .f32⟩ : BufTy).Contents (Elt F)),
    nullary main_cst_2 (constant S_ .f32 0x48C40000#32),
    unary main_cst_2 main_v18 (broadcastInDim S64x64 ![] bcast_S_S64x64 : (⟨S_, .f32⟩ : BufTy).Contents (Elt F) → (⟨S64x64, .f32⟩ : BufTy).Contents (Elt F)),
    binary main_v17 main_v18 main_v19 (Host.divf : (⟨S64x64, .f32⟩ : BufTy).Contents (Elt F) → (⟨S64x64, .f32⟩ : BufTy).Contents (Elt F) → (⟨S64x64, .f32⟩ : BufTy).Contents (Elt F)),
    binary main_v15 main_v19 main_v20 (addf : (⟨S64x64, .f32⟩ : BufTy).Contents (Elt F) → (⟨S64x64, .f32⟩ : BufTy).Contents (Elt F) → (⟨S64x64, .f32⟩ : BufTy).Contents (Elt F)),
    nullary main_cst_3 (constant S_ .f32 0x3DCCCCCD#32),
    unary main_cst_3 main_v21 (broadcastInDim S64x64 ![] bcast_S_S64x64 : (⟨S_, .f32⟩ : BufTy).Contents (Elt F) → (⟨S64x64, .f32⟩ : BufTy).Contents (Elt F)),
    binary main_v21 main_v13 main_v22 (mulf : (⟨S64x64, .f32⟩ : BufTy).Contents (Elt F) → (⟨S64x64, .f32⟩ : BufTy).Contents (Elt F) → (⟨S64x64, .f32⟩ : BufTy).Contents (Elt F)),
    nullary main_cst_4 (constant S_ .f32 0x3F666666#32),
    unary main_cst_4 main_v23 (broadcastInDim S64x64 ![] bcast_S_S64x64 : (⟨S_, .f32⟩ : BufTy).Contents (Elt F) → (⟨S64x64, .f32⟩ : BufTy).Contents (Elt F)),
    binary main_v23 main_v22 main_v24 (addf : (⟨S64x64, .f32⟩ : BufTy).Contents (Elt F) → (⟨S64x64, .f32⟩ : BufTy).Contents (Elt F) → (⟨S64x64, .f32⟩ : BufTy).Contents (Elt F)),
    binary main_v20 main_v24 main_v25 (mulf : (⟨S64x64, .f32⟩ : BufTy).Contents (Elt F) → (⟨S64x64, .f32⟩ : BufTy).Contents (Elt F) → (⟨S64x64, .f32⟩ : BufTy).Contents (Elt F)),
    TRef.nullary main_call0.v0 (iotaInDim S64x64 32 0),
    TRef.nullary main_call0.v1 (iotaInDim S64x64 32 1),
    TRef.nullary main_call0.c (constantI S_ 32 0#32),
    TRef.unary main_call0.c main_call0.v2 (broadcastInDim S64x64 ![] bcast_S_S64x64),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S64x64 ![] bcast_S_S64x64),
    TRef.ternary main_call0.v4 (.of main_v25) main_call0.v5 main_call0.call0.v0 select,
    TRef.nullary main_call0.cst_0 (constant S_ .f32 0x00000000#32),
    TRef.binary main_call0.call0.v0 main_call0.cst_0 main_call0.v7 (fun x v => Host.reduceAdd x v reducesTo_S64x64_S_d0_1 h_S_),
    nullary main_cst_5 (constant S_ .f32 0x3F800000#32),
    binary main_cst_5 main_v26 main_v27 (Host.divf : (⟨S_, .f32⟩ : BufTy).Contents (Elt F) → (⟨S_, .f32⟩ : BufTy).Contents (Elt F) → (⟨S_, .f32⟩ : BufTy).Contents (Elt F)),
    unary main_v27 main_v28 (broadcastInDim S64x64 ![] bcast_S_S64x64 : (⟨S_, .f32⟩ : BufTy).Contents (Elt F) → (⟨S64x64, .f32⟩ : BufTy).Contents (Elt F)),
    binary main_v25 main_v28 main_v29 (mulf : (⟨S64x64, .f32⟩ : BufTy).Contents (Elt F) → (⟨S64x64, .f32⟩ : BufTy).Contents (Elt F) → (⟨S64x64, .f32⟩ : BufTy).Contents (Elt F)),
    nullary main_cst_6 (constant S_ .f32 0x3FC00000#32),
    unary main_cst_6 main_v30 (broadcastInDim S64x64 ![] bcast_S_S64x64 : (⟨S_, .f32⟩ : BufTy).Contents (Elt F) → (⟨S64x64, .f32⟩ : BufTy).Contents (Elt F)),
    binary main_v30 main_v13 main_v31 (mulf : (⟨S64x64, .f32⟩ : BufTy).Contents (Elt F) → (⟨S64x64, .f32⟩ : BufTy).Contents (Elt F) → (⟨S64x64, .f32⟩ : BufTy).Contents (Elt F)),
    binary main_v13 main_v13 main_v32 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v32 main_v13 main_v33 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v33 main_v29 main_v34 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_7 (constant S_ .f32 0x3F000000#32),
    unary main_cst_7 main_v35 (broadcastInDim S64x64 ![] bcast_S_S64x64 : (⟨S_, .f32⟩ : BufTy).Contents (Elt F) → (⟨S64x64, .f32⟩ : BufTy).Contents (Elt F)),
    binary main_v35 main_v34 main_v36 (mulf : (⟨S64x64, .f32⟩ : BufTy).Contents (Elt F) → (⟨S64x64, .f32⟩ : BufTy).Contents (Elt F) → (⟨S64x64, .f32⟩ : BufTy).Contents (Elt F)),
    binary main_v31 main_v36 main_v37 (subf : (⟨S64x64, .f32⟩ : BufTy).Contents (Elt F) → (⟨S64x64, .f32⟩ : BufTy).Contents (Elt F) → (⟨S64x64, .f32⟩ : BufTy).Contents (Elt F)),
    nullary main_cst_8 (constant S_ .f32 0x3FC00000#32),
    unary main_cst_8 main_v38 (broadcastInDim S64x64 ![] bcast_S_S64x64 : (⟨S_, .f32⟩ : BufTy).Contents (Elt F) → (⟨S64x64, .f32⟩ : BufTy).Contents (Elt F)),
    binary main_v38 main_v37 main_v39 (mulf : (⟨S64x64, .f32⟩ : BufTy).Contents (Elt F) → (⟨S64x64, .f32⟩ : BufTy).Contents (Elt F) → (⟨S64x64, .f32⟩ : BufTy).Contents (Elt F)),
    binary main_v37 main_v37 main_v40 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v40 main_v37 main_v41 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v41 main_v29 main_v42 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_9 (constant S_ .f32 0x3F000000#32),
    unary main_cst_9 main_v43 (broadcastInDim S64x64 ![] bcast_S_S64x64 : (⟨S_, .f32⟩ : BufTy).Contents (Elt F) → (⟨S64x64, .f32⟩ : BufTy).Contents (Elt F)),
    binary main_v43 main_v42 main_v44 (mulf : (⟨S64x64, .f32⟩ : BufTy).Contents (Elt F) → (⟨S64x64, .f32⟩ : BufTy).Contents (Elt F) → (⟨S64x64, .f32⟩ : BufTy).Contents (Elt F)),
    binary main_v39 main_v44 main_v45 (subf : (⟨S64x64, .f32⟩ : BufTy).Contents (Elt F) → (⟨S64x64, .f32⟩ : BufTy).Contents (Elt F) → (⟨S64x64, .f32⟩ : BufTy).Contents (Elt F)),
    nullary main_cst_10 (constant S_ .f32 0x3FC00000#32),
    unary main_cst_10 main_v46 (broadcastInDim S64x64 ![] bcast_S_S64x64 : (⟨S_, .f32⟩ : BufTy).Contents (Elt F) → (⟨S64x64, .f32⟩ : BufTy).Contents (Elt F)) ]

/-- The operations of the second window of @main. -/
abbrev ops_part1 : List (HloOp τ sig (Elt F)) :=
  [ binary main_v46 main_v45 main_v47 (mulf : (⟨S64x64, .f32⟩ : BufTy).Contents (Elt F) → (⟨S64x64, .f32⟩ : BufTy).Contents (Elt F) → (⟨S64x64, .f32⟩ : BufTy).Contents (Elt F)),
    binary main_v45 main_v45 main_v48 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v48 main_v45 main_v49 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v49 main_v29 main_v50 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_11 (constant S_ .f32 0x3F000000#32),
    unary main_cst_11 main_v51 (broadcastInDim S64x64 ![] bcast_S_S64x64 : (⟨S_, .f32⟩ : BufTy).Contents (Elt F) → (⟨S64x64, .f32⟩ : BufTy).Contents (Elt F)),
    binary main_v51 main_v50 main_v52 (mulf : (⟨S64x64, .f32⟩ : BufTy).Contents (Elt F) → (⟨S64x64, .f32⟩ : BufTy).Contents (Elt F) → (⟨S64x64, .f32⟩ : BufTy).Contents (Elt F)),
    binary main_v47 main_v52 main_v53 (subf : (⟨S64x64, .f32⟩ : BufTy).Contents (Elt F) → (⟨S64x64, .f32⟩ : BufTy).Contents (Elt F) → (⟨S64x64, .f32⟩ : BufTy).Contents (Elt F)),
    nullary main_cst_12 (constant S_ .f32 0x3FC00000#32),
    unary main_cst_12 main_v54 (broadcastInDim S64x64 ![] bcast_S_S64x64 : (⟨S_, .f32⟩ : BufTy).Contents (Elt F) → (⟨S64x64, .f32⟩ : BufTy).Contents (Elt F)),
    binary main_v54 main_v53 main_v55 (mulf : (⟨S64x64, .f32⟩ : BufTy).Contents (Elt F) → (⟨S64x64, .f32⟩ : BufTy).Contents (Elt F) → (⟨S64x64, .f32⟩ : BufTy).Contents (Elt F)),
    binary main_v53 main_v53 main_v56 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v56 main_v53 main_v57 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v57 main_v29 main_v58 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_13 (constant S_ .f32 0x3F000000#32),
    unary main_cst_13 main_v59 (broadcastInDim S64x64 ![] bcast_S_S64x64 : (⟨S_, .f32⟩ : BufTy).Contents (Elt F) → (⟨S64x64, .f32⟩ : BufTy).Contents (Elt F)),
    binary main_v59 main_v58 main_v60 (mulf : (⟨S64x64, .f32⟩ : BufTy).Contents (Elt F) → (⟨S64x64, .f32⟩ : BufTy).Contents (Elt F) → (⟨S64x64, .f32⟩ : BufTy).Contents (Elt F)),
    binary main_v55 main_v60 main_v61 (subf : (⟨S64x64, .f32⟩ : BufTy).Contents (Elt F) → (⟨S64x64, .f32⟩ : BufTy).Contents (Elt F) → (⟨S64x64, .f32⟩ : BufTy).Contents (Elt F)),
    nullary main_cst_14 (constant S_ .f32 0x3FC00000#32),
    unary main_cst_14 main_v62 (broadcastInDim S64x64 ![] bcast_S_S64x64 : (⟨S_, .f32⟩ : BufTy).Contents (Elt F) → (⟨S64x64, .f32⟩ : BufTy).Contents (Elt F)),
    binary main_v62 main_v61 main_v63 (mulf : (⟨S64x64, .f32⟩ : BufTy).Contents (Elt F) → (⟨S64x64, .f32⟩ : BufTy).Contents (Elt F) → (⟨S64x64, .f32⟩ : BufTy).Contents (Elt F)),
    binary main_v61 main_v61 main_v64 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v64 main_v61 main_v65 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v65 main_v29 main_v66 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_15 (constant S_ .f32 0x3F000000#32),
    unary main_cst_15 main_v67 (broadcastInDim S64x64 ![] bcast_S_S64x64 : (⟨S_, .f32⟩ : BufTy).Contents (Elt F) → (⟨S64x64, .f32⟩ : BufTy).Contents (Elt F)),
    binary main_v67 main_v66 main_v68 (mulf : (⟨S64x64, .f32⟩ : BufTy).Contents (Elt F) → (⟨S64x64, .f32⟩ : BufTy).Contents (Elt F) → (⟨S64x64, .f32⟩ : BufTy).Contents (Elt F)),
    binary main_v63 main_v68 main_v69 (subf : (⟨S64x64, .f32⟩ : BufTy).Contents (Elt F) → (⟨S64x64, .f32⟩ : BufTy).Contents (Elt F) → (⟨S64x64, .f32⟩ : BufTy).Contents (Elt F)),
    nullary main_cst_16 (constant S_ .f32 0x3FC00000#32),
    unary main_cst_16 main_v70 (broadcastInDim S64x64 ![] bcast_S_S64x64 : (⟨S_, .f32⟩ : BufTy).Contents (Elt F) → (⟨S64x64, .f32⟩ : BufTy).Contents (Elt F)),
    binary main_v70 main_v69 main_v71 (mulf : (⟨S64x64, .f32⟩ : BufTy).Contents (Elt F) → (⟨S64x64, .f32⟩ : BufTy).Contents (Elt F) → (⟨S64x64, .f32⟩ : BufTy).Contents (Elt F)),
    binary main_v69 main_v69 main_v72 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v72 main_v69 main_v73 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v73 main_v29 main_v74 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_17 (constant S_ .f32 0x3F000000#32),
    unary main_cst_17 main_v75 (broadcastInDim S64x64 ![] bcast_S_S64x64 : (⟨S_, .f32⟩ : BufTy).Contents (Elt F) → (⟨S64x64, .f32⟩ : BufTy).Contents (Elt F)),
    binary main_v75 main_v74 main_v76 (mulf : (⟨S64x64, .f32⟩ : BufTy).Contents (Elt F) → (⟨S64x64, .f32⟩ : BufTy).Contents (Elt F) → (⟨S64x64, .f32⟩ : BufTy).Contents (Elt F)),
    binary main_v71 main_v76 main_v77 (subf : (⟨S64x64, .f32⟩ : BufTy).Contents (Elt F) → (⟨S64x64, .f32⟩ : BufTy).Contents (Elt F) → (⟨S64x64, .f32⟩ : BufTy).Contents (Elt F)),
    nullary main_cst_18 (constant S_ .f32 0x3FC00000#32),
    unary main_cst_18 main_v78 (broadcastInDim S64x64 ![] bcast_S_S64x64 : (⟨S_, .f32⟩ : BufTy).Contents (Elt F) → (⟨S64x64, .f32⟩ : BufTy).Contents (Elt F)),
    binary main_v78 main_v77 main_v79 (mulf : (⟨S64x64, .f32⟩ : BufTy).Contents (Elt F) → (⟨S64x64, .f32⟩ : BufTy).Contents (Elt F) → (⟨S64x64, .f32⟩ : BufTy).Contents (Elt F)),
    binary main_v77 main_v77 main_v80 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v80 main_v77 main_v81 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v81 main_v29 main_v82 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_19 (constant S_ .f32 0x3F000000#32),
    unary main_cst_19 main_v83 (broadcastInDim S64x64 ![] bcast_S_S64x64 : (⟨S_, .f32⟩ : BufTy).Contents (Elt F) → (⟨S64x64, .f32⟩ : BufTy).Contents (Elt F)),
    binary main_v83 main_v82 main_v84 (mulf : (⟨S64x64, .f32⟩ : BufTy).Contents (Elt F) → (⟨S64x64, .f32⟩ : BufTy).Contents (Elt F) → (⟨S64x64, .f32⟩ : BufTy).Contents (Elt F)),
    binary main_v79 main_v84 main_v85 (subf : (⟨S64x64, .f32⟩ : BufTy).Contents (Elt F) → (⟨S64x64, .f32⟩ : BufTy).Contents (Elt F) → (⟨S64x64, .f32⟩ : BufTy).Contents (Elt F)),
    nullary main_cst_20 (constant S_ .f32 0x3FC00000#32),
    unary main_cst_20 main_v86 (broadcastInDim S64x64 ![] bcast_S_S64x64 : (⟨S_, .f32⟩ : BufTy).Contents (Elt F) → (⟨S64x64, .f32⟩ : BufTy).Contents (Elt F)),
    binary main_v86 main_v85 main_v87 (mulf : (⟨S64x64, .f32⟩ : BufTy).Contents (Elt F) → (⟨S64x64, .f32⟩ : BufTy).Contents (Elt F) → (⟨S64x64, .f32⟩ : BufTy).Contents (Elt F)),
    binary main_v85 main_v85 main_v88 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v88 main_v85 main_v89 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v89 main_v29 main_v90 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_21 (constant S_ .f32 0x3F000000#32),
    unary main_cst_21 main_v91 (broadcastInDim S64x64 ![] bcast_S_S64x64 : (⟨S_, .f32⟩ : BufTy).Contents (Elt F) → (⟨S64x64, .f32⟩ : BufTy).Contents (Elt F)),
    binary main_v91 main_v90 main_v92 (mulf : (⟨S64x64, .f32⟩ : BufTy).Contents (Elt F) → (⟨S64x64, .f32⟩ : BufTy).Contents (Elt F) → (⟨S64x64, .f32⟩ : BufTy).Contents (Elt F)),
    binary main_v87 main_v92 main_v93 (subf : (⟨S64x64, .f32⟩ : BufTy).Contents (Elt F) → (⟨S64x64, .f32⟩ : BufTy).Contents (Elt F) → (⟨S64x64, .f32⟩ : BufTy).Contents (Elt F)),
    nullary main_cst_22 (constant S_ .f32 0x3FC00000#32),
    unary main_cst_22 main_v94 (broadcastInDim S64x64 ![] bcast_S_S64x64 : (⟨S_, .f32⟩ : BufTy).Contents (Elt F) → (⟨S64x64, .f32⟩ : BufTy).Contents (Elt F)) ]

/-- The operations of the third window of @main. -/
abbrev ops_part2 : List (HloOp τ sig (Elt F)) :=
  [ binary main_v94 main_v93 main_v95 (mulf : (⟨S64x64, .f32⟩ : BufTy).Contents (Elt F) → (⟨S64x64, .f32⟩ : BufTy).Contents (Elt F) → (⟨S64x64, .f32⟩ : BufTy).Contents (Elt F)),
    binary main_v93 main_v93 main_v96 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v96 main_v93 main_v97 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v97 main_v29 main_v98 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_23 (constant S_ .f32 0x3F000000#32),
    unary main_cst_23 main_v99 (broadcastInDim S64x64 ![] bcast_S_S64x64 : (⟨S_, .f32⟩ : BufTy).Contents (Elt F) → (⟨S64x64, .f32⟩ : BufTy).Contents (Elt F)),
    binary main_v99 main_v98 main_v100 (mulf : (⟨S64x64, .f32⟩ : BufTy).Contents (Elt F) → (⟨S64x64, .f32⟩ : BufTy).Contents (Elt F) → (⟨S64x64, .f32⟩ : BufTy).Contents (Elt F)),
    binary main_v95 main_v100 main_v101 (subf : (⟨S64x64, .f32⟩ : BufTy).Contents (Elt F) → (⟨S64x64, .f32⟩ : BufTy).Contents (Elt F) → (⟨S64x64, .f32⟩ : BufTy).Contents (Elt F)),
    nullary main_cst_24 (constant S_ .f32 0x3FC00000#32),
    unary main_cst_24 main_v102 (broadcastInDim S64x64 ![] bcast_S_S64x64 : (⟨S_, .f32⟩ : BufTy).Contents (Elt F) → (⟨S64x64, .f32⟩ : BufTy).Contents (Elt F)),
    binary main_v102 main_v101 main_v103 (mulf : (⟨S64x64, .f32⟩ : BufTy).Contents (Elt F) → (⟨S64x64, .f32⟩ : BufTy).Contents (Elt F) → (⟨S64x64, .f32⟩ : BufTy).Contents (Elt F)),
    binary main_v101 main_v101 main_v104 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v104 main_v101 main_v105 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v105 main_v29 main_v106 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_25 (constant S_ .f32 0x3F000000#32),
    unary main_cst_25 main_v107 (broadcastInDim S64x64 ![] bcast_S_S64x64 : (⟨S_, .f32⟩ : BufTy).Contents (Elt F) → (⟨S64x64, .f32⟩ : BufTy).Contents (Elt F)),
    binary main_v107 main_v106 main_v108 (mulf : (⟨S64x64, .f32⟩ : BufTy).Contents (Elt F) → (⟨S64x64, .f32⟩ : BufTy).Contents (Elt F) → (⟨S64x64, .f32⟩ : BufTy).Contents (Elt F)),
    binary main_v103 main_v108 main_v109 (subf : (⟨S64x64, .f32⟩ : BufTy).Contents (Elt F) → (⟨S64x64, .f32⟩ : BufTy).Contents (Elt F) → (⟨S64x64, .f32⟩ : BufTy).Contents (Elt F)),
    unary main_v27 main_v110 (Host.sqrt : (⟨S_, .f32⟩ : BufTy).Contents (Elt F) → (⟨S_, .f32⟩ : BufTy).Contents (Elt F)),
    unary main_v110 main_v111 (broadcastInDim S64x64 ![] bcast_S_S64x64 : (⟨S_, .f32⟩ : BufTy).Contents (Elt F) → (⟨S64x64, .f32⟩ : BufTy).Contents (Elt F)),
    binary main_v109 main_v111 main_v112 (mulf : (⟨S64x64, .f32⟩ : BufTy).Contents (Elt F) → (⟨S64x64, .f32⟩ : BufTy).Contents (Elt F) → (⟨S64x64, .f32⟩ : BufTy).Contents (Elt F)),
    binary main_v112 main_v7 main_v113 ((fun l r => Host.dotGeneral dot_S64x64_S64x401408_S64x401408_1_0_0_1_n_n none l r) : (⟨S64x64, .f32⟩ : BufTy).Contents (Elt F) → (⟨S64x401408, .f32⟩ : BufTy).Contents (Elt F) → (⟨S64x401408, .f32⟩ : BufTy).Contents (Elt F)),
    reshape main_v113 main_v114 rfl shapeCasts_S64x401408_S64x128x56x56,
    unary main_v114 main_v115 ((transpose S128x64x56x56 [1, 0, 2, 3] · transposes_S64x128x56x56_S128x64x56x56_1_0_2_3) : (⟨S64x128x56x56, .f32⟩ : BufTy).Contents (Elt F) → (⟨S128x64x56x56, .f32⟩ : BufTy).Contents (Elt F)),
    reshape main_arg1 main_v116 rfl shapeCasts_S64_S1x64x1x1,
    unary main_v116 main_v117 (broadcastInDim S128x64x56x56 ![0, 1, 2, 3] bcast_S1x64x1x1_S128x64x56x56_0_1_2_3 : (⟨S1x64x1x1, .f32⟩ : BufTy).Contents (Elt F) → (⟨S128x64x56x56, .f32⟩ : BufTy).Contents (Elt F)),
    binary main_v115 main_v117 main_v118 (addf : (⟨S128x64x56x56, .f32⟩ : BufTy).Contents (Elt F) → (⟨S128x64x56x56, .f32⟩ : BufTy).Contents (Elt F) → (⟨S128x64x56x56, .f32⟩ : BufTy).Contents (Elt F)) ]

/-- All of @main's operations, in order. -/
abbrev ops : List (HloOp τ sig (Elt F)) := ops_part0 ++ (ops_part1 ++ ops_part2)

set_option maxRecDepth 8192 in
/-- The first window is its list: the trace's and the select's definitions unfolded at the call, sequencing reassociated. -/
theorem main_part0_eq (c : Dev nD) : main_part0 (F := F) c = seq ops_part0 := by
  simp only [main_part0, fn_trace.body, fn_where.body, seq, bind_assoc, pure_bind]
  rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨unary_bufs_sub .., reshape_bufs_sub .., nullary_bufs_sub .., binary_bufs_sub .., unary_bufs_sub .., nullary_bufs_sub .., unary_bufs_sub .., binary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., nullary_bufs_sub .., nullary_bufs_sub .., unary_bufs_sub .., binary_bufs_sub .., binary_bufs_sub .., nullary_bufs_sub .., unary_bufs_sub .., ternary_bufs_sub .., nullary_bufs_sub .., binary_bufs_sub .., nullary_bufs_sub .., binary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub ..⟩

set_option maxRecDepth 8192 in
theorem ops_part1_sub : (ops_part1 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub ..⟩

set_option maxRecDepth 8192 in
theorem ops_part2_sub : (ops_part2 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., unary_bufs_sub .., unary_bufs_sub .., binary_bufs_sub .., binary_bufs_sub .., reshape_bufs_sub .., unary_bufs_sub .., reshape_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h, List.forall_iff_forall_mem.mp ops_part2_sub op h]

/-! ## The run, stage by stage

The same operations cut where the named stages end: up to the covariance; the damping, the trace and the scaling to
trace one; each of the ten Newton–Schulz steps; the rest. After each cut, the buffers later cuts read hold the
stage's named term of the arguments. -/

/-- Up to the regularised covariance. -/
abbrev segA : List (HloOp τ sig (Elt F)) :=
  [ unary main_arg0 main_v0 ((transpose S64x128x56x56 [1, 0, 2, 3] · transposes_S128x64x56x56_S64x128x56x56_1_0_2_3) : (⟨S128x64x56x56, .f32⟩ : BufTy).Contents (Elt F) → (⟨S64x128x56x56, .f32⟩ : BufTy).Contents (Elt F)),
    reshape main_v0 main_v1 rfl shapeCasts_S64x128x56x56_S64x401408,
    nullary main_cst (constant S_ .f32 0x00000000#32),
    binary main_v1 main_cst main_v2 ((fun x v => Host.reduceAdd x v reducesTo_S64x401408_S64_d1 h_S_) : (⟨S64x401408, .f32⟩ : BufTy).Contents (Elt F) → (⟨S_, .f32⟩ : BufTy).Contents (Elt F) → (⟨S64, .f32⟩ : BufTy).Contents (Elt F)),
    unary main_v2 main_v3 (broadcastInDim S64x1 ![0] bcast_S64_S64x1_0 : (⟨S64, .f32⟩ : BufTy).Contents (Elt F) → (⟨S64x1, .f32⟩ : BufTy).Contents (Elt F)),
    nullary main_cst_0 (constant S_ .f32 0x48C40000#32),
    unary main_cst_0 main_v4 (broadcastInDim S64x1 ![] bcast_S_S64x1 : (⟨S_, .f32⟩ : BufTy).Contents (Elt F) → (⟨S64x1, .f32⟩ : BufTy).Contents (Elt F)),
    binary main_v3 main_v4 main_v5 (Host.divf : (⟨S64x1, .f32⟩ : BufTy).Contents (Elt F) → (⟨S64x1, .f32⟩ : BufTy).Contents (Elt F) → (⟨S64x1, .f32⟩ : BufTy).Contents (Elt F)),
    unary main_v5 main_v6 (broadcastInDim S64x401408 ![0, 1] bcast_S64x1_S64x401408_0_1 : (⟨S64x1, .f32⟩ : BufTy).Contents (Elt F) → (⟨S64x401408, .f32⟩ : BufTy).Contents (Elt F)),
    binary main_v1 main_v6 main_v7 (subf : (⟨S64x401408, .f32⟩ : BufTy).Contents (Elt F) → (⟨S64x401408, .f32⟩ : BufTy).Contents (Elt F) → (⟨S64x401408, .f32⟩ : BufTy).Contents (Elt F)),
    nullary main_v8 (iotaInDim S64x64 32 0),
    nullary main_v9 (iotaInDim S64x64 32 1),
    nullary main_c (constantI S_ 32 0#32),
    unary main_c main_v10 (broadcastInDim S64x64 ![] bcast_S_S64x64 : (⟨S_, .i32⟩ : BufTy).Contents (Elt F) → (⟨S64x64, .i32⟩ : BufTy).Contents (Elt F)),
    binary main_v8 main_v10 main_v11 (addi : (⟨S64x64, .i32⟩ : BufTy).Contents (Elt F) → (⟨S64x64, .i32⟩ : BufTy).Contents (Elt F) → (⟨S64x64, .i32⟩ : BufTy).Contents (Elt F)),
    binary main_v11 main_v9 main_v12 (cmpi .eq : (⟨S64x64, .i32⟩ : BufTy).Contents (Elt F) → (⟨S64x64, .i32⟩ : BufTy).Contents (Elt F) → (⟨S64x64, .i1⟩ : BufTy).Contents (Elt F)),
    unary main_v12 main_v13 (uitofp .f32 : (⟨S64x64, .i1⟩ : BufTy).Contents (Elt F) → (⟨S64x64, .f32⟩ : BufTy).Contents (Elt F)),
    nullary main_cst_1 (constant S_ .f32 0x3727C5AC#32),
    unary main_cst_1 main_v14 (broadcastInDim S64x64 ![] bcast_S_S64x64 : (⟨S_, .f32⟩ : BufTy).Contents (Elt F) → (⟨S64x64, .f32⟩ : BufTy).Contents (Elt F)),
    binary main_v14 main_v13 main_v15 (mulf : (⟨S64x64, .f32⟩ : BufTy).Contents (Elt F) → (⟨S64x64, .f32⟩ : BufTy).Contents (Elt F) → (⟨S64x64, .f32⟩ : BufTy).Contents (Elt F)),
    unary main_v7 main_v16 ((transpose S401408x64 [1, 0] · transposes_S64x401408_S401408x64_1_0) : (⟨S64x401408, .f32⟩ : BufTy).Contents (Elt F) → (⟨S401408x64, .f32⟩ : BufTy).Contents (Elt F)),
    binary main_v7 main_v16 main_v17 ((fun l r => Host.dotGeneral dot_S64x401408_S401408x64_S64x64_1_0_0_1_n_n none l r) : (⟨S64x401408, .f32⟩ : BufTy).Contents (Elt F) → (⟨S401408x64, .f32⟩ : BufTy).Contents (Elt F) → (⟨S64x64, .f32⟩ : BufTy).Contents (Elt F)),
    nullary main_cst_2 (constant S_ .f32 0x48C40000#32),
    unary main_cst_2 main_v18 (broadcastInDim S64x64 ![] bcast_S_S64x64 : (⟨S_, .f32⟩ : BufTy).Contents (Elt F) → (⟨S64x64, .f32⟩ : BufTy).Contents (Elt F)),
    binary main_v17 main_v18 main_v19 (Host.divf : (⟨S64x64, .f32⟩ : BufTy).Contents (Elt F) → (⟨S64x64, .f32⟩ : BufTy).Contents (Elt F) → (⟨S64x64, .f32⟩ : BufTy).Contents (Elt F)),
    binary main_v15 main_v19 main_v20 (addf : (⟨S64x64, .f32⟩ : BufTy).Contents (Elt F) → (⟨S64x64, .f32⟩ : BufTy).Contents (Elt F) → (⟨S64x64, .f32⟩ : BufTy).Contents (Elt F)) ]

/-- The damping, the trace, its reciprocal and the scaling to trace one. -/
abbrev segB : List (HloOp τ sig (Elt F)) :=
  [ nullary main_cst_3 (constant S_ .f32 0x3DCCCCCD#32),
    unary main_cst_3 main_v21 (broadcastInDim S64x64 ![] bcast_S_S64x64 : (⟨S_, .f32⟩ : BufTy).Contents (Elt F) → (⟨S64x64, .f32⟩ : BufTy).Contents (Elt F)),
    binary main_v21 main_v13 main_v22 (mulf : (⟨S64x64, .f32⟩ : BufTy).Contents (Elt F) → (⟨S64x64, .f32⟩ : BufTy).Contents (Elt F) → (⟨S64x64, .f32⟩ : BufTy).Contents (Elt F)),
    nullary main_cst_4 (constant S_ .f32 0x3F666666#32),
    unary main_cst_4 main_v23 (broadcastInDim S64x64 ![] bcast_S_S64x64 : (⟨S_, .f32⟩ : BufTy).Contents (Elt F) → (⟨S64x64, .f32⟩ : BufTy).Contents (Elt F)),
    binary main_v23 main_v22 main_v24 (addf : (⟨S64x64, .f32⟩ : BufTy).Contents (Elt F) → (⟨S64x64, .f32⟩ : BufTy).Contents (Elt F) → (⟨S64x64, .f32⟩ : BufTy).Contents (Elt F)),
    binary main_v20 main_v24 main_v25 (mulf : (⟨S64x64, .f32⟩ : BufTy).Contents (Elt F) → (⟨S64x64, .f32⟩ : BufTy).Contents (Elt F) → (⟨S64x64, .f32⟩ : BufTy).Contents (Elt F)),
    TRef.nullary main_call0.v0 (iotaInDim S64x64 32 0),
    TRef.nullary main_call0.v1 (iotaInDim S64x64 32 1),
    TRef.nullary main_call0.c (constantI S_ 32 0#32),
    TRef.unary main_call0.c main_call0.v2 (broadcastInDim S64x64 ![] bcast_S_S64x64),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S64x64 ![] bcast_S_S64x64),
    TRef.ternary main_call0.v4 (.of main_v25) main_call0.v5 main_call0.call0.v0 select,
    TRef.nullary main_call0.cst_0 (constant S_ .f32 0x00000000#32),
    TRef.binary main_call0.call0.v0 main_call0.cst_0 main_call0.v7 (fun x v => Host.reduceAdd x v reducesTo_S64x64_S_d0_1 h_S_),
    nullary main_cst_5 (constant S_ .f32 0x3F800000#32),
    binary main_cst_5 main_v26 main_v27 (Host.divf : (⟨S_, .f32⟩ : BufTy).Contents (Elt F) → (⟨S_, .f32⟩ : BufTy).Contents (Elt F) → (⟨S_, .f32⟩ : BufTy).Contents (Elt F)),
    unary main_v27 main_v28 (broadcastInDim S64x64 ![] bcast_S_S64x64 : (⟨S_, .f32⟩ : BufTy).Contents (Elt F) → (⟨S64x64, .f32⟩ : BufTy).Contents (Elt F)),
    binary main_v25 main_v28 main_v29 (mulf : (⟨S64x64, .f32⟩ : BufTy).Contents (Elt F) → (⟨S64x64, .f32⟩ : BufTy).Contents (Elt F) → (⟨S64x64, .f32⟩ : BufTy).Contents (Elt F)) ]

/-- Newton–Schulz step 1. -/
abbrev st1 : List (HloOp τ sig (Elt F)) :=
  [ nullary main_cst_6 (constant S_ .f32 0x3FC00000#32),
    unary main_cst_6 main_v30 (broadcastInDim S64x64 ![] bcast_S_S64x64 : (⟨S_, .f32⟩ : BufTy).Contents (Elt F) → (⟨S64x64, .f32⟩ : BufTy).Contents (Elt F)),
    binary main_v30 main_v13 main_v31 (mulf : (⟨S64x64, .f32⟩ : BufTy).Contents (Elt F) → (⟨S64x64, .f32⟩ : BufTy).Contents (Elt F) → (⟨S64x64, .f32⟩ : BufTy).Contents (Elt F)),
    binary main_v13 main_v13 main_v32 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v32 main_v13 main_v33 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v33 main_v29 main_v34 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_7 (constant S_ .f32 0x3F000000#32),
    unary main_cst_7 main_v35 (broadcastInDim S64x64 ![] bcast_S_S64x64 : (⟨S_, .f32⟩ : BufTy).Contents (Elt F) → (⟨S64x64, .f32⟩ : BufTy).Contents (Elt F)),
    binary main_v35 main_v34 main_v36 (mulf : (⟨S64x64, .f32⟩ : BufTy).Contents (Elt F) → (⟨S64x64, .f32⟩ : BufTy).Contents (Elt F) → (⟨S64x64, .f32⟩ : BufTy).Contents (Elt F)),
    binary main_v31 main_v36 main_v37 (subf : (⟨S64x64, .f32⟩ : BufTy).Contents (Elt F) → (⟨S64x64, .f32⟩ : BufTy).Contents (Elt F) → (⟨S64x64, .f32⟩ : BufTy).Contents (Elt F)) ]

/-- Newton–Schulz step 2. -/
abbrev st2 : List (HloOp τ sig (Elt F)) :=
  [ nullary main_cst_8 (constant S_ .f32 0x3FC00000#32),
    unary main_cst_8 main_v38 (broadcastInDim S64x64 ![] bcast_S_S64x64 : (⟨S_, .f32⟩ : BufTy).Contents (Elt F) → (⟨S64x64, .f32⟩ : BufTy).Contents (Elt F)),
    binary main_v38 main_v37 main_v39 (mulf : (⟨S64x64, .f32⟩ : BufTy).Contents (Elt F) → (⟨S64x64, .f32⟩ : BufTy).Contents (Elt F) → (⟨S64x64, .f32⟩ : BufTy).Contents (Elt F)),
    binary main_v37 main_v37 main_v40 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v40 main_v37 main_v41 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v41 main_v29 main_v42 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_9 (constant S_ .f32 0x3F000000#32),
    unary main_cst_9 main_v43 (broadcastInDim S64x64 ![] bcast_S_S64x64 : (⟨S_, .f32⟩ : BufTy).Contents (Elt F) → (⟨S64x64, .f32⟩ : BufTy).Contents (Elt F)),
    binary main_v43 main_v42 main_v44 (mulf : (⟨S64x64, .f32⟩ : BufTy).Contents (Elt F) → (⟨S64x64, .f32⟩ : BufTy).Contents (Elt F) → (⟨S64x64, .f32⟩ : BufTy).Contents (Elt F)),
    binary main_v39 main_v44 main_v45 (subf : (⟨S64x64, .f32⟩ : BufTy).Contents (Elt F) → (⟨S64x64, .f32⟩ : BufTy).Contents (Elt F) → (⟨S64x64, .f32⟩ : BufTy).Contents (Elt F)) ]

/-- Newton–Schulz step 3. -/
abbrev st3 : List (HloOp τ sig (Elt F)) :=
  [ nullary main_cst_10 (constant S_ .f32 0x3FC00000#32),
    unary main_cst_10 main_v46 (broadcastInDim S64x64 ![] bcast_S_S64x64 : (⟨S_, .f32⟩ : BufTy).Contents (Elt F) → (⟨S64x64, .f32⟩ : BufTy).Contents (Elt F)),
    binary main_v46 main_v45 main_v47 (mulf : (⟨S64x64, .f32⟩ : BufTy).Contents (Elt F) → (⟨S64x64, .f32⟩ : BufTy).Contents (Elt F) → (⟨S64x64, .f32⟩ : BufTy).Contents (Elt F)),
    binary main_v45 main_v45 main_v48 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v48 main_v45 main_v49 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v49 main_v29 main_v50 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_11 (constant S_ .f32 0x3F000000#32),
    unary main_cst_11 main_v51 (broadcastInDim S64x64 ![] bcast_S_S64x64 : (⟨S_, .f32⟩ : BufTy).Contents (Elt F) → (⟨S64x64, .f32⟩ : BufTy).Contents (Elt F)),
    binary main_v51 main_v50 main_v52 (mulf : (⟨S64x64, .f32⟩ : BufTy).Contents (Elt F) → (⟨S64x64, .f32⟩ : BufTy).Contents (Elt F) → (⟨S64x64, .f32⟩ : BufTy).Contents (Elt F)),
    binary main_v47 main_v52 main_v53 (subf : (⟨S64x64, .f32⟩ : BufTy).Contents (Elt F) → (⟨S64x64, .f32⟩ : BufTy).Contents (Elt F) → (⟨S64x64, .f32⟩ : BufTy).Contents (Elt F)) ]

/-- Newton–Schulz step 4. -/
abbrev st4 : List (HloOp τ sig (Elt F)) :=
  [ nullary main_cst_12 (constant S_ .f32 0x3FC00000#32),
    unary main_cst_12 main_v54 (broadcastInDim S64x64 ![] bcast_S_S64x64 : (⟨S_, .f32⟩ : BufTy).Contents (Elt F) → (⟨S64x64, .f32⟩ : BufTy).Contents (Elt F)),
    binary main_v54 main_v53 main_v55 (mulf : (⟨S64x64, .f32⟩ : BufTy).Contents (Elt F) → (⟨S64x64, .f32⟩ : BufTy).Contents (Elt F) → (⟨S64x64, .f32⟩ : BufTy).Contents (Elt F)),
    binary main_v53 main_v53 main_v56 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v56 main_v53 main_v57 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v57 main_v29 main_v58 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_13 (constant S_ .f32 0x3F000000#32),
    unary main_cst_13 main_v59 (broadcastInDim S64x64 ![] bcast_S_S64x64 : (⟨S_, .f32⟩ : BufTy).Contents (Elt F) → (⟨S64x64, .f32⟩ : BufTy).Contents (Elt F)),
    binary main_v59 main_v58 main_v60 (mulf : (⟨S64x64, .f32⟩ : BufTy).Contents (Elt F) → (⟨S64x64, .f32⟩ : BufTy).Contents (Elt F) → (⟨S64x64, .f32⟩ : BufTy).Contents (Elt F)),
    binary main_v55 main_v60 main_v61 (subf : (⟨S64x64, .f32⟩ : BufTy).Contents (Elt F) → (⟨S64x64, .f32⟩ : BufTy).Contents (Elt F) → (⟨S64x64, .f32⟩ : BufTy).Contents (Elt F)) ]

/-- Newton–Schulz step 5. -/
abbrev st5 : List (HloOp τ sig (Elt F)) :=
  [ nullary main_cst_14 (constant S_ .f32 0x3FC00000#32),
    unary main_cst_14 main_v62 (broadcastInDim S64x64 ![] bcast_S_S64x64 : (⟨S_, .f32⟩ : BufTy).Contents (Elt F) → (⟨S64x64, .f32⟩ : BufTy).Contents (Elt F)),
    binary main_v62 main_v61 main_v63 (mulf : (⟨S64x64, .f32⟩ : BufTy).Contents (Elt F) → (⟨S64x64, .f32⟩ : BufTy).Contents (Elt F) → (⟨S64x64, .f32⟩ : BufTy).Contents (Elt F)),
    binary main_v61 main_v61 main_v64 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v64 main_v61 main_v65 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v65 main_v29 main_v66 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_15 (constant S_ .f32 0x3F000000#32),
    unary main_cst_15 main_v67 (broadcastInDim S64x64 ![] bcast_S_S64x64 : (⟨S_, .f32⟩ : BufTy).Contents (Elt F) → (⟨S64x64, .f32⟩ : BufTy).Contents (Elt F)),
    binary main_v67 main_v66 main_v68 (mulf : (⟨S64x64, .f32⟩ : BufTy).Contents (Elt F) → (⟨S64x64, .f32⟩ : BufTy).Contents (Elt F) → (⟨S64x64, .f32⟩ : BufTy).Contents (Elt F)),
    binary main_v63 main_v68 main_v69 (subf : (⟨S64x64, .f32⟩ : BufTy).Contents (Elt F) → (⟨S64x64, .f32⟩ : BufTy).Contents (Elt F) → (⟨S64x64, .f32⟩ : BufTy).Contents (Elt F)) ]

/-- Newton–Schulz step 6. -/
abbrev st6 : List (HloOp τ sig (Elt F)) :=
  [ nullary main_cst_16 (constant S_ .f32 0x3FC00000#32),
    unary main_cst_16 main_v70 (broadcastInDim S64x64 ![] bcast_S_S64x64 : (⟨S_, .f32⟩ : BufTy).Contents (Elt F) → (⟨S64x64, .f32⟩ : BufTy).Contents (Elt F)),
    binary main_v70 main_v69 main_v71 (mulf : (⟨S64x64, .f32⟩ : BufTy).Contents (Elt F) → (⟨S64x64, .f32⟩ : BufTy).Contents (Elt F) → (⟨S64x64, .f32⟩ : BufTy).Contents (Elt F)),
    binary main_v69 main_v69 main_v72 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v72 main_v69 main_v73 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v73 main_v29 main_v74 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_17 (constant S_ .f32 0x3F000000#32),
    unary main_cst_17 main_v75 (broadcastInDim S64x64 ![] bcast_S_S64x64 : (⟨S_, .f32⟩ : BufTy).Contents (Elt F) → (⟨S64x64, .f32⟩ : BufTy).Contents (Elt F)),
    binary main_v75 main_v74 main_v76 (mulf : (⟨S64x64, .f32⟩ : BufTy).Contents (Elt F) → (⟨S64x64, .f32⟩ : BufTy).Contents (Elt F) → (⟨S64x64, .f32⟩ : BufTy).Contents (Elt F)),
    binary main_v71 main_v76 main_v77 (subf : (⟨S64x64, .f32⟩ : BufTy).Contents (Elt F) → (⟨S64x64, .f32⟩ : BufTy).Contents (Elt F) → (⟨S64x64, .f32⟩ : BufTy).Contents (Elt F)) ]

/-- Newton–Schulz step 7. -/
abbrev st7 : List (HloOp τ sig (Elt F)) :=
  [ nullary main_cst_18 (constant S_ .f32 0x3FC00000#32),
    unary main_cst_18 main_v78 (broadcastInDim S64x64 ![] bcast_S_S64x64 : (⟨S_, .f32⟩ : BufTy).Contents (Elt F) → (⟨S64x64, .f32⟩ : BufTy).Contents (Elt F)),
    binary main_v78 main_v77 main_v79 (mulf : (⟨S64x64, .f32⟩ : BufTy).Contents (Elt F) → (⟨S64x64, .f32⟩ : BufTy).Contents (Elt F) → (⟨S64x64, .f32⟩ : BufTy).Contents (Elt F)),
    binary main_v77 main_v77 main_v80 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v80 main_v77 main_v81 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v81 main_v29 main_v82 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_19 (constant S_ .f32 0x3F000000#32),
    unary main_cst_19 main_v83 (broadcastInDim S64x64 ![] bcast_S_S64x64 : (⟨S_, .f32⟩ : BufTy).Contents (Elt F) → (⟨S64x64, .f32⟩ : BufTy).Contents (Elt F)),
    binary main_v83 main_v82 main_v84 (mulf : (⟨S64x64, .f32⟩ : BufTy).Contents (Elt F) → (⟨S64x64, .f32⟩ : BufTy).Contents (Elt F) → (⟨S64x64, .f32⟩ : BufTy).Contents (Elt F)),
    binary main_v79 main_v84 main_v85 (subf : (⟨S64x64, .f32⟩ : BufTy).Contents (Elt F) → (⟨S64x64, .f32⟩ : BufTy).Contents (Elt F) → (⟨S64x64, .f32⟩ : BufTy).Contents (Elt F)) ]

/-- Newton–Schulz step 8. -/
abbrev st8 : List (HloOp τ sig (Elt F)) :=
  [ nullary main_cst_20 (constant S_ .f32 0x3FC00000#32),
    unary main_cst_20 main_v86 (broadcastInDim S64x64 ![] bcast_S_S64x64 : (⟨S_, .f32⟩ : BufTy).Contents (Elt F) → (⟨S64x64, .f32⟩ : BufTy).Contents (Elt F)),
    binary main_v86 main_v85 main_v87 (mulf : (⟨S64x64, .f32⟩ : BufTy).Contents (Elt F) → (⟨S64x64, .f32⟩ : BufTy).Contents (Elt F) → (⟨S64x64, .f32⟩ : BufTy).Contents (Elt F)),
    binary main_v85 main_v85 main_v88 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v88 main_v85 main_v89 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v89 main_v29 main_v90 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_21 (constant S_ .f32 0x3F000000#32),
    unary main_cst_21 main_v91 (broadcastInDim S64x64 ![] bcast_S_S64x64 : (⟨S_, .f32⟩ : BufTy).Contents (Elt F) → (⟨S64x64, .f32⟩ : BufTy).Contents (Elt F)),
    binary main_v91 main_v90 main_v92 (mulf : (⟨S64x64, .f32⟩ : BufTy).Contents (Elt F) → (⟨S64x64, .f32⟩ : BufTy).Contents (Elt F) → (⟨S64x64, .f32⟩ : BufTy).Contents (Elt F)),
    binary main_v87 main_v92 main_v93 (subf : (⟨S64x64, .f32⟩ : BufTy).Contents (Elt F) → (⟨S64x64, .f32⟩ : BufTy).Contents (Elt F) → (⟨S64x64, .f32⟩ : BufTy).Contents (Elt F)) ]

/-- Newton–Schulz step 9. -/
abbrev st9 : List (HloOp τ sig (Elt F)) :=
  [ nullary main_cst_22 (constant S_ .f32 0x3FC00000#32),
    unary main_cst_22 main_v94 (broadcastInDim S64x64 ![] bcast_S_S64x64 : (⟨S_, .f32⟩ : BufTy).Contents (Elt F) → (⟨S64x64, .f32⟩ : BufTy).Contents (Elt F)),
    binary main_v94 main_v93 main_v95 (mulf : (⟨S64x64, .f32⟩ : BufTy).Contents (Elt F) → (⟨S64x64, .f32⟩ : BufTy).Contents (Elt F) → (⟨S64x64, .f32⟩ : BufTy).Contents (Elt F)),
    binary main_v93 main_v93 main_v96 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v96 main_v93 main_v97 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v97 main_v29 main_v98 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_23 (constant S_ .f32 0x3F000000#32),
    unary main_cst_23 main_v99 (broadcastInDim S64x64 ![] bcast_S_S64x64 : (⟨S_, .f32⟩ : BufTy).Contents (Elt F) → (⟨S64x64, .f32⟩ : BufTy).Contents (Elt F)),
    binary main_v99 main_v98 main_v100 (mulf : (⟨S64x64, .f32⟩ : BufTy).Contents (Elt F) → (⟨S64x64, .f32⟩ : BufTy).Contents (Elt F) → (⟨S64x64, .f32⟩ : BufTy).Contents (Elt F)),
    binary main_v95 main_v100 main_v101 (subf : (⟨S64x64, .f32⟩ : BufTy).Contents (Elt F) → (⟨S64x64, .f32⟩ : BufTy).Contents (Elt F) → (⟨S64x64, .f32⟩ : BufTy).Contents (Elt F)) ]

/-- Newton–Schulz step 10. -/
abbrev st10 : List (HloOp τ sig (Elt F)) :=
  [ nullary main_cst_24 (constant S_ .f32 0x3FC00000#32),
    unary main_cst_24 main_v102 (broadcastInDim S64x64 ![] bcast_S_S64x64 : (⟨S_, .f32⟩ : BufTy).Contents (Elt F) → (⟨S64x64, .f32⟩ : BufTy).Contents (Elt F)),
    binary main_v102 main_v101 main_v103 (mulf : (⟨S64x64, .f32⟩ : BufTy).Contents (Elt F) → (⟨S64x64, .f32⟩ : BufTy).Contents (Elt F) → (⟨S64x64, .f32⟩ : BufTy).Contents (Elt F)),
    binary main_v101 main_v101 main_v104 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v104 main_v101 main_v105 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v105 main_v29 main_v106 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_25 (constant S_ .f32 0x3F000000#32),
    unary main_cst_25 main_v107 (broadcastInDim S64x64 ![] bcast_S_S64x64 : (⟨S_, .f32⟩ : BufTy).Contents (Elt F) → (⟨S64x64, .f32⟩ : BufTy).Contents (Elt F)),
    binary main_v107 main_v106 main_v108 (mulf : (⟨S64x64, .f32⟩ : BufTy).Contents (Elt F) → (⟨S64x64, .f32⟩ : BufTy).Contents (Elt F) → (⟨S64x64, .f32⟩ : BufTy).Contents (Elt F)),
    binary main_v103 main_v108 main_v109 (subf : (⟨S64x64, .f32⟩ : BufTy).Contents (Elt F) → (⟨S64x64, .f32⟩ : BufTy).Contents (Elt F) → (⟨S64x64, .f32⟩ : BufTy).Contents (Elt F)) ]

/-- The square root, the final scaling, the product with the centred data, the layout back and the bias. -/
abbrev segZ : List (HloOp τ sig (Elt F)) :=
  [ unary main_v27 main_v110 (Host.sqrt : (⟨S_, .f32⟩ : BufTy).Contents (Elt F) → (⟨S_, .f32⟩ : BufTy).Contents (Elt F)),
    unary main_v110 main_v111 (broadcastInDim S64x64 ![] bcast_S_S64x64 : (⟨S_, .f32⟩ : BufTy).Contents (Elt F) → (⟨S64x64, .f32⟩ : BufTy).Contents (Elt F)),
    binary main_v109 main_v111 main_v112 (mulf : (⟨S64x64, .f32⟩ : BufTy).Contents (Elt F) → (⟨S64x64, .f32⟩ : BufTy).Contents (Elt F) → (⟨S64x64, .f32⟩ : BufTy).Contents (Elt F)),
    binary main_v112 main_v7 main_v113 ((fun l r => Host.dotGeneral dot_S64x64_S64x401408_S64x401408_1_0_0_1_n_n none l r) : (⟨S64x64, .f32⟩ : BufTy).Contents (Elt F) → (⟨S64x401408, .f32⟩ : BufTy).Contents (Elt F) → (⟨S64x401408, .f32⟩ : BufTy).Contents (Elt F)),
    reshape main_v113 main_v114 rfl shapeCasts_S64x401408_S64x128x56x56,
    unary main_v114 main_v115 ((transpose S128x64x56x56 [1, 0, 2, 3] · transposes_S64x128x56x56_S128x64x56x56_1_0_2_3) : (⟨S64x128x56x56, .f32⟩ : BufTy).Contents (Elt F) → (⟨S128x64x56x56, .f32⟩ : BufTy).Contents (Elt F)),
    reshape main_arg1 main_v116 rfl shapeCasts_S64_S1x64x1x1,
    unary main_v116 main_v117 (broadcastInDim S128x64x56x56 ![0, 1, 2, 3] bcast_S1x64x1x1_S128x64x56x56_0_1_2_3 : (⟨S1x64x1x1, .f32⟩ : BufTy).Contents (Elt F) → (⟨S128x64x56x56, .f32⟩ : BufTy).Contents (Elt F)),
    binary main_v115 main_v117 main_v118 (addf : (⟨S128x64x56x56, .f32⟩ : BufTy).Contents (Elt F) → (⟨S128x64x56x56, .f32⟩ : BufTy).Contents (Elt F) → (⟨S128x64x56x56, .f32⟩ : BufTy).Contents (Elt F)) ]

theorem ops_eq_segs : (ops : List (HloOp τ sig (Elt F))) = segA ++ (segB ++ (st1 ++ (st2 ++ (st3 ++ (st4 ++ (st5 ++ (st6 ++ (st7 ++ (st8 ++ (st9 ++ (st10 ++ (segZ)))))))))))) := rfl

/-- One operation writes only a buffer of the list. -/
local macro "writes_mem" : tactic =>
  `(tactic| (simp only [nullary_writes, unary_writes, binary_writes, ternary_writes, reshape_writes, Finset.singleton_subset_iff, List.mem_toFinset]
             exact List.mem_map_of_mem (by decide)))

/-- The buffer contents before anything ran. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The buffer contents after the first 1 stage. -/
def val1 (V0 : Valuation τ sig (Elt F)) : Valuation τ sig (Elt F) := after segA (val0 V0)
/-- The buffers this stage writes. -/
abbrev segA_W : List (Ref sig .tc) := [main_v0, main_v1, main_cst, main_v2, main_v3, main_cst_0, main_v4, main_v5, main_v6, main_v7, main_v8, main_v9, main_c, main_v10, main_v11, main_v12, main_v13, main_cst_1, main_v14, main_v15, main_v16, main_v17, main_cst_2, main_v18, main_v19, main_v20]
set_option maxRecDepth 8192 in
theorem segA_writes : (segA : List (HloOp τ sig (Elt F))).Forall fun op => op.writes ⊆ (segA_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A buffer this stage does not write keeps its contents through it. -/
theorem val1_keep (V0 : Valuation τ sig (Elt F)) (r : Ref sig .tc) (h : r ∉ segA_W) :
    val1 V0 (Proc.devRef .tc r) = val0 V0 (Proc.devRef .tc r) :=
  after_of_writes_sub segA _ segA_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
set_option maxRecDepth 8192 in
set_option maxHeartbeats 2000000 in
theorem val1_main_v7 (V0 : Valuation τ sig (Elt F)) : val1 V0 (no_index (Proc.devRef .tc main_v7)) = xc (V0 (Proc.devRef .tc main_arg0)) := by
  unfold val1
  simp only [segA]
  after_results_simp
  (try simp only [val0_main_arg0, val0_main_arg1])
  rfl
set_option maxRecDepth 8192 in
set_option maxHeartbeats 2000000 in
theorem val1_main_v13 (V0 : Valuation τ sig (Elt F)) : val1 V0 (no_index (Proc.devRef .tc main_v13)) = (eye : FVec F S64x64 .f32) := by
  unfold val1
  simp only [segA]
  after_results_simp
  (try simp only [val0_main_arg0, val0_main_arg1])
  rfl
set_option maxRecDepth 8192 in
set_option maxHeartbeats 2000000 in
theorem val1_main_v20 (V0 : Valuation τ sig (Elt F)) : val1 V0 (no_index (Proc.devRef .tc main_v20)) = sigma (V0 (Proc.devRef .tc main_arg0)) := by
  unfold val1
  simp only [segA]
  after_results_simp
  (try simp only [val0_main_arg0, val0_main_arg1])
  rfl

/-- The buffer contents after the first 2 stages. -/
def val2 (V0 : Valuation τ sig (Elt F)) : Valuation τ sig (Elt F) := after segB (val1 V0)
/-- The buffers this stage writes. -/
abbrev segB_W : List (Ref sig .tc) := [main_cst_3, main_v21, main_v22, main_cst_4, main_v23, main_v24, main_v25, main_call0_v0, main_call0_v1, main_call0_c, main_call0_v2, main_call0_v3, main_call0_v4, main_call0_cst, main_call0_v5, main_call0_v6, main_call0_cst_0, main_v26, main_cst_5, main_v27, main_v28, main_v29]
set_option maxRecDepth 8192 in
theorem segB_writes : (segB : List (HloOp τ sig (Elt F))).Forall fun op => op.writes ⊆ (segB_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A buffer this stage does not write keeps its contents through it. -/
theorem val2_keep (V0 : Valuation τ sig (Elt F)) (r : Ref sig .tc) (h : r ∉ segB_W) :
    val2 V0 (Proc.devRef .tc r) = val1 V0 (Proc.devRef .tc r) :=
  after_of_writes_sub segB _ segB_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_v7 (V0 : Valuation τ sig (Elt F)) : val2 V0 (no_index (Proc.devRef .tc main_v7)) = xc (V0 (Proc.devRef .tc main_arg0)) :=
  (val2_keep V0 main_v7 (by decide)).trans (val1_main_v7 V0)
theorem val2_main_v13 (V0 : Valuation τ sig (Elt F)) : val2 V0 (no_index (Proc.devRef .tc main_v13)) = (eye : FVec F S64x64 .f32) :=
  (val2_keep V0 main_v13 (by decide)).trans (val1_main_v13 V0)
set_option maxRecDepth 8192 in
set_option maxHeartbeats 2000000 in
theorem val2_main_v27 (V0 : Valuation τ sig (Elt F)) : val2 V0 (no_index (Proc.devRef .tc main_v27)) = rT (sigma (V0 (Proc.devRef .tc main_arg0))) := by
  unfold val2
  simp only [segB]
  after_results_simp
  (try simp only [val1_main_arg0, val1_main_arg1, val1_main_v7, val1_main_v13, val1_main_v20])
  rfl
set_option maxRecDepth 8192 in
set_option maxHeartbeats 2000000 in
theorem val2_main_v29 (V0 : Valuation τ sig (Elt F)) : val2 V0 (no_index (Proc.devRef .tc main_v29)) = sN (sigma (V0 (Proc.devRef .tc main_arg0))) := by
  unfold val2
  simp only [segB]
  after_results_simp
  (try simp only [val1_main_arg0, val1_main_arg1, val1_main_v7, val1_main_v13, val1_main_v20])
  rfl

/-- The buffer contents after the first 3 stages. -/
def val3 (V0 : Valuation τ sig (Elt F)) : Valuation τ sig (Elt F) := after st1 (val2 V0)
/-- The buffers this stage writes. -/
abbrev st1_W : List (Ref sig .tc) := [main_cst_6, main_v30, main_v31, main_v32, main_v33, main_v34, main_cst_7, main_v35, main_v36, main_v37]
set_option maxRecDepth 8192 in
theorem st1_writes : (st1 : List (HloOp τ sig (Elt F))).Forall fun op => op.writes ⊆ (st1_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val3_keep (V0 : Valuation τ sig (Elt F)) (r : Ref sig .tc) (h : r ∉ st1_W) :
    val3 V0 (Proc.devRef .tc r) = val2 V0 (Proc.devRef .tc r) :=
  after_of_writes_sub st1 _ st1_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_v7 (V0 : Valuation τ sig (Elt F)) : val3 V0 (no_index (Proc.devRef .tc main_v7)) = xc (V0 (Proc.devRef .tc main_arg0)) :=
  (val3_keep V0 main_v7 (by decide)).trans (val2_main_v7 V0)
theorem val3_main_v27 (V0 : Valuation τ sig (Elt F)) : val3 V0 (no_index (Proc.devRef .tc main_v27)) = rT (sigma (V0 (Proc.devRef .tc main_arg0))) :=
  (val3_keep V0 main_v27 (by decide)).trans (val2_main_v27 V0)
theorem val3_main_v29 (V0 : Valuation τ sig (Elt F)) : val3 V0 (no_index (Proc.devRef .tc main_v29)) = sN (sigma (V0 (Proc.devRef .tc main_arg0))) :=
  (val3_keep V0 main_v29 (by decide)).trans (val2_main_v29 V0)
set_option maxRecDepth 8192 in
set_option maxHeartbeats 2000000 in
theorem val3_main_v37 (V0 : Valuation τ sig (Elt F)) : val3 V0 (no_index (Proc.devRef .tc main_v37)) = ns (sN (sigma (V0 (Proc.devRef .tc main_arg0)))) 1 := by
  unfold val3
  simp only [st1]
  after_results_simp
  (try simp only [val2_main_arg0, val2_main_arg1, val2_main_v7, val2_main_v13, val2_main_v27, val2_main_v29])
  rfl

/-- The buffer contents after the first 4 stages. -/
def val4 (V0 : Valuation τ sig (Elt F)) : Valuation τ sig (Elt F) := after st2 (val3 V0)
/-- The buffers this stage writes. -/
abbrev st2_W : List (Ref sig .tc) := [main_cst_8, main_v38, main_v39, main_v40, main_v41, main_v42, main_cst_9, main_v43, main_v44, main_v45]
set_option maxRecDepth 8192 in
theorem st2_writes : (st2 : List (HloOp τ sig (Elt F))).Forall fun op => op.writes ⊆ (st2_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val4_keep (V0 : Valuation τ sig (Elt F)) (r : Ref sig .tc) (h : r ∉ st2_W) :
    val4 V0 (Proc.devRef .tc r) = val3 V0 (Proc.devRef .tc r) :=
  after_of_writes_sub st2 _ st2_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_v7 (V0 : Valuation τ sig (Elt F)) : val4 V0 (no_index (Proc.devRef .tc main_v7)) = xc (V0 (Proc.devRef .tc main_arg0)) :=
  (val4_keep V0 main_v7 (by decide)).trans (val3_main_v7 V0)
theorem val4_main_v27 (V0 : Valuation τ sig (Elt F)) : val4 V0 (no_index (Proc.devRef .tc main_v27)) = rT (sigma (V0 (Proc.devRef .tc main_arg0))) :=
  (val4_keep V0 main_v27 (by decide)).trans (val3_main_v27 V0)
theorem val4_main_v29 (V0 : Valuation τ sig (Elt F)) : val4 V0 (no_index (Proc.devRef .tc main_v29)) = sN (sigma (V0 (Proc.devRef .tc main_arg0))) :=
  (val4_keep V0 main_v29 (by decide)).trans (val3_main_v29 V0)
set_option maxRecDepth 8192 in
set_option maxHeartbeats 2000000 in
theorem val4_main_v45 (V0 : Valuation τ sig (Elt F)) : val4 V0 (no_index (Proc.devRef .tc main_v45)) = ns (sN (sigma (V0 (Proc.devRef .tc main_arg0)))) 2 := by
  unfold val4
  simp only [st2]
  after_results_simp
  (try simp only [val3_main_arg0, val3_main_arg1, val3_main_v7, val3_main_v27, val3_main_v29, val3_main_v37])
  rfl

/-- The buffer contents after the first 5 stages. -/
def val5 (V0 : Valuation τ sig (Elt F)) : Valuation τ sig (Elt F) := after st3 (val4 V0)
/-- The buffers this stage writes. -/
abbrev st3_W : List (Ref sig .tc) := [main_cst_10, main_v46, main_v47, main_v48, main_v49, main_v50, main_cst_11, main_v51, main_v52, main_v53]
set_option maxRecDepth 8192 in
theorem st3_writes : (st3 : List (HloOp τ sig (Elt F))).Forall fun op => op.writes ⊆ (st3_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val5_keep (V0 : Valuation τ sig (Elt F)) (r : Ref sig .tc) (h : r ∉ st3_W) :
    val5 V0 (Proc.devRef .tc r) = val4 V0 (Proc.devRef .tc r) :=
  after_of_writes_sub st3 _ st3_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_v7 (V0 : Valuation τ sig (Elt F)) : val5 V0 (no_index (Proc.devRef .tc main_v7)) = xc (V0 (Proc.devRef .tc main_arg0)) :=
  (val5_keep V0 main_v7 (by decide)).trans (val4_main_v7 V0)
theorem val5_main_v27 (V0 : Valuation τ sig (Elt F)) : val5 V0 (no_index (Proc.devRef .tc main_v27)) = rT (sigma (V0 (Proc.devRef .tc main_arg0))) :=
  (val5_keep V0 main_v27 (by decide)).trans (val4_main_v27 V0)
theorem val5_main_v29 (V0 : Valuation τ sig (Elt F)) : val5 V0 (no_index (Proc.devRef .tc main_v29)) = sN (sigma (V0 (Proc.devRef .tc main_arg0))) :=
  (val5_keep V0 main_v29 (by decide)).trans (val4_main_v29 V0)
set_option maxRecDepth 8192 in
set_option maxHeartbeats 2000000 in
theorem val5_main_v53 (V0 : Valuation τ sig (Elt F)) : val5 V0 (no_index (Proc.devRef .tc main_v53)) = ns (sN (sigma (V0 (Proc.devRef .tc main_arg0)))) 3 := by
  unfold val5
  simp only [st3]
  after_results_simp
  (try simp only [val4_main_arg0, val4_main_arg1, val4_main_v7, val4_main_v27, val4_main_v29, val4_main_v45])
  rfl

/-- The buffer contents after the first 6 stages. -/
def val6 (V0 : Valuation τ sig (Elt F)) : Valuation τ sig (Elt F) := after st4 (val5 V0)
/-- The buffers this stage writes. -/
abbrev st4_W : List (Ref sig .tc) := [main_cst_12, main_v54, main_v55, main_v56, main_v57, main_v58, main_cst_13, main_v59, main_v60, main_v61]
set_option maxRecDepth 8192 in
theorem st4_writes : (st4 : List (HloOp τ sig (Elt F))).Forall fun op => op.writes ⊆ (st4_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val6_keep (V0 : Valuation τ sig (Elt F)) (r : Ref sig .tc) (h : r ∉ st4_W) :
    val6 V0 (Proc.devRef .tc r) = val5 V0 (Proc.devRef .tc r) :=
  after_of_writes_sub st4 _ st4_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_v7 (V0 : Valuation τ sig (Elt F)) : val6 V0 (no_index (Proc.devRef .tc main_v7)) = xc (V0 (Proc.devRef .tc main_arg0)) :=
  (val6_keep V0 main_v7 (by decide)).trans (val5_main_v7 V0)
theorem val6_main_v27 (V0 : Valuation τ sig (Elt F)) : val6 V0 (no_index (Proc.devRef .tc main_v27)) = rT (sigma (V0 (Proc.devRef .tc main_arg0))) :=
  (val6_keep V0 main_v27 (by decide)).trans (val5_main_v27 V0)
theorem val6_main_v29 (V0 : Valuation τ sig (Elt F)) : val6 V0 (no_index (Proc.devRef .tc main_v29)) = sN (sigma (V0 (Proc.devRef .tc main_arg0))) :=
  (val6_keep V0 main_v29 (by decide)).trans (val5_main_v29 V0)
set_option maxRecDepth 8192 in
set_option maxHeartbeats 2000000 in
theorem val6_main_v61 (V0 : Valuation τ sig (Elt F)) : val6 V0 (no_index (Proc.devRef .tc main_v61)) = ns (sN (sigma (V0 (Proc.devRef .tc main_arg0)))) 4 := by
  unfold val6
  simp only [st4]
  after_results_simp
  (try simp only [val5_main_arg0, val5_main_arg1, val5_main_v7, val5_main_v27, val5_main_v29, val5_main_v53])
  rfl

/-- The buffer contents after the first 7 stages. -/
def val7 (V0 : Valuation τ sig (Elt F)) : Valuation τ sig (Elt F) := after st5 (val6 V0)
/-- The buffers this stage writes. -/
abbrev st5_W : List (Ref sig .tc) := [main_cst_14, main_v62, main_v63, main_v64, main_v65, main_v66, main_cst_15, main_v67, main_v68, main_v69]
set_option maxRecDepth 8192 in
theorem st5_writes : (st5 : List (HloOp τ sig (Elt F))).Forall fun op => op.writes ⊆ (st5_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val7_keep (V0 : Valuation τ sig (Elt F)) (r : Ref sig .tc) (h : r ∉ st5_W) :
    val7 V0 (Proc.devRef .tc r) = val6 V0 (Proc.devRef .tc r) :=
  after_of_writes_sub st5 _ st5_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_v7 (V0 : Valuation τ sig (Elt F)) : val7 V0 (no_index (Proc.devRef .tc main_v7)) = xc (V0 (Proc.devRef .tc main_arg0)) :=
  (val7_keep V0 main_v7 (by decide)).trans (val6_main_v7 V0)
theorem val7_main_v27 (V0 : Valuation τ sig (Elt F)) : val7 V0 (no_index (Proc.devRef .tc main_v27)) = rT (sigma (V0 (Proc.devRef .tc main_arg0))) :=
  (val7_keep V0 main_v27 (by decide)).trans (val6_main_v27 V0)
theorem val7_main_v29 (V0 : Valuation τ sig (Elt F)) : val7 V0 (no_index (Proc.devRef .tc main_v29)) = sN (sigma (V0 (Proc.devRef .tc main_arg0))) :=
  (val7_keep V0 main_v29 (by decide)).trans (val6_main_v29 V0)
set_option maxRecDepth 8192 in
set_option maxHeartbeats 2000000 in
theorem val7_main_v69 (V0 : Valuation τ sig (Elt F)) : val7 V0 (no_index (Proc.devRef .tc main_v69)) = ns (sN (sigma (V0 (Proc.devRef .tc main_arg0)))) 5 := by
  unfold val7
  simp only [st5]
  after_results_simp
  (try simp only [val6_main_arg0, val6_main_arg1, val6_main_v7, val6_main_v27, val6_main_v29, val6_main_v61])
  rfl

/-- The buffer contents after the first 8 stages. -/
def val8 (V0 : Valuation τ sig (Elt F)) : Valuation τ sig (Elt F) := after st6 (val7 V0)
/-- The buffers this stage writes. -/
abbrev st6_W : List (Ref sig .tc) := [main_cst_16, main_v70, main_v71, main_v72, main_v73, main_v74, main_cst_17, main_v75, main_v76, main_v77]
set_option maxRecDepth 8192 in
theorem st6_writes : (st6 : List (HloOp τ sig (Elt F))).Forall fun op => op.writes ⊆ (st6_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val8_keep (V0 : Valuation τ sig (Elt F)) (r : Ref sig .tc) (h : r ∉ st6_W) :
    val8 V0 (Proc.devRef .tc r) = val7 V0 (Proc.devRef .tc r) :=
  after_of_writes_sub st6 _ st6_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_v7 (V0 : Valuation τ sig (Elt F)) : val8 V0 (no_index (Proc.devRef .tc main_v7)) = xc (V0 (Proc.devRef .tc main_arg0)) :=
  (val8_keep V0 main_v7 (by decide)).trans (val7_main_v7 V0)
theorem val8_main_v27 (V0 : Valuation τ sig (Elt F)) : val8 V0 (no_index (Proc.devRef .tc main_v27)) = rT (sigma (V0 (Proc.devRef .tc main_arg0))) :=
  (val8_keep V0 main_v27 (by decide)).trans (val7_main_v27 V0)
theorem val8_main_v29 (V0 : Valuation τ sig (Elt F)) : val8 V0 (no_index (Proc.devRef .tc main_v29)) = sN (sigma (V0 (Proc.devRef .tc main_arg0))) :=
  (val8_keep V0 main_v29 (by decide)).trans (val7_main_v29 V0)
set_option maxRecDepth 8192 in
set_option maxHeartbeats 2000000 in
theorem val8_main_v77 (V0 : Valuation τ sig (Elt F)) : val8 V0 (no_index (Proc.devRef .tc main_v77)) = ns (sN (sigma (V0 (Proc.devRef .tc main_arg0)))) 6 := by
  unfold val8
  simp only [st6]
  after_results_simp
  (try simp only [val7_main_arg0, val7_main_arg1, val7_main_v7, val7_main_v27, val7_main_v29, val7_main_v69])
  rfl

/-- The buffer contents after the first 9 stages. -/
def val9 (V0 : Valuation τ sig (Elt F)) : Valuation τ sig (Elt F) := after st7 (val8 V0)
/-- The buffers this stage writes. -/
abbrev st7_W : List (Ref sig .tc) := [main_cst_18, main_v78, main_v79, main_v80, main_v81, main_v82, main_cst_19, main_v83, main_v84, main_v85]
set_option maxRecDepth 8192 in
theorem st7_writes : (st7 : List (HloOp τ sig (Elt F))).Forall fun op => op.writes ⊆ (st7_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val9_keep (V0 : Valuation τ sig (Elt F)) (r : Ref sig .tc) (h : r ∉ st7_W) :
    val9 V0 (Proc.devRef .tc r) = val8 V0 (Proc.devRef .tc r) :=
  after_of_writes_sub st7 _ st7_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_v7 (V0 : Valuation τ sig (Elt F)) : val9 V0 (no_index (Proc.devRef .tc main_v7)) = xc (V0 (Proc.devRef .tc main_arg0)) :=
  (val9_keep V0 main_v7 (by decide)).trans (val8_main_v7 V0)
theorem val9_main_v27 (V0 : Valuation τ sig (Elt F)) : val9 V0 (no_index (Proc.devRef .tc main_v27)) = rT (sigma (V0 (Proc.devRef .tc main_arg0))) :=
  (val9_keep V0 main_v27 (by decide)).trans (val8_main_v27 V0)
theorem val9_main_v29 (V0 : Valuation τ sig (Elt F)) : val9 V0 (no_index (Proc.devRef .tc main_v29)) = sN (sigma (V0 (Proc.devRef .tc main_arg0))) :=
  (val9_keep V0 main_v29 (by decide)).trans (val8_main_v29 V0)
set_option maxRecDepth 8192 in
set_option maxHeartbeats 2000000 in
theorem val9_main_v85 (V0 : Valuation τ sig (Elt F)) : val9 V0 (no_index (Proc.devRef .tc main_v85)) = ns (sN (sigma (V0 (Proc.devRef .tc main_arg0)))) 7 := by
  unfold val9
  simp only [st7]
  after_results_simp
  (try simp only [val8_main_arg0, val8_main_arg1, val8_main_v7, val8_main_v27, val8_main_v29, val8_main_v77])
  rfl

/-- The buffer contents after the first 10 stages. -/
def val10 (V0 : Valuation τ sig (Elt F)) : Valuation τ sig (Elt F) := after st8 (val9 V0)
/-- The buffers this stage writes. -/
abbrev st8_W : List (Ref sig .tc) := [main_cst_20, main_v86, main_v87, main_v88, main_v89, main_v90, main_cst_21, main_v91, main_v92, main_v93]
set_option maxRecDepth 8192 in
theorem st8_writes : (st8 : List (HloOp τ sig (Elt F))).Forall fun op => op.writes ⊆ (st8_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val10_keep (V0 : Valuation τ sig (Elt F)) (r : Ref sig .tc) (h : r ∉ st8_W) :
    val10 V0 (Proc.devRef .tc r) = val9 V0 (Proc.devRef .tc r) :=
  after_of_writes_sub st8 _ st8_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_v7 (V0 : Valuation τ sig (Elt F)) : val10 V0 (no_index (Proc.devRef .tc main_v7)) = xc (V0 (Proc.devRef .tc main_arg0)) :=
  (val10_keep V0 main_v7 (by decide)).trans (val9_main_v7 V0)
theorem val10_main_v27 (V0 : Valuation τ sig (Elt F)) : val10 V0 (no_index (Proc.devRef .tc main_v27)) = rT (sigma (V0 (Proc.devRef .tc main_arg0))) :=
  (val10_keep V0 main_v27 (by decide)).trans (val9_main_v27 V0)
theorem val10_main_v29 (V0 : Valuation τ sig (Elt F)) : val10 V0 (no_index (Proc.devRef .tc main_v29)) = sN (sigma (V0 (Proc.devRef .tc main_arg0))) :=
  (val10_keep V0 main_v29 (by decide)).trans (val9_main_v29 V0)
set_option maxRecDepth 8192 in
set_option maxHeartbeats 2000000 in
theorem val10_main_v93 (V0 : Valuation τ sig (Elt F)) : val10 V0 (no_index (Proc.devRef .tc main_v93)) = ns (sN (sigma (V0 (Proc.devRef .tc main_arg0)))) 8 := by
  unfold val10
  simp only [st8]
  after_results_simp
  (try simp only [val9_main_arg0, val9_main_arg1, val9_main_v7, val9_main_v27, val9_main_v29, val9_main_v85])
  rfl

/-- The buffer contents after the first 11 stages. -/
def val11 (V0 : Valuation τ sig (Elt F)) : Valuation τ sig (Elt F) := after st9 (val10 V0)
/-- The buffers this stage writes. -/
abbrev st9_W : List (Ref sig .tc) := [main_cst_22, main_v94, main_v95, main_v96, main_v97, main_v98, main_cst_23, main_v99, main_v100, main_v101]
set_option maxRecDepth 8192 in
theorem st9_writes : (st9 : List (HloOp τ sig (Elt F))).Forall fun op => op.writes ⊆ (st9_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val11_keep (V0 : Valuation τ sig (Elt F)) (r : Ref sig .tc) (h : r ∉ st9_W) :
    val11 V0 (Proc.devRef .tc r) = val10 V0 (Proc.devRef .tc r) :=
  after_of_writes_sub st9 _ st9_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_v7 (V0 : Valuation τ sig (Elt F)) : val11 V0 (no_index (Proc.devRef .tc main_v7)) = xc (V0 (Proc.devRef .tc main_arg0)) :=
  (val11_keep V0 main_v7 (by decide)).trans (val10_main_v7 V0)
theorem val11_main_v27 (V0 : Valuation τ sig (Elt F)) : val11 V0 (no_index (Proc.devRef .tc main_v27)) = rT (sigma (V0 (Proc.devRef .tc main_arg0))) :=
  (val11_keep V0 main_v27 (by decide)).trans (val10_main_v27 V0)
theorem val11_main_v29 (V0 : Valuation τ sig (Elt F)) : val11 V0 (no_index (Proc.devRef .tc main_v29)) = sN (sigma (V0 (Proc.devRef .tc main_arg0))) :=
  (val11_keep V0 main_v29 (by decide)).trans (val10_main_v29 V0)
set_option maxRecDepth 8192 in
set_option maxHeartbeats 2000000 in
theorem val11_main_v101 (V0 : Valuation τ sig (Elt F)) : val11 V0 (no_index (Proc.devRef .tc main_v101)) = ns (sN (sigma (V0 (Proc.devRef .tc main_arg0)))) 9 := by
  unfold val11
  simp only [st9]
  after_results_simp
  (try simp only [val10_main_arg0, val10_main_arg1, val10_main_v7, val10_main_v27, val10_main_v29, val10_main_v93])
  rfl

/-- The buffer contents after the first 12 stages. -/
def val12 (V0 : Valuation τ sig (Elt F)) : Valuation τ sig (Elt F) := after st10 (val11 V0)
/-- The buffers this stage writes. -/
abbrev st10_W : List (Ref sig .tc) := [main_cst_24, main_v102, main_v103, main_v104, main_v105, main_v106, main_cst_25, main_v107, main_v108, main_v109]
set_option maxRecDepth 8192 in
theorem st10_writes : (st10 : List (HloOp τ sig (Elt F))).Forall fun op => op.writes ⊆ (st10_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val12_keep (V0 : Valuation τ sig (Elt F)) (r : Ref sig .tc) (h : r ∉ st10_W) :
    val12 V0 (Proc.devRef .tc r) = val11 V0 (Proc.devRef .tc r) :=
  after_of_writes_sub st10 _ st10_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_v7 (V0 : Valuation τ sig (Elt F)) : val12 V0 (no_index (Proc.devRef .tc main_v7)) = xc (V0 (Proc.devRef .tc main_arg0)) :=
  (val12_keep V0 main_v7 (by decide)).trans (val11_main_v7 V0)
theorem val12_main_v27 (V0 : Valuation τ sig (Elt F)) : val12 V0 (no_index (Proc.devRef .tc main_v27)) = rT (sigma (V0 (Proc.devRef .tc main_arg0))) :=
  (val12_keep V0 main_v27 (by decide)).trans (val11_main_v27 V0)
theorem val12_main_v29 (V0 : Valuation τ sig (Elt F)) : val12 V0 (no_index (Proc.devRef .tc main_v29)) = sN (sigma (V0 (Proc.devRef .tc main_arg0))) :=
  (val12_keep V0 main_v29 (by decide)).trans (val11_main_v29 V0)
set_option maxRecDepth 8192 in
set_option maxHeartbeats 2000000 in
theorem val12_main_v109 (V0 : Valuation τ sig (Elt F)) : val12 V0 (no_index (Proc.devRef .tc main_v109)) = ns (sN (sigma (V0 (Proc.devRef .tc main_arg0)))) 10 := by
  unfold val12
  simp only [st10]
  after_results_simp
  (try simp only [val11_main_arg0, val11_main_arg1, val11_main_v7, val11_main_v27, val11_main_v29, val11_main_v101])
  rfl

/-- The buffer contents after the first 13 stages. -/
def val13 (V0 : Valuation τ sig (Elt F)) : Valuation τ sig (Elt F) := after segZ (val12 V0)
/-- The buffers this stage writes. -/
abbrev segZ_W : List (Ref sig .tc) := [main_v110, main_v111, main_v112, main_v113, main_v114, main_v115, main_v116, main_v117, main_v118]
set_option maxRecDepth 8192 in
theorem segZ_writes : (segZ : List (HloOp τ sig (Elt F))).Forall fun op => op.writes ⊆ (segZ_W.map (Proc.devRef (τ := τ) .tc)).toFinset := by
  simp only [List.Forall]; exact ⟨by writes_mem, by writes_mem, by writes_mem, by writes_mem, by writes_mem, by writes_mem, by writes_mem, by writes_mem, by writes_mem⟩
/-- A buffer this stage does not write keeps its contents through it. -/
theorem val13_keep (V0 : Valuation τ sig (Elt F)) (r : Ref sig .tc) (h : r ∉ segZ_W) :
    val13 V0 (Proc.devRef .tc r) = val12 V0 (Proc.devRef .tc r) :=
  after_of_writes_sub segZ _ segZ_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
set_option maxRecDepth 8192 in
set_option maxHeartbeats 2000000 in
theorem val13_main_v118 (V0 : Valuation τ sig (Elt F)) : val13 V0 (no_index (Proc.devRef .tc main_v118)) = out (V0 (Proc.devRef .tc main_arg0)) (V0 (Proc.devRef .tc main_arg1)) := by
  unfold val13
  simp only [segZ]
  after_results_simp
  (try simp only [val12_main_arg0, val12_main_arg1, val12_main_v7, val12_main_v27, val12_main_v29, val12_main_v109])
  rfl

theorem after_ops (V0 : Valuation τ sig (Elt F)) : after ops V0 = val13 V0 := by
  rw [ops_eq_segs]
  simp only [after_append]
  rfl

/-! ## The run -/

set_option maxRecDepth 8192 in
/-- On every device, for any float values, from any memory with zero counters: every weakly fair execution of @main
    terminates with the result buffer at `out` of the two arguments' launch contents, the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v118) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v118).trans (by simp only [after_ops]; exact val13_main_v118 (launchContents m c)),
      (h c main_arg0).trans (by simp only [after_ops]; exact val13_main_arg0 (launchContents m c)),
      (h c main_arg1).trans (by simp only [after_ops]; exact val13_main_arg1 (launchContents m c))⟩)
    (run_seq scopedRefs_eq scopedSems_eq defs main (fun _ => ops) main_eq (fun _ => ops_sub) m ρ)

/-- @main runs and leaves its two arguments as they were. -/
theorem frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => (h c).2) (run m ρ)

end Cert.ReferenceIdeal.Hand

end
-- ==== Proof.LibReadBack.lean ====
/-
  A general fact about reading a buffer back after stores: a load through the whole-shape rectangle at zero offsets,
  after a list of stores whose LAST one went through that same rectangle, reads that last store's payload, whatever
  the earlier stores were.
-/
import Idealize.ShloMosaic.Lib.Pipeline.Value
import Idealize.ShloMosaic.Lib.Pipeline.FrameBody

namespace Cert.Lib.ReadBack

open Idealize.ShloMosaic

/-- The covered read-back of the last whole-buffer store: `readCov` of a piece list headed by a piece through the
    whole-shape rectangle at zero offsets (however the zeros are spelt), through that rectangle, is the head's payload. -/
theorem readCov_cons_unit_zero {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.Mem.head _, by
    show y ∈ (Rect.whole S).set; rw [Rect.set_whole]; exact Finset.mem_univ y⟩), View.canon_cons_unit_zero rfl, View.ld_unit_zero rfl]

end Cert.Lib.ReadBack
-- ==== Proof.KI.AccPieces.lean ====
/-
  What the accumulation kernel's runs leave in the two accumulators, as closed terms: one grid point adds the eight
  batch rows of its block, one after the other, to the row-sum accumulator (eight row-sum payloads nested) and to the
  Gram accumulator (eight Gram payloads nested); the first point starts both from the zero blocks, the last point also
  copies both into the output windows.
-/
import proofs.«141837_j49177375539587_2_alg».proof.Proof.KI.Region0
import proofs.«141837_j49177375539587_2_alg».proof.Proof.LibReadBack
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl

/-- One point's contribution to the row-sum accumulator: the eight rows of the block `x` added, in order, to `a`. -/
def rowAcc (x : Vec F S8x64x3136 .f32) (a : Vec F S64x1 .f32) : Vec F S64x1 .f32 :=
  k0_pay29 (View.ld x (Rect.unit (s := S8x64x3136) ![7, 0, 0] S1x64x3136.size inb_S8x64x3136_S1x64x3136_7_0_0)) (k0_pay26 (View.ld x (Rect.unit (s := S8x64x3136) ![6, 0, 0] S1x64x3136.size inb_S8x64x3136_S1x64x3136_6_0_0)) (k0_pay22 (View.ld x (Rect.unit (s := S8x64x3136) ![5, 0, 0] S1x64x3136.size inb_S8x64x3136_S1x64x3136_5_0_0)) (k0_pay19 (View.ld x (Rect.unit (s := S8x64x3136) ![4, 0, 0] S1x64x3136.size inb_S8x64x3136_S1x64x3136_4_0_0))
    (k0_pay15 (View.ld x (Rect.unit (s := S8x64x3136) ![3, 0, 0] S1x64x3136.size inb_S8x64x3136_S1x64x3136_3_0_0)) (k0_pay12 (View.ld x (Rect.unit (s := S8x64x3136) ![2, 0, 0] S1x64x3136.size inb_S8x64x3136_S1x64x3136_2_0_0)) (k0_pay8 (View.ld x (Rect.unit (s := S8x64x3136) ![1, 0, 0] S1x64x3136.size inb_S8x64x3136_S1x64x3136_1_0_0)) (k0_pay5 (View.ld x (Rect.unit (s := S8x64x3136) ![0, 0, 0] S1x64x3136.size inb_S8x64x3136_S1x64x3136_0_0_0)) a)))))))

/-- One point's contribution to the Gram accumulator: the eight rows' Gram matrices added, in order, to `A`. -/
def gramAcc (x : Vec F S8x64x3136 .f32) (A : Vec F S64x64 .f32) : Vec F S64x64 .f32 :=
  k0_pay1 (k0_pay30 (View.ld x (Rect.unit (s := S8x64x3136) ![7, 0, 0] S1x64x3136.size inb_S8x64x3136_S1x64x3136_7_0_0))) (k0_pay27 (View.ld x (Rect.unit (s := S8x64x3136) ![6, 0, 0] S1x64x3136.size inb_S8x64x3136_S1x64x3136_6_0_0)) (k0_pay24 (k0_pay23 (View.ld x (Rect.unit (s := S8x64x3136) ![5, 0, 0] S1x64x3136.size inb_S8x64x3136_S1x64x3136_5_0_0))) (k0_pay20 (View.ld x (Rect.unit (s := S8x64x3136) ![4, 0, 0] S1x64x3136.size inb_S8x64x3136_S1x64x3136_4_0_0))
    (k0_pay17 (k0_pay16 (View.ld x (Rect.unit (s := S8x64x3136) ![3, 0, 0] S1x64x3136.size inb_S8x64x3136_S1x64x3136_3_0_0))) (k0_pay13 (View.ld x (Rect.unit (s := S8x64x3136) ![2, 0, 0] S1x64x3136.size inb_S8x64x3136_S1x64x3136_2_0_0)) (k0_pay10 (k0_pay9 (View.ld x (Rect.unit (s := S8x64x3136) ![1, 0, 0] S1x64x3136.size inb_S8x64x3136_S1x64x3136_1_0_0))) (k0_pay6 (View.ld x (Rect.unit (s := S8x64x3136) ![0, 0, 0] S1x64x3136.size inb_S8x64x3136_S1x64x3136_0_0_0)) A)))))))

/-! ## The runs' piece lists, written back, on any memrefs -/

theorem canonB_0 (c : Dev nD) (i : grid0.Coords) (arg1 : Memref sig .tc .vmem S8x64x3136 .f32) (harg1 : arg1.IsWhole) (arg2 : Memref sig .tc .vmem S64x1 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S64x64 .f32) (harg5 : arg5.IsWhole) (hc0 : ¬cond0_0 i) (hc1 : ¬cond0_1 i) (x : Vec F S8x64x3136 .f32) (xs0 : Vec F S64x1 .f32) (xs1 : Vec F S64x64 .f32) :
    View.canon (kernelRun0_B (F := F) c i arg1 harg1 arg2 harg2 arg3 harg3 arg4 harg4 arg5 harg5 hc0 hc1 x xs0 xs1).1 = rowAcc x xs0 := by
  unfold kernelRun0_B
  dsimp only
  sl_unfold_words
  simp only [View.canon_cons_unit_zero (S := S64x1) hz2, View.canon_cons_unit_zero (S := S64x64) hz2, View.canon_unit_zero (S := S64x1) hz2, View.canon_unit_zero (S := S64x64) hz2, Cert.Lib.ReadBack.readCov_cons_unit_zero (S := S64x1) _ hz2, Cert.Lib.ReadBack.readCov_cons_unit_zero (S := S64x64) _ hz2, View.readCov_unit_zero (S := S64x1) _ hz2, View.readCov_unit_zero (S := S64x64) _ hz2, View.readAt_eq_ld, harg1.read_unread, harg2.read_unread, harg3.read_unread, harg4.read_unread, harg5.read_unread, View.ld_unit_zero (S := S64x1) hz2, View.ld_unit_zero (S := S64x64) hz2]
  rfl
theorem canonB_1 (c : Dev nD) (i : grid0.Coords) (arg1 : Memref sig .tc .vmem S8x64x3136 .f32) (harg1 : arg1.IsWhole) (arg2 : Memref sig .tc .vmem S64x1 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S64x64 .f32) (harg5 : arg5.IsWhole) (hc0 : ¬cond0_0 i) (hc1 : ¬cond0_1 i) (x : Vec F S8x64x3136 .f32) (xs0 : Vec F S64x1 .f32) (xs1 : Vec F S64x64 .f32) :
    View.canon (kernelRun0_B (F := F) c i arg1 harg1 arg2 harg2 arg3 harg3 arg4 harg4 arg5 harg5 hc0 hc1 x xs0 xs1).2.1 = gramAcc x xs1 := by
  unfold kernelRun0_B
  dsimp only
  sl_unfold_words
  simp only [View.canon_cons_unit_zero (S := S64x1) hz2, View.canon_cons_unit_zero (S := S64x64) hz2, View.canon_unit_zero (S := S64x1) hz2, View.canon_unit_zero (S := S64x64) hz2, Cert.Lib.ReadBack.readCov_cons_unit_zero (S := S64x1) _ hz2, Cert.Lib.ReadBack.readCov_cons_unit_zero (S := S64x64) _ hz2, View.readCov_unit_zero (S := S64x1) _ hz2, View.readCov_unit_zero (S := S64x64) _ hz2, View.readAt_eq_ld, harg1.read_unread, harg2.read_unread, harg3.read_unread, harg4.read_unread, harg5.read_unread, View.ld_unit_zero (S := S64x1) hz2, View.ld_unit_zero (S := S64x64) hz2]
  rfl
theorem canonA_0 (c : Dev nD) (i : grid0.Coords) (arg1 : Memref sig .tc .vmem S8x64x3136 .f32) (harg1 : arg1.IsWhole) (arg2 : Memref sig .tc .vmem S64x1 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S64x64 .f32) (harg5 : arg5.IsWhole) (hc0 : cond0_0 i) (hc1 : ¬cond0_1 i) (x : Vec F S8x64x3136 .f32)  :
    View.canon (kernelRun0_A (F := F) c i arg1 harg1 arg2 harg2 arg3 harg3 arg4 harg4 arg5 harg5 hc0 hc1 x).1 = rowAcc x (k0_pay2 (F := F)) := by
  unfold kernelRun0_A
  dsimp only
  sl_unfold_words
  simp only [View.canon_cons_unit_zero (S := S64x1) hz2, View.canon_cons_unit_zero (S := S64x64) hz2, View.canon_unit_zero (S := S64x1) hz2, View.canon_unit_zero (S := S64x64) hz2, Cert.Lib.ReadBack.readCov_cons_unit_zero (S := S64x1) _ hz2, Cert.Lib.ReadBack.readCov_cons_unit_zero (S := S64x64) _ hz2, View.readCov_unit_zero (S := S64x1) _ hz2, View.readCov_unit_zero (S := S64x64) _ hz2, View.readAt_eq_ld, harg1.read_unread, harg2.read_unread, harg3.read_unread, harg4.read_unread, harg5.read_unread, View.ld_unit_zero (S := S64x1) hz2, View.ld_unit_zero (S := S64x64) hz2]
  rfl
theorem canonA_1 (c : Dev nD) (i : grid0.Coords) (arg1 : Memref sig .tc .vmem S8x64x3136 .f32) (harg1 : arg1.IsWhole) (arg2 : Memref sig .tc .vmem S64x1 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S64x64 .f32) (harg5 : arg5.IsWhole) (hc0 : cond0_0 i) (hc1 : ¬cond0_1 i) (x : Vec F S8x64x3136 .f32)  :
    View.canon (kernelRun0_A (F := F) c i arg1 harg1 arg2 harg2 arg3 harg3 arg4 harg4 arg5 harg5 hc0 hc1 x).2.1 = gramAcc x (k0_pay3 (F := F)) := by
  unfold kernelRun0_A
  dsimp only
  sl_unfold_words
  simp only [View.canon_cons_unit_zero (S := S64x1) hz2, View.canon_cons_unit_zero (S := S64x64) hz2, View.canon_unit_zero (S := S64x1) hz2, View.canon_unit_zero (S := S64x64) hz2, Cert.Lib.ReadBack.readCov_cons_unit_zero (S := S64x1) _ hz2, Cert.Lib.ReadBack.readCov_cons_unit_zero (S := S64x64) _ hz2, View.readCov_unit_zero (S := S64x1) _ hz2, View.readCov_unit_zero (S := S64x64) _ hz2, View.readAt_eq_ld, harg1.read_unread, harg2.read_unread, harg3.read_unread, harg4.read_unread, harg5.read_unread, View.ld_unit_zero (S := S64x1) hz2, View.ld_unit_zero (S := S64x64) hz2]
  rfl
theorem canonC_o1 (c : Dev nD) (i : grid0.Coords) (arg1 : Memref sig .tc .vmem S8x64x3136 .f32) (harg1 : arg1.IsWhole) (arg2 : Memref sig .tc .vmem S64x1 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S64x64 .f32) (harg5 : arg5.IsWhole) (hc0 : ¬cond0_0 i) (hc1 : cond0_1 i) (x : Vec F S8x64x3136 .f32) (xs0 : Vec F S64x1 .f32) (xs1 : Vec F S64x64 .f32) :
    View.canon (kernelRun0_C (F := F) c i arg1 harg1 arg2 harg2 arg3 harg3 arg4 harg4 arg5 harg5 hc0 hc1 x xs0 xs1).1 = rowAcc x xs0 := by
  unfold kernelRun0_C
  dsimp only
  sl_unfold_words
  simp only [View.canon_cons_unit_zero (S := S64x1) hz2, View.canon_cons_unit_zero (S := S64x64) hz2, View.canon_unit_zero (S := S64x1) hz2, View.canon_unit_zero (S := S64x64) hz2, Cert.Lib.ReadBack.readCov_cons_unit_zero (S := S64x1) _ hz2, Cert.Lib.ReadBack.readCov_cons_unit_zero (S := S64x64) _ hz2, View.readCov_unit_zero (S := S64x1) _ hz2, View.readCov_unit_zero (S := S64x64) _ hz2, View.readAt_eq_ld, harg1.read_unread, harg2.read_unread, harg3.read_unread, harg4.read_unread, harg5.read_unread, View.ld_unit_zero (S := S64x1) hz2, View.ld_unit_zero (S := S64x64) hz2]
  rfl
theorem canonC_o2 (c : Dev nD) (i : grid0.Coords) (arg1 : Memref sig .tc .vmem S8x64x3136 .f32) (harg1 : arg1.IsWhole) (arg2 : Memref sig .tc .vmem S64x1 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S64x64 .f32) (harg5 : arg5.IsWhole) (hc0 : ¬cond0_0 i) (hc1 : cond0_1 i) (x : Vec F S8x64x3136 .f32) (xs0 : Vec F S64x1 .f32) (xs1 : Vec F S64x64 .f32) :
    View.canon (kernelRun0_C (F := F) c i arg1 harg1 arg2 harg2 arg3 harg3 arg4 harg4 arg5 harg5 hc0 hc1 x xs0 xs1).2.1 = gramAcc x xs1 := by
  unfold kernelRun0_C
  dsimp only
  sl_unfold_words
  simp only [View.canon_cons_unit_zero (S := S64x1) hz2, View.canon_cons_unit_zero (S := S64x64) hz2, View.canon_unit_zero (S := S64x1) hz2, View.canon_unit_zero (S := S64x64) hz2, Cert.Lib.ReadBack.readCov_cons_unit_zero (S := S64x1) _ hz2, Cert.Lib.ReadBack.readCov_cons_unit_zero (S := S64x64) _ hz2, View.readCov_unit_zero (S := S64x1) _ hz2, View.readCov_unit_zero (S := S64x64) _ hz2, View.readAt_eq_ld, harg1.read_unread, harg2.read_unread, harg3.read_unread, harg4.read_unread, harg5.read_unread, View.ld_unit_zero (S := S64x1) hz2, View.ld_unit_zero (S := S64x64) hz2]
  rfl
theorem canonC_s0 (c : Dev nD) (i : grid0.Coords) (arg1 : Memref sig .tc .vmem S8x64x3136 .f32) (harg1 : arg1.IsWhole) (arg2 : Memref sig .tc .vmem S64x1 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S64x64 .f32) (harg5 : arg5.IsWhole) (hc0 : ¬cond0_0 i) (hc1 : cond0_1 i) (x : Vec F S8x64x3136 .f32) (xs0 : Vec F S64x1 .f32) (xs1 : Vec F S64x64 .f32) :
    View.canon (kernelRun0_C (F := F) c i arg1 harg1 arg2 harg2 arg3 harg3 arg4 harg4 arg5 harg5 hc0 hc1 x xs0 xs1).2.2.1 = rowAcc x xs0 := by
  unfold kernelRun0_C
  dsimp only
  sl_unfold_words
  simp only [View.canon_cons_unit_zero (S := S64x1) hz2, View.canon_cons_unit_zero (S := S64x64) hz2, View.canon_unit_zero (S := S64x1) hz2, View.canon_unit_zero (S := S64x64) hz2, Cert.Lib.ReadBack.readCov_cons_unit_zero (S := S64x1) _ hz2, Cert.Lib.ReadBack.readCov_cons_unit_zero (S := S64x64) _ hz2, View.readCov_unit_zero (S := S64x1) _ hz2, View.readCov_unit_zero (S := S64x64) _ hz2, View.readAt_eq_ld, harg1.read_unread, harg2.read_unread, harg3.read_unread, harg4.read_unread, harg5.read_unread, View.ld_unit_zero (S := S64x1) hz2, View.ld_unit_zero (S := S64x64) hz2]
  rfl
theorem canonC_s1 (c : Dev nD) (i : grid0.Coords) (arg1 : Memref sig .tc .vmem S8x64x3136 .f32) (harg1 : arg1.IsWhole) (arg2 : Memref sig .tc .vmem S64x1 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S64x64 .f32) (harg5 : arg5.IsWhole) (hc0 : ¬cond0_0 i) (hc1 : cond0_1 i) (x : Vec F S8x64x3136 .f32) (xs0 : Vec F S64x1 .f32) (xs1 : Vec F S64x64 .f32) :
    View.canon (kernelRun0_C (F := F) c i arg1 harg1 arg2 harg2 arg3 harg3 arg4 harg4 arg5 harg5 hc0 hc1 x xs0 xs1).2.2.2.1 = gramAcc x xs1 := by
  unfold kernelRun0_C
  dsimp only
  sl_unfold_words
  simp only [View.canon_cons_unit_zero (S := S64x1) hz2, View.canon_cons_unit_zero (S := S64x64) hz2, View.canon_unit_zero (S := S64x1) hz2, View.canon_unit_zero (S := S64x64) hz2, Cert.Lib.ReadBack.readCov_cons_unit_zero (S := S64x1) _ hz2, Cert.Lib.ReadBack.readCov_cons_unit_zero (S := S64x64) _ hz2, View.readCov_unit_zero (S := S64x1) _ hz2, View.readCov_unit_zero (S := S64x64) _ hz2, View.readAt_eq_ld, harg1.read_unread, harg2.read_unread, harg3.read_unread, harg4.read_unread, harg5.read_unread, View.ld_unit_zero (S := S64x1) hz2, View.ld_unit_zero (S := S64x64) hz2]
  rfl

/-! ## At a point's own memrefs and block -/

variable (V : (c : Dev nD) → (b : Ref sig .tc) → Buf (Elt F) ((c : Thread nD τ).loc b)) (c : Dev nD) (t : Fin cfg0.N)

section B
variable (h0 : t.val ≠ 0) (h1 : t.val ≠ 15) (xs0 : Vec F S64x1 .f32) (xs1 : Vec F S64x64 .f32)
theorem pieceB_0 : rd0 (runB V c t h0 h1 xs0 xs1).1 = rowAcc (iblk0 V c 0 t) xs0 := by
  unfold rd0
  rw [View.read_writes_eq_canon _ _ _ (scoverB_0 V c t h0 h1 xs0 xs1)]
  exact canonB_0 c _ _ _ _ _ _ _ _ _ _ _ _ _ _ _ _
theorem pieceB_1 : rd1 (runB V c t h0 h1 xs0 xs1).2.1 = gramAcc (iblk0 V c 0 t) xs1 := by
  unfold rd1
  rw [View.read_writes_eq_canon _ _ _ (scoverB_1 V c t h0 h1 xs0 xs1)]
  exact canonB_1 c _ _ _ _ _ _ _ _ _ _ _ _ _ _ _ _
end B

section A
variable (h0 : t.val = 0)
theorem pieceA_0 : rd0 (runA V c t h0).1 = rowAcc (iblk0 V c 0 t) (k0_pay2 (F := F)) := by
  unfold rd0
  rw [View.read_writes_eq_canon _ _ _ (scoverA_0 V c t h0)]
  exact canonA_0 c _ _ _ _ _ _ _ _ _ _ _ _ _ _
theorem pieceA_1 : rd1 (runA V c t h0).2.1 = gramAcc (iblk0 V c 0 t) (k0_pay3 (F := F)) := by
  unfold rd1
  rw [View.read_writes_eq_canon _ _ _ (scoverA_1 V c t h0)]
  exact canonA_1 c _ _ _ _ _ _ _ _ _ _ _ _ _ _
end A

section C
variable (h1 : t.val = 15) (xs0 : Vec F S64x1 .f32) (xs1 : Vec F S64x64 .f32)
theorem pieceC_s0 : rd0 (runC V c t h1 xs0 xs1).2.2.1 = rowAcc (iblk0 V c 0 t) xs0 := by
  unfold rd0
  rw [View.read_writes_eq_canon _ _ _ (scoverC_0 V c t h1 xs0 xs1)]
  exact canonC_s0 c _ _ _ _ _ _ _ _ _ _ _ _ _ _ _ _
theorem pieceC_s1 : rd1 (runC V c t h1 xs0 xs1).2.2.2.1 = gramAcc (iblk0 V c 0 t) xs1 := by
  unfold rd1
  rw [View.read_writes_eq_canon _ _ _ (scoverC_1 V c t h1 xs0 xs1)]
  exact canonC_s1 c _ _ _ _ _ _ _ _ _ _ _ _ _ _ _ _
theorem pieceC_o1 : ro1 (runC V c t h1 xs0 xs1).1 = rowAcc (iblk0 V c 0 t) xs0 := by
  unfold ro1
  rw [View.read_writes_eq_canon _ _ _ (coverC_1 V c t h1 xs0 xs1)]
  exact canonC_o1 c _ _ _ _ _ _ _ _ _ _ _ _ _ _ _ _
theorem pieceC_o2 : ro2 (runC V c t h1 xs0 xs1).2.1 = gramAcc (iblk0 V c 0 t) xs1 := by
  unfold ro2
  rw [View.read_writes_eq_canon _ _ _ (coverC_2 V c t h1 xs0 xs1)]
  exact canonC_o2 c _ _ _ _ _ _ _ _ _ _ _ _ _ _ _ _
end C

end Cert.KernelIdeal.Hand

end
-- ==== Proof.KI.AccChain.lean ====
/-
  The accumulation region's value: after point `n` the two accumulators hold the chain — the zero blocks with the
  contributions of points 0, …, n added in order —, by induction on the point; the two output arrays end holding
  the chain after the last point, and the input array is unchanged.
-/
import proofs.«141837_j49177375539587_2_alg».proof.Proof.KI.AccPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b)) (c : Dev nD)

/-- The ORDERED running sums after point `n`: the zero blocks, then each point's eight rows added. -/
def accC : (n : ℕ) → n < cfg0.N → Vec F S64x1 .f32 × Vec F S64x64 .f32
  | 0, h => (rowAcc (iblk0 V c 0 ⟨0, h⟩) (k0_pay2 (F := F)), gramAcc (iblk0 V c 0 ⟨0, h⟩) (k0_pay3 (F := F)))
  | n + 1, h => (rowAcc (iblk0 V c 0 ⟨n + 1, h⟩) (accC n (Nat.lt_of_succ_lt h)).1, gramAcc (iblk0 V c 0 ⟨n + 1, h⟩) (accC n (Nat.lt_of_succ_lt h)).2)

/-- What the accumulators hold after point `n` IS the chain — by induction on the point. -/
theorem accAt_eq : ∀ (n : ℕ) (h : n < cfg0.N), accAt V c n h = accC V c n h
  | 0, h => (accAt_A V c ⟨0, h⟩ rfl).trans (by rw [pieceA_0, pieceA_1]; rfl)
  | n + 1, h => by
    by_cases h15 : n + 1 = 15
    · rw [accAt_C V c ⟨n + 1, h⟩ h15, pieceC_s0, pieceC_s1]
      show (rowAcc _ (accAt V c n _).1, gramAcc _ (accAt V c n _).2) = (rowAcc _ (accC V c n _).1, gramAcc _ (accC V c n _).2)
      rw [accAt_eq n]
    · rw [accAt_B V c ⟨n + 1, h⟩ (Nat.succ_ne_zero n) h15, pieceB_0, pieceB_1]
      show (rowAcc _ (accAt V c n _).1, gramAcc _ (accAt V c n _).2) = (rowAcc _ (accC V c n _).1, gramAcc _ (accC V c n _).2)
      rw [accAt_eq n]

theorem lt15 : 15 < cfg0.N := by rw [show cfg0.N = 16 from N_0]; decide

/-- At the last point the output windows' buffers hold the chain's last value. -/
theorem outAt_last (t : Fin cfg0.N) (h15 : t.val = 15) : outAt V c t = accC V c 15 lt15 := by
  rw [outAt_C V c t h15, pieceC_o1, pieceC_o2]
  obtain ⟨n, hn⟩ := t
  obtain rfl : n = 15 := h15
  show (rowAcc _ (accAt V c 14 _).1, gramAcc _ (accAt V c 14 _).2) = (rowAcc _ (accC V c 14 _).1, gramAcc _ (accC V c 14 _).2)
  rw [accAt_eq V c 14]

/-- The results, as contents of the two output arrays. -/
abbrev res1 : Buf (Elt F) ((c : Thread nD τ).loc main_v1_0) := (accC V c 15 lt15).1
abbrev res2 : Buf (Elt F) ((c : Thread nD τ).loc main_v1_1) := (accC V c 15 lt15).2

/-- The one write-back of output window 1, at the last point, writes the whole array (its one block is the array). -/
theorem flushed_eq1 (t : Fin cfg0.N) (hf : (cfg0.win 1).flush t = true) :
    (dat0 V c).flushed 1 t = ((cfg0.win 1).blk t).view.read (Elt F) (res1 V c) := by
  have hN : cfg0.N = 16 := N_0
  have h15 : t.val = 15 := by have := (flush0_1 t).mp hf; have := t.isLt; omega
  obtain rfl : t = t0_15 := Fin.ext h15
  show (cfg0.win 1).cut (grid0.coords t0_15) ((dat0 V c).after 1 t0_15) = _
  rw [after0_1, outAt_last V c t0_15 rfl]
  have hz' : (fun a => win0_1.index t0_15 a * main_v1_0.ty.shape.size a) = fun _ => 0 := funext fun a => by fin_cases a <;> decide
  exact (Memref.read_access_unit_zero (Elt F) main_v1_0 hz' (fun a => by rw [congrFun hz' a]; simp) (res1 V c)).symm

/-- So output array 1 ends holding the accumulator's contents after the last point. -/
theorem final0_1 : (dat0 V c).arrAt 1 cfg0.N = res1 V c :=
  (dat0 V c).arrAt_eq_of_cover 1 (res1 V c) (flushed_eq1 V c) fun i =>
    ⟨t0_15, (flush0_1 t0_15).mpr rfl, by
      show i ∈ ((View.whole main_v1_0).slice (win0_1.rect t0_15)).set
      rw [View.set_slice_whole, Rect.mem_set_unit]
      intro a
      have h0 : (i 0 : Nat) < 64 := (i 0).isLt
      have h1 : (i 1 : Nat) < 1 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 64 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 1 from by decide +kernel]; omega⟩

/-- The one write-back of output window 2, at the last point, writes the whole array (its one block is the array). -/
theorem flushed_eq2 (t : Fin cfg0.N) (hf : (cfg0.win 2).flush t = true) :
    (dat0 V c).flushed 2 t = ((cfg0.win 2).blk t).view.read (Elt F) (res2 V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2, outAt_last V c t0_15 rfl]
  have hz' : (fun a => win0_2.index t0_15 a * main_v1_1.ty.shape.size a) = fun _ => 0 := funext fun a => by fin_cases a <;> decide
  exact (Memref.read_access_unit_zero (Elt F) main_v1_1 hz' (fun a => by rw [congrFun hz' a]; simp) (res2 V c)).symm

/-- So output array 2 ends holding the accumulator's contents after the last point. -/
theorem final0_2 : (dat0 V c).arrAt 2 cfg0.N = res2 V c :=
  (dat0 V c).arrAt_eq_of_cover 2 (res2 V c) (flushed_eq2 V c) fun i =>
    ⟨t0_15, (flush0_2 t0_15).mpr rfl, by
      show i ∈ ((View.whole main_v1_1).slice (win0_2.rect t0_15)).set
      rw [View.set_slice_whole, Rect.mem_set_unit]
      intro a
      have h0 : (i 0 : Nat) < 64 := (i 0).isLt
      have h1 : (i 1 : Nat) < 64 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 64 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 64 from by decide +kernel]; omega⟩

/-- The input array is as the region found it. -/
theorem final0_0 : (dat0 V c).arrAt 0 cfg0.N = V c (Pipeline.arrRef spec0 0) :=
  ((dat0 V c).arrAt_in 0 rfl _).trans (A_eq0 V c 0)

end Cert.KernelIdeal.Hand

end
-- ==== Proof.KI.Region1Value.lean ====
/-
  The apply kernel's output block at an index, over the extended reals: at batch row j, channel c and position s
  the body leaves the c-th row of the whitening matrix applied to the centred column, plus the shift,

      (∑ c', W (c, c') * (X (j, c', s) - mean (c', 0))) + shift (c, 0).

  Each of the four row stores' payloads is read at an index (the format changes are the identity on extended reals,
  the matrix product into a zero accumulator is the sum over its one contracted axis, the column broadcasts read
  their column); the four rows then read back as one function of the block's index.
-/
import proofs.«141837_j49177375539587_2_alg».proof.Proof.KI.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-! ## Layout operations at an index -/

/-- A [a, 1] column broadcast to [a, b] reads, at (p, q), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The matrix product's operand indices -/

/-- The left operand of the [64,64] × [64,3136] product at output (c, s) and contraction position c' is read at
    (c, c'); -/
theorem dot_lhsIdx (c : Fin 64) (s : Fin 3136) (c' : Fin 64) :
    dot_S64x64_S64x3136_S64x3136_1_0_0_1_n_n.lhsIdx (ix2 c s)
        ((contrEquiv1 dot_S64x64_S64x3136_S64x3136_1_0_0_1_n_n 64 rfl rfl).symm c') = ix2 c c' := by
  funext a
  refine Fin.ext ?_
  match a with
  | ⟨0, _⟩ => rfl
  | ⟨1, _⟩ =>
    show (dot_S64x64_S64x3136_S64x3136_1_0_0_1_n_n.lhsIdx (ix2 c s) _ (1 : Fin 2)).val = c'.val
    rw [DotDims.lhsIdx_val_of_single _ rfl]
    exact contrEquiv1_symm_val _ _ _ _ _

/-- the right operand at (c', s). -/
theorem dot_rhsIdx (c : Fin 64) (s : Fin 3136) (c' : Fin 64) :
    dot_S64x64_S64x3136_S64x3136_1_0_0_1_n_n.rhsIdx (ix2 c s)
        ((contrEquiv1 dot_S64x64_S64x3136_S64x3136_1_0_0_1_n_n 64 rfl rfl).symm c') = ix2 c' s := by
  funext a
  refine Fin.ext ?_
  match a with
  | ⟨0, _⟩ =>
    show (dot_S64x64_S64x3136_S64x3136_1_0_0_1_n_n.rhsIdx (ix2 c s) _ (0 : Fin 2)).val = c'.val
    rw [DotDims.rhsIdx_val_of_single _ rfl]
    exact contrEquiv1_symm_val _ _ _ _ _
  | ⟨1, _⟩ => rfl

/-! ## A row store's payload at an index -/

/-- The payload of a row store — from the matrix in the narrow format, the row of the input block, the mean and the
    shift — at (u, c, s). -/
theorem k1_pay1_apply (v2 : FVec Ideal S64x64 .bf16) (v33 : Vec Ideal S1x64x3136 .f32) (v35 v41 : Vec Ideal S64x1 .f32)
    (u : Fin 1) (c : Fin 64) (s : Fin 3136) :
    k1_pay1 v2 v33 v35 v41 (ix3 u c s)
      = (∑ c' : Fin 64, (v2 (ix2 c c') : EReal) * ((v33 (ix3 (0 : Fin 1) c' s) : EReal) - (v35 (ix2 c' (0 : Fin 1)) : EReal)))
        + (v41 (ix2 c (0 : Fin 1)) : EReal) := by
  unfold k1_pay1
  rw [shapeCast_ab_1ab_apply, addf_apply]
  simp only [matmul]
  rw [Ideal.matmul_constant_zero_apply,
    ← Equiv.sum_comp (contrEquiv1 dot_S64x64_S64x3136_S64x3136_1_0_0_1_n_n 64 rfl rfl).symm]
  rw [broadcastTo_a1_ab_apply]
  simp only [shapeCast_self]
  congr 1
  refine Finset.sum_congr rfl fun c' _ => ?_
  rw [dot_lhsIdx, dot_rhsIdx, truncf_apply, subf_apply, shapeCast_1ab_ab_apply, broadcastTo_a1_ab_apply]

/-- The matrix in the narrow format is the matrix: the format change is the identity on extended reals. -/
theorem k1_pay3_apply (v0 : Vec Ideal S64x64 .f32) (i : S64x64.Idx) : (k1_pay3 v0 i : EReal) = v0 i := by
  unfold k1_pay3
  rw [truncf_apply, shapeCast_self]

/-- The four row stores carry the same payload function: the second printed part's two are the first's with the
    narrowed matrix inlined. -/
theorem k1_pay2_eq (v2 : FVec Ideal S64x64 .bf16) (v48 : Vec Ideal S1x64x3136 .f32) (v50 v56 : Vec Ideal S64x1 .f32) :
    k1_pay2 v2 v48 v50 v56 = k1_pay1 v2 v48 v50 v56 := rfl
theorem k1_pay4_eq (v0 : Vec Ideal S64x64 .f32) (v3 : Vec Ideal S1x64x3136 .f32) (v5 v11 : Vec Ideal S64x1 .f32) :
    k1_pay4 v0 v3 v5 v11 = k1_pay1 (k1_pay3 v0) v3 v5 v11 := rfl
theorem k1_pay5_eq (v0 : Vec Ideal S64x64 .f32) (v18 : Vec Ideal S1x64x3136 .f32) (v20 v26 : Vec Ideal S64x1 .f32) :
    k1_pay5 v0 v18 v20 v26 = k1_pay1 (k1_pay3 v0) v18 v20 v26 := rfl

/-! ## The rows of the block -/

/-- Row k of a [4, 64, 3136] block at (u, c, s) is the block's index (k, c, s). -/
theorem row0_idx (u : Fin 1) (c : Fin 64) (s : Fin 3136) : r1_row0.idx (ix3 u c s) = ix3 (0 : Fin 4) c s := by
  funext a; refine Fin.ext ?_
  have hu : u.val = 0 := by omega
  match a with
  | ⟨0, _⟩ => show 0 + 1 * u.val = 0; omega
  | ⟨1, _⟩ => show 0 + 1 * c.val = c.val; omega
  | ⟨2, _⟩ => show 0 + 1 * s.val = s.val; omega
theorem row1_idx (u : Fin 1) (c : Fin 64) (s : Fin 3136) : r1_row1.idx (ix3 u c s) = ix3 (1 : Fin 4) c s := by
  funext a; refine Fin.ext ?_
  have hu : u.val = 0 := by omega
  match a with
  | ⟨0, _⟩ => show 1 + 1 * u.val = 1; omega
  | ⟨1, _⟩ => show 0 + 1 * c.val = c.val; omega
  | ⟨2, _⟩ => show 0 + 1 * s.val = s.val; omega
theorem row2_idx (u : Fin 1) (c : Fin 64) (s : Fin 3136) : r1_row2.idx (ix3 u c s) = ix3 (2 : Fin 4) c s := by
  funext a; refine Fin.ext ?_
  have hu : u.val = 0 := by omega
  match a with
  | ⟨0, _⟩ => show 2 + 1 * u.val = 2; omega
  | ⟨1, _⟩ => show 0 + 1 * c.val = c.val; omega
  | ⟨2, _⟩ => show 0 + 1 * s.val = s.val; omega
theorem row3_idx (u : Fin 1) (c : Fin 64) (s : Fin 3136) : r1_row3.idx (ix3 u c s) = ix3 (3 : Fin 4) c s := by
  funext a; refine Fin.ext ?_
  have hu : u.val = 0 := by omega
  match a with
  | ⟨0, _⟩ => show 3 + 1 * u.val = 3; omega
  | ⟨1, _⟩ => show 0 + 1 * c.val = c.val; omega
  | ⟨2, _⟩ => show 0 + 1 * s.val = s.val; omega

/-- The zero offsets of a whole-block rectangle of rank two. -/
theorem off2_zero : (![0, 0] : Fin 2 → ℕ) = fun _ => 0 := by
  funext a; match a with | ⟨0, _⟩ => rfl | ⟨1, _⟩ => rfl

/-! ## The output block at an index -/

/-- The function the four rows are blocks of. -/
def applyAt (x0 : Vec Ideal S4x64x3136 .f32) (x1 : Vec Ideal S64x1 .f32) (x2 : Vec Ideal S64x64 .f32) (x3 : Vec Ideal S64x1 .f32)
    (y : S4x64x3136.Idx) : EReal :=
  (∑ c' : Fin 64, (x2 (ix2 (y 1 : Fin 64) c') : EReal) * ((x0 (ix3 (y 0 : Fin 4) c' (y 2 : Fin 3136)) : EReal) - (x1 (ix2 c' (0 : Fin 1)) : EReal)))
    + (x3 (ix2 (y 1 : Fin 64) (0 : Fin 1)) : EReal)

/-- What the body leaves in the output block at (j, c, s): row c of the matrix applied to the centred column at
    (j, ·, s), plus the shift at c. -/
theorem out1_4_apply (x0 : Vec Ideal S4x64x3136 .f32) (x1 : Vec Ideal S64x1 .f32) (x2 : Vec Ideal S64x64 .f32) (x3 : Vec Ideal S64x1 .f32)
    (j : Fin 4) (c : Fin 64) (s : Fin 3136) :
    (out1_4 x0 x1 x2 x3 (ix3 j c s) : EReal)
      = (∑ c' : Fin 64, (x2 (ix2 c c') : EReal) * ((x0 (ix3 j c' s) : EReal) - (x1 (ix2 c' (0 : Fin 1)) : EReal)))
        + (x3 (ix2 c (0 : Fin 1)) : EReal) := by
  unfold out1_4
  rw [View.ld_unit_zero off2_zero inb_S64x1_S64x1_0_0 x1, View.ld_unit_zero off2_zero inb_S64x1_S64x1_0_0 x3,
    View.ld_unit_zero off2_zero inb_S64x64_S64x64_0_0 x2]
  refine (View.canon_apply_of_pieces (applyAt x0 x1 x2 x3) _ ?_ (ix3 j c s) (cover1_4 _ _ _ _ _)).trans rfl
  intro p hp x
  simp only [List.mem_cons, List.not_mem_nil, or_false] at hp
  rcases hp with rfl | rfl | rfl | rfl
  · obtain ⟨u, c, s, rfl⟩ : ∃ (u : Fin 1) (c : Fin 64) (s : Fin 3136), x = ix3 u c s := ⟨x 0, x 1, x 2, eq_ix3 x⟩
    show k1_pay2 (k1_pay3 x2) (View.ld x0 r1_row3) x1 x3 (ix3 u c s) = applyAt x0 x1 x2 x3 (r1_row3.idx (ix3 u c s))
    rw [k1_pay2_eq, k1_pay1_apply, row3_idx]
    simp only [k1_pay3_apply, View.ld, row3_idx]
    rfl
  · obtain ⟨u, c, s, rfl⟩ : ∃ (u : Fin 1) (c : Fin 64) (s : Fin 3136), x = ix3 u c s := ⟨x 0, x 1, x 2, eq_ix3 x⟩
    show k1_pay1 (k1_pay3 x2) (View.ld x0 r1_row2) x1 x3 (ix3 u c s) = applyAt x0 x1 x2 x3 (r1_row2.idx (ix3 u c s))
    rw [k1_pay1_apply, row2_idx]
    simp only [k1_pay3_apply, View.ld, row2_idx]
    rfl
  · obtain ⟨u, c, s, rfl⟩ : ∃ (u : Fin 1) (c : Fin 64) (s : Fin 3136), x = ix3 u c s := ⟨x 0, x 1, x 2, eq_ix3 x⟩
    show k1_pay5 x2 (View.ld x0 r1_row1) x1 x3 (ix3 u c s) = applyAt x0 x1 x2 x3 (r1_row1.idx (ix3 u c s))
    rw [k1_pay5_eq, k1_pay1_apply, row1_idx]
    simp only [k1_pay3_apply, View.ld, row1_idx]
    rfl
  · obtain ⟨u, c, s, rfl⟩ : ∃ (u : Fin 1) (c : Fin 64) (s : Fin 3136), x = ix3 u c s := ⟨x 0, x 1, x 2, eq_ix3 x⟩
    show k1_pay4 x2 (View.ld x0 r1_row0) x1 x3 (ix3 u c s) = applyAt x0 x1 x2 x3 (r1_row0.idx (ix3 u c s))
    rw [k1_pay4_eq, k1_pay1_apply, row0_idx]
    simp only [k1_pay3_apply, View.ld, row0_idx]
    rfl

/-- The same as one function of the block's index. -/
theorem out1_4_eq (x0 : Vec Ideal S4x64x3136 .f32) (x1 : Vec Ideal S64x1 .f32) (x2 : Vec Ideal S64x64 .f32) (x3 : Vec Ideal S64x1 .f32) :
    out1_4 x0 x1 x2 x3 = applyAt x0 x1 x2 x3 := by
  funext y
  obtain ⟨j, c, s, rfl⟩ : ∃ (j : Fin 4) (c : Fin 64) (s : Fin 3136), y = ix3 j c s := ⟨y 0, y 1, y 2, eq_ix3 y⟩
  exact out1_4_apply x0 x1 x2 x3 j c s

end Cert.KernelIdeal.Hand

end
-- ==== Proof.KI.Region1Final.lean ====
/-
  From the apply kernel's blocks to its output array, over the extended reals. The output window's block at grid
  point t is batch rows 4t .. 4t+3 of the output array; the input block is the same rows of the input array; the
  mean, the whitening matrix and the shift are whole arrays at every point. So what point t writes back is block t
  of ONE function of the region-entry arrays,

      applyArr X mean W shift (b, c, s) = (∑ c', W (c, c') * (X (b, c', s) - mean (c', 0))) + shift (c, 0),

  the 32 blocks cover the output array (batch row b is in block b / 4), and the output array ends holding that
  function; the input arrays are never written.
-/
import proofs.«141837_j49177375539587_2_alg».proof.Proof.KI.Region1Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The whole-array function -/

/-- The apply step on whole arrays: at (b, c, s), row c of the matrix applied to the centred column of the input at
    (b, ·, s), plus the shift at c. -/
def applyArr (x : FVec Ideal S128x64x3136 .f32) (mean : FVec Ideal S64x1 .f32) (wm : FVec Ideal S64x64 .f32) (b2 : FVec Ideal S64x1 .f32) :
    FVec Ideal S128x64x3136 .f32 := fun i =>
  (∑ c' : Fin 64, (wm (ix2 (i 1 : Fin 64) c') : EReal) * ((x (ix3 (i 0 : Fin 128) c' (i 2 : Fin 3136)) : EReal) - (mean (ix2 c' (0 : Fin 1)) : EReal)))
    + (b2 (ix2 (i 1 : Fin 64) (0 : Fin 1)) : EReal)

/-- It at an index given by its coordinates. -/
theorem applyArr_apply (x : FVec Ideal S128x64x3136 .f32) (mean : FVec Ideal S64x1 .f32) (wm : FVec Ideal S64x64 .f32) (b2 : FVec Ideal S64x1 .f32)
    (b : Fin 128) (c : Fin 64) (s : Fin 3136) :
    applyArr x mean wm b2 (ix3 b c s)
      = (∑ c' : Fin 64, (wm (ix2 c c') : EReal) * ((x (ix3 b c' s) : EReal) - (mean (ix2 c' (0 : Fin 1)) : EReal)))
        + (b2 (ix2 c (0 : Fin 1)) : EReal) := rfl

/-! ## The index maps over the grid -/

/-- The printed index maps, decided over the 32 points: the input's and the output's blocks are at batch block t,
    the other windows at block 0. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

section
variable {F : FTy → Type} [FloatOps F]
variable (V : (c : Dev nD) → (b : Ref sig .tc) → Buf (Elt F) ((c : Thread nD τ).loc b))

/-! ## The input windows' blocks as reads of the region-entry arrays -/

/-- The input block at point t is batch rows 4t .. 4t+3 of the input array. -/
theorem iblk1_0_apply (c : Dev nD) (t : Fin cfg1.N) (x : S4x64x3136.Idx) (k : S128x64x3136.Idx)
    (hk0 : (k 0).val = 4 * t.val + (x 0).val) (hk1 : (k 1).val = (x 1).val) (hk2 : (k 2).val = (x 2).val) :
    (iblk1 V c 0 t : Vec F S4x64x3136 .f32) x = (V c main_v0 : S128x64x3136.Idx → Elt F .f32) k := by
  obtain ⟨e0, e1, e2, -⟩ := idx_facts1 t
  unfold iblk1
  rw [View.read_apply]
  show V c main_v0 _ = V c main_v0 _
  congr 1
  funext a
  apply Fin.ext
  match a with
  | ⟨0, _⟩ => show win1_0.index t (0 : Fin 3) * 4 + 1 * (x 0).val = (k 0).val; rw [e0, hk0]; omega
  | ⟨1, _⟩ => show win1_0.index t (1 : Fin 3) * 64 + 1 * (x 1).val = (k 1).val; rw [e1, hk1]; omega
  | ⟨2, _⟩ => show win1_0.index t (2 : Fin 3) * 3136 + 1 * (x 2).val = (k 2).val; rw [e2, hk2]; omega

/-- The mean's, the matrix's and the shift's blocks are their whole arrays at every point. -/
theorem iblk1_1_eq (c : Dev nD) (t : Fin cfg1.N) : (iblk1 V c 1 t : Vec F S64x1 .f32) = (V c main_v3 : S64x1.Idx → Elt F .f32) := by
  obtain ⟨-, -, -, e0, e1, -⟩ := idx_facts1 t
  funext x
  unfold iblk1
  rw [View.read_apply]
  show V c main_v3 _ = V c main_v3 _
  congr 1
  funext a
  apply Fin.ext
  match a with
  | ⟨0, _⟩ => show win1_1.index t (0 : Fin 2) * 64 + 1 * (x 0).val = (x 0).val; rw [e0]; omega
  | ⟨1, _⟩ => show win1_1.index t (1 : Fin 2) * 1 + 1 * (x 1).val = (x 1).val; rw [e1]; omega

theorem iblk1_2_eq (c : Dev nD) (t : Fin cfg1.N) : (iblk1 V c 2 t : Vec F S64x64 .f32) = (V c main_v109 : S64x64.Idx → Elt F .f32) := by
  obtain ⟨-, -, -, -, -, e0, e1, -⟩ := idx_facts1 t
  funext x
  unfold iblk1
  rw [View.read_apply]
  show V c main_v109 _ = V c main_v109 _
  congr 1
  funext a
  apply Fin.ext
  match a with
  | ⟨0, _⟩ => show win1_2.index t (0 : Fin 2) * 64 + 1 * (x 0).val = (x 0).val; rw [e0]; omega
  | ⟨1, _⟩ => show win1_2.index t (1 : Fin 2) * 64 + 1 * (x 1).val = (x 1).val; rw [e1]; omega

theorem iblk1_3_eq (c : Dev nD) (t : Fin cfg1.N) : (iblk1 V c 3 t : Vec F S64x1 .f32) = (V c main_v110 : S64x1.Idx → Elt F .f32) := by
  obtain ⟨-, -, -, -, -, -, -, e0, e1, -⟩ := idx_facts1 t
  funext x
  unfold iblk1
  rw [View.read_apply]
  show V c main_v110 _ = V c main_v110 _
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 1 + 1 * (x 1).val = (x 1).val; rw [e1]; omega

/-! ## The output window's blocks in the output array -/

/-- An index of the output array is in point t's block iff each coordinate is in the block's range on its axis. -/
theorem mem_blk1_4 (t : Fin cfg1.N) (i : S128x64x3136.Idx) :
    i ∈ ((cfg1.win 4).blk t).view.set
      ↔ ∀ a : Fin 3, win1_4.index t a * S4x64x3136.size a ≤ (i a).val ∧ (i a).val < win1_4.index t a * S4x64x3136.size a + S4x64x3136.size a := by
  show i ∈ ((View.whole main_v111).slice (win1_4.rect t)).set ↔ _
  rw [View.set_slice_whole, Rect.mem_set_unit]
  exact Iff.rfl

/-- Every index of the output array is in some point's block: batch row b is in block b / 4. -/
theorem cover1_arr (i : S128x64x3136.Idx) :
    ∃ t : Fin cfg1.N, (cfg1.win 4).flush t = true ∧ i ∈ ((cfg1.win 4).blk t).view.set := by
  have hN : cfg1.N = 32 := N_1
  have h0 : (i 0).val < 128 := (i 0).isLt
  have h1 : (i 1).val < 64 := (i 1).isLt
  have h2 : (i 2).val < 3136 := (i 2).isLt
  refine ⟨⟨(i 0).val / 4, by rw [hN]; omega⟩, flush1_4 _, ?_⟩
  rw [mem_blk1_4]
  obtain ⟨-, -, -, -, -, -, -, -, -, e0, e1, e2⟩ := idx_facts1 ⟨(i 0).val / 4, by rw [hN]; omega⟩
  intro a
  match a with
  | ⟨0, _⟩ =>
    show win1_4.index _ (0 : Fin 3) * 4 ≤ (i 0).val ∧ (i 0).val < win1_4.index _ (0 : Fin 3) * 4 + 4
    rw [e0]; show (i 0).val / 4 * 4 ≤ (i 0).val ∧ (i 0).val < (i 0).val / 4 * 4 + 4; omega
  | ⟨1, _⟩ =>
    show win1_4.index _ (1 : Fin 3) * 64 ≤ (i 1).val ∧ (i 1).val < win1_4.index _ (1 : Fin 3) * 64 + 64
    rw [e1]; omega
  | ⟨2, _⟩ =>
    show win1_4.index _ (2 : Fin 3) * 3136 ≤ (i 2).val ∧ (i 2).val < win1_4.index _ (2 : Fin 3) * 3136 + 3136
    rw [e2]; omega

/-- The input windows' arrays are never written: after the run they hold their region-entry contents. -/
theorem final1_in (c : Dev nD) (w : Fin cfg1.W) (hw : w ≠ 4) : (dat1 V c).arrAt w cfg1.N = V c (Pipeline.arrRef spec1 w) := by
  have hin : (cfg1.win w).isOut = false := by
    match w with
    | ⟨0, _⟩ => rfl
    | ⟨1, _⟩ => rfl
    | ⟨2, _⟩ => rfl
    | ⟨3, _⟩ => rfl
    | ⟨4, _⟩ => exact absurd rfl hw
  rw [(dat1 V c).arrAt_in w hin, A_eq1]

end

/-! ## At the extended reals: the output array after the run -/

variable (V : (c : Dev nD) → (b : Ref sig .tc) → Buf (Elt Ideal) ((c : Thread nD τ).loc b))

/-- The body's result at point t, at an index of the block, is the whole-array function at the index's place in
    the output array. -/
theorem blk1_4_apply (c : Dev nD) (t : Fin cfg1.N) (j : S4x64x3136.Idx) :
    applyAt (iblk1 V c 0 t) (iblk1 V c 1 t) (iblk1 V c 2 t) (iblk1 V c 3 t) j
      = applyArr (V c main_v0) (V c main_v3) (V c main_v109) (V c main_v110) (((cfg1.win 4).blk t).view.emb j) := by
  obtain ⟨-, -, -, -, -, -, -, -, -, e0, e1, e2⟩ := idx_facts1 t
  have k0 : ((((cfg1.win 4).blk t).view.emb j) (0 : Fin 3)).val = 4 * t.val + (j 0).val := by
    show win1_4.index t (0 : Fin 3) * 4 + 1 * (j 0).val = _; rw [e0]; omega
  have k1 : ((((cfg1.win 4).blk t).view.emb j) (1 : Fin 3) : Fin 64) = (j 1 : Fin 64) := Fin.ext (by
    show win1_4.index t (1 : Fin 3) * 64 + 1 * (j 1).val = (j 1).val; rw [e1]; omega)
  have k2 : ((((cfg1.win 4).blk t).view.emb j) (2 : Fin 3)).val = (j 2).val := by
    show win1_4.index t (2 : Fin 3) * 3136 + 1 * (j 2).val = _; rw [e2]; omega
  rw [iblk1_1_eq, iblk1_2_eq, iblk1_3_eq]
  unfold applyAt applyArr
  rw [k1]
  congr 1
  refine Finset.sum_congr rfl fun c' _ => ?_
  congr 2
  exact iblk1_0_apply V c t _ _ k0 rfl k2

/-- What point t writes back is block t of the whole-array function of the region-entry arrays. -/
theorem flushed1_4_eq (c : Dev nD) (t : Fin cfg1.N) :
    (dat1 V c).flushed 4 t
      = ((cfg1.win 4).blk t).view.read (Elt Ideal) (applyArr (V c main_v0) (V c main_v3) (V c main_v109) (V c main_v110)) := by
  show (cfg1.win 4).cut (grid1.coords t) ((dat1 V c).after 4 t) = _
  rw [after1_4, out1_4_eq]
  funext j
  exact blk1_4_apply V c t j

/-- The output array after the run is the whole-array function of the region-entry arrays. -/
theorem final1_4 (c : Dev nD) :
    (dat1 V c).arrAt 4 cfg1.N = applyArr (V c main_v0) (V c main_v3) (V c main_v109) (V c main_v110) :=
  (dat1 V c).arrAt_eq_of_cover 4 (applyArr (V c main_v0) (V c main_v3) (V c main_v109) (V c main_v110))
    (fun t _ => flushed1_4_eq V c t) cover1_arr

end Cert.KernelIdeal.Hand

end
-- ==== Proof.KI.Glue.lean ====
/- The host operations of the kernel program's @main between its two kernels, read as named stages: from the
   first kernel's two outputs — the channel sums `sx` (a column) and the matrix of products' sums `sxx` — the mean
   `meanK sx`, the covariance `sigmaK sx sxx = (ε·I + sxx/401408) − mean·meanᵀ`, and its whitening matrix
   `tail (sigmaK sx sxx)` (damping, scaling to trace one, ten Newton–Schulz steps, rescaling by the square root);
   and the bias as a column. The three stretches of operations are cut where the stages end, and after each cut the
   buffers later cuts read hold the stage's named term. `tail` is the reference program's, term for term. -/
import proofs.«141837_j49177375539587_2_alg».proof.Proof.Gen.KernelIdeal.Launch
import proofs.«141837_j49177375539587_2_alg».proof.Proof.RefRun
import Idealize.ShloMosaic.Lib.StableHlo.Run
import Idealize.ShloMosaic.Lib.Pipeline.Frame

set_option Elab.async false

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## The stages -/

/-- A scalar spread over the 64×64 matrices. -/
abbrev bc (v : FVec F S_ .f32) : FVec F S64x64 .f32 := broadcastInDim S64x64 ![] bcast_S_S64x64 v

/-- The product of two 64×64 matrices. -/
abbrev mm (l r : FVec F S64x64 .f32) : FVec F S64x64 .f32 := Host.dotGeneral dot_S64x64_S64x64_S64x64_1_0_0_1_n_n none l r

/-- The channel means from the channel sums: `sx / 401408`. -/
def meanK (sx : FVec F S64x1 .f32) : FVec F S64x1 .f32 :=
  Host.divf sx (broadcastInDim S64x1 ![] bcast_S_S64x1 (constant S_ .f32 0x48C40000#32))

/-- The diagonal as a mask: row index equal to column index. -/
def eyeMask : IVec S64x64 1 :=
  cmpi .eq (addi (iotaInDim S64x64 32 0) (broadcastInDim S64x64 ![] bcast_S_S64x64 (constantI S_ 32 0#32))) (iotaInDim S64x64 32 1)

/-- The 64×64 identity matrix. -/
def eye : FVec F S64x64 .f32 := uitofp .f32 eyeMask

/-- The regularised covariance from the two sums: `(ε·I + sxx/401408) − mean·meanᵀ`. -/
def sigmaK (sx : FVec F S64x1 .f32) (sxx : FVec F S64x64 .f32) : FVec F S64x64 .f32 :=
  subf (addf (mulf (bc (constant S_ .f32 0x3727C5AC#32)) eye) (Host.divf sxx (bc (constant S_ .f32 0x48C40000#32))))
    (Host.dotGeneral dot_S64x1_S1x64_S64x64_1_0_0_1_n_n none (meanK sx) (transpose S1x64 [1, 0] (meanK sx) transposes_S64x1_S1x64_1_0))

/-- The matrix with its off-diagonal damped: `S ∘ (0.9 + 0.1·I)`, entry by entry. -/
def fixS (S : FVec F S64x64 .f32) : FVec F S64x64 .f32 :=
  mulf S (addf (bc (constant S_ .f32 0x3F666666#32)) (mulf (bc (constant S_ .f32 0x3DCCCCCD#32)) eye))

/-- The trace: the sum of the entries the diagonal mask keeps. -/
def tr (M : FVec F S64x64 .f32) : FVec F S_ .f32 :=
  Host.reduceAdd (select eyeMask M (bc (constant S_ .f32 0x00000000#32))) (constant S_ .f32 0x00000000#32) reducesTo_S64x64_S_d0_1 h_S_

/-- One over the trace of the damped matrix. -/
def rT (S : FVec F S64x64 .f32) : FVec F S_ .f32 := Host.divf (constant S_ .f32 0x3F800000#32) (tr (fixS S))

/-- The damped matrix scaled to trace one. -/
def sN (S : FVec F S64x64 .f32) : FVec F S64x64 .f32 := mulf (fixS S) (bc (rT S))

/-- One Newton–Schulz step for the inverse square root of `N`: `P ↦ 1.5·P − 0.5·(P·P·P·N)`. -/
def nsStep (N P : FVec F S64x64 .f32) : FVec F S64x64 .f32 :=
  subf (mulf (bc (constant S_ .f32 0x3FC00000#32)) P) (mulf (bc (constant S_ .f32 0x3F000000#32)) (mm (mm (mm P P) P) N))

/-- `k` Newton–Schulz steps from the identity. -/
def ns (N : FVec F S64x64 .f32) : Nat → FVec F S64x64 .f32
  | 0 => eye
  | k + 1 => nsStep N (ns N k)

theorem ns_zero (N : FVec F S64x64 .f32) : ns N 0 = eye := rfl
theorem ns_succ (N : FVec F S64x64 .f32) (k : Nat) : ns N (k + 1) = nsStep N (ns N k) := rfl

/-- The whitening matrix of `S`: ten steps on the trace-one scaling of the damped `S`, times the square root of
    one over the trace. A function of `S` alone. -/
def tail (S : FVec F S64x64 .f32) : FVec F S64x64 .f32 := mulf (ns (sN S) 10) (bc (Host.sqrt (rT S)))

/-! ## The same stages as the reference program's -/

theorem eyeMask_eq_ref : eyeMask = Cert.ReferenceIdeal.Hand.eyeMask := rfl
theorem eye_eq_ref : (eye : FVec F S64x64 .f32) = Cert.ReferenceIdeal.Hand.eye := rfl
theorem fixS_eq_ref : (fixS : FVec F S64x64 .f32 → FVec F S64x64 .f32) = Cert.ReferenceIdeal.Hand.fixS := rfl
theorem tr_eq_ref : (tr : FVec F S64x64 .f32 → FVec F S_ .f32) = Cert.ReferenceIdeal.Hand.tr := rfl
theorem rT_eq_ref : (rT : FVec F S64x64 .f32 → FVec F S_ .f32) = Cert.ReferenceIdeal.Hand.rT := rfl
theorem sN_eq_ref : (sN : FVec F S64x64 .f32 → FVec F S64x64 .f32) = Cert.ReferenceIdeal.Hand.sN := rfl
theorem nsStep_eq_ref : (nsStep : FVec F S64x64 .f32 → FVec F S64x64 .f32 → FVec F S64x64 .f32) = Cert.ReferenceIdeal.Hand.nsStep := rfl
theorem ns_eq_ref (N : FVec F S64x64 .f32) : ∀ k : Nat, ns N k = Cert.ReferenceIdeal.Hand.ns N k
  | 0 => eye_eq_ref
  | k + 1 => by rw [ns_succ, Cert.ReferenceIdeal.Hand.ns_succ, ns_eq_ref N k, nsStep_eq_ref]
/-- The whitening map here is the reference program's. -/
theorem tail_eq_ref : (tail : FVec F S64x64 .f32 → FVec F S64x64 .f32) = Cert.ReferenceIdeal.Hand.tail := by
  funext S
  unfold tail Cert.ReferenceIdeal.Hand.tail
  rw [ns_eq_ref, sN_eq_ref, rT_eq_ref]

/-! ## The three stretches, stage by stage -/

/-- The reciprocal of the trace and the scaling to trace one. -/
abbrev kB : List (HloOp τ sig (Elt F)) :=
  [ StableHlo.nullary main_cst_4 (constant S_ .f32 0x3F800000#32),
    StableHlo.binary main_cst_4 main_v23 main_v24 (Host.divf : (⟨S_, .f32⟩ : BufTy).Contents (Elt F) → (⟨S_, .f32⟩ : BufTy).Contents (Elt F) → (⟨S_, .f32⟩ : BufTy).Contents (Elt F)),
    StableHlo.unary main_v24 main_v25 (broadcastInDim S64x64 ![] bcast_S_S64x64 : (⟨S_, .f32⟩ : BufTy).Contents (Elt F) → (⟨S64x64, .f32⟩ : BufTy).Contents (Elt F)),
    StableHlo.binary main_v22 main_v25 main_v26 (mulf : (⟨S64x64, .f32⟩ : BufTy).Contents (Elt F) → (⟨S64x64, .f32⟩ : BufTy).Contents (Elt F) → (⟨S64x64, .f32⟩ : BufTy).Contents (Elt F)) ]

/-- Newton–Schulz step 1. -/
abbrev k1 : List (HloOp τ sig (Elt F)) :=
  [ StableHlo.nullary main_cst_5 (constant S_ .f32 0x3FC00000#32),
    StableHlo.unary main_cst_5 main_v27 (broadcastInDim S64x64 ![] bcast_S_S64x64 : (⟨S_, .f32⟩ : BufTy).Contents (Elt F) → (⟨S64x64, .f32⟩ : BufTy).Contents (Elt F)),
    StableHlo.binary main_v27 main_v9 main_v28 (mulf : (⟨S64x64, .f32⟩ : BufTy).Contents (Elt F) → (⟨S64x64, .f32⟩ : BufTy).Contents (Elt F) → (⟨S64x64, .f32⟩ : BufTy).Contents (Elt F)),
    StableHlo.binary main_v9 main_v9 main_v29 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v29 main_v9 main_v30 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v30 main_v26 main_v31 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_6 (constant S_ .f32 0x3F000000#32),
    StableHlo.unary main_cst_6 main_v32 (broadcastInDim S64x64 ![] bcast_S_S64x64 : (⟨S_, .f32⟩ : BufTy).Contents (Elt F) → (⟨S64x64, .f32⟩ : BufTy).Contents (Elt F)),
    StableHlo.binary main_v32 main_v31 main_v33 (mulf : (⟨S64x64, .f32⟩ : BufTy).Contents (Elt F) → (⟨S64x64, .f32⟩ : BufTy).Contents (Elt F) → (⟨S64x64, .f32⟩ : BufTy).Contents (Elt F)),
    StableHlo.binary main_v28 main_v33 main_v34 (subf : (⟨S64x64, .f32⟩ : BufTy).Contents (Elt F) → (⟨S64x64, .f32⟩ : BufTy).Contents (Elt F) → (⟨S64x64, .f32⟩ : BufTy).Contents (Elt F)) ]

/-- Newton–Schulz step 2. -/
abbrev k2 : List (HloOp τ sig (Elt F)) :=
  [ StableHlo.nullary main_cst_7 (constant S_ .f32 0x3FC00000#32),
    StableHlo.unary main_cst_7 main_v35 (broadcastInDim S64x64 ![] bcast_S_S64x64 : (⟨S_, .f32⟩ : BufTy).Contents (Elt F) → (⟨S64x64, .f32⟩ : BufTy).Contents (Elt F)),
    StableHlo.binary main_v35 main_v34 main_v36 (mulf : (⟨S64x64, .f32⟩ : BufTy).Contents (Elt F) → (⟨S64x64, .f32⟩ : BufTy).Contents (Elt F) → (⟨S64x64, .f32⟩ : BufTy).Contents (Elt F)),
    StableHlo.binary main_v34 main_v34 main_v37 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v37 main_v34 main_v38 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v38 main_v26 main_v39 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_8 (constant S_ .f32 0x3F000000#32),
    StableHlo.unary main_cst_8 main_v40 (broadcastInDim S64x64 ![] bcast_S_S64x64 : (⟨S_, .f32⟩ : BufTy).Contents (Elt F) → (⟨S64x64, .f32⟩ : BufTy).Contents (Elt F)),
    StableHlo.binary main_v40 main_v39 main_v41 (mulf : (⟨S64x64, .f32⟩ : BufTy).Contents (Elt F) → (⟨S64x64, .f32⟩ : BufTy).Contents (Elt F) → (⟨S64x64, .f32⟩ : BufTy).Contents (Elt F)),
    StableHlo.binary main_v36 main_v41 main_v42 (subf : (⟨S64x64, .f32⟩ : BufTy).Contents (Elt F) → (⟨S64x64, .f32⟩ : BufTy).Contents (Elt F) → (⟨S64x64, .f32⟩ : BufTy).Contents (Elt F)) ]

/-- Newton–Schulz step 3. -/
abbrev k3 : List (HloOp τ sig (Elt F)) :=
  [ StableHlo.nullary main_cst_9 (constant S_ .f32 0x3FC00000#32),
    StableHlo.unary main_cst_9 main_v43 (broadcastInDim S64x64 ![] bcast_S_S64x64 : (⟨S_, .f32⟩ : BufTy).Contents (Elt F) → (⟨S64x64, .f32⟩ : BufTy).Contents (Elt F)),
    StableHlo.binary main_v43 main_v42 main_v44 (mulf : (⟨S64x64, .f32⟩ : BufTy).Contents (Elt F) → (⟨S64x64, .f32⟩ : BufTy).Contents (Elt F) → (⟨S64x64, .f32⟩ : BufTy).Contents (Elt F)),
    StableHlo.binary main_v42 main_v42 main_v45 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v45 main_v42 main_v46 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v46 main_v26 main_v47 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_10 (constant S_ .f32 0x3F000000#32),
    StableHlo.unary main_cst_10 main_v48 (broadcastInDim S64x64 ![] bcast_S_S64x64 : (⟨S_, .f32⟩ : BufTy).Contents (Elt F) → (⟨S64x64, .f32⟩ : BufTy).Contents (Elt F)),
    StableHlo.binary main_v48 main_v47 main_v49 (mulf : (⟨S64x64, .f32⟩ : BufTy).Contents (Elt F) → (⟨S64x64, .f32⟩ : BufTy).Contents (Elt F) → (⟨S64x64, .f32⟩ : BufTy).Contents (Elt F)),
    StableHlo.binary main_v44 main_v49 main_v50 (subf : (⟨S64x64, .f32⟩ : BufTy).Contents (Elt F) → (⟨S64x64, .f32⟩ : BufTy).Contents (Elt F) → (⟨S64x64, .f32⟩ : BufTy).Contents (Elt F)) ]

/-- Newton–Schulz step 4. -/
abbrev k4 : List (HloOp τ sig (Elt F)) :=
  [ StableHlo.nullary main_cst_11 (constant S_ .f32 0x3FC00000#32),
    StableHlo.unary main_cst_11 main_v51 (broadcastInDim S64x64 ![] bcast_S_S64x64 : (⟨S_, .f32⟩ : BufTy).Contents (Elt F) → (⟨S64x64, .f32⟩ : BufTy).Contents (Elt F)),
    StableHlo.binary main_v51 main_v50 main_v52 (mulf : (⟨S64x64, .f32⟩ : BufTy).Contents (Elt F) → (⟨S64x64, .f32⟩ : BufTy).Contents (Elt F) → (⟨S64x64, .f32⟩ : BufTy).Contents (Elt F)),
    StableHlo.binary main_v50 main_v50 main_v53 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v53 main_v50 main_v54 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v54 main_v26 main_v55 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_12 (constant S_ .f32 0x3F000000#32),
    StableHlo.unary main_cst_12 main_v56 (broadcastInDim S64x64 ![] bcast_S_S64x64 : (⟨S_, .f32⟩ : BufTy).Contents (Elt F) → (⟨S64x64, .f32⟩ : BufTy).Contents (Elt F)),
    StableHlo.binary main_v56 main_v55 main_v57 (mulf : (⟨S64x64, .f32⟩ : BufTy).Contents (Elt F) → (⟨S64x64, .f32⟩ : BufTy).Contents (Elt F) → (⟨S64x64, .f32⟩ : BufTy).Contents (Elt F)),
    StableHlo.binary main_v52 main_v57 main_v58 (subf : (⟨S64x64, .f32⟩ : BufTy).Contents (Elt F) → (⟨S64x64, .f32⟩ : BufTy).Contents (Elt F) → (⟨S64x64, .f32⟩ : BufTy).Contents (Elt F)) ]

/-- Newton–Schulz step 5. -/
abbrev k5 : List (HloOp τ sig (Elt F)) :=
  [ StableHlo.nullary main_cst_13 (constant S_ .f32 0x3FC00000#32),
    StableHlo.unary main_cst_13 main_v59 (broadcastInDim S64x64 ![] bcast_S_S64x64 : (⟨S_, .f32⟩ : BufTy).Contents (Elt F) → (⟨S64x64, .f32⟩ : BufTy).Contents (Elt F)),
    StableHlo.binary main_v59 main_v58 main_v60 (mulf : (⟨S64x64, .f32⟩ : BufTy).Contents (Elt F) → (⟨S64x64, .f32⟩ : BufTy).Contents (Elt F) → (⟨S64x64, .f32⟩ : BufTy).Contents (Elt F)),
    StableHlo.binary main_v58 main_v58 main_v61 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v61 main_v58 main_v62 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v62 main_v26 main_v63 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_14 (constant S_ .f32 0x3F000000#32),
    StableHlo.unary main_cst_14 main_v64 (broadcastInDim S64x64 ![] bcast_S_S64x64 : (⟨S_, .f32⟩ : BufTy).Contents (Elt F) → (⟨S64x64, .f32⟩ : BufTy).Contents (Elt F)),
    StableHlo.binary main_v64 main_v63 main_v65 (mulf : (⟨S64x64, .f32⟩ : BufTy).Contents (Elt F) → (⟨S64x64, .f32⟩ : BufTy).Contents (Elt F) → (⟨S64x64, .f32⟩ : BufTy).Contents (Elt F)),
    StableHlo.binary main_v60 main_v65 main_v66 (subf : (⟨S64x64, .f32⟩ : BufTy).Contents (Elt F) → (⟨S64x64, .f32⟩ : BufTy).Contents (Elt F) → (⟨S64x64, .f32⟩ : BufTy).Contents (Elt F)) ]

/-- Newton–Schulz step 6. -/
abbrev k6 : List (HloOp τ sig (Elt F)) :=
  [ StableHlo.nullary main_cst_15 (constant S_ .f32 0x3FC00000#32),
    StableHlo.unary main_cst_15 main_v67 (broadcastInDim S64x64 ![] bcast_S_S64x64 : (⟨S_, .f32⟩ : BufTy).Contents (Elt F) → (⟨S64x64, .f32⟩ : BufTy).Contents (Elt F)),
    StableHlo.binary main_v67 main_v66 main_v68 (mulf : (⟨S64x64, .f32⟩ : BufTy).Contents (Elt F) → (⟨S64x64, .f32⟩ : BufTy).Contents (Elt F) → (⟨S64x64, .f32⟩ : BufTy).Contents (Elt F)),
    StableHlo.binary main_v66 main_v66 main_v69 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v69 main_v66 main_v70 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v70 main_v26 main_v71 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_16 (constant S_ .f32 0x3F000000#32),
    StableHlo.unary main_cst_16 main_v72 (broadcastInDim S64x64 ![] bcast_S_S64x64 : (⟨S_, .f32⟩ : BufTy).Contents (Elt F) → (⟨S64x64, .f32⟩ : BufTy).Contents (Elt F)),
    StableHlo.binary main_v72 main_v71 main_v73 (mulf : (⟨S64x64, .f32⟩ : BufTy).Contents (Elt F) → (⟨S64x64, .f32⟩ : BufTy).Contents (Elt F) → (⟨S64x64, .f32⟩ : BufTy).Contents (Elt F)),
    StableHlo.binary main_v68 main_v73 main_v74 (subf : (⟨S64x64, .f32⟩ : BufTy).Contents (Elt F) → (⟨S64x64, .f32⟩ : BufTy).Contents (Elt F) → (⟨S64x64, .f32⟩ : BufTy).Contents (Elt F)) ]

/-- Newton–Schulz step 7. -/
abbrev k7 : List (HloOp τ sig (Elt F)) :=
  [ StableHlo.nullary main_cst_17 (constant S_ .f32 0x3FC00000#32),
    StableHlo.unary main_cst_17 main_v75 (broadcastInDim S64x64 ![] bcast_S_S64x64 : (⟨S_, .f32⟩ : BufTy).Contents (Elt F) → (⟨S64x64, .f32⟩ : BufTy).Contents (Elt F)),
    StableHlo.binary main_v75 main_v74 main_v76 (mulf : (⟨S64x64, .f32⟩ : BufTy).Contents (Elt F) → (⟨S64x64, .f32⟩ : BufTy).Contents (Elt F) → (⟨S64x64, .f32⟩ : BufTy).Contents (Elt F)),
    StableHlo.binary main_v74 main_v74 main_v77 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v77 main_v74 main_v78 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v78 main_v26 main_v79 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_18 (constant S_ .f32 0x3F000000#32),
    StableHlo.unary main_cst_18 main_v80 (broadcastInDim S64x64 ![] bcast_S_S64x64 : (⟨S_, .f32⟩ : BufTy).Contents (Elt F) → (⟨S64x64, .f32⟩ : BufTy).Contents (Elt F)),
    StableHlo.binary main_v80 main_v79 main_v81 (mulf : (⟨S64x64, .f32⟩ : BufTy).Contents (Elt F) → (⟨S64x64, .f32⟩ : BufTy).Contents (Elt F) → (⟨S64x64, .f32⟩ : BufTy).Contents (Elt F)),
    StableHlo.binary main_v76 main_v81 main_v82 (subf : (⟨S64x64, .f32⟩ : BufTy).Contents (Elt F) → (⟨S64x64, .f32⟩ : BufTy).Contents (Elt F) → (⟨S64x64, .f32⟩ : BufTy).Contents (Elt F)) ]

/-- Newton–Schulz step 8. -/
abbrev k8 : List (HloOp τ sig (Elt F)) :=
  [ StableHlo.nullary main_cst_19 (constant S_ .f32 0x3FC00000#32),
    StableHlo.unary main_cst_19 main_v83 (broadcastInDim S64x64 ![] bcast_S_S64x64 : (⟨S_, .f32⟩ : BufTy).Contents (Elt F) → (⟨S64x64, .f32⟩ : BufTy).Contents (Elt F)),
    StableHlo.binary main_v83 main_v82 main_v84 (mulf : (⟨S64x64, .f32⟩ : BufTy).Contents (Elt F) → (⟨S64x64, .f32⟩ : BufTy).Contents (Elt F) → (⟨S64x64, .f32⟩ : BufTy).Contents (Elt F)),
    StableHlo.binary main_v82 main_v82 main_v85 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v85 main_v82 main_v86 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v86 main_v26 main_v87 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_20 (constant S_ .f32 0x3F000000#32),
    StableHlo.unary main_cst_20 main_v88 (broadcastInDim S64x64 ![] bcast_S_S64x64 : (⟨S_, .f32⟩ : BufTy).Contents (Elt F) → (⟨S64x64, .f32⟩ : BufTy).Contents (Elt F)),
    StableHlo.binary main_v88 main_v87 main_v89 (mulf : (⟨S64x64, .f32⟩ : BufTy).Contents (Elt F) → (⟨S64x64, .f32⟩ : BufTy).Contents (Elt F) → (⟨S64x64, .f32⟩ : BufTy).Contents (Elt F)),
    StableHlo.binary main_v84 main_v89 main_v90 (subf : (⟨S64x64, .f32⟩ : BufTy).Contents (Elt F) → (⟨S64x64, .f32⟩ : BufTy).Contents (Elt F) → (⟨S64x64, .f32⟩ : BufTy).Contents (Elt F)) ]

/-- Newton–Schulz step 9. -/
abbrev k9 : List (HloOp τ sig (Elt F)) :=
  [ StableHlo.nullary main_cst_21 (constant S_ .f32 0x3FC00000#32),
    StableHlo.unary main_cst_21 main_v91 (broadcastInDim S64x64 ![] bcast_S_S64x64 : (⟨S_, .f32⟩ : BufTy).Contents (Elt F) → (⟨S64x64, .f32⟩ : BufTy).Contents (Elt F)),
    StableHlo.binary main_v91 main_v90 main_v92 (mulf : (⟨S64x64, .f32⟩ : BufTy).Contents (Elt F) → (⟨S64x64, .f32⟩ : BufTy).Contents (Elt F) → (⟨S64x64, .f32⟩ : BufTy).Contents (Elt F)),
    StableHlo.binary main_v90 main_v90 main_v93 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v93 main_v90 main_v94 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v94 main_v26 main_v95 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_22 (constant S_ .f32 0x3F000000#32),
    StableHlo.unary main_cst_22 main_v96 (broadcastInDim S64x64 ![] bcast_S_S64x64 : (⟨S_, .f32⟩ : BufTy).Contents (Elt F) → (⟨S64x64, .f32⟩ : BufTy).Contents (Elt F)),
    StableHlo.binary main_v96 main_v95 main_v97 (mulf : (⟨S64x64, .f32⟩ : BufTy).Contents (Elt F) → (⟨S64x64, .f32⟩ : BufTy).Contents (Elt F) → (⟨S64x64, .f32⟩ : BufTy).Contents (Elt F)),
    StableHlo.binary main_v92 main_v97 main_v98 (subf : (⟨S64x64, .f32⟩ : BufTy).Contents (Elt F) → (⟨S64x64, .f32⟩ : BufTy).Contents (Elt F) → (⟨S64x64, .f32⟩ : BufTy).Contents (Elt F)) ]

/-- Newton–Schulz step 10. -/
abbrev k10 : List (HloOp τ sig (Elt F)) :=
  [ StableHlo.nullary main_cst_23 (constant S_ .f32 0x3FC00000#32),
    StableHlo.unary main_cst_23 main_v99 (broadcastInDim S64x64 ![] bcast_S_S64x64 : (⟨S_, .f32⟩ : BufTy).Contents (Elt F) → (⟨S64x64, .f32⟩ : BufTy).Contents (Elt F)),
    StableHlo.binary main_v99 main_v98 main_v100 (mulf : (⟨S64x64, .f32⟩ : BufTy).Contents (Elt F) → (⟨S64x64, .f32⟩ : BufTy).Contents (Elt F) → (⟨S64x64, .f32⟩ : BufTy).Contents (Elt F)),
    StableHlo.binary main_v98 main_v98 main_v101 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v101 main_v98 main_v102 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v102 main_v26 main_v103 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_24 (constant S_ .f32 0x3F000000#32),
    StableHlo.unary main_cst_24 main_v104 (broadcastInDim S64x64 ![] bcast_S_S64x64 : (⟨S_, .f32⟩ : BufTy).Contents (Elt F) → (⟨S64x64, .f32⟩ : BufTy).Contents (Elt F)),
    StableHlo.binary main_v104 main_v103 main_v105 (mulf : (⟨S64x64, .f32⟩ : BufTy).Contents (Elt F) → (⟨S64x64, .f32⟩ : BufTy).Contents (Elt F) → (⟨S64x64, .f32⟩ : BufTy).Contents (Elt F)),
    StableHlo.binary main_v100 main_v105 main_v106 (subf : (⟨S64x64, .f32⟩ : BufTy).Contents (Elt F) → (⟨S64x64, .f32⟩ : BufTy).Contents (Elt F) → (⟨S64x64, .f32⟩ : BufTy).Contents (Elt F)) ]

/-- The square root, the final scaling, and the bias as a column. -/
abbrev kZ : List (HloOp τ sig (Elt F)) :=
  [ StableHlo.unary main_v24 main_v107 (Host.sqrt : (⟨S_, .f32⟩ : BufTy).Contents (Elt F) → (⟨S_, .f32⟩ : BufTy).Contents (Elt F)),
    StableHlo.unary main_v107 main_v108 (broadcastInDim S64x64 ![] bcast_S_S64x64 : (⟨S_, .f32⟩ : BufTy).Contents (Elt F) → (⟨S64x64, .f32⟩ : BufTy).Contents (Elt F)),
    StableHlo.binary main_v106 main_v108 main_v109 (mulf : (⟨S64x64, .f32⟩ : BufTy).Contents (Elt F) → (⟨S64x64, .f32⟩ : BufTy).Contents (Elt F) → (⟨S64x64, .f32⟩ : BufTy).Contents (Elt F)),
    StableHlo.reshape main_arg1 main_v110 rfl shapeCasts_S64_S64x1 ]

set_option maxRecDepth 8192 in
/-- The third stretch is its cuts, in order. -/
theorem hostOps1_2_eq_segs : (hostOps1_2 : List (HloOp τ sig (Elt F))) = kB ++ (k1 ++ (k2 ++ (k3 ++ (k4 ++ (k5 ++ (k6 ++ (k7 ++ (k8 ++ (k9 ++ (k10 ++ (kZ))))))))))) := rfl

/-- The buffer contents when the second kernel is entered, from the contents `W` at the first kernel's exit. -/
abbrev glueAfter (W : Valuation τ sig (Elt F)) : Valuation τ sig (Elt F) :=
  after hostOps1_2 (after hostOps1_1 (after hostOps1 W))
theorem glueAfter_eq (W : Valuation τ sig (Elt F)) : glueAfter W = after hostOps1_2 (after hostOps1_1 (after hostOps1 W)) := rfl

/-- One operation writes only a buffer of the list. -/
local macro "writes_mem" : tactic =>
  `(tactic| (simp only [nullary_writes, unary_writes, binary_writes, ternary_writes, reshape_writes, Finset.singleton_subset_iff, List.mem_toFinset]
             exact List.mem_map_of_mem (by decide)))

/-- The buffer contents at the first kernel's exit. -/
def val0 (W : Valuation τ sig (Elt F)) : Valuation τ sig (Elt F) := W
theorem val0_main_v0 (W : Valuation τ sig (Elt F)) : val0 W (no_index (Proc.devRef .tc main_v0)) = W (Proc.devRef .tc main_v0) := rfl
theorem val0_main_arg0 (W : Valuation τ sig (Elt F)) : val0 W (no_index (Proc.devRef .tc main_arg0)) = W (Proc.devRef .tc main_arg0) := rfl
theorem val0_main_arg1 (W : Valuation τ sig (Elt F)) : val0 W (no_index (Proc.devRef .tc main_arg1)) = W (Proc.devRef .tc main_arg1) := rfl
theorem val0_main_v1_0 (W : Valuation τ sig (Elt F)) : val0 W (no_index (Proc.devRef .tc main_v1_0)) = W (Proc.devRef .tc main_v1_0) := rfl
theorem val0_main_v1_1 (W : Valuation τ sig (Elt F)) : val0 W (no_index (Proc.devRef .tc main_v1_1)) = W (Proc.devRef .tc main_v1_1) := rfl

/-- The buffer contents after the first 1 stage. -/
def val1 (W : Valuation τ sig (Elt F)) : Valuation τ sig (Elt F) := after hostOps1 (val0 W)
/-- The buffers this stage writes. -/
abbrev hostOps1_W : List (Ref sig .tc) := [main_cst, main_v2, main_v3, main_v4, main_v5, main_c, main_v6, main_v7, main_v8, main_v9, main_v10, main_v11, main_cst_0, main_v12, main_v13, main_cst_1, main_v14, main_v15, main_v16, main_v17, main_cst_2, main_v18, main_v19, main_cst_3, main_v20, main_v21, main_v22]
set_option maxRecDepth 8192 in
theorem hostOps1_writes : (hostOps1 : List (HloOp τ sig (Elt F))).Forall fun op => op.writes ⊆ (hostOps1_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A buffer this stage does not write keeps its contents through it. -/
theorem val1_keep (W : Valuation τ sig (Elt F)) (r : Ref sig .tc) (h : r ∉ hostOps1_W) :
    val1 W (Proc.devRef .tc r) = val0 W (Proc.devRef .tc r) :=
  after_of_writes_sub hostOps1 _ hostOps1_writes h
theorem val1_main_v0 (W : Valuation τ sig (Elt F)) : val1 W (no_index (Proc.devRef .tc main_v0)) = W (Proc.devRef .tc main_v0) :=
  (val1_keep W main_v0 (by decide)).trans (val0_main_v0 W)
theorem val1_main_arg0 (W : Valuation τ sig (Elt F)) : val1 W (no_index (Proc.devRef .tc main_arg0)) = W (Proc.devRef .tc main_arg0) :=
  (val1_keep W main_arg0 (by decide)).trans (val0_main_arg0 W)
theorem val1_main_arg1 (W : Valuation τ sig (Elt F)) : val1 W (no_index (Proc.devRef .tc main_arg1)) = W (Proc.devRef .tc main_arg1) :=
  (val1_keep W main_arg1 (by decide)).trans (val0_main_arg1 W)
theorem val1_main_v1_0 (W : Valuation τ sig (Elt F)) : val1 W (no_index (Proc.devRef .tc main_v1_0)) = W (Proc.devRef .tc main_v1_0) :=
  (val1_keep W main_v1_0 (by decide)).trans (val0_main_v1_0 W)
theorem val1_main_v1_1 (W : Valuation τ sig (Elt F)) : val1 W (no_index (Proc.devRef .tc main_v1_1)) = W (Proc.devRef .tc main_v1_1) :=
  (val1_keep W main_v1_1 (by decide)).trans (val0_main_v1_1 W)
set_option maxRecDepth 8192 in
set_option maxHeartbeats 2000000 in
theorem val1_main_v3 (W : Valuation τ sig (Elt F)) : val1 W (no_index (Proc.devRef .tc main_v3)) = meanK (W (Proc.devRef .tc main_v1_0)) := by
  unfold val1
  simp only [hostOps1]
  after_results_simp
  (try simp only [val0_main_v0, val0_main_arg0, val0_main_arg1, val0_main_v1_0, val0_main_v1_1])
  rfl
set_option maxRecDepth 8192 in
set_option maxHeartbeats 2000000 in
theorem val1_main_v9 (W : Valuation τ sig (Elt F)) : val1 W (no_index (Proc.devRef .tc main_v9)) = (eye : FVec F S64x64 .f32) := by
  unfold val1
  simp only [hostOps1]
  after_results_simp
  (try simp only [val0_main_v0, val0_main_arg0, val0_main_arg1, val0_main_v1_0, val0_main_v1_1])
  rfl
set_option maxRecDepth 8192 in
set_option maxHeartbeats 2000000 in
theorem val1_main_v22 (W : Valuation τ sig (Elt F)) : val1 W (no_index (Proc.devRef .tc main_v22)) = fixS (sigmaK (W (Proc.devRef .tc main_v1_0)) (W (Proc.devRef .tc main_v1_1))) := by
  unfold val1
  simp only [hostOps1]
  after_results_simp
  (try simp only [val0_main_v0, val0_main_arg0, val0_main_arg1, val0_main_v1_0, val0_main_v1_1])
  rfl

/-- The buffer contents after the first 2 stages. -/
def val2 (W : Valuation τ sig (Elt F)) : Valuation τ sig (Elt F) := after hostOps1_1 (val1 W)
/-- The buffers this stage writes. -/
abbrev hostOps1_1_W : List (Ref sig .tc) := [main_call0_v0, main_call0_v1, main_call0_c, main_call0_v2, main_call0_v3, main_call0_v4, main_call0_cst, main_call0_v5, main_call0_v6, main_call0_cst_0, main_v23]
set_option maxRecDepth 8192 in
theorem hostOps1_1_writes : (hostOps1_1 : List (HloOp τ sig (Elt F))).Forall fun op => op.writes ⊆ (hostOps1_1_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem⟩
/-- A buffer this stage does not write keeps its contents through it. -/
theorem val2_keep (W : Valuation τ sig (Elt F)) (r : Ref sig .tc) (h : r ∉ hostOps1_1_W) :
    val2 W (Proc.devRef .tc r) = val1 W (Proc.devRef .tc r) :=
  after_of_writes_sub hostOps1_1 _ hostOps1_1_writes h
theorem val2_main_v0 (W : Valuation τ sig (Elt F)) : val2 W (no_index (Proc.devRef .tc main_v0)) = W (Proc.devRef .tc main_v0) :=
  (val2_keep W main_v0 (by decide)).trans (val1_main_v0 W)
theorem val2_main_arg0 (W : Valuation τ sig (Elt F)) : val2 W (no_index (Proc.devRef .tc main_arg0)) = W (Proc.devRef .tc main_arg0) :=
  (val2_keep W main_arg0 (by decide)).trans (val1_main_arg0 W)
theorem val2_main_arg1 (W : Valuation τ sig (Elt F)) : val2 W (no_index (Proc.devRef .tc main_arg1)) = W (Proc.devRef .tc main_arg1) :=
  (val2_keep W main_arg1 (by decide)).trans (val1_main_arg1 W)
theorem val2_main_v1_0 (W : Valuation τ sig (Elt F)) : val2 W (no_index (Proc.devRef .tc main_v1_0)) = W (Proc.devRef .tc main_v1_0) :=
  (val2_keep W main_v1_0 (by decide)).trans (val1_main_v1_0 W)
theorem val2_main_v1_1 (W : Valuation τ sig (Elt F)) : val2 W (no_index (Proc.devRef .tc main_v1_1)) = W (Proc.devRef .tc main_v1_1) :=
  (val2_keep W main_v1_1 (by decide)).trans (val1_main_v1_1 W)
theorem val2_main_v3 (W : Valuation τ sig (Elt F)) : val2 W (no_index (Proc.devRef .tc main_v3)) = meanK (W (Proc.devRef .tc main_v1_0)) :=
  (val2_keep W main_v3 (by decide)).trans (val1_main_v3 W)
theorem val2_main_v9 (W : Valuation τ sig (Elt F)) : val2 W (no_index (Proc.devRef .tc main_v9)) = (eye : FVec F S64x64 .f32) :=
  (val2_keep W main_v9 (by decide)).trans (val1_main_v9 W)
theorem val2_main_v22 (W : Valuation τ sig (Elt F)) : val2 W (no_index (Proc.devRef .tc main_v22)) = fixS (sigmaK (W (Proc.devRef .tc main_v1_0)) (W (Proc.devRef .tc main_v1_1))) :=
  (val2_keep W main_v22 (by decide)).trans (val1_main_v22 W)
set_option maxRecDepth 8192 in
set_option maxHeartbeats 2000000 in
theorem val2_main_v23 (W : Valuation τ sig (Elt F)) : val2 W (no_index (Proc.devRef .tc main_v23)) = tr (fixS (sigmaK (W (Proc.devRef .tc main_v1_0)) (W (Proc.devRef .tc main_v1_1)))) := by
  unfold val2
  simp only [hostOps1_1]
  after_results_simp
  (try simp only [val1_main_v0, val1_main_arg0, val1_main_arg1, val1_main_v1_0, val1_main_v1_1, val1_main_v3, val1_main_v9, val1_main_v22])
  rfl

/-- The buffer contents after the first 3 stages. -/
def val3 (W : Valuation τ sig (Elt F)) : Valuation τ sig (Elt F) := after kB (val2 W)
/-- The buffers this stage writes. -/
abbrev kB_W : List (Ref sig .tc) := [main_cst_4, main_v24, main_v25, main_v26]
set_option maxRecDepth 8192 in
theorem kB_writes : (kB : List (HloOp τ sig (Elt F))).Forall fun op => op.writes ⊆ (kB_W.map (Proc.devRef (τ := τ) .tc)).toFinset := by
  simp only [List.Forall]; exact ⟨by writes_mem, by writes_mem, by writes_mem, by writes_mem⟩
/-- A buffer this stage does not write keeps its contents through it. -/
theorem val3_keep (W : Valuation τ sig (Elt F)) (r : Ref sig .tc) (h : r ∉ kB_W) :
    val3 W (Proc.devRef .tc r) = val2 W (Proc.devRef .tc r) :=
  after_of_writes_sub kB _ kB_writes h
theorem val3_main_v0 (W : Valuation τ sig (Elt F)) : val3 W (no_index (Proc.devRef .tc main_v0)) = W (Proc.devRef .tc main_v0) :=
  (val3_keep W main_v0 (by decide)).trans (val2_main_v0 W)
theorem val3_main_arg0 (W : Valuation τ sig (Elt F)) : val3 W (no_index (Proc.devRef .tc main_arg0)) = W (Proc.devRef .tc main_arg0) :=
  (val3_keep W main_arg0 (by decide)).trans (val2_main_arg0 W)
theorem val3_main_arg1 (W : Valuation τ sig (Elt F)) : val3 W (no_index (Proc.devRef .tc main_arg1)) = W (Proc.devRef .tc main_arg1) :=
  (val3_keep W main_arg1 (by decide)).trans (val2_main_arg1 W)
theorem val3_main_v1_0 (W : Valuation τ sig (Elt F)) : val3 W (no_index (Proc.devRef .tc main_v1_0)) = W (Proc.devRef .tc main_v1_0) :=
  (val3_keep W main_v1_0 (by decide)).trans (val2_main_v1_0 W)
theorem val3_main_v1_1 (W : Valuation τ sig (Elt F)) : val3 W (no_index (Proc.devRef .tc main_v1_1)) = W (Proc.devRef .tc main_v1_1) :=
  (val3_keep W main_v1_1 (by decide)).trans (val2_main_v1_1 W)
theorem val3_main_v3 (W : Valuation τ sig (Elt F)) : val3 W (no_index (Proc.devRef .tc main_v3)) = meanK (W (Proc.devRef .tc main_v1_0)) :=
  (val3_keep W main_v3 (by decide)).trans (val2_main_v3 W)
theorem val3_main_v9 (W : Valuation τ sig (Elt F)) : val3 W (no_index (Proc.devRef .tc main_v9)) = (eye : FVec F S64x64 .f32) :=
  (val3_keep W main_v9 (by decide)).trans (val2_main_v9 W)
set_option maxRecDepth 8192 in
set_option maxHeartbeats 2000000 in
theorem val3_main_v24 (W : Valuation τ sig (Elt F)) : val3 W (no_index (Proc.devRef .tc main_v24)) = rT (sigmaK (W (Proc.devRef .tc main_v1_0)) (W (Proc.devRef .tc main_v1_1))) := by
  unfold val3
  simp only [kB]
  after_results_simp
  (try simp only [val2_main_v0, val2_main_arg0, val2_main_arg1, val2_main_v1_0, val2_main_v1_1, val2_main_v3, val2_main_v9, val2_main_v22, val2_main_v23])
  rfl
set_option maxRecDepth 8192 in
set_option maxHeartbeats 2000000 in
theorem val3_main_v26 (W : Valuation τ sig (Elt F)) : val3 W (no_index (Proc.devRef .tc main_v26)) = sN (sigmaK (W (Proc.devRef .tc main_v1_0)) (W (Proc.devRef .tc main_v1_1))) := by
  unfold val3
  simp only [kB]
  after_results_simp
  (try simp only [val2_main_v0, val2_main_arg0, val2_main_arg1, val2_main_v1_0, val2_main_v1_1, val2_main_v3, val2_main_v9, val2_main_v22, val2_main_v23])
  rfl

/-- The buffer contents after the first 4 stages. -/
def val4 (W : Valuation τ sig (Elt F)) : Valuation τ sig (Elt F) := after k1 (val3 W)
/-- The buffers this stage writes. -/
abbrev k1_W : List (Ref sig .tc) := [main_cst_5, main_v27, main_v28, main_v29, main_v30, main_v31, main_cst_6, main_v32, main_v33, main_v34]
set_option maxRecDepth 8192 in
theorem k1_writes : (k1 : List (HloOp τ sig (Elt F))).Forall fun op => op.writes ⊆ (k1_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val4_keep (W : Valuation τ sig (Elt F)) (r : Ref sig .tc) (h : r ∉ k1_W) :
    val4 W (Proc.devRef .tc r) = val3 W (Proc.devRef .tc r) :=
  after_of_writes_sub k1 _ k1_writes h
theorem val4_main_v0 (W : Valuation τ sig (Elt F)) : val4 W (no_index (Proc.devRef .tc main_v0)) = W (Proc.devRef .tc main_v0) :=
  (val4_keep W main_v0 (by decide)).trans (val3_main_v0 W)
theorem val4_main_arg0 (W : Valuation τ sig (Elt F)) : val4 W (no_index (Proc.devRef .tc main_arg0)) = W (Proc.devRef .tc main_arg0) :=
  (val4_keep W main_arg0 (by decide)).trans (val3_main_arg0 W)
theorem val4_main_arg1 (W : Valuation τ sig (Elt F)) : val4 W (no_index (Proc.devRef .tc main_arg1)) = W (Proc.devRef .tc main_arg1) :=
  (val4_keep W main_arg1 (by decide)).trans (val3_main_arg1 W)
theorem val4_main_v1_0 (W : Valuation τ sig (Elt F)) : val4 W (no_index (Proc.devRef .tc main_v1_0)) = W (Proc.devRef .tc main_v1_0) :=
  (val4_keep W main_v1_0 (by decide)).trans (val3_main_v1_0 W)
theorem val4_main_v1_1 (W : Valuation τ sig (Elt F)) : val4 W (no_index (Proc.devRef .tc main_v1_1)) = W (Proc.devRef .tc main_v1_1) :=
  (val4_keep W main_v1_1 (by decide)).trans (val3_main_v1_1 W)
theorem val4_main_v3 (W : Valuation τ sig (Elt F)) : val4 W (no_index (Proc.devRef .tc main_v3)) = meanK (W (Proc.devRef .tc main_v1_0)) :=
  (val4_keep W main_v3 (by decide)).trans (val3_main_v3 W)
theorem val4_main_v24 (W : Valuation τ sig (Elt F)) : val4 W (no_index (Proc.devRef .tc main_v24)) = rT (sigmaK (W (Proc.devRef .tc main_v1_0)) (W (Proc.devRef .tc main_v1_1))) :=
  (val4_keep W main_v24 (by decide)).trans (val3_main_v24 W)
theorem val4_main_v26 (W : Valuation τ sig (Elt F)) : val4 W (no_index (Proc.devRef .tc main_v26)) = sN (sigmaK (W (Proc.devRef .tc main_v1_0)) (W (Proc.devRef .tc main_v1_1))) :=
  (val4_keep W main_v26 (by decide)).trans (val3_main_v26 W)
set_option maxRecDepth 8192 in
set_option maxHeartbeats 2000000 in
theorem val4_main_v34 (W : Valuation τ sig (Elt F)) : val4 W (no_index (Proc.devRef .tc main_v34)) = ns (sN (sigmaK (W (Proc.devRef .tc main_v1_0)) (W (Proc.devRef .tc main_v1_1)))) 1 := by
  unfold val4
  simp only [k1]
  after_results_simp
  (try simp only [val3_main_v0, val3_main_arg0, val3_main_arg1, val3_main_v1_0, val3_main_v1_1, val3_main_v3, val3_main_v9, val3_main_v24, val3_main_v26])
  rfl

/-- The buffer contents after the first 5 stages. -/
def val5 (W : Valuation τ sig (Elt F)) : Valuation τ sig (Elt F) := after k2 (val4 W)
/-- The buffers this stage writes. -/
abbrev k2_W : List (Ref sig .tc) := [main_cst_7, main_v35, main_v36, main_v37, main_v38, main_v39, main_cst_8, main_v40, main_v41, main_v42]
set_option maxRecDepth 8192 in
theorem k2_writes : (k2 : List (HloOp τ sig (Elt F))).Forall fun op => op.writes ⊆ (k2_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val5_keep (W : Valuation τ sig (Elt F)) (r : Ref sig .tc) (h : r ∉ k2_W) :
    val5 W (Proc.devRef .tc r) = val4 W (Proc.devRef .tc r) :=
  after_of_writes_sub k2 _ k2_writes h
theorem val5_main_v0 (W : Valuation τ sig (Elt F)) : val5 W (no_index (Proc.devRef .tc main_v0)) = W (Proc.devRef .tc main_v0) :=
  (val5_keep W main_v0 (by decide)).trans (val4_main_v0 W)
theorem val5_main_arg0 (W : Valuation τ sig (Elt F)) : val5 W (no_index (Proc.devRef .tc main_arg0)) = W (Proc.devRef .tc main_arg0) :=
  (val5_keep W main_arg0 (by decide)).trans (val4_main_arg0 W)
theorem val5_main_arg1 (W : Valuation τ sig (Elt F)) : val5 W (no_index (Proc.devRef .tc main_arg1)) = W (Proc.devRef .tc main_arg1) :=
  (val5_keep W main_arg1 (by decide)).trans (val4_main_arg1 W)
theorem val5_main_v1_0 (W : Valuation τ sig (Elt F)) : val5 W (no_index (Proc.devRef .tc main_v1_0)) = W (Proc.devRef .tc main_v1_0) :=
  (val5_keep W main_v1_0 (by decide)).trans (val4_main_v1_0 W)
theorem val5_main_v1_1 (W : Valuation τ sig (Elt F)) : val5 W (no_index (Proc.devRef .tc main_v1_1)) = W (Proc.devRef .tc main_v1_1) :=
  (val5_keep W main_v1_1 (by decide)).trans (val4_main_v1_1 W)
theorem val5_main_v3 (W : Valuation τ sig (Elt F)) : val5 W (no_index (Proc.devRef .tc main_v3)) = meanK (W (Proc.devRef .tc main_v1_0)) :=
  (val5_keep W main_v3 (by decide)).trans (val4_main_v3 W)
theorem val5_main_v24 (W : Valuation τ sig (Elt F)) : val5 W (no_index (Proc.devRef .tc main_v24)) = rT (sigmaK (W (Proc.devRef .tc main_v1_0)) (W (Proc.devRef .tc main_v1_1))) :=
  (val5_keep W main_v24 (by decide)).trans (val4_main_v24 W)
theorem val5_main_v26 (W : Valuation τ sig (Elt F)) : val5 W (no_index (Proc.devRef .tc main_v26)) = sN (sigmaK (W (Proc.devRef .tc main_v1_0)) (W (Proc.devRef .tc main_v1_1))) :=
  (val5_keep W main_v26 (by decide)).trans (val4_main_v26 W)
set_option maxRecDepth 8192 in
set_option maxHeartbeats 2000000 in
theorem val5_main_v42 (W : Valuation τ sig (Elt F)) : val5 W (no_index (Proc.devRef .tc main_v42)) = ns (sN (sigmaK (W (Proc.devRef .tc main_v1_0)) (W (Proc.devRef .tc main_v1_1)))) 2 := by
  unfold val5
  simp only [k2]
  after_results_simp
  (try simp only [val4_main_v0, val4_main_arg0, val4_main_arg1, val4_main_v1_0, val4_main_v1_1, val4_main_v3, val4_main_v24, val4_main_v26, val4_main_v34])
  rfl

/-- The buffer contents after the first 6 stages. -/
def val6 (W : Valuation τ sig (Elt F)) : Valuation τ sig (Elt F) := after k3 (val5 W)
/-- The buffers this stage writes. -/
abbrev k3_W : List (Ref sig .tc) := [main_cst_9, main_v43, main_v44, main_v45, main_v46, main_v47, main_cst_10, main_v48, main_v49, main_v50]
set_option maxRecDepth 8192 in
theorem k3_writes : (k3 : List (HloOp τ sig (Elt F))).Forall fun op => op.writes ⊆ (k3_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val6_keep (W : Valuation τ sig (Elt F)) (r : Ref sig .tc) (h : r ∉ k3_W) :
    val6 W (Proc.devRef .tc r) = val5 W (Proc.devRef .tc r) :=
  after_of_writes_sub k3 _ k3_writes h
theorem val6_main_v0 (W : Valuation τ sig (Elt F)) : val6 W (no_index (Proc.devRef .tc main_v0)) = W (Proc.devRef .tc main_v0) :=
  (val6_keep W main_v0 (by decide)).trans (val5_main_v0 W)
theorem val6_main_arg0 (W : Valuation τ sig (Elt F)) : val6 W (no_index (Proc.devRef .tc main_arg0)) = W (Proc.devRef .tc main_arg0) :=
  (val6_keep W main_arg0 (by decide)).trans (val5_main_arg0 W)
theorem val6_main_arg1 (W : Valuation τ sig (Elt F)) : val6 W (no_index (Proc.devRef .tc main_arg1)) = W (Proc.devRef .tc main_arg1) :=
  (val6_keep W main_arg1 (by decide)).trans (val5_main_arg1 W)
theorem val6_main_v1_0 (W : Valuation τ sig (Elt F)) : val6 W (no_index (Proc.devRef .tc main_v1_0)) = W (Proc.devRef .tc main_v1_0) :=
  (val6_keep W main_v1_0 (by decide)).trans (val5_main_v1_0 W)
theorem val6_main_v1_1 (W : Valuation τ sig (Elt F)) : val6 W (no_index (Proc.devRef .tc main_v1_1)) = W (Proc.devRef .tc main_v1_1) :=
  (val6_keep W main_v1_1 (by decide)).trans (val5_main_v1_1 W)
theorem val6_main_v3 (W : Valuation τ sig (Elt F)) : val6 W (no_index (Proc.devRef .tc main_v3)) = meanK (W (Proc.devRef .tc main_v1_0)) :=
  (val6_keep W main_v3 (by decide)).trans (val5_main_v3 W)
theorem val6_main_v24 (W : Valuation τ sig (Elt F)) : val6 W (no_index (Proc.devRef .tc main_v24)) = rT (sigmaK (W (Proc.devRef .tc main_v1_0)) (W (Proc.devRef .tc main_v1_1))) :=
  (val6_keep W main_v24 (by decide)).trans (val5_main_v24 W)
theorem val6_main_v26 (W : Valuation τ sig (Elt F)) : val6 W (no_index (Proc.devRef .tc main_v26)) = sN (sigmaK (W (Proc.devRef .tc main_v1_0)) (W (Proc.devRef .tc main_v1_1))) :=
  (val6_keep W main_v26 (by decide)).trans (val5_main_v26 W)
set_option maxRecDepth 8192 in
set_option maxHeartbeats 2000000 in
theorem val6_main_v50 (W : Valuation τ sig (Elt F)) : val6 W (no_index (Proc.devRef .tc main_v50)) = ns (sN (sigmaK (W (Proc.devRef .tc main_v1_0)) (W (Proc.devRef .tc main_v1_1)))) 3 := by
  unfold val6
  simp only [k3]
  after_results_simp
  (try simp only [val5_main_v0, val5_main_arg0, val5_main_arg1, val5_main_v1_0, val5_main_v1_1, val5_main_v3, val5_main_v24, val5_main_v26, val5_main_v42])
  rfl

/-- The buffer contents after the first 7 stages. -/
def val7 (W : Valuation τ sig (Elt F)) : Valuation τ sig (Elt F) := after k4 (val6 W)
/-- The buffers this stage writes. -/
abbrev k4_W : List (Ref sig .tc) := [main_cst_11, main_v51, main_v52, main_v53, main_v54, main_v55, main_cst_12, main_v56, main_v57, main_v58]
set_option maxRecDepth 8192 in
theorem k4_writes : (k4 : List (HloOp τ sig (Elt F))).Forall fun op => op.writes ⊆ (k4_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val7_keep (W : Valuation τ sig (Elt F)) (r : Ref sig .tc) (h : r ∉ k4_W) :
    val7 W (Proc.devRef .tc r) = val6 W (Proc.devRef .tc r) :=
  after_of_writes_sub k4 _ k4_writes h
theorem val7_main_v0 (W : Valuation τ sig (Elt F)) : val7 W (no_index (Proc.devRef .tc main_v0)) = W (Proc.devRef .tc main_v0) :=
  (val7_keep W main_v0 (by decide)).trans (val6_main_v0 W)
theorem val7_main_arg0 (W : Valuation τ sig (Elt F)) : val7 W (no_index (Proc.devRef .tc main_arg0)) = W (Proc.devRef .tc main_arg0) :=
  (val7_keep W main_arg0 (by decide)).trans (val6_main_arg0 W)
theorem val7_main_arg1 (W : Valuation τ sig (Elt F)) : val7 W (no_index (Proc.devRef .tc main_arg1)) = W (Proc.devRef .tc main_arg1) :=
  (val7_keep W main_arg1 (by decide)).trans (val6_main_arg1 W)
theorem val7_main_v1_0 (W : Valuation τ sig (Elt F)) : val7 W (no_index (Proc.devRef .tc main_v1_0)) = W (Proc.devRef .tc main_v1_0) :=
  (val7_keep W main_v1_0 (by decide)).trans (val6_main_v1_0 W)
theorem val7_main_v1_1 (W : Valuation τ sig (Elt F)) : val7 W (no_index (Proc.devRef .tc main_v1_1)) = W (Proc.devRef .tc main_v1_1) :=
  (val7_keep W main_v1_1 (by decide)).trans (val6_main_v1_1 W)
theorem val7_main_v3 (W : Valuation τ sig (Elt F)) : val7 W (no_index (Proc.devRef .tc main_v3)) = meanK (W (Proc.devRef .tc main_v1_0)) :=
  (val7_keep W main_v3 (by decide)).trans (val6_main_v3 W)
theorem val7_main_v24 (W : Valuation τ sig (Elt F)) : val7 W (no_index (Proc.devRef .tc main_v24)) = rT (sigmaK (W (Proc.devRef .tc main_v1_0)) (W (Proc.devRef .tc main_v1_1))) :=
  (val7_keep W main_v24 (by decide)).trans (val6_main_v24 W)
theorem val7_main_v26 (W : Valuation τ sig (Elt F)) : val7 W (no_index (Proc.devRef .tc main_v26)) = sN (sigmaK (W (Proc.devRef .tc main_v1_0)) (W (Proc.devRef .tc main_v1_1))) :=
  (val7_keep W main_v26 (by decide)).trans (val6_main_v26 W)
set_option maxRecDepth 8192 in
set_option maxHeartbeats 2000000 in
theorem val7_main_v58 (W : Valuation τ sig (Elt F)) : val7 W (no_index (Proc.devRef .tc main_v58)) = ns (sN (sigmaK (W (Proc.devRef .tc main_v1_0)) (W (Proc.devRef .tc main_v1_1)))) 4 := by
  unfold val7
  simp only [k4]
  after_results_simp
  (try simp only [val6_main_v0, val6_main_arg0, val6_main_arg1, val6_main_v1_0, val6_main_v1_1, val6_main_v3, val6_main_v24, val6_main_v26, val6_main_v50])
  rfl

/-- The buffer contents after the first 8 stages. -/
def val8 (W : Valuation τ sig (Elt F)) : Valuation τ sig (Elt F) := after k5 (val7 W)
/-- The buffers this stage writes. -/
abbrev k5_W : List (Ref sig .tc) := [main_cst_13, main_v59, main_v60, main_v61, main_v62, main_v63, main_cst_14, main_v64, main_v65, main_v66]
set_option maxRecDepth 8192 in
theorem k5_writes : (k5 : List (HloOp τ sig (Elt F))).Forall fun op => op.writes ⊆ (k5_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val8_keep (W : Valuation τ sig (Elt F)) (r : Ref sig .tc) (h : r ∉ k5_W) :
    val8 W (Proc.devRef .tc r) = val7 W (Proc.devRef .tc r) :=
  after_of_writes_sub k5 _ k5_writes h
theorem val8_main_v0 (W : Valuation τ sig (Elt F)) : val8 W (no_index (Proc.devRef .tc main_v0)) = W (Proc.devRef .tc main_v0) :=
  (val8_keep W main_v0 (by decide)).trans (val7_main_v0 W)
theorem val8_main_arg0 (W : Valuation τ sig (Elt F)) : val8 W (no_index (Proc.devRef .tc main_arg0)) = W (Proc.devRef .tc main_arg0) :=
  (val8_keep W main_arg0 (by decide)).trans (val7_main_arg0 W)
theorem val8_main_arg1 (W : Valuation τ sig (Elt F)) : val8 W (no_index (Proc.devRef .tc main_arg1)) = W (Proc.devRef .tc main_arg1) :=
  (val8_keep W main_arg1 (by decide)).trans (val7_main_arg1 W)
theorem val8_main_v1_0 (W : Valuation τ sig (Elt F)) : val8 W (no_index (Proc.devRef .tc main_v1_0)) = W (Proc.devRef .tc main_v1_0) :=
  (val8_keep W main_v1_0 (by decide)).trans (val7_main_v1_0 W)
theorem val8_main_v1_1 (W : Valuation τ sig (Elt F)) : val8 W (no_index (Proc.devRef .tc main_v1_1)) = W (Proc.devRef .tc main_v1_1) :=
  (val8_keep W main_v1_1 (by decide)).trans (val7_main_v1_1 W)
theorem val8_main_v3 (W : Valuation τ sig (Elt F)) : val8 W (no_index (Proc.devRef .tc main_v3)) = meanK (W (Proc.devRef .tc main_v1_0)) :=
  (val8_keep W main_v3 (by decide)).trans (val7_main_v3 W)
theorem val8_main_v24 (W : Valuation τ sig (Elt F)) : val8 W (no_index (Proc.devRef .tc main_v24)) = rT (sigmaK (W (Proc.devRef .tc main_v1_0)) (W (Proc.devRef .tc main_v1_1))) :=
  (val8_keep W main_v24 (by decide)).trans (val7_main_v24 W)
theorem val8_main_v26 (W : Valuation τ sig (Elt F)) : val8 W (no_index (Proc.devRef .tc main_v26)) = sN (sigmaK (W (Proc.devRef .tc main_v1_0)) (W (Proc.devRef .tc main_v1_1))) :=
  (val8_keep W main_v26 (by decide)).trans (val7_main_v26 W)
set_option maxRecDepth 8192 in
set_option maxHeartbeats 2000000 in
theorem val8_main_v66 (W : Valuation τ sig (Elt F)) : val8 W (no_index (Proc.devRef .tc main_v66)) = ns (sN (sigmaK (W (Proc.devRef .tc main_v1_0)) (W (Proc.devRef .tc main_v1_1)))) 5 := by
  unfold val8
  simp only [k5]
  after_results_simp
  (try simp only [val7_main_v0, val7_main_arg0, val7_main_arg1, val7_main_v1_0, val7_main_v1_1, val7_main_v3, val7_main_v24, val7_main_v26, val7_main_v58])
  rfl

/-- The buffer contents after the first 9 stages. -/
def val9 (W : Valuation τ sig (Elt F)) : Valuation τ sig (Elt F) := after k6 (val8 W)
/-- The buffers this stage writes. -/
abbrev k6_W : List (Ref sig .tc) := [main_cst_15, main_v67, main_v68, main_v69, main_v70, main_v71, main_cst_16, main_v72, main_v73, main_v74]
set_option maxRecDepth 8192 in
theorem k6_writes : (k6 : List (HloOp τ sig (Elt F))).Forall fun op => op.writes ⊆ (k6_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val9_keep (W : Valuation τ sig (Elt F)) (r : Ref sig .tc) (h : r ∉ k6_W) :
    val9 W (Proc.devRef .tc r) = val8 W (Proc.devRef .tc r) :=
  after_of_writes_sub k6 _ k6_writes h
theorem val9_main_v0 (W : Valuation τ sig (Elt F)) : val9 W (no_index (Proc.devRef .tc main_v0)) = W (Proc.devRef .tc main_v0) :=
  (val9_keep W main_v0 (by decide)).trans (val8_main_v0 W)
theorem val9_main_arg0 (W : Valuation τ sig (Elt F)) : val9 W (no_index (Proc.devRef .tc main_arg0)) = W (Proc.devRef .tc main_arg0) :=
  (val9_keep W main_arg0 (by decide)).trans (val8_main_arg0 W)
theorem val9_main_arg1 (W : Valuation τ sig (Elt F)) : val9 W (no_index (Proc.devRef .tc main_arg1)) = W (Proc.devRef .tc main_arg1) :=
  (val9_keep W main_arg1 (by decide)).trans (val8_main_arg1 W)
theorem val9_main_v1_0 (W : Valuation τ sig (Elt F)) : val9 W (no_index (Proc.devRef .tc main_v1_0)) = W (Proc.devRef .tc main_v1_0) :=
  (val9_keep W main_v1_0 (by decide)).trans (val8_main_v1_0 W)
theorem val9_main_v1_1 (W : Valuation τ sig (Elt F)) : val9 W (no_index (Proc.devRef .tc main_v1_1)) = W (Proc.devRef .tc main_v1_1) :=
  (val9_keep W main_v1_1 (by decide)).trans (val8_main_v1_1 W)
theorem val9_main_v3 (W : Valuation τ sig (Elt F)) : val9 W (no_index (Proc.devRef .tc main_v3)) = meanK (W (Proc.devRef .tc main_v1_0)) :=
  (val9_keep W main_v3 (by decide)).trans (val8_main_v3 W)
theorem val9_main_v24 (W : Valuation τ sig (Elt F)) : val9 W (no_index (Proc.devRef .tc main_v24)) = rT (sigmaK (W (Proc.devRef .tc main_v1_0)) (W (Proc.devRef .tc main_v1_1))) :=
  (val9_keep W main_v24 (by decide)).trans (val8_main_v24 W)
theorem val9_main_v26 (W : Valuation τ sig (Elt F)) : val9 W (no_index (Proc.devRef .tc main_v26)) = sN (sigmaK (W (Proc.devRef .tc main_v1_0)) (W (Proc.devRef .tc main_v1_1))) :=
  (val9_keep W main_v26 (by decide)).trans (val8_main_v26 W)
set_option maxRecDepth 8192 in
set_option maxHeartbeats 2000000 in
theorem val9_main_v74 (W : Valuation τ sig (Elt F)) : val9 W (no_index (Proc.devRef .tc main_v74)) = ns (sN (sigmaK (W (Proc.devRef .tc main_v1_0)) (W (Proc.devRef .tc main_v1_1)))) 6 := by
  unfold val9
  simp only [k6]
  after_results_simp
  (try simp only [val8_main_v0, val8_main_arg0, val8_main_arg1, val8_main_v1_0, val8_main_v1_1, val8_main_v3, val8_main_v24, val8_main_v26, val8_main_v66])
  rfl

/-- The buffer contents after the first 10 stages. -/
def val10 (W : Valuation τ sig (Elt F)) : Valuation τ sig (Elt F) := after k7 (val9 W)
/-- The buffers this stage writes. -/
abbrev k7_W : List (Ref sig .tc) := [main_cst_17, main_v75, main_v76, main_v77, main_v78, main_v79, main_cst_18, main_v80, main_v81, main_v82]
set_option maxRecDepth 8192 in
theorem k7_writes : (k7 : List (HloOp τ sig (Elt F))).Forall fun op => op.writes ⊆ (k7_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val10_keep (W : Valuation τ sig (Elt F)) (r : Ref sig .tc) (h : r ∉ k7_W) :
    val10 W (Proc.devRef .tc r) = val9 W (Proc.devRef .tc r) :=
  after_of_writes_sub k7 _ k7_writes h
theorem val10_main_v0 (W : Valuation τ sig (Elt F)) : val10 W (no_index (Proc.devRef .tc main_v0)) = W (Proc.devRef .tc main_v0) :=
  (val10_keep W main_v0 (by decide)).trans (val9_main_v0 W)
theorem val10_main_arg0 (W : Valuation τ sig (Elt F)) : val10 W (no_index (Proc.devRef .tc main_arg0)) = W (Proc.devRef .tc main_arg0) :=
  (val10_keep W main_arg0 (by decide)).trans (val9_main_arg0 W)
theorem val10_main_arg1 (W : Valuation τ sig (Elt F)) : val10 W (no_index (Proc.devRef .tc main_arg1)) = W (Proc.devRef .tc main_arg1) :=
  (val10_keep W main_arg1 (by decide)).trans (val9_main_arg1 W)
theorem val10_main_v1_0 (W : Valuation τ sig (Elt F)) : val10 W (no_index (Proc.devRef .tc main_v1_0)) = W (Proc.devRef .tc main_v1_0) :=
  (val10_keep W main_v1_0 (by decide)).trans (val9_main_v1_0 W)
theorem val10_main_v1_1 (W : Valuation τ sig (Elt F)) : val10 W (no_index (Proc.devRef .tc main_v1_1)) = W (Proc.devRef .tc main_v1_1) :=
  (val10_keep W main_v1_1 (by decide)).trans (val9_main_v1_1 W)
theorem val10_main_v3 (W : Valuation τ sig (Elt F)) : val10 W (no_index (Proc.devRef .tc main_v3)) = meanK (W (Proc.devRef .tc main_v1_0)) :=
  (val10_keep W main_v3 (by decide)).trans (val9_main_v3 W)
theorem val10_main_v24 (W : Valuation τ sig (Elt F)) : val10 W (no_index (Proc.devRef .tc main_v24)) = rT (sigmaK (W (Proc.devRef .tc main_v1_0)) (W (Proc.devRef .tc main_v1_1))) :=
  (val10_keep W main_v24 (by decide)).trans (val9_main_v24 W)
theorem val10_main_v26 (W : Valuation τ sig (Elt F)) : val10 W (no_index (Proc.devRef .tc main_v26)) = sN (sigmaK (W (Proc.devRef .tc main_v1_0)) (W (Proc.devRef .tc main_v1_1))) :=
  (val10_keep W main_v26 (by decide)).trans (val9_main_v26 W)
set_option maxRecDepth 8192 in
set_option maxHeartbeats 2000000 in
theorem val10_main_v82 (W : Valuation τ sig (Elt F)) : val10 W (no_index (Proc.devRef .tc main_v82)) = ns (sN (sigmaK (W (Proc.devRef .tc main_v1_0)) (W (Proc.devRef .tc main_v1_1)))) 7 := by
  unfold val10
  simp only [k7]
  after_results_simp
  (try simp only [val9_main_v0, val9_main_arg0, val9_main_arg1, val9_main_v1_0, val9_main_v1_1, val9_main_v3, val9_main_v24, val9_main_v26, val9_main_v74])
  rfl

/-- The buffer contents after the first 11 stages. -/
def val11 (W : Valuation τ sig (Elt F)) : Valuation τ sig (Elt F) := after k8 (val10 W)
/-- The buffers this stage writes. -/
abbrev k8_W : List (Ref sig .tc) := [main_cst_19, main_v83, main_v84, main_v85, main_v86, main_v87, main_cst_20, main_v88, main_v89, main_v90]
set_option maxRecDepth 8192 in
theorem k8_writes : (k8 : List (HloOp τ sig (Elt F))).Forall fun op => op.writes ⊆ (k8_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val11_keep (W : Valuation τ sig (Elt F)) (r : Ref sig .tc) (h : r ∉ k8_W) :
    val11 W (Proc.devRef .tc r) = val10 W (Proc.devRef .tc r) :=
  after_of_writes_sub k8 _ k8_writes h
theorem val11_main_v0 (W : Valuation τ sig (Elt F)) : val11 W (no_index (Proc.devRef .tc main_v0)) = W (Proc.devRef .tc main_v0) :=
  (val11_keep W main_v0 (by decide)).trans (val10_main_v0 W)
theorem val11_main_arg0 (W : Valuation τ sig (Elt F)) : val11 W (no_index (Proc.devRef .tc main_arg0)) = W (Proc.devRef .tc main_arg0) :=
  (val11_keep W main_arg0 (by decide)).trans (val10_main_arg0 W)
theorem val11_main_arg1 (W : Valuation τ sig (Elt F)) : val11 W (no_index (Proc.devRef .tc main_arg1)) = W (Proc.devRef .tc main_arg1) :=
  (val11_keep W main_arg1 (by decide)).trans (val10_main_arg1 W)
theorem val11_main_v1_0 (W : Valuation τ sig (Elt F)) : val11 W (no_index (Proc.devRef .tc main_v1_0)) = W (Proc.devRef .tc main_v1_0) :=
  (val11_keep W main_v1_0 (by decide)).trans (val10_main_v1_0 W)
theorem val11_main_v1_1 (W : Valuation τ sig (Elt F)) : val11 W (no_index (Proc.devRef .tc main_v1_1)) = W (Proc.devRef .tc main_v1_1) :=
  (val11_keep W main_v1_1 (by decide)).trans (val10_main_v1_1 W)
theorem val11_main_v3 (W : Valuation τ sig (Elt F)) : val11 W (no_index (Proc.devRef .tc main_v3)) = meanK (W (Proc.devRef .tc main_v1_0)) :=
  (val11_keep W main_v3 (by decide)).trans (val10_main_v3 W)
theorem val11_main_v24 (W : Valuation τ sig (Elt F)) : val11 W (no_index (Proc.devRef .tc main_v24)) = rT (sigmaK (W (Proc.devRef .tc main_v1_0)) (W (Proc.devRef .tc main_v1_1))) :=
  (val11_keep W main_v24 (by decide)).trans (val10_main_v24 W)
theorem val11_main_v26 (W : Valuation τ sig (Elt F)) : val11 W (no_index (Proc.devRef .tc main_v26)) = sN (sigmaK (W (Proc.devRef .tc main_v1_0)) (W (Proc.devRef .tc main_v1_1))) :=
  (val11_keep W main_v26 (by decide)).trans (val10_main_v26 W)
set_option maxRecDepth 8192 in
set_option maxHeartbeats 2000000 in
theorem val11_main_v90 (W : Valuation τ sig (Elt F)) : val11 W (no_index (Proc.devRef .tc main_v90)) = ns (sN (sigmaK (W (Proc.devRef .tc main_v1_0)) (W (Proc.devRef .tc main_v1_1)))) 8 := by
  unfold val11
  simp only [k8]
  after_results_simp
  (try simp only [val10_main_v0, val10_main_arg0, val10_main_arg1, val10_main_v1_0, val10_main_v1_1, val10_main_v3, val10_main_v24, val10_main_v26, val10_main_v82])
  rfl

/-- The buffer contents after the first 12 stages. -/
def val12 (W : Valuation τ sig (Elt F)) : Valuation τ sig (Elt F) := after k9 (val11 W)
/-- The buffers this stage writes. -/
abbrev k9_W : List (Ref sig .tc) := [main_cst_21, main_v91, main_v92, main_v93, main_v94, main_v95, main_cst_22, main_v96, main_v97, main_v98]
set_option maxRecDepth 8192 in
theorem k9_writes : (k9 : List (HloOp τ sig (Elt F))).Forall fun op => op.writes ⊆ (k9_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val12_keep (W : Valuation τ sig (Elt F)) (r : Ref sig .tc) (h : r ∉ k9_W) :
    val12 W (Proc.devRef .tc r) = val11 W (Proc.devRef .tc r) :=
  after_of_writes_sub k9 _ k9_writes h
theorem val12_main_v0 (W : Valuation τ sig (Elt F)) : val12 W (no_index (Proc.devRef .tc main_v0)) = W (Proc.devRef .tc main_v0) :=
  (val12_keep W main_v0 (by decide)).trans (val11_main_v0 W)
theorem val12_main_arg0 (W : Valuation τ sig (Elt F)) : val12 W (no_index (Proc.devRef .tc main_arg0)) = W (Proc.devRef .tc main_arg0) :=
  (val12_keep W main_arg0 (by decide)).trans (val11_main_arg0 W)
theorem val12_main_arg1 (W : Valuation τ sig (Elt F)) : val12 W (no_index (Proc.devRef .tc main_arg1)) = W (Proc.devRef .tc main_arg1) :=
  (val12_keep W main_arg1 (by decide)).trans (val11_main_arg1 W)
theorem val12_main_v1_0 (W : Valuation τ sig (Elt F)) : val12 W (no_index (Proc.devRef .tc main_v1_0)) = W (Proc.devRef .tc main_v1_0) :=
  (val12_keep W main_v1_0 (by decide)).trans (val11_main_v1_0 W)
theorem val12_main_v1_1 (W : Valuation τ sig (Elt F)) : val12 W (no_index (Proc.devRef .tc main_v1_1)) = W (Proc.devRef .tc main_v1_1) :=
  (val12_keep W main_v1_1 (by decide)).trans (val11_main_v1_1 W)
theorem val12_main_v3 (W : Valuation τ sig (Elt F)) : val12 W (no_index (Proc.devRef .tc main_v3)) = meanK (W (Proc.devRef .tc main_v1_0)) :=
  (val12_keep W main_v3 (by decide)).trans (val11_main_v3 W)
theorem val12_main_v24 (W : Valuation τ sig (Elt F)) : val12 W (no_index (Proc.devRef .tc main_v24)) = rT (sigmaK (W (Proc.devRef .tc main_v1_0)) (W (Proc.devRef .tc main_v1_1))) :=
  (val12_keep W main_v24 (by decide)).trans (val11_main_v24 W)
theorem val12_main_v26 (W : Valuation τ sig (Elt F)) : val12 W (no_index (Proc.devRef .tc main_v26)) = sN (sigmaK (W (Proc.devRef .tc main_v1_0)) (W (Proc.devRef .tc main_v1_1))) :=
  (val12_keep W main_v26 (by decide)).trans (val11_main_v26 W)
set_option maxRecDepth 8192 in
set_option maxHeartbeats 2000000 in
theorem val12_main_v98 (W : Valuation τ sig (Elt F)) : val12 W (no_index (Proc.devRef .tc main_v98)) = ns (sN (sigmaK (W (Proc.devRef .tc main_v1_0)) (W (Proc.devRef .tc main_v1_1)))) 9 := by
  unfold val12
  simp only [k9]
  after_results_simp
  (try simp only [val11_main_v0, val11_main_arg0, val11_main_arg1, val11_main_v1_0, val11_main_v1_1, val11_main_v3, val11_main_v24, val11_main_v26, val11_main_v90])
  rfl

/-- The buffer contents after the first 13 stages. -/
def val13 (W : Valuation τ sig (Elt F)) : Valuation τ sig (Elt F) := after k10 (val12 W)
/-- The buffers this stage writes. -/
abbrev k10_W : List (Ref sig .tc) := [main_cst_23, main_v99, main_v100, main_v101, main_v102, main_v103, main_cst_24, main_v104, main_v105, main_v106]
set_option maxRecDepth 8192 in
theorem k10_writes : (k10 : List (HloOp τ sig (Elt F))).Forall fun op => op.writes ⊆ (k10_W.map (Proc.devRef (τ := τ) .tc)).toFinset := by
  simp only [List.Forall]; exact ⟨by writes_mem, by writes_mem, by writes_mem, by writes_mem, by writes_mem, by writes_mem, by writes_mem, by writes_mem, by writes_mem, by writes_mem⟩
/-- A buffer this stage does not write keeps its contents through it. -/
theorem val13_keep (W : Valuation τ sig (Elt F)) (r : Ref sig .tc) (h : r ∉ k10_W) :
    val13 W (Proc.devRef .tc r) = val12 W (Proc.devRef .tc r) :=
  after_of_writes_sub k10 _ k10_writes h
theorem val13_main_v0 (W : Valuation τ sig (Elt F)) : val13 W (no_index (Proc.devRef .tc main_v0)) = W (Proc.devRef .tc main_v0) :=
  (val13_keep W main_v0 (by decide)).trans (val12_main_v0 W)
theorem val13_main_arg0 (W : Valuation τ sig (Elt F)) : val13 W (no_index (Proc.devRef .tc main_arg0)) = W (Proc.devRef .tc main_arg0) :=
  (val13_keep W main_arg0 (by decide)).trans (val12_main_arg0 W)
theorem val13_main_arg1 (W : Valuation τ sig (Elt F)) : val13 W (no_index (Proc.devRef .tc main_arg1)) = W (Proc.devRef .tc main_arg1) :=
  (val13_keep W main_arg1 (by decide)).trans (val12_main_arg1 W)
theorem val13_main_v1_0 (W : Valuation τ sig (Elt F)) : val13 W (no_index (Proc.devRef .tc main_v1_0)) = W (Proc.devRef .tc main_v1_0) :=
  (val13_keep W main_v1_0 (by decide)).trans (val12_main_v1_0 W)
theorem val13_main_v1_1 (W : Valuation τ sig (Elt F)) : val13 W (no_index (Proc.devRef .tc main_v1_1)) = W (Proc.devRef .tc main_v1_1) :=
  (val13_keep W main_v1_1 (by decide)).trans (val12_main_v1_1 W)
theorem val13_main_v3 (W : Valuation τ sig (Elt F)) : val13 W (no_index (Proc.devRef .tc main_v3)) = meanK (W (Proc.devRef .tc main_v1_0)) :=
  (val13_keep W main_v3 (by decide)).trans (val12_main_v3 W)
theorem val13_main_v24 (W : Valuation τ sig (Elt F)) : val13 W (no_index (Proc.devRef .tc main_v24)) = rT (sigmaK (W (Proc.devRef .tc main_v1_0)) (W (Proc.devRef .tc main_v1_1))) :=
  (val13_keep W main_v24 (by decide)).trans (val12_main_v24 W)
theorem val13_main_v26 (W : Valuation τ sig (Elt F)) : val13 W (no_index (Proc.devRef .tc main_v26)) = sN (sigmaK (W (Proc.devRef .tc main_v1_0)) (W (Proc.devRef .tc main_v1_1))) :=
  (val13_keep W main_v26 (by decide)).trans (val12_main_v26 W)
set_option maxRecDepth 8192 in
set_option maxHeartbeats 2000000 in
theorem val13_main_v106 (W : Valuation τ sig (Elt F)) : val13 W (no_index (Proc.devRef .tc main_v106)) = ns (sN (sigmaK (W (Proc.devRef .tc main_v1_0)) (W (Proc.devRef .tc main_v1_1)))) 10 := by
  unfold val13
  simp only [k10]
  after_results_simp
  (try simp only [val12_main_v0, val12_main_arg0, val12_main_arg1, val12_main_v1_0, val12_main_v1_1, val12_main_v3, val12_main_v24, val12_main_v26, val12_main_v98])
  rfl

/-- The buffer contents after the first 14 stages. -/
def val14 (W : Valuation τ sig (Elt F)) : Valuation τ sig (Elt F) := after kZ (val13 W)
/-- The buffers this stage writes. -/
abbrev kZ_W : List (Ref sig .tc) := [main_v107, main_v108, main_v109, main_v110]
set_option maxRecDepth 8192 in
theorem kZ_writes : (kZ : List (HloOp τ sig (Elt F))).Forall fun op => op.writes ⊆ (kZ_W.map (Proc.devRef (τ := τ) .tc)).toFinset := by
  simp only [List.Forall]; exact ⟨by writes_mem, by writes_mem, by writes_mem, by writes_mem⟩
/-- A buffer this stage does not write keeps its contents through it. -/
theorem val14_keep (W : Valuation τ sig (Elt F)) (r : Ref sig .tc) (h : r ∉ kZ_W) :
    val14 W (Proc.devRef .tc r) = val13 W (Proc.devRef .tc r) :=
  after_of_writes_sub kZ _ kZ_writes h
theorem val14_main_v0 (W : Valuation τ sig (Elt F)) : val14 W (no_index (Proc.devRef .tc main_v0)) = W (Proc.devRef .tc main_v0) :=
  (val14_keep W main_v0 (by decide)).trans (val13_main_v0 W)
theorem val14_main_arg0 (W : Valuation τ sig (Elt F)) : val14 W (no_index (Proc.devRef .tc main_arg0)) = W (Proc.devRef .tc main_arg0) :=
  (val14_keep W main_arg0 (by decide)).trans (val13_main_arg0 W)
theorem val14_main_arg1 (W : Valuation τ sig (Elt F)) : val14 W (no_index (Proc.devRef .tc main_arg1)) = W (Proc.devRef .tc main_arg1) :=
  (val14_keep W main_arg1 (by decide)).trans (val13_main_arg1 W)
theorem val14_main_v1_0 (W : Valuation τ sig (Elt F)) : val14 W (no_index (Proc.devRef .tc main_v1_0)) = W (Proc.devRef .tc main_v1_0) :=
  (val14_keep W main_v1_0 (by decide)).trans (val13_main_v1_0 W)
theorem val14_main_v1_1 (W : Valuation τ sig (Elt F)) : val14 W (no_index (Proc.devRef .tc main_v1_1)) = W (Proc.devRef .tc main_v1_1) :=
  (val14_keep W main_v1_1 (by decide)).trans (val13_main_v1_1 W)
theorem val14_main_v3 (W : Valuation τ sig (Elt F)) : val14 W (no_index (Proc.devRef .tc main_v3)) = meanK (W (Proc.devRef .tc main_v1_0)) :=
  (val14_keep W main_v3 (by decide)).trans (val13_main_v3 W)
set_option maxRecDepth 8192 in
set_option maxHeartbeats 2000000 in
theorem val14_main_v109 (W : Valuation τ sig (Elt F)) : val14 W (no_index (Proc.devRef .tc main_v109)) = tail (sigmaK (W (Proc.devRef .tc main_v1_0)) (W (Proc.devRef .tc main_v1_1))) := by
  unfold val14
  simp only [kZ]
  after_results_simp
  (try simp only [val13_main_v0, val13_main_arg0, val13_main_arg1, val13_main_v1_0, val13_main_v1_1, val13_main_v3, val13_main_v24, val13_main_v26, val13_main_v106])
  rfl
set_option maxRecDepth 8192 in
set_option maxHeartbeats 2000000 in
theorem val14_main_v110 (W : Valuation τ sig (Elt F)) : val14 W (no_index (Proc.devRef .tc main_v110)) = shapeCast S64x1 (W (Proc.devRef .tc main_arg1)) shapeCasts_S64_S64x1 := by
  unfold val14
  simp only [kZ]
  after_results_simp
  (try simp only [val13_main_v0, val13_main_arg0, val13_main_arg1, val13_main_v1_0, val13_main_v1_1, val13_main_v3, val13_main_v24, val13_main_v26, val13_main_v106])
  rfl

theorem glueAfter_eq_val (W : Valuation τ sig (Elt F)) : glueAfter W = val14 W := by
  show after hostOps1_2 (after hostOps1_1 (after hostOps1 W)) = _
  rw [hostOps1_2_eq_segs]
  simp only [after_append]
  rfl

/-! ## What the second kernel finds -/

/-- The mean. -/
theorem glue_v3 (W : Valuation τ sig (Elt F)) : glueAfter W (Proc.devRef .tc main_v3) = meanK (W (Proc.devRef .tc main_v1_0)) := by
  rw [glueAfter_eq_val]; exact val14_main_v3 W
/-- The whitening matrix. -/
theorem glue_v109 (W : Valuation τ sig (Elt F)) :
    glueAfter W (Proc.devRef .tc main_v109) = tail (sigmaK (W (Proc.devRef .tc main_v1_0)) (W (Proc.devRef .tc main_v1_1))) := by
  rw [glueAfter_eq_val]; exact val14_main_v109 W
/-- The bias as a column. -/
theorem glue_v110 (W : Valuation τ sig (Elt F)) :
    glueAfter W (Proc.devRef .tc main_v110) = shapeCast S64x1 (W (Proc.devRef .tc main_arg1)) shapeCasts_S64_S64x1 := by
  rw [glueAfter_eq_val]; exact val14_main_v110 W

/-- Every buffer the three stretches write. -/
abbrev glueW : List (Ref sig .tc) := [main_cst, main_v2, main_v3, main_v4, main_v5, main_c, main_v6, main_v7, main_v8, main_v9, main_v10, main_v11, main_cst_0, main_v12, main_v13, main_cst_1, main_v14, main_v15, main_v16, main_v17, main_cst_2, main_v18, main_v19, main_cst_3, main_v20, main_v21, main_v22, main_call0_v0, main_call0_v1, main_call0_c, main_call0_v2, main_call0_v3, main_call0_v4, main_call0_cst, main_call0_v5, main_call0_v6, main_call0_cst_0, main_v23, main_cst_4, main_v24, main_v25, main_v26, main_cst_5, main_v27, main_v28, main_v29, main_v30, main_v31, main_cst_6, main_v32, main_v33, main_v34, main_cst_7, main_v35, main_v36, main_v37, main_v38, main_v39, main_cst_8, main_v40, main_v41, main_v42, main_cst_9, main_v43, main_v44, main_v45, main_v46, main_v47, main_cst_10, main_v48, main_v49, main_v50, main_cst_11, main_v51, main_v52, main_v53, main_v54, main_v55, main_cst_12, main_v56, main_v57, main_v58, main_cst_13, main_v59, main_v60, main_v61, main_v62, main_v63, main_cst_14, main_v64, main_v65, main_v66, main_cst_15, main_v67, main_v68, main_v69, main_v70, main_v71, main_cst_16, main_v72, main_v73, main_v74, main_cst_17, main_v75, main_v76, main_v77, main_v78, main_v79, main_cst_18, main_v80, main_v81, main_v82, main_cst_19, main_v83, main_v84, main_v85, main_v86, main_v87, main_cst_20, main_v88, main_v89, main_v90, main_cst_21, main_v91, main_v92, main_v93, main_v94, main_v95, main_cst_22, main_v96, main_v97, main_v98, main_cst_23, main_v99, main_v100, main_v101, main_v102, main_v103, main_cst_24, main_v104, main_v105, main_v106, main_v107, main_v108, main_v109, main_v110]
theorem hostOps1_W_sub : hostOps1_W ⊆ glueW := by decide
theorem hostOps1_1_W_sub : hostOps1_1_W ⊆ glueW := by decide
theorem kB_W_sub : kB_W ⊆ glueW := by decide
theorem k1_W_sub : k1_W ⊆ glueW := by decide
theorem k2_W_sub : k2_W ⊆ glueW := by decide
theorem k3_W_sub : k3_W ⊆ glueW := by decide
theorem k4_W_sub : k4_W ⊆ glueW := by decide
theorem k5_W_sub : k5_W ⊆ glueW := by decide
theorem k6_W_sub : k6_W ⊆ glueW := by decide
theorem k7_W_sub : k7_W ⊆ glueW := by decide
theorem k8_W_sub : k8_W ⊆ glueW := by decide
theorem k9_W_sub : k9_W ⊆ glueW := by decide
theorem k10_W_sub : k10_W ⊆ glueW := by decide
theorem kZ_W_sub : kZ_W ⊆ glueW := by decide

/-- A buffer none of the operations writes holds what it held at the first kernel's exit. -/
theorem glue_keep_of_not_mem (W : Valuation τ sig (Elt F)) (r : Ref sig .tc) (h : r ∉ glueW) :
    glueAfter W (Proc.devRef .tc r) = W (Proc.devRef .tc r) := by
  rw [glueAfter_eq_val]
  exact (val14_keep W r fun hh => h (kZ_W_sub hh)).trans
    ((val13_keep W r fun hh => h (k10_W_sub hh)).trans
    ((val12_keep W r fun hh => h (k9_W_sub hh)).trans
    ((val11_keep W r fun hh => h (k8_W_sub hh)).trans
    ((val10_keep W r fun hh => h (k7_W_sub hh)).trans
    ((val9_keep W r fun hh => h (k6_W_sub hh)).trans
    ((val8_keep W r fun hh => h (k5_W_sub hh)).trans
    ((val7_keep W r fun hh => h (k4_W_sub hh)).trans
    ((val6_keep W r fun hh => h (k3_W_sub hh)).trans
    ((val5_keep W r fun hh => h (k2_W_sub hh)).trans
    ((val4_keep W r fun hh => h (k1_W_sub hh)).trans
    ((val3_keep W r fun hh => h (kB_W_sub hh)).trans
    ((val2_keep W r fun hh => h (hostOps1_1_W_sub hh)).trans
    ((val1_keep W r fun hh => h (hostOps1_W_sub hh)))))))))))))))

/-- In particular the flattened input, the two arguments and the first kernel's two outputs. -/
theorem glue_keep (W : Valuation τ sig (Elt F)) (r : Ref sig .tc)
    (h : r = main_v0 ∨ r = main_arg0 ∨ r = main_arg1 ∨ r = main_v1_0 ∨ r = main_v1_1) :
    glueAfter W (Proc.devRef .tc r) = W (Proc.devRef .tc r) := by
  rcases h with rfl | rfl | rfl | rfl | rfl <;> exact glue_keep_of_not_mem W _ (by decide)

/-! ## The two reshapes around the kernels -/

/-- Before the first kernel the input is flattened over its two spatial axes. -/
theorem pre_v0 (W : Valuation τ sig (Elt F)) :
    after hostOps0 W (Proc.devRef .tc main_v0)
      = shapeCast S128x64x3136 (W (Proc.devRef .tc main_arg0)) shapeCasts_S128x64x56x56_S128x64x3136 := by
  simp only [hostOps0]
  after_results_simp
  rfl
/-- That reshape writes nothing else. -/
theorem pre_keep (W : Valuation τ sig (Elt F)) (r : Ref sig .tc) (h : r ≠ main_v0) :
    after hostOps0 W (Proc.devRef .tc r) = W (Proc.devRef .tc r) := by
  simp only [hostOps0, after_cons, after_nil]
  rw [reshape_result_ne]
  exact h
/-- After the second kernel its output is laid back out over the two spatial axes. -/
theorem post_v112 (W : Valuation τ sig (Elt F)) :
    after hostOps2 W (Proc.devRef .tc main_v112)
      = shapeCast S128x64x56x56 (W (Proc.devRef .tc main_v111)) shapeCasts_S128x64x3136_S128x64x56x56 := by
  simp only [hostOps2]
  after_results_simp
  rfl
/-- That reshape writes nothing else. -/
theorem post_keep (W : Valuation τ sig (Elt F)) (r : Ref sig .tc) (h : r ≠ main_v112) :
    after hostOps2 W (Proc.devRef .tc r) = W (Proc.devRef .tc r) := by
  simp only [hostOps2, after_cons, after_nil]
  rw [reshape_result_ne]
  exact h

end Cert.KernelIdeal.Hand

end
-- ==== Proof.KI.Value.lean ====
/-
  What the idealized kernel program's result array holds, as one closed term of the two argument arrays: the reshape of
  the apply step's array, whose entries are the whitening matrix's rows against the centred input plus the bias, the
  mean and the whitening matrix being the host glue's functions of the two accumulated statistics, and those the
  accumulation region's running sums after its last point.
-/
import proofs.«141837_j49177375539587_2_alg».proof.Proof.KI.Launch
import proofs.«141837_j49177375539587_2_alg».proof.Proof.KI.AccChain
import proofs.«141837_j49177375539587_2_alg».proof.Proof.KI.Region1Final
import proofs.«141837_j49177375539587_2_alg».proof.Proof.KI.Glue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.StableHlo

variable (m : (ℓ : Loc nD τ sig) → Buf (Elt Ideal) ℓ) (ρ : Dev nD → PrngReg) (c : Dev nD)

/-- The input, reshaped to [128, 64, 3136]: what both regions stage. -/
abbrev inX2 : FVec Ideal S128x64x3136 .f32 :=
  shapeCast S128x64x3136 (m ((c : Thread nD τ).loc main_arg0)) shapeCasts_S128x64x56x56_S128x64x3136
/-- The two accumulated statistics: the channel sums and the Gram matrix of the channels. -/
abbrev stSx : FVec Ideal S64x1 .f32 := res1 (F := Ideal) (Va m ρ) c
abbrev stSxx : FVec Ideal S64x64 .f32 := res2 (F := Ideal) (Va m ρ) c

theorem Wa_v0 : Wa m ρ c (Proc.devRef .tc main_v0) = inX2 m c := pre_v0 (W0 m ρ c)
theorem Wb_v0 : Wb m ρ c (Proc.devRef .tc main_v0) = inX2 m c :=
  ((Wb_arr m ρ c 0).trans (final0_0 (Va m ρ) c)).trans (Wa_v0 m ρ c)
theorem Wb_v1_0 : Wb m ρ c (Proc.devRef .tc main_v1_0) = stSx m ρ c := (Wb_arr m ρ c 1).trans (final0_1 (Va m ρ) c)
theorem Wb_v1_1 : Wb m ρ c (Proc.devRef .tc main_v1_1) = stSxx m ρ c := (Wb_arr m ρ c 2).trans (final0_2 (Va m ρ) c)
theorem Wb_arg1 : Wb m ρ c (Proc.devRef .tc main_arg1) = m ((c : Thread nD τ).loc main_arg1) :=
  (Wb_of_ne m ρ c main_arg1 (by decide)).trans (pre_keep (W0 m ρ c) main_arg1 (by decide))

theorem We_v0 : We m ρ c (Proc.devRef .tc main_v0) = inX2 m c :=
  (glue_keep (Wb m ρ c) main_v0 (Or.inl rfl)).trans (Wb_v0 m ρ c)
theorem We_v3 : We m ρ c (Proc.devRef .tc main_v3) = meanK (stSx m ρ c) :=
  (glue_v3 (Wb m ρ c)).trans (congrArg meanK (Wb_v1_0 m ρ c))
theorem We_v109 : We m ρ c (Proc.devRef .tc main_v109) = tail (sigmaK (stSx m ρ c) (stSxx m ρ c)) :=
  (glue_v109 (Wb m ρ c)).trans (by rw [Wb_v1_0, Wb_v1_1])
theorem We_v110 : We m ρ c (Proc.devRef .tc main_v110)
    = shapeCast S64x1 (m ((c : Thread nD τ).loc main_arg1)) shapeCasts_S64_S64x1 :=
  (glue_v110 (Wb m ρ c)).trans (by rw [Wb_arg1])

/-- THE KERNEL'S RESULT: the reshape of the apply step over the reshaped input, the mean and the whitening matrix of
    the accumulated statistics, and the bias as a column. -/
theorem kernel_result :
    Wg m ρ c (Proc.devRef .tc main_v112)
      = shapeCast S128x64x56x56
          (applyArr (inX2 m c) (meanK (stSx m ρ c)) (tail (sigmaK (stSx m ρ c) (stSxx m ρ c)))
            (shapeCast S64x1 (m ((c : Thread nD τ).loc main_arg1)) shapeCasts_S64_S64x1))
          shapeCasts_S128x64x3136_S128x64x56x56 := by
  refine (post_v112 (Wf m ρ c)).trans (congrArg (fun y => shapeCast S128x64x56x56 y shapeCasts_S128x64x3136_S128x64x56x56) ?_)
  refine ((Wf_arr m ρ c 4).trans (final1_4 (Ve m ρ) c)).trans ?_
  exact congr (congr (congr (congrArg applyArr (We_v0 m ρ c)) (We_v3 m ρ c)) (We_v109 m ρ c)) (We_v110 m ρ c)

end Cert.KernelIdeal.Hand

end
-- ==== Proof.KI.AccValue.lean ====
/-
  The accumulation kernel's payloads read at an index, at the ideal instance (floats are extended
  reals): a row-sum step adds to the running column the sum over the 3136 positions of one row of the
  loaded [1, 64, 3136] block; a Gram step adds to the running matrix the sum over positions of the
  products of two rows; the resets are zero.
-/
import proofs.«141837_j49177375539587_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of a `[64, 3136]` array at row `c` is the sum over the 3136 positions of that row. -/
theorem laneSum_apply (x : FVec Ideal S64x3136 .f32) (h : S64x3136.Reduces [1] S64) (hφ : FKind.Formats .f32)
    (hacc : (0x00000000#32 : BitVec 32) = FKind.add.neutral .f32 hφ) (c : Fin 64) :
    multiReduction (F := Ideal) .add [1] S64 x 0x00000000#32 h hφ hacc (ix1 c) = ∑ s : Fin 3136, x (ix2 c s) := by
  rw [Ideal.multiReduction_add_single]
  refine Finset.sum_congr rfl fun s _ => congrArg x (funext fun a => Fin.ext ?_)
  match a with
  | ⟨0, _⟩ => rfl
  | ⟨1, _⟩ => rfl

/-- The row-sum step: the running column plus the lane sums of the loaded block's rows. -/
theorem rowStep_apply (h1 : S1x64x3136.ShapeCasts S64x3136) (h2 : S64x3136.Reduces [1] S64) (hφ : FKind.Formats .f32)
    (hacc : (0x00000000#32 : BitVec 32) = FKind.add.neutral .f32 hφ) (h3 : S64.ShapeCasts S64x1) (h4 : S64x1.ShapeCasts S64x1)
    (v : Vec Ideal S1x64x3136 .f32) (a : Vec Ideal S64x1 .f32) (c : Fin 64) :
    shapeCast S64x1 (addf (F := Ideal) a (shapeCast S64x1 (multiReduction (F := Ideal) .add [1] S64 (shapeCast S64x3136 v h1) 0x00000000#32 h2 hφ hacc) h3)) h4
        (ix2 c 0)
      = a (ix2 c 0) + ∑ s : Fin 3136, v (ix3 0 c s) := by
  rw [shapeCast_self, addf_apply, shapeCast_a_a1_apply, laneSum_apply]
  simp only [shapeCast_1ab_ab_apply]

/-- `k0_pay5` at `(c, 0)`. -/
theorem k0_pay5_apply (v : Vec Ideal S1x64x3136 .f32) (a : Vec Ideal S64x1 .f32) (c : Fin 64) :
    k0_pay5 (F := Ideal) v a (ix2 c 0) = a (ix2 c 0) + ∑ s : Fin 3136, v (ix3 0 c s) :=
  rowStep_apply _ _ _ _ _ _ v a c

/-- The Gram product's dimension numbers: both operands contract their axis 1. -/
abbrev DG := dot_S64x3136_S64x3136_S64x64_1_1_0_0_n_n

theorem DG_lhs_0 (j : S64x64.Idx) (k : DG.contr.Idx) : (DG.lhsIdx j k 0 : ℕ) = j 0 := by
  simp [DotDims.lhsIdx, DG, dot_S64x3136_S64x3136_S64x64_1_1_0_0_n_n]; rfl
theorem DG_lhs_1 (j : S64x64.Idx) (k : DG.contr.Idx) : (DG.lhsIdx j k 1 : ℕ) = k ⟨0, by decide⟩ := by
  simp [DotDims.lhsIdx, DG, dot_S64x3136_S64x3136_S64x64_1_1_0_0_n_n]; rfl
theorem DG_rhs_0 (j : S64x64.Idx) (k : DG.contr.Idx) : (DG.rhsIdx j k 0 : ℕ) = j 1 := by
  simp [DotDims.rhsIdx, DG, dot_S64x3136_S64x3136_S64x64_1_1_0_0_n_n]; rfl
theorem DG_rhs_1 (j : S64x64.Idx) (k : DG.contr.Idx) : (DG.rhsIdx j k 1 : ℕ) = k ⟨0, by decide⟩ := by
  simp [DotDims.rhsIdx, DG, dot_S64x3136_S64x3136_S64x64_1_1_0_0_n_n]; rfl

/-- The Gram product of a `[64, 3136]` array with itself into a zero accumulator, at `(c, c')`: the sum over
    positions of the products of rows `c` and `c'`. -/
theorem gram_apply (x : FVec Ideal S64x3136 .f32) (c c' : Fin 64) :
    matmul (F := Ideal) DG (some .fp32) x x (constant S64x64 .f32 0x00000000#32) (ix2 c c')
      = ∑ s : Fin 3136, x (ix2 c s) * x (ix2 c' s) := by
  simp only [matmul]
  rw [Ideal.matmul_constant_zero_apply, ← Equiv.sum_comp (contrEquiv1 DG 3136 rfl rfl).symm]
  refine Finset.sum_congr rfl fun s _ => ?_
  congr 1
  · refine congrArg x (funext fun a => Fin.ext ?_)
    match a with
    | ⟨0, _⟩ => exact DG_lhs_0 _ _
    | ⟨1, _⟩ => exact (DG_lhs_1 _ _).trans (contrEquiv1_symm_val DG 3136 rfl rfl s)
  · refine congrArg x (funext fun a => Fin.ext ?_)
    match a with
    | ⟨0, _⟩ => exact DG_rhs_0 _ _
    | ⟨1, _⟩ => exact (DG_rhs_1 _ _).trans (contrEquiv1_symm_val DG 3136 rfl rfl s)

/-- The Gram product of a loaded `[1, 64, 3136]` block (cast to `[64, 3136]`) with itself, at `(c, c')`. -/
theorem gramBlock_apply (h1 : S1x64x3136.ShapeCasts S64x3136) (v : Vec Ideal S1x64x3136 .f32) (c c' : Fin 64) :
    matmul (F := Ideal) DG (some .fp32) (shapeCast S64x3136 v h1 : FVec Ideal S64x3136 .f32) (shapeCast S64x3136 v h1 : FVec Ideal S64x3136 .f32) (constant S64x64 .f32 0x00000000#32) (ix2 c c')
      = ∑ s : Fin 3136, v (ix3 0 c s) * v (ix3 0 c' s) := by
  rw [gram_apply]
  simp only [shapeCast_1ab_ab_apply]

/-- The Gram step with accumulate: the running matrix plus the block's Gram product. -/
theorem gramStep_apply (h1 : S1x64x3136.ShapeCasts S64x3136) (h4 : S64x64.ShapeCasts S64x64)
    (v : Vec Ideal S1x64x3136 .f32) (A : Vec Ideal S64x64 .f32) (c c' : Fin 64) :
    shapeCast S64x64 (addf (F := Ideal) A (matmul (F := Ideal) DG (some .fp32) (shapeCast S64x3136 v h1 : FVec Ideal S64x3136 .f32) (shapeCast S64x3136 v h1 : FVec Ideal S64x3136 .f32)
        (constant S64x64 .f32 0x00000000#32))) h4 (ix2 c c')
      = A (ix2 c c') + ∑ s : Fin 3136, v (ix3 0 c s) * v (ix3 0 c' s) := by
  rw [shapeCast_self, addf_apply, gramBlock_apply]

/-- A row load of a whole `[8, 64, 3136]` block: row `j` read as a `[1, 64, 3136]` block, at `(0, c, s)`, is the block at
    `(j, c, s)`. -/
theorem ld_row_apply (x : Vec Ideal S8x64x3136 .f32) (off : Fin 3 → ℕ) (j : Fin 8) (hoff : off = ![j.val, 0, 0])
    (inb : ∀ a, off a + S1x64x3136.size a ≤ S8x64x3136.size a) (c : Fin 64) (s : Fin 3136) :
    View.ld (Val := Elt Ideal) x (Rect.unit (s := S8x64x3136) off S1x64x3136.size inb) (ix3 0 c s) = x (ix3 j c s) := by
  subst hoff
  refine congrArg x (funext fun a => Fin.ext ?_)
  match a with
  | ⟨0, _⟩ => show j.val + 1 * 0 = j.val; omega
  | ⟨1, _⟩ => show 0 + 1 * c.val = c.val; omega
  | ⟨2, _⟩ => show 0 + 1 * s.val = s.val; omega

/-! ### The eight row loads at their literal offsets -/

theorem ld_row0_apply (x : Vec Ideal S8x64x3136 .f32)
    (inb : ∀ a, (![0, 0, 0] : Fin 3 → Nat) a + S1x64x3136.size a ≤ S8x64x3136.size a) (c : Fin 64) (s : Fin 3136) :
    View.ld (Val := Elt Ideal) x (Rect.unit (s := S8x64x3136) ![0, 0, 0] S1x64x3136.size inb) (ix3 0 c s) = x (ix3 0 c s) :=
  ld_row_apply x _ 0 rfl inb c s
theorem ld_row1_apply (x : Vec Ideal S8x64x3136 .f32)
    (inb : ∀ a, (![1, 0, 0] : Fin 3 → Nat) a + S1x64x3136.size a ≤ S8x64x3136.size a) (c : Fin 64) (s : Fin 3136) :
    View.ld (Val := Elt Ideal) x (Rect.unit (s := S8x64x3136) ![1, 0, 0] S1x64x3136.size inb) (ix3 0 c s) = x (ix3 1 c s) :=
  ld_row_apply x _ 1 rfl inb c s
theorem ld_row2_apply (x : Vec Ideal S8x64x3136 .f32)
    (inb : ∀ a, (![2, 0, 0] : Fin 3 → Nat) a + S1x64x3136.size a ≤ S8x64x3136.size a) (c : Fin 64) (s : Fin 3136) :
    View.ld (Val := Elt Ideal) x (Rect.unit (s := S8x64x3136) ![2, 0, 0] S1x64x3136.size inb) (ix3 0 c s) = x (ix3 2 c s) :=
  ld_row_apply x _ 2 rfl inb c s
theorem ld_row3_apply (x : Vec Ideal S8x64x3136 .f32)
    (inb : ∀ a, (![3, 0, 0] : Fin 3 → Nat) a + S1x64x3136.size a ≤ S8x64x3136.size a) (c : Fin 64) (s : Fin 3136) :
    View.ld (Val := Elt Ideal) x (Rect.unit (s := S8x64x3136) ![3, 0, 0] S1x64x3136.size inb) (ix3 0 c s) = x (ix3 3 c s) :=
  ld_row_apply x _ 3 rfl inb c s
theorem ld_row4_apply (x : Vec Ideal S8x64x3136 .f32)
    (inb : ∀ a, (![4, 0, 0] : Fin 3 → Nat) a + S1x64x3136.size a ≤ S8x64x3136.size a) (c : Fin 64) (s : Fin 3136) :
    View.ld (Val := Elt Ideal) x (Rect.unit (s := S8x64x3136) ![4, 0, 0] S1x64x3136.size inb) (ix3 0 c s) = x (ix3 4 c s) :=
  ld_row_apply x _ 4 rfl inb c s
theorem ld_row5_apply (x : Vec Ideal S8x64x3136 .f32)
    (inb : ∀ a, (![5, 0, 0] : Fin 3 → Nat) a + S1x64x3136.size a ≤ S8x64x3136.size a) (c : Fin 64) (s : Fin 3136) :
    View.ld (Val := Elt Ideal) x (Rect.unit (s := S8x64x3136) ![5, 0, 0] S1x64x3136.size inb) (ix3 0 c s) = x (ix3 5 c s) :=
  ld_row_apply x _ 5 rfl inb c s
theorem ld_row6_apply (x : Vec Ideal S8x64x3136 .f32)
    (inb : ∀ a, (![6, 0, 0] : Fin 3 → Nat) a + S1x64x3136.size a ≤ S8x64x3136.size a) (c : Fin 64) (s : Fin 3136) :
    View.ld (Val := Elt Ideal) x (Rect.unit (s := S8x64x3136) ![6, 0, 0] S1x64x3136.size inb) (ix3 0 c s) = x (ix3 6 c s) :=
  ld_row_apply x _ 6 rfl inb c s
theorem ld_row7_apply (x : Vec Ideal S8x64x3136 .f32)
    (inb : ∀ a, (![7, 0, 0] : Fin 3 → Nat) a + S1x64x3136.size a ≤ S8x64x3136.size a) (c : Fin 64) (s : Fin 3136) :
    View.ld (Val := Elt Ideal) x (Rect.unit (s := S8x64x3136) ![7, 0, 0] S1x64x3136.size inb) (ix3 0 c s) = x (ix3 7 c s) :=
  ld_row_apply x _ 7 rfl inb c s

/-- The plain accumulate: the running matrix plus the Gram block. -/
theorem k0_pay10_apply (g : FVec Ideal S64x64 .f32) (A : Vec Ideal S64x64 .f32) (c c' : Fin 64) :
    k0_pay10 (F := Ideal) g A (ix2 c c') = A (ix2 c c') + g (ix2 c c') := by
  unfold k0_pay10
  rw [shapeCast_self, addf_apply]

/-- The column reset is zero. -/
theorem k0_pay2_apply (c : Fin 64) : k0_pay2 (F := Ideal) (ix2 c 0) = (0 : EReal) := by
  unfold k0_pay2
  rw [shapeCast_self, broadcast_apply]
  exact Ideal.ofBits_zero_f32

/-- The matrix reset is zero. -/
theorem k0_pay3_apply (c c' : Fin 64) : k0_pay3 (F := Ideal) (ix2 c c') = (0 : EReal) := by
  unfold k0_pay3
  rw [shapeCast_self, broadcast_apply]
  exact Ideal.ofBits_zero_f32

/-! ### Each payload of the accumulation kernel -/

theorem k0_pay8_apply (v : Vec Ideal S1x64x3136 .f32) (a : Vec Ideal S64x1 .f32) (c : Fin 64) :
    k0_pay8 (F := Ideal) v a (ix2 c 0) = a (ix2 c 0) + ∑ s : Fin 3136, v (ix3 0 c s) := rowStep_apply _ _ _ _ _ _ v a c
theorem k0_pay12_apply (v : Vec Ideal S1x64x3136 .f32) (a : Vec Ideal S64x1 .f32) (c : Fin 64) :
    k0_pay12 (F := Ideal) v a (ix2 c 0) = a (ix2 c 0) + ∑ s : Fin 3136, v (ix3 0 c s) := rowStep_apply _ _ _ _ _ _ v a c
theorem k0_pay15_apply (v : Vec Ideal S1x64x3136 .f32) (a : Vec Ideal S64x1 .f32) (c : Fin 64) :
    k0_pay15 (F := Ideal) v a (ix2 c 0) = a (ix2 c 0) + ∑ s : Fin 3136, v (ix3 0 c s) := rowStep_apply _ _ _ _ _ _ v a c
theorem k0_pay19_apply (v : Vec Ideal S1x64x3136 .f32) (a : Vec Ideal S64x1 .f32) (c : Fin 64) :
    k0_pay19 (F := Ideal) v a (ix2 c 0) = a (ix2 c 0) + ∑ s : Fin 3136, v (ix3 0 c s) := rowStep_apply _ _ _ _ _ _ v a c
theorem k0_pay22_apply (v : Vec Ideal S1x64x3136 .f32) (a : Vec Ideal S64x1 .f32) (c : Fin 64) :
    k0_pay22 (F := Ideal) v a (ix2 c 0) = a (ix2 c 0) + ∑ s : Fin 3136, v (ix3 0 c s) := rowStep_apply _ _ _ _ _ _ v a c
theorem k0_pay26_apply (v : Vec Ideal S1x64x3136 .f32) (a : Vec Ideal S64x1 .f32) (c : Fin 64) :
    k0_pay26 (F := Ideal) v a (ix2 c 0) = a (ix2 c 0) + ∑ s : Fin 3136, v (ix3 0 c s) := rowStep_apply _ _ _ _ _ _ v a c
theorem k0_pay29_apply (v : Vec Ideal S1x64x3136 .f32) (a : Vec Ideal S64x1 .f32) (c : Fin 64) :
    k0_pay29 (F := Ideal) v a (ix2 c 0) = a (ix2 c 0) + ∑ s : Fin 3136, v (ix3 0 c s) := rowStep_apply _ _ _ _ _ _ v a c

theorem k0_pay6_apply (v : Vec Ideal S1x64x3136 .f32) (A : Vec Ideal S64x64 .f32) (c c' : Fin 64) :
    k0_pay6 (F := Ideal) v A (ix2 c c') = A (ix2 c c') + ∑ s : Fin 3136, v (ix3 0 c s) * v (ix3 0 c' s) :=
  gramStep_apply _ _ v A c c'
theorem k0_pay13_apply (v : Vec Ideal S1x64x3136 .f32) (A : Vec Ideal S64x64 .f32) (c c' : Fin 64) :
    k0_pay13 (F := Ideal) v A (ix2 c c') = A (ix2 c c') + ∑ s : Fin 3136, v (ix3 0 c s) * v (ix3 0 c' s) :=
  gramStep_apply _ _ v A c c'
theorem k0_pay20_apply (v : Vec Ideal S1x64x3136 .f32) (A : Vec Ideal S64x64 .f32) (c c' : Fin 64) :
    k0_pay20 (F := Ideal) v A (ix2 c c') = A (ix2 c c') + ∑ s : Fin 3136, v (ix3 0 c s) * v (ix3 0 c' s) :=
  gramStep_apply _ _ v A c c'
theorem k0_pay27_apply (v : Vec Ideal S1x64x3136 .f32) (A : Vec Ideal S64x64 .f32) (c c' : Fin 64) :
    k0_pay27 (F := Ideal) v A (ix2 c c') = A (ix2 c c') + ∑ s : Fin 3136, v (ix3 0 c s) * v (ix3 0 c' s) :=
  gramStep_apply _ _ v A c c'

theorem k0_pay9_apply (v : Vec Ideal S1x64x3136 .f32) (c c' : Fin 64) :
    k0_pay9 (F := Ideal) v (ix2 c c') = ∑ s : Fin 3136, v (ix3 0 c s) * v (ix3 0 c' s) := gramBlock_apply _ v c c'
theorem k0_pay16_apply (v : Vec Ideal S1x64x3136 .f32) (c c' : Fin 64) :
    k0_pay16 (F := Ideal) v (ix2 c c') = ∑ s : Fin 3136, v (ix3 0 c s) * v (ix3 0 c' s) := gramBlock_apply _ v c c'
theorem k0_pay23_apply (v : Vec Ideal S1x64x3136 .f32) (c c' : Fin 64) :
    k0_pay23 (F := Ideal) v (ix2 c c') = ∑ s : Fin 3136, v (ix3 0 c s) * v (ix3 0 c' s) := gramBlock_apply _ v c c'
theorem k0_pay30_apply (v : Vec Ideal S1x64x3136 .f32) (c c' : Fin 64) :
    k0_pay30 (F := Ideal) v (ix2 c c') = ∑ s : Fin 3136, v (ix3 0 c s) * v (ix3 0 c' s) := gramBlock_apply _ v c c'

theorem k0_pay17_apply (g : FVec Ideal S64x64 .f32) (A : Vec Ideal S64x64 .f32) (c c' : Fin 64) :
    k0_pay17 (F := Ideal) g A (ix2 c c') = A (ix2 c c') + g (ix2 c c') := k0_pay10_apply g A c c'
theorem k0_pay24_apply (g : FVec Ideal S64x64 .f32) (A : Vec Ideal S64x64 .f32) (c c' : Fin 64) :
    k0_pay24 (F := Ideal) g A (ix2 c c') = A (ix2 c c') + g (ix2 c c') := k0_pay10_apply g A c c'
theorem k0_pay1_apply (g : FVec Ideal S64x64 .f32) (A : Vec Ideal S64x64 .f32) (c c' : Fin 64) :
    k0_pay1 (F := Ideal) g A (ix2 c c') = A (ix2 c c') + g (ix2 c c') := k0_pay10_apply g A c c'

end Cert.KernelIdeal.Hand
-- ==== Proof.LibCovariance.lean ====
/-
  General lemmas about means and covariances of finitely many values, over the reals and over
  the extended reals (for values known to be real), in the operation forms of the ideal float
  instance: sums of coerced reals, subtraction and multiplication of extended reals, and the
  division `Ideal.div` by a nonzero real.  Also the regrouping of a doubly indexed sum as a sum
  over one flat index (and back), for the index arithmetic `k ↦ (k / N, k % N)`.

  The covariance identity is the textbook one: with `μf = (∑ f) / n`, `μg = (∑ g) / n`,
  `n` the number of indices,
      (∑ i, (f i - μf) * (g i - μg)) / n = (∑ i, f i * g i) / n - μf * μg.
  It uses distributivity and cancellation, so on the extended reals it needs every value finite.
  The regroupings are re-indexings of a sum in a commutative monoid and need no finiteness.
-/
import Idealize.ShloMosaic.PureOps.Ideal
import Mathlib.Data.Fintype.BigOperators
import Mathlib.Logic.Equiv.Fin.Basic
import Mathlib.Tactic.Ring
import Mathlib.Tactic.FieldSimp

namespace Cert.Lib.Covariance

open Idealize.ShloMosaic
open scoped BigOperators

/-! ### The identity over the reals -/

section Real

variable {ι : Type*} [Fintype ι]

/-- The covariance identity with the two means given as numbers `a`, `b` satisfying
    `∑ f = a * n`, `∑ g = b * n`, where `n ≠ 0` is the number of indices:
    `(∑ (f i - a) * (g i - b)) / n = (∑ f i * g i) / n - a * b`. -/
theorem cov_real_of_means (f g : ι → ℝ) (a b n : ℝ) (hn : n ≠ 0) (hcard : n = (Fintype.card ι : ℝ))
    (ha : ∑ i, f i = a * n) (hb : ∑ i, g i = b * n) :
    (∑ i, (f i - a) * (g i - b)) / n = (∑ i, f i * g i) / n - a * b := by
  have hexp : ∀ i, (f i - a) * (g i - b) = f i * g i - b * f i - a * g i + a * b := fun i => by ring
  simp only [hexp]
  rw [Finset.sum_add_distrib, Finset.sum_sub_distrib, Finset.sum_sub_distrib, ← Finset.mul_sum, ← Finset.mul_sum,
    Finset.sum_const, Finset.card_univ, nsmul_eq_mul, ← hcard, ha, hb]
  field_simp
  ring

/-- The covariance identity over the reals: for `n ≠ 0` the number of indices,
    `(∑ i, (f i - (∑ f)/n) * (g i - (∑ g)/n)) / n = (∑ i, f i * g i) / n - ((∑ f)/n) * ((∑ g)/n)`. -/
theorem cov_real (f g : ι → ℝ) (n : ℝ) (hn : n ≠ 0) (hcard : n = (Fintype.card ι : ℝ)) :
    (∑ i, (f i - (∑ j, f j) / n) * (g i - (∑ j, g j) / n)) / n
      = (∑ i, f i * g i) / n - ((∑ j, f j) / n) * ((∑ j, g j) / n) :=
  cov_real_of_means f g _ _ n hn hcard (by field_simp) (by field_simp)

end Real

/-! ### Coerced reals inside the extended reals -/

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `Ideal.div` of a coerced real by a nonzero coerced real is the coerced real quotient. -/
theorem div_coe_coe (x : ℝ) {n : ℝ} (hn : n ≠ 0) :
    Ideal.div (x : EReal) (n : EReal) = ((x / n : ℝ) : EReal) := by
  rw [Ideal.div_coe hn, ← EReal.coe_mul, ← div_eq_mul_one_div]

/-- A finite sum of extended reals that are each a real is a real. -/
theorem exists_real_sum {ι : Type*} (s : Finset ι) (F : ι → EReal) (hF : ∀ i, ∃ r : ℝ, F i = (r : EReal)) :
    ∃ r : ℝ, ∑ i ∈ s, F i = (r : EReal) := by
  choose f hf using hF
  exact ⟨∑ i ∈ s, f i, by rw [coe_sum]; exact Finset.sum_congr rfl fun i _ => hf i⟩

/-- The sum of two reals is a real. -/
theorem exists_real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

/-- The difference of two reals is a real. -/
theorem exists_real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

/-- The product of two reals is a real. -/
theorem exists_real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- The quotient (`Ideal.div`) of a real by a nonzero real is a real. -/
theorem exists_real_div {x : EReal} (hx : ∃ r : ℝ, x = (r : EReal)) {n : ℝ} (hn : n ≠ 0) :
    ∃ r : ℝ, Ideal.div x (n : EReal) = (r : EReal) := by
  obtain ⟨a, rfl⟩ := hx; exact ⟨a / n, div_coe_coe a hn⟩

/-- The mean `Ideal.div (∑ i, F i) n` of finitely many reals is a real (namely `(∑ f) / n`). -/
theorem exists_real_mean {ι : Type*} [Fintype ι] (F : ι → EReal) (hF : ∀ i, ∃ r : ℝ, F i = (r : EReal))
    {n : ℝ} (hn : n ≠ 0) : ∃ r : ℝ, Ideal.div (∑ i, F i) (n : EReal) = (r : EReal) :=
  exists_real_div (exists_real_sum _ F hF) hn

/-- The mean of coerced reals, computed: `Ideal.div (∑ i, ↑(f i)) ↑n = ↑((∑ i, f i) / n)`. -/
theorem mean_coe {ι : Type*} [Fintype ι] (f : ι → ℝ) {n : ℝ} (hn : n ≠ 0) :
    Ideal.div (∑ i, (f i : EReal)) (n : EReal) = (((∑ i, f i) / n : ℝ) : EReal) := by
  rw [← coe_sum, div_coe_coe _ hn]

/-! ### The identity over the extended reals, for real values -/

section EReal

variable {ι : Type*} [Fintype ι]

/-- The covariance identity on the extended reals, for coerced reals, in the ideal instance's
    operations: with `μf = Ideal.div (∑ i, ↑(f i)) ↑n` and `μg` likewise,
    `Ideal.div (∑ i, (↑(f i) - μf) * (↑(g i) - μg)) ↑n = Ideal.div (∑ i, ↑(f i) * ↑(g i)) ↑n - μf * μg`. -/
theorem cov_coe (f g : ι → ℝ) (n : ℝ) (hn : n ≠ 0) (hcard : n = (Fintype.card ι : ℝ)) :
    Ideal.div (∑ i, ((f i : EReal) - Ideal.div (∑ j, (f j : EReal)) (n : EReal))
        * ((g i : EReal) - Ideal.div (∑ j, (g j : EReal)) (n : EReal))) (n : EReal)
      = Ideal.div (∑ i, (f i : EReal) * (g i : EReal)) (n : EReal)
        - Ideal.div (∑ j, (f j : EReal)) (n : EReal) * Ideal.div (∑ j, (g j : EReal)) (n : EReal) := by
  rw [mean_coe f hn, mean_coe g hn]
  simp only [← EReal.coe_sub, ← EReal.coe_mul]
  rw [mean_coe _ hn, mean_coe _ hn, ← EReal.coe_sub, cov_real f g n hn hcard]

/-- The covariance identity on the extended reals, for values each known to be a real: with
    `μF = Ideal.div (∑ j, F j) ↑n`, `μG = Ideal.div (∑ j, G j) ↑n` and `n ≠ 0` the number of indices,
    `Ideal.div (∑ i, (F i - μF) * (G i - μG)) ↑n = Ideal.div (∑ i, F i * G i) ↑n - μF * μG`. -/
theorem cov_ereal (F G : ι → EReal) (hF : ∀ i, ∃ r : ℝ, F i = (r : EReal)) (hG : ∀ i, ∃ r : ℝ, G i = (r : EReal))
    (n : ℝ) (hn : n ≠ 0) (hcard : n = (Fintype.card ι : ℝ)) :
    Ideal.div (∑ i, (F i - Ideal.div (∑ j, F j) (n : EReal)) * (G i - Ideal.div (∑ j, G j) (n : EReal))) (n : EReal)
      = Ideal.div (∑ i, F i * G i) (n : EReal)
        - Ideal.div (∑ j, F j) (n : EReal) * Ideal.div (∑ j, G j) (n : EReal) := by
  choose f hf using hF
  choose g hg using hG
  obtain rfl : F = fun i => (f i : EReal) := funext hf
  obtain rfl : G = fun i => (g i : EReal) := funext hg
  exact cov_coe f g n hn hcard

/-- `cov_ereal` with every sum written `0 + ∑`, the form in which a host reduction with a zero
    initial value states it. -/
theorem cov_ereal_zero_add (F G : ι → EReal) (hF : ∀ i, ∃ r : ℝ, F i = (r : EReal))
    (hG : ∀ i, ∃ r : ℝ, G i = (r : EReal)) (n : ℝ) (hn : n ≠ 0) (hcard : n = (Fintype.card ι : ℝ)) :
    Ideal.div (0 + ∑ i, (F i - Ideal.div (0 + ∑ j, F j) (n : EReal)) * (G i - Ideal.div (0 + ∑ j, G j) (n : EReal)))
        (n : EReal)
      = Ideal.div (0 + ∑ i, F i * G i) (n : EReal)
        - Ideal.div (0 + ∑ j, F j) (n : EReal) * Ideal.div (0 + ∑ j, G j) (n : EReal) := by
  simp only [zero_add]
  exact cov_ereal F G hF hG n hn hcard

/-- The regularised form: for a real `e` (a ridge term added before the mean product is subtracted
    on one side, and added to the centred covariance on the other),
    `(e + Ideal.div (∑ i, F i * G i) ↑n) - μF * μG = e + Ideal.div (∑ i, (F i - μF) * (G i - μG)) ↑n`. -/
theorem cov_ereal_add (e : EReal) (he : ∃ r : ℝ, e = (r : EReal)) (F G : ι → EReal)
    (hF : ∀ i, ∃ r : ℝ, F i = (r : EReal)) (hG : ∀ i, ∃ r : ℝ, G i = (r : EReal))
    (n : ℝ) (hn : n ≠ 0) (hcard : n = (Fintype.card ι : ℝ)) :
    (e + Ideal.div (∑ i, F i * G i) (n : EReal))
        - Ideal.div (∑ j, F j) (n : EReal) * Ideal.div (∑ j, G j) (n : EReal)
      = e + Ideal.div (∑ i, (F i - Ideal.div (∑ j, F j) (n : EReal)) * (G i - Ideal.div (∑ j, G j) (n : EReal)))
          (n : EReal) := by
  rw [cov_ereal F G hF hG n hn hcard]
  obtain ⟨r, rfl⟩ := he
  obtain ⟨a, ha⟩ := exists_real_div (exists_real_sum Finset.univ _ fun i => exists_real_mul (hF i) (hG i)) hn
  obtain ⟨b, hb⟩ := exists_real_mul (exists_real_mean F hF hn) (exists_real_mean G hG hn)
  rw [ha, hb, ← EReal.coe_add, ← EReal.coe_sub, ← EReal.coe_sub, ← EReal.coe_add, add_sub_assoc]

end EReal

/-! ### Regrouping a double sum over one flat index -/

section Regroup

variable {α : Type*} [AddCommMonoid α]

/-- A double sum over `Fin M × Fin N` is the sum over the flat index `k : Fin (M * N)` of the term at
    `(k / N, k % N)` (`Fin.divNat`, `Fin.modNat`): re-indexing along `finProdFinEquiv`, whose inverse
    is `k ↦ (k.divNat, k.modNat)`. -/
theorem sum_sum_eq_sum_divNat_modNat (M N : ℕ) (a : Fin M → Fin N → α) :
    ∑ b, ∑ s, a b s = ∑ k : Fin (M * N), a k.divNat k.modNat := by
  rw [← Fintype.sum_prod_type' a]
  refine Fintype.sum_equiv finProdFinEquiv _ _ fun p => ?_
  have h := finProdFinEquiv.symm_apply_apply p
  rw [show (finProdFinEquiv p).divNat = p.1 from congrArg Prod.fst h,
    show (finProdFinEquiv p).modNat = p.2 from congrArg Prod.snd h]

/-- A sum over the flat index `k : Fin (M * N)` is the double sum of the term at `N * t + j`
    (`finProdFinEquiv (t, j)`, whose value is `j + N * t`). -/
theorem sum_eq_sum_sum_finProdFinEquiv (M N : ℕ) (g : Fin (M * N) → α) :
    ∑ k, g k = ∑ t : Fin M, ∑ j : Fin N, g (finProdFinEquiv (t, j)) := by
  rw [← Fintype.sum_prod_type' fun t j => g (finProdFinEquiv (t, j))]
  exact (Fintype.sum_equiv finProdFinEquiv _ _ fun _ => rfl).symm

/-- The flat index of a batch `b : Fin 128` and a position `s : Fin 3136`: `finProdFinEquiv` at
    `128 × 3136`, read at `Fin 401408` (`128 * 3136 = 401408`). Its value is `s + 3136 * b`; its
    inverse sends `k` to `(k / 3136, k % 3136)`. -/
def batchPosEquiv : Fin 128 × Fin 3136 ≃ Fin 401408 :=
  finProdFinEquiv.trans (finCongr (by norm_num))

@[simp] theorem batchPosEquiv_val (p : Fin 128 × Fin 3136) : (batchPosEquiv p).val = p.2.val + 3136 * p.1.val := rfl
@[simp] theorem batchPosEquiv_symm_fst_val (k : Fin 401408) : (batchPosEquiv.symm k).1.val = k.val / 3136 := rfl
@[simp] theorem batchPosEquiv_symm_snd_val (k : Fin 401408) : (batchPosEquiv.symm k).2.val = k.val % 3136 := rfl

/-- The batch-by-position double sum is the flat sum over `k : Fin 401408` of the term at
    `(k / 3136, k % 3136)`, stated through `batchPosEquiv.symm`. -/
theorem sum_batch_pos_eq_sum_equiv (a : Fin 128 → Fin 3136 → α) :
    ∑ b, ∑ s, a b s = ∑ k : Fin 401408, a (batchPosEquiv.symm k).1 (batchPosEquiv.symm k).2 := by
  rw [← Fintype.sum_prod_type' a]
  exact Fintype.sum_equiv batchPosEquiv _ _ fun p => by rw [Equiv.symm_apply_apply]

/-- The batch-by-position double sum is the flat sum over `k : Fin 401408` of the term at
    `(k / 3136, k % 3136)`, with the two indices spelled as quotient and remainder. -/
theorem sum_batch_pos_eq_sum_flat (a : Fin 128 → Fin 3136 → α) :
    ∑ b, ∑ s, a b s
      = ∑ k : Fin 401408, a ⟨k.val / 3136, by have := k.isLt; omega⟩ ⟨k.val % 3136, Nat.mod_lt _ (by norm_num)⟩ :=
  sum_batch_pos_eq_sum_equiv a

/-- A flat sum over `k : Fin 401408` is the double sum over batch `b` and position `s` of the term at
    `3136 * b + s`. -/
theorem sum_flat_eq_sum_batch_pos (g : Fin 401408 → α) :
    ∑ k, g k = ∑ b : Fin 128, ∑ s : Fin 3136, g ⟨3136 * b.val + s.val, by have := b.isLt; have := s.isLt; omega⟩ := by
  rw [← Fintype.sum_prod_type' fun (b : Fin 128) (s : Fin 3136) =>
    g ⟨3136 * b.val + s.val, by have := b.isLt; have := s.isLt; omega⟩]
  exact (Fintype.sum_equiv batchPosEquiv _ _ fun p => congrArg g (Fin.ext (by simp [Nat.add_comm]))).symm

/-- Sixteen blocks of eight cover the 128 batches: `∑ t : Fin 16, ∑ j : Fin 8, a (8 * t + j) = ∑ b : Fin 128, a b`
    (re-indexing along `finProdFinEquiv` at `16 × 8`, whose value at `(t, j)` is `j + 8 * t`). -/
theorem sum_blocks_eq_sum_batch (a : Fin 128 → α) :
    ∑ t : Fin 16, ∑ j : Fin 8, a ⟨8 * t.val + j.val, by have := t.isLt; have := j.isLt; omega⟩ = ∑ b : Fin 128, a b := by
  rw [← Fintype.sum_prod_type' fun (t : Fin 16) (j : Fin 8) =>
    a ⟨8 * t.val + j.val, by have := t.isLt; have := j.isLt; omega⟩]
  exact Fintype.sum_equiv (finProdFinEquiv.trans (finCongr (by norm_num : 16 * 8 = 128))) _ _
    fun p => congrArg a (Fin.ext (Nat.add_comm _ _))

end Regroup

end Cert.Lib.Covariance
-- ==== Proof.KI.AccSum.lean ====
/-
  The accumulators of the accumulation kernel as plain sums: one grid point adds, to the running column, the
  sum over its block's eight batch rows and the 3136 positions, and to the running matrix the sum of the
  products of two channels over the same range; a block of the input window at point `t` is batch rows
  `8 t … 8 t + 7` of the array; so after the last of the sixteen points the accumulators hold the sums over
  all 128 batch rows.
-/
import proofs.«141837_j49177375539587_2_alg».proof.Proof.KI.AccChain
import proofs.«141837_j49177375539587_2_alg».proof.Proof.KI.AccValue
import proofs.«141837_j49177375539587_2_alg».proof.Proof.LibCovariance

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-- The positions' sum of a row load is the positions' sum of that batch row of the block. -/
theorem sum_ld_row (x : Vec Ideal S8x64x3136 .f32) (off : Fin 3 → ℕ) (j : Fin 8) (hoff : off = ![j.val, 0, 0])
    (inb : ∀ a, off a + S1x64x3136.size a ≤ S8x64x3136.size a) (ch : Fin 64) :
    ∑ s : Fin 3136, View.ld (Val := Elt Ideal) x (Rect.unit (s := S8x64x3136) off S1x64x3136.size inb) (ix3 0 ch s)
      = ∑ s : Fin 3136, x (ix3 j ch s) :=
  Finset.sum_congr rfl fun s _ => ld_row_apply x off j hoff inb ch s

/-- The same for the products of two channels. -/
theorem sum_ld_row_mul (x : Vec Ideal S8x64x3136 .f32) (off : Fin 3 → ℕ) (j : Fin 8) (hoff : off = ![j.val, 0, 0])
    (inb : ∀ a, off a + S1x64x3136.size a ≤ S8x64x3136.size a) (ch ch' : Fin 64) :
    ∑ s : Fin 3136, View.ld (Val := Elt Ideal) x (Rect.unit (s := S8x64x3136) off S1x64x3136.size inb) (ix3 0 ch s)
        * View.ld (Val := Elt Ideal) x (Rect.unit (s := S8x64x3136) off S1x64x3136.size inb) (ix3 0 ch' s)
      = ∑ s : Fin 3136, x (ix3 j ch s) * x (ix3 j ch' s) :=
  Finset.sum_congr rfl fun s _ => by rw [ld_row_apply x off j hoff inb ch s, ld_row_apply x off j hoff inb ch' s]

/-- One point's contribution to the row-sum accumulator, at `(ch, 0)`: the sum over the block's eight batch
    rows and the positions of channel `ch`. -/
theorem rowAcc_apply (x : Vec Ideal S8x64x3136 .f32) (a : Vec Ideal S64x1 .f32) (ch : Fin 64) :
    rowAcc (F := Ideal) x a (ix2 ch 0) = a (ix2 ch 0) + ∑ j : Fin 8, ∑ s : Fin 3136, x (ix3 j ch s) := by
  unfold rowAcc
  rw [k0_pay29_apply, k0_pay26_apply, k0_pay22_apply, k0_pay19_apply, k0_pay15_apply, k0_pay12_apply, k0_pay8_apply,
    k0_pay5_apply, sum_ld_row x ![0, 0, 0] 0 rfl, sum_ld_row x ![1, 0, 0] 1 rfl, sum_ld_row x ![2, 0, 0] 2 rfl, sum_ld_row x ![3, 0, 0] 3 rfl, sum_ld_row x ![4, 0, 0] 4 rfl, sum_ld_row x ![5, 0, 0] 5 rfl, sum_ld_row x ![6, 0, 0] 6 rfl, sum_ld_row x ![7, 0, 0] 7 rfl, Fin.sum_univ_eight]
  simp only [add_assoc]

/-- One point's contribution to the Gram accumulator, at `(ch, ch')`. -/
theorem gramAcc_apply (x : Vec Ideal S8x64x3136 .f32) (A : Vec Ideal S64x64 .f32) (ch ch' : Fin 64) :
    gramAcc (F := Ideal) x A (ix2 ch ch')
      = A (ix2 ch ch') + ∑ j : Fin 8, ∑ s : Fin 3136, x (ix3 j ch s) * x (ix3 j ch' s) := by
  unfold gramAcc
  rw [k0_pay1_apply, k0_pay30_apply, k0_pay27_apply, k0_pay24_apply, k0_pay23_apply, k0_pay20_apply, k0_pay17_apply,
    k0_pay16_apply, k0_pay13_apply, k0_pay10_apply, k0_pay9_apply, k0_pay6_apply,
    sum_ld_row_mul x ![0, 0, 0] 0 rfl, sum_ld_row_mul x ![1, 0, 0] 1 rfl, sum_ld_row_mul x ![2, 0, 0] 2 rfl, sum_ld_row_mul x ![3, 0, 0] 3 rfl, sum_ld_row_mul x ![4, 0, 0] 4 rfl, sum_ld_row_mul x ![5, 0, 0] 5 rfl, sum_ld_row_mul x ![6, 0, 0] 6 rfl, sum_ld_row_mul x ![7, 0, 0] 7 rfl, Fin.sum_univ_eight]
  simp only [add_assoc]

/-! ### A block of the input window is eight batch rows of the array -/

variable (V : (c : Dev nD) → (b : Ref sig .tc) → Buf (Elt Ideal) ((c : Thread nD τ).loc b)) (c : Dev nD)

/-- The input window's index map, decided over the grid: point `t` takes block `t` on the batch axis, block 0 on
    the other two. -/
theorem idx_facts0 : ∀ t : Fin cfg0.N, win0_0.index t (0 : Fin 3) = t.val ∧ win0_0.index t (1 : Fin 3) = 0
    ∧ win0_0.index t (2 : Fin 3) = 0 :=
  (by decide +kernel : ∀ t : Fin grid0.N, _)

theorem N16 : cfg0.N = 16 := N_0

/-- The array the input window reads (the reshaped first argument), typed by its shape `[128, 64, 3136]`. -/
abbrev arr0 : Vec Ideal S128x64x3136 .f32 := V c main_v0

/-- The input window's block at point `t`, typed by its shape `[8, 64, 3136]`. -/
abbrev blk0 (t : Fin cfg0.N) : Vec Ideal S8x64x3136 .f32 := iblk0 (F := Ideal) V c 0 t

/-- The input window's block at point `t`, at `(j, ch, s)`, is the array at batch row `8 t + j`. -/
theorem iblk0_apply (t : Fin cfg0.N) (j : Fin 8) (ch : Fin 64) (s : Fin 3136) :
    iblk0 (F := Ideal) V c 0 t (ix3 j ch s)
      = arr0 V c (ix3 ⟨8 * t.val + j.val, by have := t.isLt; have := N16; omega⟩ ch s) := by
  obtain ⟨e0, e1, e2⟩ := idx_facts0 t
  show (V c main_v0 : Vec Ideal S128x64x3136 .f32) (((cfg0.win 0).blk t).view.emb (ix3 j ch s)) = _
  refine congrArg _ (funext fun a => Fin.ext ?_)
  match a with
  | ⟨0, _⟩ => show win0_0.index t (0 : Fin 3) * 8 + 1 * j.val = 8 * t.val + j.val; omega
  | ⟨1, _⟩ => show win0_0.index t (1 : Fin 3) * 64 + 1 * ch.val = ch.val; omega
  | ⟨2, _⟩ => show win0_0.index t (2 : Fin 3) * 3136 + 1 * s.val = s.val; omega

/-! ### The accumulators after each point, and after the last -/

/-- The positions' sum of channel `ch` at batch row `b` of the array (zero beyond the 128 rows). -/
def rowV (ch : Fin 64) (b : ℕ) : EReal :=
  if h : b < 128 then ∑ s : Fin 3136, arr0 V c (ix3 ⟨b, h⟩ ch s) else 0

/-- The positions' sum of the products of channels `ch`, `ch'` at batch row `b` (zero beyond the 128 rows). -/
def gramV (ch ch' : Fin 64) (b : ℕ) : EReal :=
  if h : b < 128 then ∑ s : Fin 3136, arr0 V c (ix3 ⟨b, h⟩ ch s)
    * arr0 V c (ix3 ⟨b, h⟩ ch' s) else 0

theorem sum_iblk0 (t : Fin cfg0.N) (ch : Fin 64) :
    ∑ j : Fin 8, ∑ s : Fin 3136, blk0 V c t (ix3 j ch s) = ∑ j : Fin 8, rowV V c ch (8 * t.val + j.val) := by
  refine Finset.sum_congr rfl fun j _ => ?_
  have hb : 8 * t.val + j.val < 128 := by have := t.isLt; have := N16; omega
  rw [rowV, dif_pos hb]
  exact Finset.sum_congr rfl fun s _ => iblk0_apply V c t j ch s

theorem sum_iblk0_mul (t : Fin cfg0.N) (ch ch' : Fin 64) :
    ∑ j : Fin 8, ∑ s : Fin 3136, blk0 V c t (ix3 j ch s) * blk0 V c t (ix3 j ch' s)
      = ∑ j : Fin 8, gramV V c ch ch' (8 * t.val + j.val) := by
  refine Finset.sum_congr rfl fun j _ => ?_
  have hb : 8 * t.val + j.val < 128 := by have := t.isLt; have := N16; omega
  rw [gramV, dif_pos hb]
  exact Finset.sum_congr rfl fun s _ => congrArg₂ (· * ·) (iblk0_apply V c t j ch s) (iblk0_apply V c t j ch' s)

/-- After point `n` the row-sum accumulator holds the sums of the batch rows of points `0 … n`. -/
theorem accC_fst_apply : ∀ (n : ℕ) (h : n < cfg0.N) (ch : Fin 64),
    (accC (F := Ideal) V c n h).1 (ix2 ch 0) = ∑ t ∈ Finset.range (n + 1), ∑ j : Fin 8, rowV V c ch (8 * t + j.val)
  | 0, h, ch => by
    show rowAcc (F := Ideal) (iblk0 V c 0 ⟨0, h⟩) (k0_pay2 (F := Ideal)) (ix2 ch 0) = _
    rw [rowAcc_apply, k0_pay2_apply, zero_add, sum_iblk0, Finset.sum_range_one]
  | n + 1, h, ch => by
    show rowAcc (F := Ideal) (iblk0 V c 0 ⟨n + 1, h⟩) (accC V c n (Nat.lt_of_succ_lt h)).1 (ix2 ch 0) = _
    rw [rowAcc_apply, accC_fst_apply n, sum_iblk0, Finset.sum_range_succ _ (n + 1)]

/-- After point `n` the Gram accumulator holds the sums of the products over the batch rows of points `0 … n`. -/
theorem accC_snd_apply : ∀ (n : ℕ) (h : n < cfg0.N) (ch ch' : Fin 64),
    (accC (F := Ideal) V c n h).2 (ix2 ch ch') = ∑ t ∈ Finset.range (n + 1), ∑ j : Fin 8, gramV V c ch ch' (8 * t + j.val)
  | 0, h, ch, ch' => by
    show gramAcc (F := Ideal) (iblk0 V c 0 ⟨0, h⟩) (k0_pay3 (F := Ideal)) (ix2 ch ch') = _
    rw [gramAcc_apply, k0_pay3_apply, zero_add, sum_iblk0_mul, Finset.sum_range_one]
  | n + 1, h, ch, ch' => by
    show gramAcc (F := Ideal) (iblk0 V c 0 ⟨n + 1, h⟩) (accC V c n (Nat.lt_of_succ_lt h)).2 (ix2 ch ch') = _
    rw [gramAcc_apply, accC_snd_apply n, sum_iblk0_mul, Finset.sum_range_succ _ (n + 1)]

/-- The first result: at `(ch, 0)`, the sum of channel `ch` over all 128 batch rows and all positions. -/
theorem res1_apply (ch : Fin 64) :
    res1 (F := Ideal) V c (ix2 ch 0)
      = ∑ b : Fin 128, ∑ s : Fin 3136, arr0 V c (ix3 b ch s) := by
  show (accC (F := Ideal) V c 15 lt15).1 (ix2 ch 0) = _
  rw [accC_fst_apply, Finset.sum_range,
    ← Cert.Lib.Covariance.sum_blocks_eq_sum_batch
      (fun b : Fin 128 => ∑ s : Fin 3136, arr0 V c (ix3 b ch s))]
  refine Finset.sum_congr rfl fun t _ => Finset.sum_congr rfl fun j _ => ?_
  rw [rowV, dif_pos (by have := t.isLt; have := j.isLt; omega)]

/-- The second result: at `(ch, ch')`, the sum of the products of channels `ch`, `ch'` over all batch rows and
    positions. -/
theorem res2_apply (ch ch' : Fin 64) :
    res2 (F := Ideal) V c (ix2 ch ch')
      = ∑ b : Fin 128, ∑ s : Fin 3136, arr0 V c (ix3 b ch s)
          * arr0 V c (ix3 b ch' s) := by
  show (accC (F := Ideal) V c 15 lt15).2 (ix2 ch ch') = _
  rw [accC_snd_apply, Finset.sum_range,
    ← Cert.Lib.Covariance.sum_blocks_eq_sum_batch
      (fun b : Fin 128 => ∑ s : Fin 3136, arr0 V c (ix3 b ch s)
        * arr0 V c (ix3 b ch' s))]
  refine Finset.sum_congr rfl fun t _ => Finset.sum_congr rfl fun j _ => ?_
  rw [gramV, dif_pos (by have := t.isLt; have := j.isLt; omega)]

end Cert.KernelIdeal.Hand
-- ==== Proof.LibConst.lean ====
/-
  Two f32 bit patterns read as extended reals: the pattern of 401408 is that real number, and the
  pattern `0x3727C5AC` (the float nearest 1e-5) is some real number (finite).
-/
import Idealize.ShloMosaic.PureOps.Ideal
import Idealize.ShloMosaic.PureOps.Ideal.Laws
import Mathlib.Tactic.NormNum

namespace Cert.Lib.Const
open Idealize.ShloMosaic

/-- The f32 pattern `0x48C40000` denotes the real number 401408. -/
theorem ofBits_401408 : Ideal.ofBits .f32 0x48C40000#32 = ((401408 : ℝ) : EReal) := by
  simp [Ideal.ofBits, Ideal.ieee]
  rw [← EReal.coe_mul]
  norm_num

/-- The f32 pattern `0x3727C5AC` denotes a real number. -/
theorem ofBits_3727C5AC_real : ∃ r : ℝ, Ideal.ofBits .f32 0x3727C5AC#32 = (r : EReal) := by
  simp only [Ideal.ofBits, Ideal.ieee]
  norm_num
  exact ⟨_, rfl⟩

end Cert.Lib.Const
-- ==== Proof.KI.GlueRead.lean ====
/-
  The kernel program's host formulas between its two kernels, read at an index at the ideal instance: the mean
  is the channel sum divided by 401408; the covariance entry is `(ε·I + sxx/401408) − mean·meanᵀ` entry by
  entry; the identity matrix's entries are real numbers.
-/
import proofs.«141837_j49177375539587_2_alg».proof.Proof.KI.Glue
import proofs.«141837_j49177375539587_2_alg».proof.Proof.LibConst
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

/-- The mean at channel `c`: the channel sum divided by 401408. -/
theorem meanK_apply (sx : FVec Ideal S64x1 .f32) (c : Fin 64) :
    meanK sx (ix2 c 0) = Ideal.div (sx (ix2 c 0)) ((401408 : ℝ) : EReal) := by
  unfold meanK
  show Ideal.div (sx (ix2 c 0)) (broadcastInDim S64x1 ![] bcast_S_S64x1 (constant (F := Ideal) S_ .f32 0x48C40000#32) (ix2 c 0)) = _
  rw [broadcastInDim_scalar_apply, constant_apply, Cert.Lib.Const.ofBits_401408]

/-- The outer product's dimension numbers: the column's axis 1 against the row's axis 0 (both of extent one). -/
abbrev DM := dot_S64x1_S1x64_S64x64_1_0_0_1_n_n

theorem DM_lhs_0 (j : S64x64.Idx) (k : DM.contr.Idx) : (DM.lhsIdx j k 0 : ℕ) = j 0 := by
  simp [DotDims.lhsIdx, DM, dot_S64x1_S1x64_S64x64_1_0_0_1_n_n]; rfl
theorem DM_rhs_1 (j : S64x64.Idx) (k : DM.contr.Idx) : (DM.rhsIdx j k 1 : ℕ) = j 1 := by
  simp [DotDims.rhsIdx, DM, dot_S64x1_S1x64_S64x64_1_0_0_1_n_n]; rfl

/-- The product of a column by a row, at `(c, c')`: one product (the contracted axis has extent one). -/
theorem outer_apply (m : FVec Ideal S64x1 .f32) (r : FVec Ideal S1x64 .f32) (c c' : Fin 64) :
    Host.dotGeneral (F := Ideal) DM none m r (ix2 c c') = m (ix2 c 0) * r (ix2 0 c') := by
  simp only [Host.dotGeneral]
  rw [Ideal.dotGeneral_apply, ← Equiv.sum_comp (contrEquiv1 DM 1 rfl rfl).symm, Fin.sum_univ_one]
  congr 1
  · refine congrArg m (funext fun a => Fin.ext ?_)
    match a with
    | ⟨0, _⟩ => exact DM_lhs_0 _ _
    | ⟨1, _⟩ => exact Nat.lt_one_iff.mp (Fin.isLt _)
  · refine congrArg r (funext fun a => Fin.ext ?_)
    match a with
    | ⟨0, _⟩ => exact Nat.lt_one_iff.mp (Fin.isLt _)
    | ⟨1, _⟩ => exact DM_rhs_1 _ _

/-- The host quotient at an index. -/
theorem hostDivf_apply {s : Shape} (a b : FVec Ideal s .f32) (i : s.Idx) : Host.divf a b i = Ideal.div (a i) (b i) := rfl

/-- The regularised covariance at `(c, c')`. -/
theorem sigmaK_apply (sx : FVec Ideal S64x1 .f32) (sxx : FVec Ideal S64x64 .f32) (c c' : Fin 64) :
    sigmaK sx sxx (ix2 c c')
      = (Ideal.ofBits .f32 0x3727C5AC#32 * eye (F := Ideal) (ix2 c c') + Ideal.div (sxx (ix2 c c')) ((401408 : ℝ) : EReal))
        - meanK sx (ix2 c 0) * meanK sx (ix2 c' 0) := by
  unfold sigmaK
  rw [subf_apply, addf_apply, mulf_apply, hostDivf_apply, outer_apply, transpose_ix2_apply]
  simp only [bc]
  rw [broadcastInDim_scalar_apply, broadcastInDim_scalar_apply, constant_apply, constant_apply,
    Cert.Lib.Const.ofBits_401408]

/-- The identity matrix's mask, at `(c, c')`: one iff `c = c'`, a one-bit word either way. -/
theorem eye_real (c c' : Fin 64) : ∃ r : ℝ, eye (F := Ideal) (ix2 c c') = (r : EReal) :=
  ⟨_, rfl⟩

end Cert.KernelIdeal.Hand
-- ==== Proof.RefRead.lean ====
/-
  The reference's stages read at an index, over the extended reals: the channel-major flattening, the channel
  mean, the centred data, the identity matrix, the regularised covariance, and the result, each as a sum or a
  quotient of its operands' entries at coordinates.
-/
import proofs.«141837_j49177375539587_2_alg».proof.Proof.RefRun
import proofs.«141837_j49177375539587_2_alg».proof.Proof.LibConst
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.ValueIdx

/-- The host's quotient at an index is the extended reals' quotient of the entries. -/
theorem hostDivf_apply {s : Shape} {φ : FTy} (a b : FVec Ideal s φ) (i : s.Idx) : Host.divf a b i = Ideal.div (a i) (b i) := rfl

/-! ## The channel-major flattening -/

/-- The flattened position of (n, h, w) is (n·56 + h)·56 + w: there the flattening reads the input at
    (n, c, h, w). -/
theorem xT_apply (x : FVec Ideal S128x64x56x56 .f32) (c : Fin 64) (k : Fin 401408) (n : Fin 128) (h w : Fin 56)
    (hk : k.val = (n.val * 56 + h.val) * 56 + w.val) : xT x (ix2 c k) = x (ix4 n c h w) := by
  unfold xT
  rw [shapeCast_apply _ _ (ix2 c k) (ix4 c n h w) (by
    rw [Shape.rowMajor_val_four, Shape.rowMajor_val_two]
    show ((c.val * 128 + n.val) * 56 + h.val) * 56 + w.val = c.val * 401408 + k.val
    rw [hk]; omega)]
  exact transpose_apply _ x _ (ix4 c n h w) (ix4 n c h w) fun b =>
    match b with | ⟨0, _⟩ => rfl | ⟨1, _⟩ => rfl | ⟨2, _⟩ => rfl | ⟨3, _⟩ => rfl

/-- Every flattened position k is that of (k / 3136, k % 3136 / 56, k % 56). -/
theorem xT_apply_flat (x : FVec Ideal S128x64x56x56 .f32) (c : Fin 64) (k : Fin 401408) :
    xT x (ix2 c k) = x (ix4 (⟨k.val / 3136, by have := k.isLt; omega⟩ : Fin 128) c
      (⟨k.val % 3136 / 56, by omega⟩ : Fin 56) (⟨k.val % 56, by omega⟩ : Fin 56)) :=
  xT_apply x c k _ _ _ (by show k.val = (k.val / 3136 * 56 + k.val % 3136 / 56) * 56 + k.val % 56; omega)

/-! ## The channel mean -/

/-- The witness that dropping axis 1 of [64, 401408] leaves [64], in the vector unit's form (it names the index
    with a coordinate inserted). -/
theorem reduces_S64x401408_S64 : S64x401408.Reduces [1] S64 := by decide

/-- A [64] index with coordinate k inserted on axis 1 is (c, k). -/
theorem lift_row (c : Fin 64) (k : Fin (S64x401408.size 1)) : reduces_S64x401408_S64.lift (ix1 c) k = ix2 c k := by
  funext a
  refine Fin.ext ?_
  match a with
  | ⟨0, _⟩ => rfl
  | ⟨1, _⟩ => rfl

/-- The mean of channel c: the sum of its row of the flattening, from a zero initial value, over the count. -/
theorem mean_apply (x : FVec Ideal S128x64x56x56 .f32) (c : Fin 64) :
    mean x (ix2 c (0 : Fin 1))
      = Ideal.div (0 + ∑ k : Fin 401408, (xT x (ix2 c k) : EReal)) ((401408 : ℝ) : EReal) := by
  unfold mean
  rw [hostDivf_apply, broadcastInDim_apply ![0] bcast_S64_S64x1_0 _ (ix2 c (0 : Fin 1)) (ix1 c) (fun a => by
      match a with
      | ⟨0, _⟩ => rfl),
    broadcastInDim_apply ![] bcast_S_S64x1 _ (ix2 c (0 : Fin 1)) ix0 (fun a => a.elim0)]
  show Ideal.div (Ideal.hostReduceAdd reducesTo_S64x401408_S64_d1 (xT x) (Ideal.ofBits .f32 0x00000000#32) (ix1 c)) (Ideal.ofBits .f32 0x48C40000#32) = _
  rw [Ideal.hostReduceAdd_single reducesTo_S64x401408_S64_d1 reduces_S64x401408_S64, Ideal.ofBits_zero_f32,
    Cert.Lib.Const.ofBits_401408]
  simp only [lift_row]
  rfl

/-- The same without the zero. -/
theorem mean_apply' (x : FVec Ideal S128x64x56x56 .f32) (c : Fin 64) :
    mean x (ix2 c (0 : Fin 1)) = Ideal.div (∑ k : Fin 401408, (xT x (ix2 c k) : EReal)) ((401408 : ℝ) : EReal) := by
  rw [mean_apply, zero_add]

/-! ## The centred data -/

/-- Each entry of the flattening minus its channel's mean. -/
theorem xc_apply (x : FVec Ideal S128x64x56x56 .f32) (c : Fin 64) (k : Fin 401408) :
    xc x (ix2 c k) = (xT x (ix2 c k) : EReal) - (mean x (ix2 c (0 : Fin 1)) : EReal) := by
  unfold xc
  rw [subf_apply, broadcastInDim_apply ![0, 1] bcast_S64x1_S64x401408_0_1 (mean x) (ix2 c k) (ix2 c (0 : Fin 1)) (fun a => by
    match a with
    | ⟨0, _⟩ => rfl
    | ⟨1, _⟩ => rfl)]

/-! ## The identity matrix -/

/-- The diagonal mask at (c, c'): the bit of c = c'. -/
theorem eyeMask_apply : ∀ c c' : Fin 64, eyeMask (ix2 c c') = if c = c' then 1#1 else 0#1 := by
  decide +kernel

/-- The identity matrix at (c, c'). -/
theorem eye_apply (c c' : Fin 64) : (eye (F := Ideal) (ix2 c c') : EReal) = if c = c' then 1 else 0 := by
  show (((eyeMask (ix2 c c')).toNat : ℝ) : EReal) = _
  rw [eyeMask_apply]
  split <;> simp

/-! ## The regularised covariance -/

/-- A scalar spread over the 64×64 matrices reads the scalar everywhere. -/
theorem bc_apply (v : FVec Ideal S_ .f32) (i : S64x64.Idx) : bc v i = v ix0 :=
  broadcastInDim_apply ![] bcast_S_S64x64 v i ix0 (fun a => a.elim0)

/-- The covariance product's operand indices at (c, c') and position k: (c, k) on the left, -/
theorem dotS_lhsIdx (c c' : Fin 64) (k : Fin 401408) :
    dot_S64x401408_S401408x64_S64x64_1_0_0_1_n_n.lhsIdx (ix2 c c')
        ((contrEquiv1 dot_S64x401408_S401408x64_S64x64_1_0_0_1_n_n 401408 rfl rfl).symm k) = ix2 c k := by
  funext a
  refine Fin.ext ?_
  match a with
  | ⟨0, _⟩ => rfl
  | ⟨1, _⟩ =>
    show (dot_S64x401408_S401408x64_S64x64_1_0_0_1_n_n.lhsIdx (ix2 c c') _ (1 : Fin 2)).val = k.val
    rw [DotDims.lhsIdx_val_of_single _ rfl]
    exact contrEquiv1_symm_val _ _ _ _ _

/-- (k, c') on the right. -/
theorem dotS_rhsIdx (c c' : Fin 64) (k : Fin 401408) :
    dot_S64x401408_S401408x64_S64x64_1_0_0_1_n_n.rhsIdx (ix2 c c')
        ((contrEquiv1 dot_S64x401408_S401408x64_S64x64_1_0_0_1_n_n 401408 rfl rfl).symm k) = ix2 k c' := by
  funext a
  refine Fin.ext ?_
  match a with
  | ⟨0, _⟩ =>
    show (dot_S64x401408_S401408x64_S64x64_1_0_0_1_n_n.rhsIdx (ix2 c c') _ (0 : Fin 2)).val = k.val
    rw [DotDims.rhsIdx_val_of_single _ rfl]
    exact contrEquiv1_symm_val _ _ _ _ _
  | ⟨1, _⟩ => rfl

/-- The regularised covariance at (c, c'): ε at the diagonal plus the sum of products of the centred rows over the
    count. -/
theorem sigma_apply (x : FVec Ideal S128x64x56x56 .f32) (c c' : Fin 64) :
    sigma x (ix2 c c')
      = Ideal.ofBits .f32 0x3727C5AC#32 * (eye (F := Ideal) (ix2 c c') : EReal)
        + Ideal.div (∑ k : Fin 401408, (xc x (ix2 c k) : EReal) * (xc x (ix2 c' k) : EReal)) ((401408 : ℝ) : EReal) := by
  unfold sigma
  rw [addf_apply, mulf_apply, bc_apply, constant_apply, hostDivf_apply, bc_apply, constant_apply, Cert.Lib.Const.ofBits_401408]
  simp only [Host.dotGeneral]
  rw [Ideal.dotGeneral_apply,
    ← Equiv.sum_comp (contrEquiv1 dot_S64x401408_S401408x64_S64x64_1_0_0_1_n_n 401408 rfl rfl).symm]
  refine congrArg (fun z : EReal => Ideal.ofBits .f32 0x3727C5AC#32 * (eye (F := Ideal) (ix2 c c') : EReal)
    + Ideal.div z ((401408 : ℝ) : EReal)) (Finset.sum_congr rfl fun k _ => ?_)
  rw [dotS_lhsIdx, dotS_rhsIdx,
    transpose_apply [1, 0] (xc x) transposes_S64x401408_S401408x64_1_0 (ix2 k c') (ix2 c' k) (fun b =>
      match b with | ⟨0, _⟩ => rfl | ⟨1, _⟩ => rfl)]

/-! ## The result -/

/-- The final product's operand indices at (c, k) and position c': (c, c') on the left, -/
theorem dotO_lhsIdx (c : Fin 64) (k : Fin 401408) (c' : Fin 64) :
    dot_S64x64_S64x401408_S64x401408_1_0_0_1_n_n.lhsIdx (ix2 c k)
        ((contrEquiv1 dot_S64x64_S64x401408_S64x401408_1_0_0_1_n_n 64 rfl rfl).symm c') = ix2 c c' := by
  funext a
  refine Fin.ext ?_
  match a with
  | ⟨0, _⟩ => rfl
  | ⟨1, _⟩ =>
    show (dot_S64x64_S64x401408_S64x401408_1_0_0_1_n_n.lhsIdx (ix2 c k) _ (1 : Fin 2)).val = c'.val
    rw [DotDims.lhsIdx_val_of_single _ rfl]
    exact contrEquiv1_symm_val _ _ _ _ _

/-- (c', k) on the right. -/
theorem dotO_rhsIdx (c : Fin 64) (k : Fin 401408) (c' : Fin 64) :
    dot_S64x64_S64x401408_S64x401408_1_0_0_1_n_n.rhsIdx (ix2 c k)
        ((contrEquiv1 dot_S64x64_S64x401408_S64x401408_1_0_0_1_n_n 64 rfl rfl).symm c') = ix2 c' k := by
  funext a
  refine Fin.ext ?_
  match a with
  | ⟨0, _⟩ =>
    show (dot_S64x64_S64x401408_S64x401408_1_0_0_1_n_n.rhsIdx (ix2 c k) _ (0 : Fin 2)).val = c'.val
    rw [DotDims.rhsIdx_val_of_single _ rfl]
    exact contrEquiv1_symm_val _ _ _ _ _
  | ⟨1, _⟩ => rfl

/-- The result at (n, c, h, w): row c of the whitening matrix of the covariance applied to the centred column at
    the flattened position of (n, h, w), plus the bias at c. -/
theorem out_apply (x : FVec Ideal S128x64x56x56 .f32) (b : FVec Ideal S64 .f32) (n : Fin 128) (c : Fin 64) (h w : Fin 56)
    (k : Fin 401408) (hk : k.val = (n.val * 56 + h.val) * 56 + w.val) :
    out x b (ix4 n c h w)
      = (∑ c' : Fin 64, (tail (sigma x) (ix2 c c') : EReal) * (xc x (ix2 c' k) : EReal)) + (b (ix1 c) : EReal) := by
  unfold out
  rw [addf_apply,
    transpose_apply [1, 0, 2, 3] _ transposes_S64x128x56x56_S128x64x56x56_1_0_2_3 (ix4 n c h w) (ix4 c n h w) (fun a =>
      match a with | ⟨0, _⟩ => rfl | ⟨1, _⟩ => rfl | ⟨2, _⟩ => rfl | ⟨3, _⟩ => rfl),
    shapeCast_apply _ shapeCasts_S64x401408_S64x128x56x56 (ix4 c n h w) (ix2 c k) (by
      rw [Shape.rowMajor_val_four, Shape.rowMajor_val_two]
      show c.val * 401408 + k.val = ((c.val * 128 + n.val) * 56 + h.val) * 56 + w.val
      rw [hk]; omega),
    broadcastInDim_apply ![0, 1, 2, 3] bcast_S1x64x1x1_S128x64x56x56_0_1_2_3 _ (ix4 n c h w)
      (ix4 (0 : Fin 1) c (0 : Fin 1) (0 : Fin 1)) (fun a =>
      match a with | ⟨0, _⟩ => rfl | ⟨1, _⟩ => rfl | ⟨2, _⟩ => rfl | ⟨3, _⟩ => rfl),
    shapeCast_apply b shapeCasts_S64_S1x64x1x1 (ix4 (0 : Fin 1) c (0 : Fin 1) (0 : Fin 1)) (ix1 c) (by
      rw [Shape.rowMajor_val_four, Shape.rowMajor_val_one]
      show c.val = ((0 * 64 + c.val) * 1 + 0) * 1 + 0
      omega)]
  simp only [Host.dotGeneral]
  rw [Ideal.dotGeneral_apply,
    ← Equiv.sum_comp (contrEquiv1 dot_S64x64_S64x401408_S64x401408_1_0_0_1_n_n 64 rfl rfl).symm]
  refine congrArg (fun z : EReal => z + (b (ix1 c) : EReal)) (Finset.sum_congr rfl fun c' _ => ?_)
  rw [dotO_lhsIdx, dotO_rhsIdx]

end Cert.ReferenceIdeal.Hand

end
-- ==== Proof.BridgeCore.lean ====
/-
  The law that joins the two programs, on the extended reals, for a batch of 128 × 3136 = 401408 samples per channel
  pair: the covariance formed from the raw second moment and the two means (what the kernel's host glue computes from
  its accumulated statistics) equals the mean of the products of the centred samples (what the reference computes),
  when every sample is a real number. The kernel sums batch by batch, the reference over one flat axis.
-/
import proofs.«141837_j49177375539587_2_alg».proof.Proof.LibCovariance

noncomputable section

namespace Cert.Proof.BridgeCore

open Idealize.ShloMosaic Cert.Lib.Covariance

/-- The batch row of flat sample `k`. -/
abbrev kb (k : Fin 401408) : Fin 128 := ⟨k.val / 3136, by have := k.isLt; omega⟩
/-- The position of flat sample `k` within its batch row. -/
abbrev ks (k : Fin 401408) : Fin 3136 := ⟨k.val % 3136, Nat.mod_lt _ (by norm_num)⟩

/-- The sample count as an extended real. -/
abbrev nE : EReal := ((401408 : ℝ) : EReal)

/-- A channel's total, batch by batch, is the flat total (with the host reduction's initial zero). -/
theorem total_flat (X : Fin 128 → Fin 3136 → EReal) :
    ∑ b, ∑ s, X b s = 0 + ∑ k : Fin 401408, X (kb k) (ks k) := by
  rw [zero_add]; exact sum_batch_pos_eq_sum_flat X

/-- THE LAW: `(e + Sxy / n) - (Sx / n) · (Sy / n) = e + (∑ (x - mean x)(y - mean y)) / n` for real samples. -/
theorem cov_flat (X Y : Fin 128 → Fin 3136 → EReal) (hX : ∀ b s, ∃ r : ℝ, X b s = (r : EReal)) (hY : ∀ b s, ∃ r : ℝ, Y b s = (r : EReal))
    (e : EReal) (he : ∃ r : ℝ, e = (r : EReal)) :
    (e + Ideal.div (∑ b, ∑ s, X b s * Y b s) nE) - Ideal.div (∑ b, ∑ s, X b s) nE * Ideal.div (∑ b, ∑ s, Y b s) nE
      = e + Ideal.div (∑ k : Fin 401408,
          (X (kb k) (ks k) - Ideal.div (0 + ∑ j : Fin 401408, X (kb j) (ks j)) nE)
            * (Y (kb k) (ks k) - Ideal.div (0 + ∑ j : Fin 401408, Y (kb j) (ks j)) nE)) nE := by
  have h1 := sum_batch_pos_eq_sum_flat (fun b s => X b s * Y b s)
  beta_reduce at h1
  rw [h1, sum_batch_pos_eq_sum_flat X, sum_batch_pos_eq_sum_flat Y, zero_add, zero_add]
  exact cov_ereal_add e he (fun k => X (kb k) (ks k)) (fun k => Y (kb k) (ks k)) (fun k => hX _ _) (fun k => hY _ _)
    401408 (by norm_num) (by rw [Fintype.card_fin]; norm_num)

end Cert.Proof.BridgeCore

end
-- ==== Proof.LibReshape.lean ====
/-
  General facts about reshapes that merge or split the two trailing axes of a rank-4 array, read at an index: the
  entry at (n, c, p, q) of the rank-4 array is the entry at (n, c, p·w + q) of the rank-3 one, both ways.
-/
import Idealize.ShloMosaic.Lib.Pipeline.Value
import Idealize.ShloMosaic.Lib.ValueIdx

namespace Cert.Lib.Reshape

open Idealize.ShloMosaic Idealize.ShloMosaic.ValueIdx

/-- Merging the two trailing axes: a reshape of `[a, b, h, w]` to `[a, b, hw]` with `hw = h · w`, read at
    `(n, c, s)` with `s = p · w + q`, is the operand at `(n, c, p, q)`. -/
theorem merge_apply {α : Type} {a b h w hw : ℕ} (x : (⟨4, ![a, b, h, w]⟩ : Shape).Idx → α)
    (sc : (⟨4, ![a, b, h, w]⟩ : Shape).ShapeCasts ⟨3, ![a, b, hw]⟩) (e : hw = h * w)
    (n : Fin a) (c : Fin b) (p : Fin h) (q : Fin w) (s : Fin hw) (hs : s.val = p.val * w + q.val) :
    shapeCast ⟨3, ![a, b, hw]⟩ x sc (ix3 n c s) = x (ix4 n c p q) :=
  shapeCast_apply x sc (ix3 n c s) (ix4 n c p q) (by
    rw [Shape.rowMajor_val_four, Shape.rowMajor_val_three]
    show ((n.val * b + c.val) * h + p.val) * w + q.val = (n.val * b + c.val) * hw + s.val
    rw [hs, e]; ring)

/-- Splitting the trailing axis: a reshape of `[a, b, hw]` to `[a, b, h, w]` with `hw = h · w`, read at
    `(n, c, p, q)`, is the operand at `(n, c, s)` with `s = p · w + q`. -/
theorem split_apply {α : Type} {a b h w hw : ℕ} (y : (⟨3, ![a, b, hw]⟩ : Shape).Idx → α)
    (sc : (⟨3, ![a, b, hw]⟩ : Shape).ShapeCasts ⟨4, ![a, b, h, w]⟩) (e : hw = h * w)
    (n : Fin a) (c : Fin b) (p : Fin h) (q : Fin w) (s : Fin hw) (hs : s.val = p.val * w + q.val) :
    shapeCast ⟨4, ![a, b, h, w]⟩ y sc (ix4 n c p q) = y (ix3 n c s) :=
  shapeCast_apply y sc (ix4 n c p q) (ix3 n c s) (by
    rw [Shape.rowMajor_val_four, Shape.rowMajor_val_three]
    show (n.val * b + c.val) * hw + s.val = ((n.val * b + c.val) * h + p.val) * w + q.val
    rw [hs, e]; ring)

end Cert.Lib.Reshape
-- ==== Proof.Finite.lean ====
/-
  The finiteness precondition, decoded: when `finite_inputs` of the two argument arrays is all ones,
  every entry of both arrays is a real number (neither infinity), as an extended real.

  `finite_inputs` is the conjunction of two `all (|x| < +∞)`; at the ideal instance `|x|` is
  `max x (-x)`, the constant `0x7F800000` denotes `⊤`, and the comparison is the order of the
  extended reals, so each entry satisfies `max x (-x) < ⊤`, which excludes `⊤` and `⊥`.
-/
import proofs.«141837_j49177375539587_2_alg».proof.Defs
import proofs.«141837_j49177375539587_2_alg».proof.Proof.Gen.Pre_finite_inputs
import Idealize.ShloMosaic.Lib.ReduceAll
import Idealize.ShloMosaic.Lib.ValueIdx
import Idealize.ShloMosaic.PureOps.Ideal.Laws

namespace Cert.Proof.Finite

open Idealize.ShloMosaic Idealize.SL.Sem

/-- The rank-0 shape has one index. -/
instance : Subsingleton Cert.Pre_finite_inputs.S_.Idx := ⟨fun a b => funext fun d => d.elim0⟩

/-- The f32 pattern `0x7F800000` denotes `⊤`. -/
theorem ofBits_inf : Ideal.ofBits .f32 0x7F800000#32 = (⊤ : EReal) := by
  simp [Ideal.ofBits, Ideal.ieee]

/-- An extended real whose absolute value `max x (-x)` is below `⊤` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The element fact: the ideal comparison `|x| < ofBits 0x7F800000` being one says `x` is a real. -/
theorem real_of_cmp (x : Ideal .f32)
    (h : FloatOps.cmpf (F := Ideal) .olt (FloatOps.hostAbsf x) (FloatOps.ofBits .f32 0x7F800000#32) = 1#1) :
    ∃ r : ℝ, x = (r : EReal) := by
  apply real_of_abs_lt_top
  rw [Ideal.hostAbsf_def, Ideal.absf_def, Ideal.cmpf_def, Ideal.ofBits_def, ofBits_inf] at h
  by_contra hc
  have h0 : Ideal.cmp .olt (max x (-x)) ⊤ = 0#1 := by
    unfold Ideal.cmp
    simp only [decide_eq_false hc]
    rfl
  rw [h0] at h
  exact absurd h (by decide)

/-- `finite_inputs` of two arrays all ones, at the ideal instance: every entry of both is a real. -/
theorem real_of_fn (a0 : FVec Ideal Cert.Pre_finite_inputs.S128x64x56x56 .f32) (a1 : FVec Ideal Cert.Pre_finite_inputs.S64 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨h1, h2⟩ := IntOp.andi_eq_one.1 h0
  refine ⟨fun i => real_of_cmp _ (Host.reduce_andi_all _ _ _ _ _ h1 i), fun i => real_of_cmp _ (Host.reduce_andi_all _ _ _ _ _ h2 i)⟩

/-- Under the precondition, every entry of the first argument array (on every device) is a real. -/
theorem finite_arg0 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg0) i = (r : EReal) :=
  (real_of_fn _ _ (h c)).1

/-- Under the precondition, every entry of the second argument array (on every device) is a real. -/
theorem finite_arg1 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg1) i = (r : EReal) :=
  (real_of_fn _ _ (h c)).2

end Cert.Proof.Finite
-- ==== Proof.Bridge.lean ====
/-
  The two idealized programs compute the same array. With x the input and β the bias: the kernel's result at
  (n, c, h, w) is ∑ c', W(c, c') · (x(n, c', h, w) − μ(c')) + β(c), where μ is the channel mean formed from the
  accumulated channel sums and W the tail (fix, trace normalisation, ten Newton–Schulz steps, scaling) of the covariance
  (ε·I + Sxx/n) − μ μᵀ formed from the accumulated second moments; the reference's is the same expression with μ the mean
  over the flat sample axis and the covariance ε·I + (x − μ)(x − μ)ᵀ/n. The means agree by regrouping the sums, the
  covariances by the covariance law (which needs every sample real), and the tail is one function on both sides.
-/
import proofs.«141837_j49177375539587_2_alg».proof.Proof.KI.Value
import proofs.«141837_j49177375539587_2_alg».proof.Proof.KI.AccSum
import proofs.«141837_j49177375539587_2_alg».proof.Proof.KI.GlueRead
import proofs.«141837_j49177375539587_2_alg».proof.Proof.RefRead
import proofs.«141837_j49177375539587_2_alg».proof.Proof.BridgeCore
import proofs.«141837_j49177375539587_2_alg».proof.Proof.LibReshape
import proofs.«141837_j49177375539587_2_alg».proof.Proof.LibConst
import proofs.«141837_j49177375539587_2_alg».proof.Proof.Finite

noncomputable section

namespace Cert.Proof.Bridge

open Cert.KernelIdeal Cert.KernelIdeal.Gen Cert.KernelIdeal.Hand
open Idealize.ShloMosaic Idealize.ShloMosaic.TcCoe Idealize.ShloMosaic.ValueIdx Idealize.SL.Sem
open Cert.Proof.BridgeCore Cert.Lib.Covariance

variable (m : (ℓ : Loc nD τ sig) → Buf (Elt Ideal) ℓ) (ρ : Dev nD → PrngReg) (c : Dev nD)

/-- The input and the bias. -/
abbrev xin : FVec Ideal S128x64x56x56 .f32 := m ((c : Thread nD τ).loc main_arg0)
abbrev bin : FVec Ideal S64 .f32 := m ((c : Thread nD τ).loc main_arg1)

/-- The reshaped input at batch row `b`, channel `ch`, position `s`. -/
def X3 (b : Fin 128) (ch : Fin 64) (s : Fin 3136) : EReal := inX2 m c (ix3 b ch s)

/-- Position `s = p · 56 + q` of the reshaped input is pixel `(p, q)` of the input. -/
theorem X3_eq (b : Fin 128) (ch : Fin 64) (p q : Fin 56) (s : Fin 3136) (hs : s.val = p.val * 56 + q.val) :
    X3 m c b ch s = xin m c (ix4 b ch p q) :=
  Cert.Lib.Reshape.merge_apply (xin m c) shapeCasts_S128x64x56x56_S128x64x3136 (by norm_num) b ch p q s hs

/-- The reference's flat sample `k` of channel `ch` is the reshaped input at batch row `k / 3136`, position `k % 3136`. -/
theorem X3_flat (ch : Fin 64) (k : Fin 401408) : X3 m c (kb k) ch (ks k) = Cert.ReferenceIdeal.Hand.xT (xin m c) (ix2 ch k) := by
  rw [Cert.ReferenceIdeal.Hand.xT_apply_flat]
  exact X3_eq m c _ ch ⟨k.val % 3136 / 56, by omega⟩ ⟨k.val % 56, by omega⟩ _
    (by show k.val % 3136 = k.val % 3136 / 56 * 56 + k.val % 56; omega)

/-- Every sample is a real number when every input entry is. -/
theorem X3_real (hx : ∀ i, ∃ r : ℝ, xin m c i = (r : EReal)) (b : Fin 128) (ch : Fin 64) (s : Fin 3136) :
    ∃ r : ℝ, X3 m c b ch s = (r : EReal) := by
  rw [X3_eq m c b ch ⟨s.val / 56, by have := s.isLt; omega⟩ ⟨s.val % 56, Nat.mod_lt _ (by norm_num)⟩ s
    (by show s.val = s.val / 56 * 56 + s.val % 56; omega)]
  exact hx _

/-- The accumulated channel sums and second moments, over the reshaped input. -/
theorem Sx_apply (ch : Fin 64) : ((stSx m ρ c : FVec Ideal S64x1 .f32) (ix2 ch 0) : EReal) = ∑ b, ∑ s, X3 m c b ch s := by
  rw [show ((stSx m ρ c : FVec Ideal S64x1 .f32) (ix2 ch 0) : EReal) = _ from res1_apply (Va m ρ) c ch]
  refine Finset.sum_congr rfl fun b _ => Finset.sum_congr rfl fun s _ => ?_
  exact congrFun (Wa_v0 m ρ c) (ix3 b ch s)
theorem Sxx_apply (ch ch' : Fin 64) : ((stSxx m ρ c : FVec Ideal S64x64 .f32) (ix2 ch ch') : EReal) = ∑ b, ∑ s, X3 m c b ch s * X3 m c b ch' s := by
  rw [show ((stSxx m ρ c : FVec Ideal S64x64 .f32) (ix2 ch ch') : EReal) = _ from res2_apply (Va m ρ) c ch ch']
  refine Finset.sum_congr rfl fun b _ => Finset.sum_congr rfl fun s _ => ?_
  exact congrArg₂ (· * ·) (congrFun (Wa_v0 m ρ c) (ix3 b ch s)) (congrFun (Wa_v0 m ρ c) (ix3 b ch' s))

/-- THE MEANS AGREE: the kernel's mean of a channel, from its accumulated sum, is the reference's mean over the flat axis. -/
theorem mean_eq (ch : Fin 64) : meanK (stSx m ρ c) (ix2 ch 0) = Cert.ReferenceIdeal.Hand.mean (xin m c) (ix2 ch (0 : Fin 1)) := by
  rw [meanK_apply, Sx_apply, Cert.ReferenceIdeal.Hand.mean_apply, total_flat (fun b s => X3 m c b ch s)]
  simp only [X3_flat]

/-- ε times an entry of the identity matrix is a real number. -/
theorem eps_eye_real (ch ch' : Fin 64) :
    ∃ r : ℝ, Ideal.ofBits .f32 0x3727C5AC#32 * (eye (F := Ideal) (ix2 ch ch') : EReal) = (r : EReal) :=
  exists_real_mul Cert.Lib.Const.ofBits_3727C5AC_real (eye_real ch ch')

/-- THE COVARIANCES AGREE on real inputs. -/
theorem sigma_eq (hx : ∀ i, ∃ r : ℝ, xin m c i = (r : EReal)) :
    sigmaK (stSx m ρ c) (stSxx m ρ c) = Cert.ReferenceIdeal.Hand.sigma (xin m c) := by
  funext i
  obtain ⟨ch, ch', rfl⟩ : ∃ (ch ch' : Fin 64), i = ix2 ch ch' := ⟨i 0, i 1, eq_ix2 i⟩
  rw [sigmaK_apply, Cert.ReferenceIdeal.Hand.sigma_apply, Sxx_apply, meanK_apply, meanK_apply, Sx_apply, Sx_apply]
  rw [cov_flat (fun b s => X3 m c b ch s) (fun b s => X3 m c b ch' s) (fun b s => X3_real m c hx b ch s)
    (fun b s => X3_real m c hx b ch' s) _ (eps_eye_real ch ch')]
  simp only [Cert.ReferenceIdeal.Hand.xc_apply, Cert.ReferenceIdeal.Hand.mean_apply, X3_flat]
  rfl

/-- THE RESULTS AGREE on real inputs. -/
theorem result_eq (hx : ∀ i, ∃ r : ℝ, xin m c i = (r : EReal)) :
    Wg m ρ c (Proc.devRef .tc main_v112) = Cert.ReferenceIdeal.Hand.out (xin m c) (bin m c) := by
  rw [kernel_result]
  funext i
  obtain ⟨n, ch, p, q, rfl⟩ : ∃ (n : Fin 128) (ch : Fin 64) (p q : Fin 56), i = ix4 n ch p q :=
    ⟨i 0, i 1, i 2, i 3, eq_ix4 i⟩
  have hs : p.val * 56 + q.val < 3136 := by have := p.isLt; have := q.isLt; omega
  have hk : (n.val * 56 + p.val) * 56 + q.val < 401408 := by have := n.isLt; have := p.isLt; have := q.isLt; omega
  rw [Cert.Lib.Reshape.split_apply _ shapeCasts_S128x64x3136_S128x64x56x56 (by norm_num) n ch p q ⟨p.val * 56 + q.val, hs⟩ rfl,
    applyArr_apply, Cert.ReferenceIdeal.Hand.out_apply (xin m c) (bin m c) n ch p q ⟨(n.val * 56 + p.val) * 56 + q.val, hk⟩ rfl,
    sigma_eq m ρ c hx, tail_eq_ref]
  refine congrArg₂ (· + ·) ?_ ?_
  · refine Finset.sum_congr rfl fun c' _ => ?_
    rw [Cert.ReferenceIdeal.Hand.xc_apply, ← mean_eq m ρ c c', Cert.ReferenceIdeal.Hand.xT_apply (xin m c) c' _ n p q rfl]
    exact congrArg (fun y => _ * (y - _)) (X3_eq m c n c' p q ⟨p.val * 56 + q.val, hs⟩ rfl)
  · exact shapeCast_a_a1_apply _ _ ch 0

end Cert.Proof.Bridge

end
-- ==== Proof.lean ====
/-
  The certificate's five claims. The two kernel programs' frames come from one run of @main as a list of segments
  (a reshape, the accumulation region, the host operations forming the whitening matrix, the apply region, a reshape),
  proved once for every float instance; the reference's frame from its run read back; the idealization changes
  nothing; the two idealized programs compute the same array because the kernel's covariance, formed from the raw
  second moments and the mean, equals the reference's centred covariance on finite inputs, and everything after it is
  the same function on both sides.
-/
import proofs.«141837_j49177375539587_2_alg».proof.Defs
import proofs.«141837_j49177375539587_2_alg».proof.Proof.Gen.Kernel
import proofs.«141837_j49177375539587_2_alg».proof.Proof.Gen.KernelIdeal
import proofs.«141837_j49177375539587_2_alg».proof.Proof.Gen.ReferenceIdeal
import proofs.«141837_j49177375539587_2_alg».proof.Proof.Gen.Pre_finite_inputs
import proofs.«141837_j49177375539587_2_alg».proof.Proof.K.Launch
import proofs.«141837_j49177375539587_2_alg».proof.Proof.KI.Launch
import proofs.«141837_j49177375539587_2_alg».proof.Proof.RefRun
import proofs.«141837_j49177375539587_2_alg».proof.Proof.Bridge

noncomputable section

namespace Cert.Proof

open Idealize.ShloMosaic Idealize.ShloMosaic.TcCoe Idealize.SL.Sem

/-- The word-level kernel program runs to the end, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ
/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ
/-- So does the idealized reference. -/
theorem frame_ri : Cert.frame_ReferenceIdeal (hReferenceIdeal := Cert.ReferenceIdeal.Gen.facts) (hPre_finite_inputs := Cert.Pre_finite_inputs.Gen.facts) :=
  fun m ρ _ => Cert.ReferenceIdeal.Hand.frame (F := Ideal) m ρ

/-- On finite inputs the idealized kernel program and the idealized reference end with equal results: the kernel's
    result is a closed term of its arguments (its run), the reference's likewise (its run), and the two terms are one
    function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.Wg m ρ c (Proc.devRef .tc Cert.KernelIdeal.main_v112), ?_, ?_⟩
  · exact (θ_run Cert.KernelIdeal.defs _ _).mono (fun r h c =>
      ⟨h c _ (Cert.KernelIdeal.Hand.mem_uc Cert.KernelIdeal.main_v112 (by decide)),
       (h c _ (Cert.KernelIdeal.Hand.mem_uc Cert.KernelIdeal.main_arg0 (by decide))).trans (Cert.KernelIdeal.Hand.Wg_main_arg0 m ρ c),
       (h c _ (Cert.KernelIdeal.Hand.mem_uc Cert.KernelIdeal.main_arg1 (by decide))).trans (Cert.KernelIdeal.Hand.Wg_main_arg1 m ρ c)⟩)
      (Cert.KernelIdeal.Hand.run_main (F := Ideal) m ρ)
  · refine (θ_run Cert.ReferenceIdeal.defs _ _).mono (fun r h c => ⟨(h c).1.trans ?_, (h c).2.1, (h c).2.2⟩)
      (Cert.ReferenceIdeal.Hand.run (F := Ideal) m' ρ')
    rw [(hagree c).1, (hagree c).2]
    exact (Cert.Proof.Bridge.result_eq m ρ c (Cert.Proof.Finite.finite_arg0 m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
